-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v192)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v192) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S30000x128 : Shape := ⟨2, ![30000, 128]⟩
abbrev S500000 : Shape := ⟨1, ![500000]⟩
abbrev S400000 : Shape := ⟨1, ![400000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S30000x128 : S_.BroadcastsInDim S30000x128 (![] : Fin 0 → Fin S30000x128.rank)
  reducesTo_S30000x128_S_d0_1 : S30000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S128 .f32) (main_arg18 : FVec F S128x128 .f32) (main_arg19 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg18
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg17 main_arg18 main_arg19 main_v48 main_v49 main_v50

def fn_part1 {F : FTy → Type} [FloatOps F] (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S50000x128 .f32) (main_arg1 : FVec F S30000x128 .f32) (main_arg2 : IVec S500000 32) (main_arg3 : IVec S500000 32) (main_arg4 : IVec S400000 32) (main_arg5 : IVec S400000 32) (main_arg6 : IVec S400000 32) (main_arg7 : IVec S400000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S30000x128 .f32 := Host.absf main_arg1
  let main_cst_0 : FVec F S_ .f32 := constant S_ .f32 0x7F800000#32
  let main_v5 : FVec F S30000x128 .f32 := broadcastInDim S30000x128 ![] bcast_S_S30000x128 main_cst_0
  let main_v6 : IVec S30000x128 1 := cmpf .olt main_v4 main_v5
  let main_c_1 : IVec S_ 1 := constantI S_ 1 1#1
  let main_v7 : IVec S_ 1 := (fun x v => Host.reduce IntOp.andi x v reducesTo_S30000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_v13 main_v16
-- ==== Kernel.lean ====
abbrev S50000x128 : Shape := ⟨2, ![50000, 128]⟩
abbrev S30000x128 : Shape := ⟨2, ![30000, 128]⟩
abbrev S500000 : Shape := ⟨1, ![500000]⟩
abbrev S400000 : Shape := ⟨1, ![400000]⟩
abbrev S128x128 : Shape := ⟨2, ![128, 128]⟩
abbrev S128 : Shape := ⟨1, ![128]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S2000x128 : Shape := ⟨2, ![2000, 128]⟩
abbrev S2000x1 : Shape := ⟨2, ![2000, 1]⟩
abbrev S500000x128 : Shape := ⟨2, ![500000, 128]⟩
abbrev S1x128 : Shape := ⟨2, ![1, 128]⟩
abbrev S30000 : Shape := ⟨1, ![30000]⟩
abbrev S400000x1 : Shape := ⟨2, ![400000, 1]⟩
abbrev S30000x1 : Shape := ⟨2, ![30000, 1]⟩
abbrev S400000x128 : Shape := ⟨2, ![400000, 128]⟩

abbrev nBuf : Space → Nat
  | .hbm => 273
  | .vmem => 86
  | .smem => 0
  | _ => 0

abbrev hbmTy0_0 (i : Nat) : BufTy := match i % 128 with
  | 0 => ⟨S50000x128, .f32⟩
  | 1 => ⟨S30000x128, .f32⟩
  | 2 => ⟨S500000, .i32⟩
  | 3 => ⟨S500000, .i32⟩
  | 4 => ⟨S400000, .i32⟩
  | 5 => ⟨S400000, .i32⟩
  | 6 => ⟨S400000, .i32⟩
  | 7 => ⟨S400000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S_, .f32⟩
  | 21 => ⟨S500000, .f32⟩
  | 22 => ⟨S_, .f32⟩
  | 23 => ⟨S50000, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S50000, .f32⟩
  | 33 => ⟨S_, .f32⟩
  | 34 => ⟨S50000, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S50000, .f32⟩
  | 44 => ⟨S_, .f32⟩
  | 45 => ⟨S50000, .f32⟩
  | 46 => ⟨S50000, .f32⟩
  | 47 => ⟨S50000, .f32⟩
  | 48 => ⟨S50000x1, .f32⟩
  | 49 => ⟨S_, .f32⟩
  | 50 => ⟨S50000, .f32⟩
  | 51 => ⟨S50000, .f32⟩
  | 52 => ⟨S50000, .f32⟩
  | 53 => ⟨S50000x1, .f32⟩
  | 54 => ⟨S50000x128, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S_, .f32⟩
  | 65 => ⟨S50000x128, .f32⟩
  | 66 => ⟨S500000x1, .i32⟩
  | 67 => ⟨S50000x128, .f32⟩
  | 68 => ⟨S1x128, .f32⟩
  | 69 => ⟨S50000x128, .f32⟩
  | 70 => ⟨S_, .f32⟩
  | 71 => ⟨S400000, .f32⟩
  | 72 => ⟨S_, .f32⟩
  | 73 => ⟨S30000, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S30000, .f32⟩
  | 83 => ⟨S_, .f32⟩
  | 84 => ⟨S50000, .f32⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S50000, .f32⟩
  | 94 => ⟨S_, .f32⟩
  | 95 => ⟨S30000, .f32⟩
  | 96 => ⟨S30000, .f32⟩
  | 97 => ⟨S30000, .f32⟩
  | 98 => ⟨S30000x1, .f32⟩
  | 99 => ⟨S_, .f32⟩
  | 100 => ⟨S50000, .f32⟩
  | 101 => ⟨S50000, .f32⟩
  | 102 => ⟨S50000, .f32⟩
  | 103 => ⟨S50000x1, .f32⟩
  | 104 => ⟨S30000x128, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S400000x128, .f32⟩
  | 114 => ⟨S_, .f32⟩
  | 115 => ⟨S50000x128, .f32⟩
  | 116 => ⟨S400000x1, .i32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S400000, .f32⟩
  | 123 => ⟨S_, .f32⟩
  | 124 => ⟨S50000, .f32⟩
  | 125 => ⟨S_, .i32⟩
  | 126 => ⟨S400000, .i32⟩
  | 127 => ⟨S400000, .i1⟩
  | _ => ⟨S50000x128, .f32⟩

abbrev hbmTy0_1 (i : Nat) : BufTy := match i % 128 with
  | 0 => ⟨S_, .i32⟩
  | 1 => ⟨S400000, .i32⟩
  | 2 => ⟨S400000, .i32⟩
  | 3 => ⟨S400000, .i32⟩
  | 4 => ⟨S400000x1, .i32⟩
  | 5 => ⟨S50000, .f32⟩
  | 6 => ⟨S_, .f32⟩
  | 7 => ⟨S30000, .f32⟩
  | 8 => ⟨S_, .i32⟩
  | 9 => ⟨S400000, .i32⟩
  | 10 => ⟨S400000, .i1⟩
  | 11 => ⟨S_, .i32⟩
  | 12 => ⟨S400000, .i32⟩
  | 13 => ⟨S400000, .i32⟩
  | 14 => ⟨S400000, .i32⟩
  | 15 => ⟨S400000x1, .i32⟩
  | 16 => ⟨S30000, .f32⟩
  | 17 => ⟨S_, .f32⟩
  | 18 => ⟨S50000, .f32⟩
  | 19 => ⟨S50000, .f32⟩
  | 20 => ⟨S50000, .f32⟩
  | 21 => ⟨S50000x1, .f32⟩
  | 22 => ⟨S_, .f32⟩
  | 23 => ⟨S30000, .f32⟩
  | 24 => ⟨S30000, .f32⟩
  | 25 => ⟨S30000, .f32⟩
  | 26 => ⟨S30000x1, .f32⟩
  | 27 => ⟨S50000x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S_, .f32⟩
  | 38 => ⟨S30000x128, .f32⟩
  | 39 => ⟨S400000x1, .i32⟩
  | 40 => ⟨S30000x128, .f32⟩
  | 41 => ⟨S1x128, .f32⟩
  | 42 => ⟨S30000x128, .f32⟩
  | 43 => ⟨S30000x128, .f32⟩
  | 44 => ⟨S_, .f32⟩
  | 45 => ⟨S500000, .f32⟩
  | 46 => ⟨S_, .f32⟩
  | 47 => ⟨S50000, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S50000, .f32⟩
  | 57 => ⟨S_, .f32⟩
  | 58 => ⟨S50000, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S50000, .f32⟩
  | 68 => ⟨S_, .f32⟩
  | 69 => ⟨S50000, .f32⟩
  | 70 => ⟨S50000, .f32⟩
  | 71 => ⟨S50000, .f32⟩
  | 72 => ⟨S50000x1, .f32⟩
  | 73 => ⟨S_, .f32⟩
  | 74 => ⟨S50000, .f32⟩
  | 75 => ⟨S50000, .f32⟩
  | 76 => ⟨S50000, .f32⟩
  | 77 => ⟨S50000x1, .f32⟩
  | 78 => ⟨S50000x128, .f32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x128, .f32⟩
  | 88 => ⟨S_, .f32⟩
  | 89 => ⟨S50000x128, .f32⟩
  | 90 => ⟨S500000x1, .i32⟩
  | 91 => ⟨S50000x128, .f32⟩
  | 92 => ⟨S1x128, .f32⟩
  | 93 => ⟨S50000x128, .f32⟩
  | 94 => ⟨S_, .f32⟩
  | 95 => ⟨S400000, .f32⟩
  | 96 => ⟨S_, .f32⟩
  | 97 => ⟨S30000, .f32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S30000, .f32⟩
  | 107 => ⟨S_, .f32⟩
  | 108 => ⟨S50000, .f32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S50000, .f32⟩
  | 118 => ⟨S_, .f32⟩
  | 119 => ⟨S30000, .f32⟩
  | 120 => ⟨S30000, .f32⟩
  | 121 => ⟨S30000, .f32⟩
  | 122 => ⟨S30000x1, .f32⟩
  | 123 => ⟨S_, .f32⟩
  | 124 => ⟨S50000, .f32⟩
  | 125 => ⟨S50000, .f32⟩
  | 126 => ⟨S50000, .f32⟩
  | 127 => ⟨S50000x1, .f32⟩
  | _ => ⟨S50000x128, .f32⟩

abbrev hbmTy0_2 (i : Nat) : BufTy := match i % 128 with
  | 0 => ⟨S30000x128, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x128, .f32⟩
  | 10 => ⟨S_, .f32⟩
  | 11 => ⟨S50000x128, .f32⟩
  | 12 => ⟨S400000x1, .i32⟩
  | 13 => ⟨S50000x128, .f32⟩
  | 14 => ⟨S1x128, .f32⟩
  | 15 => ⟨S50000x128, .f32⟩
  | 16 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x1, .f32⟩
  | .local _ .vmem, ⟨37, _⟩ => ⟨S2000x1, .f32⟩
  | .local _ .vmem, ⟨38, _⟩ => ⟨S128x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x1, .f32⟩
  | .local _ .vmem, ⟨44, _⟩ => ⟨S2000x1, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x1, .f32⟩
  | .local _ .vmem, ⟨55, _⟩ => ⟨S2000x1, .f32⟩
  | .local _ .vmem, ⟨56, _⟩ => ⟨S128x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x1, .f32⟩
  | .local _ .vmem, ⟨62, _⟩ => ⟨S2000x1, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x1, .f32⟩
  | .local _ .vmem, ⟨69, _⟩ => ⟨S2000x1, .f32⟩
  | .local _ .vmem, ⟨70, _⟩ => ⟨S128x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x1, .f32⟩
  | .local _ .vmem, ⟨76, _⟩ => ⟨S2000x1, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_c_1 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_2 : Ref sig .tc := ⟨.hbm, 33, rfl⟩
abbrev main_v9 : Ref sig .tc := ⟨.hbm, 34, rfl⟩
abbrev main_c_3 : Ref sig .tc := ⟨.hbm, 35, rfl⟩
abbrev main_v10 : Ref sig .tc := ⟨.hbm, 36, rfl⟩
abbrev main_v11 : Ref sig .tc := ⟨.hbm, 37, rfl⟩
abbrev main_c_4 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_5 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_6 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_7 : Ref sig .tc := ⟨.hbm, 55, rfl⟩
abbrev main_v26 : Ref sig .tc := ⟨.hbm, 56, rfl⟩
abbrev main_v27 : Ref sig .tc := ⟨.hbm, 57, rfl⟩
abbrev main_c_8 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_9 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_10 : Ref sig .tc := ⟨.hbm, 70, rfl⟩
abbrev main_v38 : Ref sig .tc := ⟨.hbm, 71, rfl⟩
abbrev main_cst_11 : Ref sig .tc := ⟨.hbm, 72, rfl⟩
abbrev main_v39 : Ref sig .tc := ⟨.hbm, 73, rfl⟩
abbrev main_c_12 : Ref sig .tc := ⟨.hbm, 74, rfl⟩
abbrev main_v40 : Ref sig .tc := ⟨.hbm, 75, rfl⟩
abbrev main_v41 : Ref sig .tc := ⟨.hbm, 76, rfl⟩
abbrev main_c_13 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_14 : Ref sig .tc := ⟨.hbm, 83, rfl⟩
abbrev main_v47 : Ref sig .tc := ⟨.hbm, 84, rfl⟩
abbrev main_c_15 : Ref sig .tc := ⟨.hbm, 85, rfl⟩
abbrev main_v48 : Ref sig .tc := ⟨.hbm, 86, rfl⟩
abbrev main_v49 : Ref sig .tc := ⟨.hbm, 87, rfl⟩
abbrev main_c_16 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_17 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_18 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_19 : Ref sig .tc := ⟨.hbm, 105, rfl⟩
abbrev main_v64 : Ref sig .tc := ⟨.hbm, 106, rfl⟩
abbrev main_v65 : Ref sig .tc := ⟨.hbm, 107, rfl⟩
abbrev main_c_20 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_21 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_22 : Ref sig .tc := ⟨.hbm, 121, rfl⟩
abbrev main_v77 : Ref sig .tc := ⟨.hbm, 122, rfl⟩
abbrev main_cst_23 : Ref sig .tc := ⟨.hbm, 123, rfl⟩
abbrev main_v78 : Ref sig .tc := ⟨.hbm, 124, rfl⟩
abbrev main_c_24 : Ref sig .tc := ⟨.hbm, 125, rfl⟩
abbrev main_v79 : Ref sig .tc := ⟨.hbm, 126, rfl⟩
abbrev main_v80 : Ref sig .tc := ⟨.hbm, 127, rfl⟩
abbrev main_c_25 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_26 : Ref sig .tc := ⟨.hbm, 134, rfl⟩
abbrev main_v86 : Ref sig .tc := ⟨.hbm, 135, rfl⟩
abbrev main_c_27 : Ref sig .tc := ⟨.hbm, 136, rfl⟩
abbrev main_v87 : Ref sig .tc := ⟨.hbm, 137, rfl⟩
abbrev main_v88 : Ref sig .tc := ⟨.hbm, 138, rfl⟩
abbrev main_c_28 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_29 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_30 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_c_31 : Ref sig .tc := ⟨.hbm, 156, rfl⟩
abbrev main_v103 : Ref sig .tc := ⟨.hbm, 157, rfl⟩
abbrev main_v104 : Ref sig .tc := ⟨.hbm, 158, rfl⟩
abbrev main_c_32 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_33 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_34 : Ref sig .tc := ⟨.hbm, 172, rfl⟩
abbrev main_v116 : Ref sig .tc := ⟨.hbm, 173, rfl⟩
abbrev main_cst_35 : Ref sig .tc := ⟨.hbm, 174, rfl⟩
abbrev main_v117 : Ref sig .tc := ⟨.hbm, 175, rfl⟩
abbrev main_c_36 : Ref sig .tc := ⟨.hbm, 176, rfl⟩
abbrev main_v118 : Ref sig .tc := ⟨.hbm, 177, rfl⟩
abbrev main_v119 : Ref sig .tc := ⟨.hbm, 178, rfl⟩
abbrev main_c_37 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_cst_38 : Ref sig .tc := ⟨.hbm, 185, rfl⟩
abbrev main_v125 : Ref sig .tc := ⟨.hbm, 186, rfl⟩
abbrev main_c_39 : Ref sig .tc := ⟨.hbm, 187, rfl⟩
abbrev main_v126 : Ref sig .tc := ⟨.hbm, 188, rfl⟩
abbrev main_v127 : Ref sig .tc := ⟨.hbm, 189, rfl⟩
abbrev main_c_40 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_cst_41 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_cst_42 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_c_43 : Ref sig .tc := ⟨.hbm, 207, rfl⟩
abbrev main_v142 : Ref sig .tc := ⟨.hbm, 208, rfl⟩
abbrev main_v143 : Ref sig .tc := ⟨.hbm, 209, rfl⟩
abbrev main_c_44 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_cst_45 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_cst_46 : Ref sig .tc := ⟨.hbm, 222, rfl⟩
abbrev main_v154 : Ref sig .tc := ⟨.hbm, 223, rfl⟩
abbrev main_cst_47 : Ref sig .tc := ⟨.hbm, 224, rfl⟩
abbrev main_v155 : Ref sig .tc := ⟨.hbm, 225, rfl⟩
abbrev main_c_48 : Ref sig .tc := ⟨.hbm, 226, rfl⟩
abbrev main_v156 : Ref sig .tc := ⟨.hbm, 227, rfl⟩
abbrev main_v157 : Ref sig .tc := ⟨.hbm, 228, rfl⟩
abbrev main_c_49 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_50 : Ref sig .tc := ⟨.hbm, 235, rfl⟩
abbrev main_v163 : Ref sig .tc := ⟨.hbm, 236, rfl⟩
abbrev main_c_51 : Ref sig .tc := ⟨.hbm, 237, rfl⟩
abbrev main_v164 : Ref sig .tc := ⟨.hbm, 238, rfl⟩
abbrev main_v165 : Ref sig .tc := ⟨.hbm, 239, rfl⟩
abbrev main_c_52 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_cst_53 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_cst_54 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_c_55 : Ref sig .tc := ⟨.hbm, 257, rfl⟩
abbrev main_v180 : Ref sig .tc := ⟨.hbm, 258, rfl⟩
abbrev main_v181 : Ref sig .tc := ⟨.hbm, 259, rfl⟩
abbrev main_c_56 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_cst_57 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg3_0 : Ref sig .tc := ⟨.vmem, 57, rfl⟩
abbrev cc8_stg3_1 : Ref sig .tc := ⟨.vmem, 58, rfl⟩
abbrev cc9_stg0_0 : Ref sig .tc := ⟨.vmem, 59, rfl⟩
abbrev cc9_stg0_1 : Ref sig .tc := ⟨.vmem, 60, rfl⟩
abbrev cc9_stg1_0 : Ref sig .tc := ⟨.vmem, 61, rfl⟩
abbrev cc9_stg1_1 : Ref sig .tc := ⟨.vmem, 62, rfl⟩
abbrev cc9_stg2_0 : Ref sig .tc := ⟨.vmem, 63, rfl⟩
abbrev cc9_stg3_0 : Ref sig .tc := ⟨.vmem, 64, rfl⟩
abbrev cc9_stg3_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg1_1 : Ref sig .tc := ⟨.vmem, 69, rfl⟩
abbrev cc10_stg2_0 : Ref sig .tc := ⟨.vmem, 70, rfl⟩
abbrev cc10_stg3_0 : Ref sig .tc := ⟨.vmem, 71, rfl⟩
abbrev cc10_stg3_1 : Ref sig .tc := ⟨.vmem, 72, rfl⟩
abbrev cc11_stg0_0 : Ref sig .tc := ⟨.vmem, 73, rfl⟩
abbrev cc11_stg0_1 : Ref sig .tc := ⟨.vmem, 74, rfl⟩
abbrev cc11_stg1_0 : Ref sig .tc := ⟨.vmem, 75, rfl⟩
abbrev cc11_stg1_1 : Ref sig .tc := ⟨.vmem, 76, rfl⟩
abbrev cc11_stg2_0 : Ref sig .tc := ⟨.vmem, 77, rfl⟩
abbrev cc11_stg3_0 : Ref sig .tc := ⟨.vmem, 78, rfl⟩
abbrev cc11_stg3_1 : Ref sig .tc := ⟨.vmem, 79, rfl⟩
abbrev cc12_stg0_0 : Ref sig .tc := ⟨.vmem, 80, rfl⟩
abbrev cc12_stg0_1 : Ref sig .tc := ⟨.vmem, 81, rfl⟩
abbrev cc12_stg1_0 : Ref sig .tc := ⟨.vmem, 82, rfl⟩
abbrev cc12_stg1_1 : Ref sig .tc := ⟨.vmem, 83, rfl⟩
abbrev cc12_stg2_0 : Ref sig .tc := ⟨.vmem, 84, rfl⟩
abbrev cc12_stg2_1 : Ref sig .tc := ⟨.vmem, 85, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem3_0 : DmaSem sig := 57
abbrev cc8_sem3_1 : DmaSem sig := 58
abbrev cc9_sem0_0 : DmaSem sig := 59
abbrev cc9_sem0_1 : DmaSem sig := 60
abbrev cc9_sem1_0 : DmaSem sig := 61
abbrev cc9_sem1_1 : DmaSem sig := 62
abbrev cc9_sem2_0 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem1_1 : DmaSem sig := 69
abbrev cc10_sem2_0 : DmaSem sig := 70
abbrev cc10_sem3_0 : DmaSem sig := 71
abbrev cc10_sem3_1 : DmaSem sig := 72
abbrev cc11_sem0_0 : DmaSem sig := 73
abbrev cc11_sem0_1 : DmaSem sig := 74
abbrev cc11_sem1_0 : DmaSem sig := 75
abbrev cc11_sem1_1 : DmaSem sig := 76
abbrev cc11_sem2_0 : DmaSem sig := 77
abbrev cc11_sem3_0 : DmaSem sig := 78
abbrev cc11_sem3_1 : DmaSem sig := 79
abbrev cc12_sem0_0 : DmaSem sig := 80
abbrev cc12_sem0_1 : DmaSem sig := 81
abbrev cc12_sem1_0 : DmaSem sig := 82
abbrev cc12_sem1_1 : DmaSem sig := 83
abbrev cc12_sem2_0 : DmaSem sig := 84
abbrev cc12_sem2_1 : DmaSem sig := 85

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![15], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![15], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![15], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S2000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S400000 : S_.BroadcastsInDim S400000 (![] : Fin 0 → Fin S400000.rank)
  bcast_S_S30000 : S_.BroadcastsInDim S30000 (![] : Fin 0 → Fin S30000.rank)
  bcast_S400000_S400000x1_0 : S400000.BroadcastsInDim S400000x1 (![0] : Fin 1 → Fin S400000x1.rank)
  shapeCasts_S30000_S30000x1 : S30000.ShapeCasts S30000x1
  bcast_S_S30000x128 : S_.BroadcastsInDim S30000x128 (![] : Fin 0 → Fin S30000x128.rank)
  scatter_S50000_S500000x1_S500000_n_0_0_1_wf : ScatterDims.WF S50000 S500000x1 S500000 [] [0] [0] 1
  dot_S2000x128_S128x128_S2000x128_1_0_0_1_n_n_wf : DotDims.WF S2000x128 S128x128 S2000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S30000_S400000x1_S400000_n_0_0_1_wf : ScatterDims.WF S30000 S400000x1 S400000 [] [0] [0] 1
  scatter_S50000_S400000x1_S400000_n_0_0_1_wf : ScatterDims.WF S50000 S400000x1 S400000 [] [0] [0] 1
  gather_S30000x128_S400000x1_S400000x128_1_0_n_n_0_1_1128_wf : GatherDims.WF S30000x128 S400000x1 S400000x128 [1] [0] [] [0] [] 1 ![1, 128]
  scatter_S50000x128_S400000x1_S400000x128_1_0_0_1_wf : ScatterDims.WF S50000x128 S400000x1 S400000x128 [1] [0] [0] 1
  gather_S50000x128_S400000x1_S400000x128_1_0_n_n_0_1_1128_wf : GatherDims.WF S50000x128 S400000x1 S400000x128 [1] [0] [] [0] [] 1 ![1, 128]
  scatter_S30000x128_S400000x1_S400000x128_1_0_0_1_wf : ScatterDims.WF S30000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S30000x128.size a
  hwx2_0 : ∀ i : grid2.Coords, EltTy.bits .f32 = 32 ∨ (Rect.block (s := S30000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S30000x1.size a
  hwx2_1 : ∀ i : grid2.Coords, EltTy.bits .f32 = 32 ∨ (Rect.block (s := S30000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S30000x128.size a
  hwx2_3 : ∀ i : grid2.Coords, EltTy.bits .f32 = 32 ∨ (Rect.block (s := S30000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S30000x128.size a
  hwx6_0 : ∀ i : grid6.Coords, EltTy.bits .f32 = 32 ∨ (Rect.block (s := S30000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S30000x1.size a
  hwx6_1 : ∀ i : grid6.Coords, EltTy.bits .f32 = 32 ∨ (Rect.block (s := S30000x1) S2000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S30000x128.size a
  hwx6_3 : ∀ i : grid6.Coords, EltTy.bits .f32 = 32 ∨ (Rect.block (s := S30000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S30000x128.size a
  hwx7_0 : ∀ i : grid7.Coords, EltTy.bits .f32 = 32 ∨ (Rect.block (s := S30000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S30000x128.size a
  hwx7_1 : ∀ i : grid7.Coords, EltTy.bits .f32 = 32 ∨ (Rect.block (s := S30000x128) S2000x128.size (cc7_transform_1 i) (hinb7_1 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S50000x1.size a
  hwx8_1 : ∀ i : grid8.Coords, EltTy.bits .f32 = 32 ∨ (Rect.block (s := S50000x1) S2000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S50000x128.size a
  hwx8_3 : ∀ i : grid8.Coords, EltTy.bits .f32 = 32 ∨ (Rect.block (s := S50000x128) S2000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x1.size a ≤ S50000x1.size a
  hwx9_1 : ∀ i : grid9.Coords, EltTy.bits .f32 = 32 ∨ (Rect.block (s := S50000x1) S2000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x128.size a ≤ S50000x128.size a
  hwx9_3 : ∀ i : grid9.Coords, EltTy.bits .f32 = 32 ∨ (Rect.block (s := S50000x128) S2000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S30000x128.size a
  hwx10_0 : ∀ i : grid10.Coords, EltTy.bits .f32 = 32 ∨ (Rect.block (s := S30000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S30000x1.size a
  hwx10_1 : ∀ i : grid10.Coords, EltTy.bits .f32 = 32 ∨ (Rect.block (s := S30000x1) S2000x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S30000x128.size a
  hwx10_3 : ∀ i : grid10.Coords, EltTy.bits .f32 = 32 ∨ (Rect.block (s := S30000x128) S2000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x1.size a ≤ S50000x1.size a
  hwx11_1 : ∀ i : grid11.Coords, EltTy.bits .f32 = 32 ∨ (Rect.block (s := S50000x1) S2000x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x128.size a ≤ S50000x128.size a
  hwx11_3 : ∀ i : grid11.Coords, EltTy.bits .f32 = 32 ∨ (Rect.block (s := S50000x128) S2000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x128.size a ≤ S50000x128.size a
  hwx12_1 : ∀ i : grid12.Coords, EltTy.bits .f32 = 32 ∨ (Rect.block (s := S50000x128) S2000x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x128.size a ≤ S50000x128.size a
  hwx12_2 : ∀ i : grid12.Coords, EltTy.bits .f32 = 32 ∨ (Rect.block (s := S50000x128) S2000x128.size (cc12_transform_2 i) (hinb12_2 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S30000_S400000x1_S400000_n_0_0_1 : ScatterDims S30000 S400000x1 S400000 where
  updateWindowDims := []
  insertedWindowDims := [0]
  scatterDimsToOperandDims := [0]
  indexVectorDim := 1
  wf := scatter_S30000_S400000x1_S400000_n_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S30000x128_S400000x1_S400000x128_1_0_n_n_0_1_1128 : GatherDims S30000x128 S400000x1 S400000x128 where
  offsetDims := [1]
  collapsedSliceDims := [0]
  operandBatchingDims := []
  startIndicesBatchingDims := []
  startIndexMap := [0]
  indexVectorDim := 1
  sliceSizes := ![1, 128]
  wf := gather_S30000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S30000x128_S400000x1_S400000x128_1_0_0_1 : ScatterDims S30000x128 S400000x1 S400000x128 where
  updateWindowDims := [1]
  insertedWindowDims := [0]
  scatterDimsToOperandDims := [0]
  indexVectorDim := 1
  wf := scatter_S30000x128_S400000x1_S400000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v37) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v76) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v112) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v101) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v113) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v114) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v114) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v115) S2000x128.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

abbrev win8_0 : Pipeline.Window sig grid8 :=
  Pipeline.Window.ofSpec (Memref.whole main_v76) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v136) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg14) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v141) S2000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v151) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v140) S2000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v152) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v153) S2000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v115) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v174) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg18) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v179) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v189) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v178) S2000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v190) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v191) S2000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v153) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v191) S2000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v192) S2000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

class Facts : Prop extends Facts₀ where

variable [Facts]
-- ==== ReferenceIdeal.lean ====
abbrev S50000x128 : Shape := ⟨2, ![50000, 128]⟩
abbrev S30000x128 : Shape := ⟨2, ![30000, 128]⟩
abbrev S500000 : Shape := ⟨1, ![500000]⟩
abbrev S400000 : Shape := ⟨1, ![400000]⟩
abbrev S128x128 : Shape := ⟨2, ![128, 128]⟩
abbrev S128 : Shape := ⟨1, ![128]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S500000x128 : Shape := ⟨2, ![500000, 128]⟩
abbrev S1x128 : Shape := ⟨2, ![1, 128]⟩
abbrev S30000 : Shape := ⟨1, ![30000]⟩
abbrev S400000x1 : Shape := ⟨2, ![400000, 1]⟩
abbrev S30000x1 : Shape := ⟨2, ![30000, 1]⟩
abbrev S400000x128 : Shape := ⟨2, ![400000, 128]⟩

abbrev nBuf : Space → Nat
  | .hbm => 313
  | .vmem => 0
  | .smem => 0
  | _ => 0

abbrev hbmTy0_0 (i : Nat) : BufTy := match i % 128 with
  | 0 => ⟨S50000x128, .f32⟩
  | 1 => ⟨S30000x128, .f32⟩
  | 2 => ⟨S500000, .i32⟩
  | 3 => ⟨S500000, .i32⟩
  | 4 => ⟨S400000, .i32⟩
  | 5 => ⟨S400000, .i32⟩
  | 6 => ⟨S400000, .i32⟩
  | 7 => ⟨S400000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S_, .f32⟩
  | 21 => ⟨S500000, .f32⟩
  | 22 => ⟨S_, .f32⟩
  | 23 => ⟨S50000, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S50000, .f32⟩
  | 33 => ⟨S_, .f32⟩
  | 34 => ⟨S50000, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S50000, .f32⟩
  | 44 => ⟨S_, .f32⟩
  | 45 => ⟨S50000, .f32⟩
  | 46 => ⟨S50000, .f32⟩
  | 47 => ⟨S50000, .f32⟩
  | 48 => ⟨S_, .f32⟩
  | 49 => ⟨S50000, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S50000x128, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x128, .f32⟩
  | 65 => ⟨S_, .f32⟩
  | 66 => ⟨S50000x128, .f32⟩
  | 67 => ⟨S500000x1, .i32⟩
  | 68 => ⟨S50000x128, .f32⟩
  | 69 => ⟨S50000x1, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S400000, .f32⟩
  | 77 => ⟨S_, .f32⟩
  | 78 => ⟨S30000, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S30000, .f32⟩
  | 88 => ⟨S_, .f32⟩
  | 89 => ⟨S50000, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S50000, .f32⟩
  | 99 => ⟨S_, .f32⟩
  | 100 => ⟨S30000, .f32⟩
  | 101 => ⟨S30000, .f32⟩
  | 102 => ⟨S30000, .f32⟩
  | 103 => ⟨S_, .f32⟩
  | 104 => ⟨S50000, .f32⟩
  | 105 => ⟨S50000, .f32⟩
  | 106 => ⟨S50000, .f32⟩
  | 107 => ⟨S30000x1, .f32⟩
  | 108 => ⟨S30000x128, .f32⟩
  | 109 => ⟨S30000x128, .f32⟩
  | 110 => ⟨S30000x128, .f32⟩
  | 111 => ⟨S_, .i32⟩
  | 112 => ⟨S400000, .i32⟩
  | 113 => ⟨S400000, .i1⟩
  | 114 => ⟨S_, .i32⟩
  | 115 => ⟨S400000, .i32⟩
  | 116 => ⟨S400000, .i32⟩
  | 117 => ⟨S400000, .i32⟩
  | 118 => ⟨S400000x1, .i32⟩
  | 119 => ⟨S400000x128, .f32⟩
  | 120 => ⟨S_, .f32⟩
  | 121 => ⟨S50000x128, .f32⟩
  | 122 => ⟨S400000x1, .i32⟩
  | 123 => ⟨S50000x128, .f32⟩
  | 124 => ⟨S50000x1, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S400000, .f32⟩
  | 5 => ⟨S_, .f32⟩
  | 6 => ⟨S50000, .f32⟩
  | 7 => ⟨S_, .i32⟩
  | 8 => ⟨S400000, .i32⟩
  | 9 => ⟨S400000, .i1⟩
  | 10 => ⟨S_, .i32⟩
  | 11 => ⟨S400000, .i32⟩
  | 12 => ⟨S400000, .i32⟩
  | 13 => ⟨S400000, .i32⟩
  | 14 => ⟨S400000x1, .i32⟩
  | 15 => ⟨S50000, .f32⟩
  | 16 => ⟨S_, .f32⟩
  | 17 => ⟨S30000, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S30000, .f32⟩
  | 27 => ⟨S_, .f32⟩
  | 28 => ⟨S50000, .f32⟩
  | 29 => ⟨S50000, .f32⟩
  | 30 => ⟨S50000, .f32⟩
  | 31 => ⟨S_, .f32⟩
  | 32 => ⟨S30000, .f32⟩
  | 33 => ⟨S30000, .f32⟩
  | 34 => ⟨S30000, .f32⟩
  | 35 => ⟨S50000x1, .f32⟩
  | 36 => ⟨S50000x128, .f32⟩
  | 37 => ⟨S50000x128, .f32⟩
  | 38 => ⟨S50000x128, .f32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000x128, .f32⟩
  | 48 => ⟨S_, .f32⟩
  | 49 => ⟨S30000x128, .f32⟩
  | 50 => ⟨S400000x1, .i32⟩
  | 51 => ⟨S30000x128, .f32⟩
  | 52 => ⟨S30000x1, .f32⟩
  | 53 => ⟨S30000x128, .f32⟩
  | 54 => ⟨S30000x128, .f32⟩
  | 55 => ⟨S1x128, .f32⟩
  | 56 => ⟨S30000x128, .f32⟩
  | 57 => ⟨S30000x128, .f32⟩
  | 58 => ⟨S_, .f32⟩
  | 59 => ⟨S_, .f32⟩
  | 60 => ⟨S50000x128, .f32⟩
  | 61 => ⟨S50000x128, .i1⟩
  | 62 => ⟨S_, .f32⟩
  | 63 => ⟨S50000x128, .f32⟩
  | 64 => ⟨S50000x128, .f32⟩
  | 65 => ⟨S50000x128, .f32⟩
  | 66 => ⟨S_, .f32⟩
  | 67 => ⟨S_, .f32⟩
  | 68 => ⟨S30000x128, .f32⟩
  | 69 => ⟨S30000x128, .i1⟩
  | 70 => ⟨S_, .f32⟩
  | 71 => ⟨S30000x128, .f32⟩
  | 72 => ⟨S30000x128, .f32⟩
  | 73 => ⟨S30000x128, .f32⟩
  | 74 => ⟨S_, .f32⟩
  | 75 => ⟨S500000, .f32⟩
  | 76 => ⟨S_, .f32⟩
  | 77 => ⟨S50000, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S50000, .f32⟩
  | 87 => ⟨S_, .f32⟩
  | 88 => ⟨S50000, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S50000, .f32⟩
  | 98 => ⟨S_, .f32⟩
  | 99 => ⟨S50000, .f32⟩
  | 100 => ⟨S50000, .f32⟩
  | 101 => ⟨S50000, .f32⟩
  | 102 => ⟨S_, .f32⟩
  | 103 => ⟨S50000, .f32⟩
  | 104 => ⟨S50000, .f32⟩
  | 105 => ⟨S50000, .f32⟩
  | 106 => ⟨S50000x1, .f32⟩
  | 107 => ⟨S50000x128, .f32⟩
  | 108 => ⟨S50000x128, .f32⟩
  | 109 => ⟨S50000x128, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x128, .f32⟩
  | 119 => ⟨S_, .f32⟩
  | 120 => ⟨S50000x128, .f32⟩
  | 121 => ⟨S500000x1, .i32⟩
  | 122 => ⟨S50000x128, .f32⟩
  | 123 => ⟨S50000x1, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_2 (i : Nat) : BufTy := match i % 128 with
  | 0 => ⟨S50000x128, .f32⟩
  | 1 => ⟨S_, .f32⟩
  | 2 => ⟨S400000, .f32⟩
  | 3 => ⟨S_, .f32⟩
  | 4 => ⟨S30000, .f32⟩
  | 5 => ⟨S_, .i32⟩
  | 6 => ⟨S400000, .i32⟩
  | 7 => ⟨S400000, .i1⟩
  | 8 => ⟨S_, .i32⟩
  | 9 => ⟨S400000, .i32⟩
  | 10 => ⟨S400000, .i32⟩
  | 11 => ⟨S400000, .i32⟩
  | 12 => ⟨S400000x1, .i32⟩
  | 13 => ⟨S30000, .f32⟩
  | 14 => ⟨S_, .f32⟩
  | 15 => ⟨S50000, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S50000, .f32⟩
  | 25 => ⟨S_, .f32⟩
  | 26 => ⟨S30000, .f32⟩
  | 27 => ⟨S30000, .f32⟩
  | 28 => ⟨S30000, .f32⟩
  | 29 => ⟨S_, .f32⟩
  | 30 => ⟨S50000, .f32⟩
  | 31 => ⟨S50000, .f32⟩
  | 32 => ⟨S50000, .f32⟩
  | 33 => ⟨S30000x1, .f32⟩
  | 34 => ⟨S30000x128, .f32⟩
  | 35 => ⟨S30000x128, .f32⟩
  | 36 => ⟨S30000x128, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x128, .f32⟩
  | 46 => ⟨S_, .f32⟩
  | 47 => ⟨S50000x128, .f32⟩
  | 48 => ⟨S400000x1, .i32⟩
  | 49 => ⟨S50000x128, .f32⟩
  | 50 => ⟨S50000x1, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_c_1 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_2 : Ref sig .tc := ⟨.hbm, 33, rfl⟩
abbrev main_v9 : Ref sig .tc := ⟨.hbm, 34, rfl⟩
abbrev main_c_3 : Ref sig .tc := ⟨.hbm, 35, rfl⟩
abbrev main_v10 : Ref sig .tc := ⟨.hbm, 36, rfl⟩
abbrev main_v11 : Ref sig .tc := ⟨.hbm, 37, rfl⟩
abbrev main_c_4 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_5 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_6 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_7 : Ref sig .tc := ⟨.hbm, 56, rfl⟩
abbrev main_v27 : Ref sig .tc := ⟨.hbm, 57, rfl⟩
abbrev main_v28 : Ref sig .tc := ⟨.hbm, 58, rfl⟩
abbrev main_c_8 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_9 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_10 : Ref sig .tc := ⟨.hbm, 75, rfl⟩
abbrev main_v43 : Ref sig .tc := ⟨.hbm, 76, rfl⟩
abbrev main_cst_11 : Ref sig .tc := ⟨.hbm, 77, rfl⟩
abbrev main_v44 : Ref sig .tc := ⟨.hbm, 78, rfl⟩
abbrev main_c_12 : Ref sig .tc := ⟨.hbm, 79, rfl⟩
abbrev main_v45 : Ref sig .tc := ⟨.hbm, 80, rfl⟩
abbrev main_v46 : Ref sig .tc := ⟨.hbm, 81, rfl⟩
abbrev main_c_13 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_14 : Ref sig .tc := ⟨.hbm, 88, rfl⟩
abbrev main_v52 : Ref sig .tc := ⟨.hbm, 89, rfl⟩
abbrev main_c_15 : Ref sig .tc := ⟨.hbm, 90, rfl⟩
abbrev main_v53 : Ref sig .tc := ⟨.hbm, 91, rfl⟩
abbrev main_v54 : Ref sig .tc := ⟨.hbm, 92, rfl⟩
abbrev main_c_16 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_17 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_18 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_19 : Ref sig .tc := ⟨.hbm, 111, rfl⟩
abbrev main_v70 : Ref sig .tc := ⟨.hbm, 112, rfl⟩
abbrev main_v71 : Ref sig .tc := ⟨.hbm, 113, rfl⟩
abbrev main_c_20 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_21 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_22 : Ref sig .tc := ⟨.hbm, 131, rfl⟩
abbrev main_v87 : Ref sig .tc := ⟨.hbm, 132, rfl⟩
abbrev main_cst_23 : Ref sig .tc := ⟨.hbm, 133, rfl⟩
abbrev main_v88 : Ref sig .tc := ⟨.hbm, 134, rfl⟩
abbrev main_c_24 : Ref sig .tc := ⟨.hbm, 135, rfl⟩
abbrev main_v89 : Ref sig .tc := ⟨.hbm, 136, rfl⟩
abbrev main_v90 : Ref sig .tc := ⟨.hbm, 137, rfl⟩
abbrev main_c_25 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_26 : Ref sig .tc := ⟨.hbm, 144, rfl⟩
abbrev main_v96 : Ref sig .tc := ⟨.hbm, 145, rfl⟩
abbrev main_c_27 : Ref sig .tc := ⟨.hbm, 146, rfl⟩
abbrev main_v97 : Ref sig .tc := ⟨.hbm, 147, rfl⟩
abbrev main_v98 : Ref sig .tc := ⟨.hbm, 148, rfl⟩
abbrev main_c_28 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_29 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_30 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_c_31 : Ref sig .tc := ⟨.hbm, 167, rfl⟩
abbrev main_v114 : Ref sig .tc := ⟨.hbm, 168, rfl⟩
abbrev main_v115 : Ref sig .tc := ⟨.hbm, 169, rfl⟩
abbrev main_c_32 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_33 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_34 : Ref sig .tc := ⟨.hbm, 186, rfl⟩
abbrev main_call0_cst : Ref sig .tc := ⟨.hbm, 187, rfl⟩
abbrev main_call0_v0 : Ref sig .tc := ⟨.hbm, 188, rfl⟩
abbrev main_call0_v1 : Ref sig .tc := ⟨.hbm, 189, rfl⟩
abbrev main_call0_v2 : Ref sig .tc := ⟨.hbm, 190, rfl⟩
abbrev main_call0_v3 : Ref sig .tc := ⟨.hbm, 191, rfl⟩
abbrev main_call0_v4 : Ref sig .tc := ⟨.hbm, 192, rfl⟩
abbrev main_v130 : Ref sig .tc := ⟨.hbm, 193, rfl⟩
abbrev main_cst_35 : Ref sig .tc := ⟨.hbm, 194, rfl⟩
abbrev main_call1_cst : Ref sig .tc := ⟨.hbm, 195, rfl⟩
abbrev main_call1_v0 : Ref sig .tc := ⟨.hbm, 196, rfl⟩
abbrev main_call1_v1 : Ref sig .tc := ⟨.hbm, 197, rfl⟩
abbrev main_call1_v2 : Ref sig .tc := ⟨.hbm, 198, rfl⟩
abbrev main_call1_v3 : Ref sig .tc := ⟨.hbm, 199, rfl⟩
abbrev main_call1_v4 : Ref sig .tc := ⟨.hbm, 200, rfl⟩
abbrev main_v131 : Ref sig .tc := ⟨.hbm, 201, rfl⟩
abbrev main_cst_36 : Ref sig .tc := ⟨.hbm, 202, rfl⟩
abbrev main_v132 : Ref sig .tc := ⟨.hbm, 203, rfl⟩
abbrev main_cst_37 : Ref sig .tc := ⟨.hbm, 204, rfl⟩
abbrev main_v133 : Ref sig .tc := ⟨.hbm, 205, rfl⟩
abbrev main_c_38 : Ref sig .tc := ⟨.hbm, 206, rfl⟩
abbrev main_v134 : Ref sig .tc := ⟨.hbm, 207, rfl⟩
abbrev main_v135 : Ref sig .tc := ⟨.hbm, 208, rfl⟩
abbrev main_c_39 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_40 : Ref sig .tc := ⟨.hbm, 215, rfl⟩
abbrev main_v141 : Ref sig .tc := ⟨.hbm, 216, rfl⟩
abbrev main_c_41 : Ref sig .tc := ⟨.hbm, 217, rfl⟩
abbrev main_v142 : Ref sig .tc := ⟨.hbm, 218, rfl⟩
abbrev main_v143 : Ref sig .tc := ⟨.hbm, 219, rfl⟩
abbrev main_c_42 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_43 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_cst_44 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_c_45 : Ref sig .tc := ⟨.hbm, 238, rfl⟩
abbrev main_v159 : Ref sig .tc := ⟨.hbm, 239, rfl⟩
abbrev main_v160 : Ref sig .tc := ⟨.hbm, 240, rfl⟩
abbrev main_c_46 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_cst_47 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_cst_48 : Ref sig .tc := ⟨.hbm, 257, rfl⟩
abbrev main_v175 : Ref sig .tc := ⟨.hbm, 258, rfl⟩
abbrev main_cst_49 : Ref sig .tc := ⟨.hbm, 259, rfl⟩
abbrev main_v176 : Ref sig .tc := ⟨.hbm, 260, rfl⟩
abbrev main_c_50 : Ref sig .tc := ⟨.hbm, 261, rfl⟩
abbrev main_v177 : Ref sig .tc := ⟨.hbm, 262, rfl⟩
abbrev main_v178 : Ref sig .tc := ⟨.hbm, 263, rfl⟩
abbrev main_c_51 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_cst_52 : Ref sig .tc := ⟨.hbm, 270, rfl⟩
abbrev main_v184 : Ref sig .tc := ⟨.hbm, 271, rfl⟩
abbrev main_c_53 : Ref sig .tc := ⟨.hbm, 272, rfl⟩
abbrev main_v185 : Ref sig .tc := ⟨.hbm, 273, rfl⟩
abbrev main_v186 : Ref sig .tc := ⟨.hbm, 274, rfl⟩
abbrev main_c_54 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_cst_55 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_cst_56 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_c_57 : Ref sig .tc := ⟨.hbm, 293, rfl⟩
abbrev main_v202 : Ref sig .tc := ⟨.hbm, 294, rfl⟩
abbrev main_v203 : Ref sig .tc := ⟨.hbm, 295, rfl⟩
abbrev main_c_58 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_cst_59 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S400000 : S_.BroadcastsInDim S400000 (![] : Fin 0 → Fin S400000.rank)
  bcast_S_S30000 : S_.BroadcastsInDim S30000 (![] : Fin 0 → Fin S30000.rank)
  bcast_S400000_S400000x1_0 : S400000.BroadcastsInDim S400000x1 (![0] : Fin 1 → Fin S400000x1.rank)
  bcast_S30000_S30000x1_0 : S30000.BroadcastsInDim S30000x1 (![0] : Fin 1 → Fin S30000x1.rank)
  bcast_S30000x1_S30000x128_0_1 : S30000x1.BroadcastsInDim S30000x128 (![0, 1] : Fin 2 → Fin S30000x128.rank)
  bcast_S_S30000x128 : S_.BroadcastsInDim S30000x128 (![] : Fin 0 → Fin S30000x128.rank)
  bcast_S1x128_S30000x128_0_1 : S1x128.BroadcastsInDim S30000x128 (![0, 1] : Fin 2 → Fin S30000x128.rank)
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S30000_S400000x1_S400000_n_0_0_1_wf : ScatterDims.WF S30000 S400000x1 S400000 [] [0] [0] 1
  scatter_S50000_S400000x1_S400000_n_0_0_1_wf : ScatterDims.WF S50000 S400000x1 S400000 [] [0] [0] 1
  dot_S30000x128_S128x128_S30000x128_1_0_0_1_n_n_wf : DotDims.WF S30000x128 S128x128 S30000x128 [1] [0] [0] [1] [] []
  gather_S30000x128_S400000x1_S400000x128_1_0_n_n_0_1_1128_wf : GatherDims.WF S30000x128 S400000x1 S400000x128 [1] [0] [] [0] [] 1 ![1, 128]
  scatter_S50000x128_S400000x1_S400000x128_1_0_0_1_wf : ScatterDims.WF S50000x128 S400000x1 S400000x128 [1] [0] [0] 1
  gather_S50000x128_S400000x1_S400000x128_1_0_n_n_0_1_1128_wf : GatherDims.WF S50000x128 S400000x1 S400000x128 [1] [0] [] [0] [] 1 ![1, 128]
  scatter_S30000x128_S400000x1_S400000x128_1_0_0_1_wf : ScatterDims.WF S30000x128 S400000x1 S400000x128 [1] [0] [0] 1

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S30000_S400000x1_S400000_n_0_0_1 : ScatterDims S30000 S400000x1 S400000 where
  updateWindowDims := []
  insertedWindowDims := [0]
  scatterDimsToOperandDims := [0]
  indexVectorDim := 1
  wf := scatter_S30000_S400000x1_S400000_n_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf
def gather_S30000x128_S400000x1_S400000x128_1_0_n_n_0_1_1128 : GatherDims S30000x128 S400000x1 S400000x128 where
  offsetDims := [1]
  collapsedSliceDims := [0]
  operandBatchingDims := []
  startIndicesBatchingDims := []
  startIndexMap := [0]
  indexVectorDim := 1
  sliceSizes := ![1, 128]
  wf := gather_S30000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S30000x128_S400000x1_S400000x128_1_0_0_1 : ScatterDims S30000x128 S400000x1 S400000x128 where
  updateWindowDims := [1]
  insertedWindowDims := [0]
  scatterDimsToOperandDims := [0]
  indexVectorDim := 1
  wf := scatter_S30000x128_S400000x1_S400000x128_1_0_0_1_wf

class Facts : Prop extends Facts₀ where

variable [Facts]
-- ==== Proof.KRun.lean ====
/-
  THE KERNEL PROGRAM'S RUN WITH ITS RESULT NAMED.

  The program is thirteen launches among stretches of host operations.  Its generated frame follows the buffer contents
  from the launch memory through every stretch and every launch (`W0 … W23`) and ends with every unscoped buffer at the
  last contents `W23`; the frame claim keeps of that only the argument arrays.  Here the same run is stated once more
  keeping also the result buffer: every weakly fair execution terminates, nothing faults, the arguments end as launched
  and the result buffer ends at `W23` of it.  What `W23` holds there is read afterwards, boundary by boundary.
-/
import proofs.«173211_j66030827209235_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's twenty-three segments, the last thread state read against the final state;
    the result buffer is among the unscoped buffers, so it ends at the last boundary's contents. -/
theorem run : θ_run defs (onTc (τ := τ) (main (F := F))) ⟨m, fun _ => 0, ρ⟩ (fun r => ∀ c : Dev nD,
      r.2.mem ((c.tc : Thread nD τ).loc main_v192) = W23 m ρ c (Proc.devRef .tc main_v192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v192 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c),
       (h c _ (mem_uc main_arg14 (by decide))).trans (W23_main_arg14 m ρ c),
       (h c _ (mem_uc main_arg15 (by decide))).trans (W23_main_arg15 m ρ c),
       (h c _ (mem_uc main_arg16 (by decide))).trans (W23_main_arg16 m ρ c),
       (h c _ (mem_uc main_arg17 (by decide))).trans (W23_main_arg17 m ρ c),
       (h c _ (mem_uc main_arg18 (by decide))).trans (W23_main_arg18 m ρ c),
       (h c _ (mem_uc main_arg19 (by decide))).trans (W23_main_arg19 m ρ c)⟩)

end Cert.KernelIdeal.KRun

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«173211_j66030827209235_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«173211_j66030827209235_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«173211_j66030827209235_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«173211_j66030827209235_1_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.Arr.lean ====
/-
  THE WHOLE-ARRAY FUNCTIONS OF THE GRAPH CONVOLUTION'S DENSE STAGES, at the ideal values.

  Every dense stage of the two message-passing layers acts row by row on an array of `R` rows and 128 columns:
  • `scaleProd x s w`: each row `p` of `x` is multiplied by the one number `s (p, 0)` (the inverse square root of the
    source degree) and then by the weight matrix, `(p, c) ↦ ∑ k, (x (p, k) · s (p, 0)) · w (k, c)`;
  • `scaleBias a d b`: each row of the aggregate is multiplied by `d (p, 0)` (the inverse square root of the destination
    degree) and the bias row is added, `(p, c) ↦ a (p, c) · d (p, 0) + b (0, c)`;
  • `leakyArr x`: the leaky rectifier entry by entry, `x` where `x > 0` and `0.01 · x` elsewhere (the constant is the
    single-precision number nearest to one hundredth, the same word in both programs);
  • `addLeaky a b`, `addArr a b`: the sum of two relations' outputs, with and without the rectifier.
  Because row `p` of each result depends only on row `p` of the row-indexed operands, a block of rows of the result is
  the same function of the blocks of rows: that is what lets a grid of row blocks compute the whole array.
-/
import proofs.«173211_j66030827209235_1_alg».proof.Proof.LibProdRows

noncomputable section

open scoped BigOperators

namespace Cert.Arr

open Idealize.ShloMosaic Idealize.ShloMosaic.ValueIdx
open Cert.KernelIdeal.RegionValue (prodArr prodArr_apply)

/-- Each row of `x` multiplied by that row's one number of the column `s`. -/
def scaleRows {R C : ℕ} (x : (⟨2, ![R, C]⟩ : Shape).Idx → EReal) (s : (⟨2, ![R, 1]⟩ : Shape).Idx → EReal) :
    (⟨2, ![R, C]⟩ : Shape).Idx → EReal :=
  fun i => x i * s (ix2 (i 0) (0 : Fin 1))

theorem scaleRows_apply {R C : ℕ} (x : (⟨2, ![R, C]⟩ : Shape).Idx → EReal) (s : (⟨2, ![R, 1]⟩ : Shape).Idx → EReal)
    (p : Fin R) (c : Fin C) : scaleRows x s (ix2 p c) = x (ix2 p c) * s (ix2 p (0 : Fin 1)) := rfl

/-- The rows scaled, then the product with the weights. -/
def scaleProd {R K N : ℕ} (x : (⟨2, ![R, K]⟩ : Shape).Idx → EReal) (s : (⟨2, ![R, 1]⟩ : Shape).Idx → EReal)
    (w : (⟨2, ![K, N]⟩ : Shape).Idx → EReal) : (⟨2, ![R, N]⟩ : Shape).Idx → EReal :=
  prodArr (scaleRows x s) w

theorem scaleProd_apply {R K N : ℕ} (x : (⟨2, ![R, K]⟩ : Shape).Idx → EReal) (s : (⟨2, ![R, 1]⟩ : Shape).Idx → EReal)
    (w : (⟨2, ![K, N]⟩ : Shape).Idx → EReal) (p : Fin R) (c : Fin N) :
    scaleProd x s w (ix2 p c) = ∑ k : Fin K, (x (ix2 p k) * s (ix2 p (0 : Fin 1))) * w (ix2 k c) := rfl

/-- The rows of the aggregate scaled, plus the bias row. -/
def scaleBias {R C : ℕ} (a : (⟨2, ![R, C]⟩ : Shape).Idx → EReal) (d : (⟨2, ![R, 1]⟩ : Shape).Idx → EReal)
    (b : (⟨2, ![1, C]⟩ : Shape).Idx → EReal) : (⟨2, ![R, C]⟩ : Shape).Idx → EReal :=
  fun i => a i * d (ix2 (i 0) (0 : Fin 1)) + b (ix2 (0 : Fin 1) (i 1))

theorem scaleBias_apply {R C : ℕ} (a : (⟨2, ![R, C]⟩ : Shape).Idx → EReal) (d : (⟨2, ![R, 1]⟩ : Shape).Idx → EReal)
    (b : (⟨2, ![1, C]⟩ : Shape).Idx → EReal) (p : Fin R) (c : Fin C) :
    scaleBias a d b (ix2 p c) = a (ix2 p c) * d (ix2 p (0 : Fin 1)) + b (ix2 (0 : Fin 1) c) := rfl

/-- One entry through the leaky rectifier: itself when it is greater than zero, one hundredth (the nearest
    single-precision number) of itself otherwise. -/
def leaky1 (v : EReal) : EReal :=
  Scalar.select (FloatOps.cmpf (F := Ideal) (φ := .f32) .ogt v (Scalar.ofBits (F := Ideal) .f32 0x00000000#32)) v
    ((Scalar.ofBits (F := Ideal) .f32 0x3C23D70A#32 : EReal) * v)

/-- The leaky rectifier on every entry. -/
def leakyArr {s : Shape} (x : s.Idx → EReal) : s.Idx → EReal := fun i => leaky1 (x i)

/-- Two arrays added entry by entry, then the leaky rectifier. -/
def addLeaky {s : Shape} (a b : s.Idx → EReal) : s.Idx → EReal := fun i => leaky1 (a i + b i)

/-- Two arrays added entry by entry. -/
def addArr {s : Shape} (a b : s.Idx → EReal) : s.Idx → EReal := fun i => a i + b i

end Cert.Arr

end
-- ==== Proof.RegCommon.lean ====
/-
  THE BLOCK PROGRAMS OF THE DENSE STAGES, READ AT ONE ENTRY, at the ideal values.

  Each dense stage runs on a block of 2000 rows and 128 columns.  Read at the entry `(p, c)` of the block:
  • the scaled product is `∑ k, (x (p, k) · s (p, 0)) · w (k, c)`: the row's one number `s (p, 0)` is spread over the 128
    columns, the two operands are narrowed (a change of format, the identity on the extended reals) and multiplied into a
    zero accumulator;
  • the scaled aggregate plus bias is `a (p, c) · d (p, 0) + b (0, c)`: the column `d` is spread over the columns, the one
    row `b` over the rows;
  • the sums and the leaky rectifier act entry by entry.
  So when row `p` of each row-indexed block is row `q` of the whole array, and the weight and bias blocks are the whole
  weight and bias, the block's entry `(p, c)` is the entry `(q, c)` of the whole-array function: the `…_block` lemmas.
  The sums are compared term by term in the same order; nothing needs to be finite.
-/
import proofs.«173211_j66030827209235_1_alg».proof.Proof.Arr
import proofs.«173211_j66030827209235_1_alg».proof.Proof.Gen.KernelIdeal.Skeleton
import Idealize.ShloMosaic.Lib.ValueLayout

noncomputable section

open scoped BigOperators

namespace Cert.KernelIdeal.RegVal

open Idealize.ShloMosaic Idealize.ShloMosaic.ValueIdx Cert.KernelIdeal Cert.KernelIdeal.Gen Cert.Arr

/-- The offsets `(0, 0)` of a whole-buffer access are the zero function. -/
theorem off_zero : (![0, 0] : Fin 2 → Nat) = fun _ => 0 := funext fun a => by fin_cases a <;> rfl

/-- An `[a, 1]` column spread over `b` columns reads, at `(p, c)`, the column's entry of row `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The scaled product -/

/-- The scaled product of a block, at `(p, c)`. -/
theorem prodA_apply (x0 : FVec Ideal S2000x128 .f32) (x1 : FVec Ideal S2000x1 .f32) (x2 : FVec Ideal S128x128 .f32)
    (p : Fin 2000) (c : Fin 128) :
    k0_pay1 (F := Ideal) x0 x1 x2 (ix2 p c)
      = ∑ k : Fin 128, (x0 (ix2 p k) * x1 (ix2 p (0 : Fin 1))) * x2 (ix2 k c) := by
  unfold k0_pay1
  refine (Cert.BlockDot.kdot_apply (R := 2000) (K := 128) (N := 128) none _ _ p c).trans ?_
  refine Finset.sum_congr rfl fun k _ => ?_
  show (x0 (ix2 p k) * broadcastTo S2000x128 (shapeCast S2000x1 x1 shapeCasts_S2000x1_S2000x1) broadcasts_S2000x1_S2000x128 (ix2 p k))
      * x2 (ix2 k c) = _
  rw [shapeCast_self, bcastCol_apply]

/-- The same program with the left block passed through a cast to its own shape. -/
theorem prodB_apply (x0 : FVec Ideal S2000x128 .f32) (x1 : FVec Ideal S2000x1 .f32) (x2 : FVec Ideal S128x128 .f32)
    (p : Fin 2000) (c : Fin 128) :
    k8_pay1 (F := Ideal) x0 x1 x2 (ix2 p c)
      = ∑ k : Fin 128, (x0 (ix2 p k) * x1 (ix2 p (0 : Fin 1))) * x2 (ix2 k c) := by
  unfold k8_pay1
  refine (Cert.BlockDot.kdot_apply (R := 2000) (K := 128) (N := 128) none _ _ p c).trans ?_
  refine Finset.sum_congr rfl fun k _ => ?_
  show (shapeCast S2000x128 x0 shapeCasts_S2000x128_S2000x128 (ix2 p k)
        * broadcastTo S2000x128 (shapeCast S2000x1 x1 shapeCasts_S2000x1_S2000x1) broadcasts_S2000x1_S2000x128 (ix2 p k))
      * x2 (ix2 k c) = _
  rw [shapeCast_self, shapeCast_self, bcastCol_apply]

/-- Row `p` of the block's scaled product is row `q` of the whole array's, when row `p` of the block `x0` is row `q` of
    `A`, the entry of row `p` of the column `x1` is that of row `q` of `S`, and the weight block is `W`. -/
theorem prodA_block {R : ℕ} (x0 : FVec Ideal S2000x128 .f32) (x1 : FVec Ideal S2000x1 .f32) (x2 : FVec Ideal S128x128 .f32)
    (A : (⟨2, ![R, 128]⟩ : Shape).Idx → EReal) (S : (⟨2, ![R, 1]⟩ : Shape).Idx → EReal)
    (W : (⟨2, ![128, 128]⟩ : Shape).Idx → EReal) (p : Fin 2000) (c : Fin 128) (q : Fin R)
    (h0 : ∀ k : Fin 128, x0 (ix2 p k) = A (ix2 q k)) (h1 : x1 (ix2 p (0 : Fin 1)) = S (ix2 q (0 : Fin 1)))
    (h2 : ∀ k : Fin 128, x2 (ix2 k c) = W (ix2 k c)) :
    k0_pay1 (F := Ideal) x0 x1 x2 (ix2 p c) = scaleProd A S W (ix2 q c) := by
  rw [prodA_apply, scaleProd_apply]
  exact Finset.sum_congr rfl fun k _ => by rw [h0 k, h1, h2 k]

theorem prodB_block {R : ℕ} (x0 : FVec Ideal S2000x128 .f32) (x1 : FVec Ideal S2000x1 .f32) (x2 : FVec Ideal S128x128 .f32)
    (A : (⟨2, ![R, 128]⟩ : Shape).Idx → EReal) (S : (⟨2, ![R, 1]⟩ : Shape).Idx → EReal)
    (W : (⟨2, ![128, 128]⟩ : Shape).Idx → EReal) (p : Fin 2000) (c : Fin 128) (q : Fin R)
    (h0 : ∀ k : Fin 128, x0 (ix2 p k) = A (ix2 q k)) (h1 : x1 (ix2 p (0 : Fin 1)) = S (ix2 q (0 : Fin 1)))
    (h2 : ∀ k : Fin 128, x2 (ix2 k c) = W (ix2 k c)) :
    k8_pay1 (F := Ideal) x0 x1 x2 (ix2 p c) = scaleProd A S W (ix2 q c) := by
  rw [prodB_apply, scaleProd_apply]
  exact Finset.sum_congr rfl fun k _ => by rw [h0 k, h1, h2 k]

/-! ## The scaled aggregate plus bias -/

/-- The scaled aggregate plus bias of a block, at `(p, c)`. -/
theorem bias_apply (x0 : FVec Ideal S2000x128 .f32) (x1 : FVec Ideal S2000x1 .f32) (x2 : FVec Ideal S1x128 .f32)
    (p : Fin 2000) (c : Fin 128) :
    k1_pay1 (F := Ideal) x0 x1 x2 (ix2 p c) = x0 (ix2 p c) * x1 (ix2 p (0 : Fin 1)) + x2 (ix2 (0 : Fin 1) c) := by
  unfold k1_pay1
  show shapeCast S2000x128 x0 shapeCasts_S2000x128_S2000x128 (ix2 p c)
        * broadcastTo S2000x128 (shapeCast S2000x1 x1 shapeCasts_S2000x1_S2000x1) broadcasts_S2000x1_S2000x128 (ix2 p c)
      + broadcastTo S2000x128 (shapeCast S1x128 x2 shapeCasts_S1x128_S1x128) broadcasts_S1x128_S2000x128 (ix2 p c) = _
  rw [shapeCast_self, shapeCast_self, shapeCast_self, bcastCol_apply, broadcastTo_1b_ab_apply]

theorem bias_block {R : ℕ} (x0 : FVec Ideal S2000x128 .f32) (x1 : FVec Ideal S2000x1 .f32) (x2 : FVec Ideal S1x128 .f32)
    (A : (⟨2, ![R, 128]⟩ : Shape).Idx → EReal) (D : (⟨2, ![R, 1]⟩ : Shape).Idx → EReal)
    (B : (⟨2, ![1, 128]⟩ : Shape).Idx → EReal) (p : Fin 2000) (c : Fin 128) (q : Fin R)
    (h0 : x0 (ix2 p c) = A (ix2 q c)) (h1 : x1 (ix2 p (0 : Fin 1)) = D (ix2 q (0 : Fin 1)))
    (h2 : x2 (ix2 (0 : Fin 1) c) = B (ix2 (0 : Fin 1) c)) :
    k1_pay1 (F := Ideal) x0 x1 x2 (ix2 p c) = scaleBias A D B (ix2 q c) := by
  rw [bias_apply, scaleBias_apply, h0, h1, h2]

/-! ## The sums and the rectifier -/

theorem addLeaky_block {s : Shape} (x0 x1 : FVec Ideal S2000x128 .f32) (A B : s.Idx → EReal) (j : S2000x128.Idx) (i : s.Idx)
    (h0 : x0 j = A i) (h1 : x1 j = B i) : k4_pay1 (F := Ideal) x0 x1 j = addLeaky A B i := by
  unfold k4_pay1
  show leaky1 (shapeCast S2000x128 x0 shapeCasts_S2000x128_S2000x128 j + shapeCast S2000x128 x1 shapeCasts_S2000x128_S2000x128 j)
      = leaky1 (A i + B i)
  rw [shapeCast_self, shapeCast_self, h0, h1]

theorem leaky_block {s : Shape} (x0 : FVec Ideal S2000x128 .f32) (A : s.Idx → EReal) (j : S2000x128.Idx) (i : s.Idx)
    (h0 : x0 j = A i) : k7_pay1 (F := Ideal) x0 j = leakyArr A i := by
  unfold k7_pay1
  show leaky1 (shapeCast S2000x128 x0 shapeCasts_S2000x128_S2000x128 j) = leaky1 (A i)
  rw [shapeCast_self, h0]

theorem add_block {s : Shape} (x0 x1 : FVec Ideal S2000x128 .f32) (A B : s.Idx → EReal) (j : S2000x128.Idx) (i : s.Idx)
    (h0 : x0 j = A i) (h1 : x1 j = B i) : k12_pay1 (F := Ideal) x0 x1 j = addArr A B i := by
  unfold k12_pay1
  show shapeCast S2000x128 x0 shapeCasts_S2000x128_S2000x128 j + shapeCast S2000x128 x1 shapeCasts_S2000x128_S2000x128 j = A i + B i
  rw [shapeCast_self, shapeCast_self, h0, h1]

end Cert.KernelIdeal.RegVal

end
-- ==== Proof.Reg0.lean ====
/-
  THE FIRST DENSE STAGE AS ONE WHOLE-ARRAY FUNCTION, at the ideal values.

  The stage runs on a one-axis grid of 25 blocks of 2000 rows: at block `t` it reads rows `2000·t … 2000·t + 1999` of the
  features and of the scaling column, the whole weight matrix, and writes the same rows of the result.  Entry `(p, c)` of
  what block `t` writes is entry `(2000·t + p, c)` of `scaleProd` of the whole arrays, because a row of a scaled product
  depends on that row of the row-indexed operands only.  The 25 blocks cover the 50000 rows (row `r` is in block
  `r / 2000`), so the result array ends holding `scaleProd` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`, the weight window at `(0, 0)`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point of the grid is below 25. -/
theorem lt0 (t : Fin cfg0.N) : t.val < 25 := by
  have h := t.isLt
  have hN : cfg0.N = 25 := N_0
  omega

/-- Row `p` of block `t` is row `2000·t + p` of a 50000-row array. -/
def row0 (t : Fin cfg0.N) (p : Fin 2000) : Fin 50000 := ⟨t.val * 2000 + p.val, by have := lt0 t; have := p.isLt; omega⟩

/-- The features' block at point `t`, read at `(p, k)`. -/
theorem blk0_0 (c : Dev nD) (t : Fin cfg0.N) (p : Fin 2000) (k : Fin 128) :
    (iblk0 V c 0 t : S2000x128.Idx → EReal) (ix2 p k) = (V c main_arg0 : S50000x128.Idx → EReal) (ix2 (row0 t p) k) := by
  obtain ⟨e0, e1, -⟩ := idx0 t
  show (V c main_arg0 : S50000x128.Idx → EReal) (((cfg0.win 0).blk t).view.emb (ix2 p k)) = _
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The scaling column's block at point `t`, read at `(p, 0)`. -/
theorem blk0_1 (c : Dev nD) (t : Fin cfg0.N) (p : Fin 2000) :
    (iblk0 V c 1 t : S2000x1.Idx → EReal) (ix2 p (0 : Fin 1)) = (V c main_v20 : S50000x1.Idx → EReal) (ix2 (row0 t p) (0 : Fin 1)) := by
  obtain ⟨-, -, e0, e1, -⟩ := idx0 t
  show (V c main_v20 : S50000x1.Idx → EReal) (((cfg0.win 1).blk t).view.emb (ix2 p (0 : Fin 1))) = _
  refine congrArg _ (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 1 + 1 * 0 = 0; rw [e1]

/-- The weight window's block is the whole weight matrix at every point. -/
theorem blk0_2 (c : Dev nD) (t : Fin cfg0.N) (k : Fin 128) (cc : Fin 128) :
    (iblk0 V c 2 t : S128x128.Idx → EReal) (ix2 k cc) = (V c main_arg8 : S128x128.Idx → EReal) (ix2 k cc) := by
  obtain ⟨-, -, -, -, e0, e1, -⟩ := idx0 t
  show (V c main_arg8 : S128x128.Idx → EReal) (((cfg0.win 2).blk t).view.emb (ix2 k cc)) = _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * cc.val = cc.val; rw [e1]; omega

/-- Where entry `(p, cc)` of the result's block at point `t` sits in the result array. -/
theorem emb0 (t : Fin cfg0.N) (p : Fin 2000) (cc : Fin 128) :
    (((cfg0.win 3).blk t).view.emb (ix2 p cc) : S50000x128.Idx) = ix2 (row0 t p) cc := by
  obtain ⟨-, -, -, -, -, -, e0, e1⟩ := idx0 t
  refine funext fun a => Fin.ext ?_
  match a with
  | ⟨0, _⟩ => show win0_3.index t (0 : Fin 2) * 2000 + 1 * p.val = t.val * 2000 + p.val; rw [e0]; omega
  | ⟨1, _⟩ => show win0_3.index t (1 : Fin 2) * 128 + 1 * cc.val = cc.val; rw [e1]; omega

/-- What point `t` writes back is block `t` of the scaled product of the whole arrays. -/
theorem flushed0 (c : Dev nD) (t : Fin cfg0.N) :
    (dat0 (F := Ideal) V c).flushed 3 t = ((cfg0.win 3).blk t).view.read (Elt Ideal)
      (scaleProd (V c main_arg0 : S50000x128.Idx → EReal) (V c main_v20 : S50000x1.Idx → EReal) (V c main_arg8 : S128x128.Idx → EReal)) := by
  show (cfg0.win 3).cut (grid0.coords t) ((dat0 (F := Ideal) V c).after 3 t) = _
  rw [after0_3]
  unfold out0_3
  rw [View.canon_unit_zero off_zero]
  simp only [View.ld_unit_zero (S := S2000x128) off_zero, View.ld_unit_zero (S := S2000x1) off_zero,
    View.ld_unit_zero (S := S128x128) off_zero]
  refine funext fun (j : S2000x128.Idx) => ?_
  obtain ⟨p, cc, rfl⟩ : ∃ (p : Fin 2000) (cc : Fin 128), j = ix2 p cc := ⟨j 0, j 1, eq_ix2 j⟩
  show k0_pay1 (F := Ideal) (iblk0 V c 0 t) (iblk0 V c 1 t) (iblk0 V c 2 t) (ix2 p cc)
    = scaleProd (V c main_arg0 : S50000x128.Idx → EReal) (V c main_v20 : S50000x1.Idx → EReal) (V c main_arg8 : S128x128.Idx → EReal)
        (((cfg0.win 3).blk t).view.emb (ix2 p cc))
  rw [emb0 t p cc]
  exact prodA_block (iblk0 V c 0 t) (iblk0 V c 1 t) (iblk0 V c 2 t) (V c main_arg0 : S50000x128.Idx → EReal)
    (V c main_v20 : S50000x1.Idx → EReal) (V c main_arg8 : S128x128.Idx → EReal) p cc (row0 t p)
    (fun k => blk0_0 V c t p k) (blk0_1 V c t p) (fun k => blk0_2 V c t k cc)

/-- An index of the result array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v25).slice (win0_3.rect t)).set ↔ _
  rw [View.set_slice_whole, Rect.mem_set_unit]
  exact Iff.rfl

/-- Every row of the result is in the block of the point `row / 2000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, e0, e1⟩ := idx0 ⟨(i 0).val / 2000, ht⟩
  refine ⟨⟨(i 0).val / 2000, ht⟩, flush0_3 _, ?_⟩
  rw [mem_blk0]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e1]; omega

/-- The result array after the stage: the scaled product of the arrays the stage found. -/
theorem final0 (V : (c : Dev nD) → (b : Ref sig .tc) → Buf (Elt Ideal) ((c : Thread nD τ).loc b)) (c : Dev nD) :
    (Gen.dat0 (F := Ideal) V c).arrAt 3 cfg0.N = scaleProd (V c main_arg0) (V c main_v20) (V c main_arg8) :=
  (dat0 (F := Ideal) V c).arrAt_eq_of_cover 3
    (scaleProd (V c main_arg0 : S50000x128.Idx → EReal) (V c main_v20 : S50000x1.Idx → EReal) (V c main_arg8 : S128x128.Idx → EReal))
    (fun t _ => flushed0 V c t) cover0

end Cert.KernelIdeal.RegVal

end
-- ==== Proof.Reg1.lean ====
/-
  A SCALE-AND-BIAS STAGE AS ONE WHOLE-ARRAY FUNCTION, at the ideal values (the stage numbered 1 of the thirteen).

  The stage runs on a one-axis grid of 25 blocks of 2000 rows: at block `t` it reads rows `2000·t … 2000·t + 1999` of the
  aggregate and of the scaling column, the one bias row, and writes the same rows of the result.  Entry `(p, c)` of what
  block `t` writes is entry `(2000·t + p, c)` of `scaleBias` of the whole arrays: the aggregate's entry times the row's one
  number plus the bias of the column.  The 25 blocks cover the 50000 rows (row `r` is in block `r / 2000`), so the result array
  ends holding `scaleBias` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`, the bias window at `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A point of the grid is below 25. -/
theorem lt1 (t : Fin cfg1.N) : t.val < 25 := by
  have h := t.isLt
  have hN : cfg1.N = 25 := N_1
  omega

/-- Row `p` of block `t` is row `2000·t + p` of a 50000-row array. -/
def row1 (t : Fin cfg1.N) (p : Fin 2000) : Fin 50000 := ⟨t.val * 2000 + p.val, by have := lt1 t; have := p.isLt; omega⟩

/-- The block of window 0 at point `t`, read at `(p, k)`: row `2000·t + p` of the array. -/
theorem blk1_0 (c : Dev nD) (t : Fin cfg1.N) (p : Fin 2000) (k : Fin 128) :
    (iblk1 V c 0 t : S2000x128.Idx → EReal) (ix2 p k) = (V c main_v35 : S50000x128.Idx → EReal) (ix2 (row1 t p) k) := by
  obtain ⟨e0, e1, -⟩ := idx1 t
  show (V c main_v35 : S50000x128.Idx → EReal) (((cfg1.win 0).blk t).view.emb (ix2 p k)) = _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- The scaling column's block at point `t`, read at `(p, 0)`. -/
theorem blk1_1 (c : Dev nD) (t : Fin cfg1.N) (p : Fin 2000) :
    (iblk1 V c 1 t : S2000x1.Idx → EReal) (ix2 p (0 : Fin 1)) = (V c main_v24 : S50000x1.Idx → EReal) (ix2 (row1 t p) (0 : Fin 1)) := by
  obtain ⟨-, -, e0, e1, -⟩ := idx1 t
  show (V c main_v24 : S50000x1.Idx → EReal) (((cfg1.win 1).blk t).view.emb (ix2 p (0 : Fin 1))) = _
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 1 + 1 * 0 = 0; rw [e1]

/-- The bias window's block is the whole bias row at every point. -/
theorem blk1_2 (c : Dev nD) (t : Fin cfg1.N) (cc : Fin 128) :
    (iblk1 V c 2 t : S1x128.Idx → EReal) (ix2 (0 : Fin 1) cc) = (V c main_v36 : S1x128.Idx → EReal) (ix2 (0 : Fin 1) cc) := by
  obtain ⟨-, -, -, -, e0, e1, -⟩ := idx1 t
  show (V c main_v36 : S1x128.Idx → EReal) (((cfg1.win 2).blk t).view.emb (ix2 (0 : Fin 1) cc)) = _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * cc.val = cc.val; rw [e1]; omega

/-- Where entry `(p, cc)` of the result's block at point `t` sits in the result array. -/
theorem emb1 (t : Fin cfg1.N) (p : Fin 2000) (cc : Fin 128) :
    (((cfg1.win 3).blk t).view.emb (ix2 p cc) : S50000x128.Idx) = ix2 (row1 t p) cc := by
  obtain ⟨-, -, -, -, -, -, e0, e1⟩ := idx1 t
  refine funext fun a => Fin.ext ?_
  match a with
  | ⟨0, _⟩ => show win1_3.index t (0 : Fin 2) * 2000 + 1 * p.val = t.val * 2000 + p.val; rw [e0]; omega
  | ⟨1, _⟩ => show win1_3.index t (1 : Fin 2) * 128 + 1 * cc.val = cc.val; rw [e1]; omega

/-- What point `t` writes back is block `t` of `scaleBias` of the whole arrays. -/
theorem flushed1 (c : Dev nD) (t : Fin cfg1.N) :
    (dat1 (F := Ideal) V c).flushed 3 t = ((cfg1.win 3).blk t).view.read (Elt Ideal)
      (scaleBias (V c main_v35 : S50000x128.Idx → EReal)
        (V c main_v24 : S50000x1.Idx → EReal)
        (V c main_v36 : S1x128.Idx → EReal)) := by
  show (cfg1.win 3).cut (grid1.coords t) ((dat1 (F := Ideal) V c).after 3 t) = _
  rw [after1_3]
  unfold out1_3
  rw [View.canon_unit_zero off_zero]
  simp only [View.ld_unit_zero (S := S2000x128) off_zero,
    View.ld_unit_zero (S := S2000x1) off_zero,
    View.ld_unit_zero (S := S1x128) off_zero]
  refine funext fun (j : S2000x128.Idx) => ?_
  obtain ⟨p, cc, rfl⟩ : ∃ (p : Fin 2000) (cc : Fin 128), j = ix2 p cc := ⟨j 0, j 1, eq_ix2 j⟩
  show k1_pay1 (F := Ideal) (iblk1 V c 0 t) (iblk1 V c 1 t) (iblk1 V c 2 t) (ix2 p cc)
    = scaleBias (V c main_v35 : S50000x128.Idx → EReal)
        (V c main_v24 : S50000x1.Idx → EReal)
        (V c main_v36 : S1x128.Idx → EReal)
        (((cfg1.win 3).blk t).view.emb (ix2 p cc))
  rw [emb1 t p cc]
  exact bias_block (iblk1 V c 0 t) (iblk1 V c 1 t) (iblk1 V c 2 t) (V c main_v35 : S50000x128.Idx → EReal)
    (V c main_v24 : S50000x1.Idx → EReal)
    (V c main_v36 : S1x128.Idx → EReal) p cc (row1 t p)
    (blk1_0 V c t p cc) (blk1_1 V c t p) (blk1_2 V c t cc)

/-- An index of the result array is in point `t`'s block iff each coordinate is in the block's range on its axis. -/
theorem mem_blk1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v37).slice (win1_3.rect t)).set ↔ _
  rw [View.set_slice_whole, Rect.mem_set_unit]
  exact Iff.rfl

/-- Every row of the result is in the block of the point `row / 2000`. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, -, -, e0, e1⟩ := idx1 ⟨(i 0).val / 2000, ht⟩
  refine ⟨⟨(i 0).val / 2000, ht⟩, flush1_3 _, ?_⟩
  rw [mem_blk1]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    rw [e1]; omega

/-- The result array after the stage: `scaleBias` of the arrays the stage found. -/
theorem final1 (V : (c : Dev nD) → (b : Ref sig .tc) → Buf (Elt Ideal) ((c : Thread nD τ).loc b)) (c : Dev nD) :
    (Gen.dat1 (F := Ideal) V c).arrAt 3 cfg1.N = scaleBias (V c main_v35) (V c main_v24) (V c main_v36) :=
  (dat1 (F := Ideal) V c).arrAt_eq_of_cover 3
    (scaleBias (V c main_v35 : S50000x128.Idx → EReal) (V c main_v24 : S50000x1.Idx → EReal) (V c main_v36 : S1x128.Idx → EReal))
    (fun t _ => flushed1 V c t) cover1

end Cert.KernelIdeal.RegVal

end
-- ==== Proof.Reg2.lean ====
/-
  A SCALED-PRODUCT STAGE AS ONE WHOLE-ARRAY FUNCTION, at the ideal values (the stage numbered 2 of the thirteen).

  The stage runs on a one-axis grid of 15 blocks of 2000 rows: at block `t` it reads rows `2000·t … 2000·t + 1999` of the
  features and of the scaling column, the whole weight matrix, and writes the same rows of the result.  Entry `(p, c)` of
  what block `t` writes is entry `(2000·t + p, c)` of `scaleProd` of the whole arrays, because a row of a scaled product
  depends on that row of the row-indexed operands only.  The 15 blocks cover the 30000 rows (row `r` is in block `r / 2000`), so the
  result array ends holding `scaleProd` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`, the weight window at `(0, 0)`. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A point of the grid is below 15. -/
theorem lt2 (t : Fin cfg2.N) : t.val < 15 := by
  have h := t.isLt
  have hN : cfg2.N = 15 := N_2
  omega

/-- Row `p` of block `t` is row `2000·t + p` of a 30000-row array. -/
def row2 (t : Fin cfg2.N) (p : Fin 2000) : Fin 30000 := ⟨t.val * 2000 + p.val, by have := lt2 t; have := p.isLt; omega⟩

/-- The block of window 0 at point `t`, read at `(p, k)`: row `2000·t + p` of the array. -/
theorem blk2_0 (c : Dev nD) (t : Fin cfg2.N) (p : Fin 2000) (k : Fin 128) :
    (iblk2 V c 0 t : S2000x128.Idx → EReal) (ix2 p k) = (V c main_arg1 : S30000x128.Idx → EReal) (ix2 (row2 t p) k) := by
  obtain ⟨e0, e1, -⟩ := idx2 t
  show (V c main_arg1 : S30000x128.Idx → EReal) (((cfg2.win 0).blk t).view.emb (ix2 p k)) = _
  refine congrArg _ (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

/-- The scaling column's block at point `t`, read at `(p, 0)`. -/
theorem blk2_1 (c : Dev nD) (t : Fin cfg2.N) (p : Fin 2000) :
    (iblk2 V c 1 t : S2000x1.Idx → EReal) (ix2 p (0 : Fin 1)) = (V c main_v58 : S30000x1.Idx → EReal) (ix2 (row2 t p) (0 : Fin 1)) := by
  obtain ⟨-, -, e0, e1, -⟩ := idx2 t
  show (V c main_v58 : S30000x1.Idx → EReal) (((cfg2.win 1).blk t).view.emb (ix2 p (0 : Fin 1))) = _
  refine congrArg _ (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 1 + 1 * 0 = 0; rw [e1]

/-- The weight window's block is the whole weight matrix at every point. -/
theorem blk2_2 (c : Dev nD) (t : Fin cfg2.N) (k : Fin 128) (cc : Fin 128) :
    (iblk2 V c 2 t : S128x128.Idx → EReal) (ix2 k cc) = (V c main_arg12 : S128x128.Idx → EReal) (ix2 k cc) := by
  obtain ⟨-, -, -, -, e0, e1, -⟩ := idx2 t
  show (V c main_arg12 : S128x128.Idx → EReal) (((cfg2.win 2).blk t).view.emb (ix2 k cc)) = _
  refine congrArg _ (funext fun a => Fin.ext ?_)
  match a with
  | ⟨0, _⟩ => show win2_2.index t (0 : Fin 2) * 128 + 1 * k.val = k.val; rw [e0]; omega
  | ⟨1, _⟩ => show win2_2.index t (1 : Fin 2) * 128 + 1 * cc.val = cc.val; rw [e1]; omega

/-- Where entry `(p, cc)` of the result's block at point `t` sits in the result array. -/
theorem emb2 (t : Fin cfg2.N) (p : Fin 2000) (cc : Fin 128) :
    (((cfg2.win 3).blk t).view.emb (ix2 p cc) : S30000x128.Idx) = ix2 (row2 t p) cc := by
  obtain ⟨-, -, -, -, -, -, e0, e1⟩ := idx2 t
  refine funext fun a => Fin.ext ?_
  match a with
  | ⟨0, _⟩ => show win2_3.index t (0 : Fin 2) * 2000 + 1 * p.val = t.val * 2000 + p.val; rw [e0]; omega
  | ⟨1, _⟩ => show win2_3.index t (1 : Fin 2) * 128 + 1 * cc.val = cc.val; rw [e1]; omega

/-- What point `t` writes back is block `t` of `scaleProd` of the whole arrays. -/
theorem flushed2 (c : Dev nD) (t : Fin cfg2.N) :
    (dat2 (F := Ideal) V c).flushed 3 t = ((cfg2.win 3).blk t).view.read (Elt Ideal)
      (scaleProd (V c main_arg1 : S30000x128.Idx → EReal)
        (V c main_v58 : S30000x1.Idx → EReal)
        (V c main_arg12 : S128x128.Idx → EReal)) := by
  show (cfg2.win 3).cut (grid2.coords t) ((dat2 (F := Ideal) V c).after 3 t) = _
  rw [after2_3]
  unfold out2_3
  rw [View.canon_unit_zero off_zero]
  simp only [View.ld_unit_zero (S := S2000x128) off_zero,
    View.ld_unit_zero (S := S2000x1) off_zero,
    View.ld_unit_zero (S := S128x128) off_zero]
  refine funext fun (j : S2000x128.Idx) => ?_
  obtain ⟨p, cc, rfl⟩ : ∃ (p : Fin 2000) (cc : Fin 128), j = ix2 p cc := ⟨j 0, j 1, eq_ix2 j⟩
  show k0_pay1 (F := Ideal) (iblk2 V c 0 t) (iblk2 V c 1 t) (iblk2 V c 2 t) (ix2 p cc)
    = scaleProd (V c main_arg1 : S30000x128.Idx → EReal)
        (V c main_v58 : S30000x1.Idx → EReal)
        (V c main_arg12 : S128x128.Idx → EReal)
        (((cfg2.win 3).blk t).view.emb (ix2 p cc))
  rw [emb2 t p cc]
  exact prodA_block (iblk2 V c 0 t) (iblk2 V c 1 t) (iblk2 V c 2 t) (V c main_arg1 : S30000x128.Idx → EReal)
    (V c main_v58 : S30000x1.Idx → EReal)
    (V c main_arg12 : S128x128.Idx → EReal) p cc (row2 t p)
    (fun k => blk2_0 V c t p k) (blk2_1 V c t p) (fun k => blk2_2 V c t k cc)

/-- An index of the result array is in point `t`'s block iff each coordinate is in the block's range on its axis. -/
theorem mem_blk2 (t : Fin cfg2.N) (i : S30000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v63).slice (win2_3.rect t)).set ↔ _
  rw [View.set_slice_whole, Rect.mem_set_unit]
  exact Iff.rfl

/-- Every row of the result is in the block of the point `row / 2000`. -/
theorem cover2 (i : S30000x128.Idx) :
    ∃ t : Fin cfg2.N, (cfg2.win 3).flush t = true ∧ i ∈ ((cfg2.win 3).blk t).view.set := by
  have hi0 : (i 0).val < 30000 := (i 0).isLt
  have hi1 : (i 1).val < 128 := (i 1).isLt
  have hN : cfg2.N = 15 := N_2
  have ht : (i 0).val / 2000 < cfg2.N := by rw [hN]; omega
  obtain ⟨-, -, -, -, -, -, e0, e1⟩ := idx2 ⟨(i 0).val / 2000, ht⟩
  refine ⟨⟨(i 0).val / 2000, ht⟩, flush2_3 _, ?_⟩
  rw [mem_blk2]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, ht⟩ (1 : Fin 2) * 128 ≤ (i 1).val
      ∧ (i 1).val < win2_3.index ⟨(i 0).val / 2000, ht⟩ (1 : Fin 2) * 128 + 128
    rw [e1]; omega

/-- The result array after the stage: `scaleProd` of the arrays the stage found. -/
theorem final2 (V : (c : Dev nD) → (b : Ref sig .tc) → Buf (Elt Ideal) ((c : Thread nD τ).loc b)) (c : Dev nD) :
    (Gen.dat2 (F := Ideal) V c).arrAt 3 cfg2.N = scaleProd (V c main_arg1) (V c main_v58) (V c main_arg12) :=
  (dat2 (F := Ideal) V c).arrAt_eq_of_cover 3
    (scaleProd (V c main_arg1 : S30000x128.Idx → EReal) (V c main_v58 : S30000x1.Idx → EReal) (V c main_arg12 : S128x128.Idx → EReal))
    (fun t _ => flushed2 V c t) cover2

end Cert.KernelIdeal.RegVal

end
-- ==== Proof.Reg3.lean ====
/-
  A SCALE-AND-BIAS STAGE AS ONE WHOLE-ARRAY FUNCTION, at the ideal values (the stage numbered 3 of the thirteen).

  The stage runs on a one-axis grid of 25 blocks of 2000 rows: at block `t` it reads rows `2000·t … 2000·t + 1999` of the
  aggregate and of the scaling column, the one bias row, and writes the same rows of the result.  Entry `(p, c)` of what
  block `t` writes is entry `(2000·t + p, c)` of `scaleBias` of the whole arrays: the aggregate's entry times the row's one
  number plus the bias of the column.  The 25 blocks cover the 50000 rows (row `r` is in block `r / 2000`), so the result array
  ends holding `scaleBias` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`, the bias window at `(0, 0)`. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A point of the grid is below 25. -/
theorem lt3 (t : Fin cfg3.N) : t.val < 25 := by
  have h := t.isLt
  have hN : cfg3.N = 25 := N_3
  omega

/-- Row `p` of block `t` is row `2000·t + p` of a 50000-row array. -/
def row3 (t : Fin cfg3.N) (p : Fin 2000) : Fin 50000 := ⟨t.val * 2000 + p.val, by have := lt3 t; have := p.isLt; omega⟩

/-- The block of window 0 at point `t`, read at `(p, k)`: row `2000·t + p` of the array. -/
theorem blk3_0 (c : Dev nD) (t : Fin cfg3.N) (p : Fin 2000) (k : Fin 128) :
    (iblk3 V c 0 t : S2000x128.Idx → EReal) (ix2 p k) = (V c main_v73 : S50000x128.Idx → EReal) (ix2 (row3 t p) k) := by
  obtain ⟨e0, e1, -⟩ := idx3 t
  show (V c main_v73 : S50000x128.Idx → EReal) (((cfg3.win 0).blk t).view.emb (ix2 p k)) = _
  refine congrArg _ (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 128 + 1 * k.val = k.val; rw [e1]; omega

/-- The scaling column's block at point `t`, read at `(p, 0)`. -/
theorem blk3_1 (c : Dev nD) (t : Fin cfg3.N) (p : Fin 2000) :
    (iblk3 V c 1 t : S2000x1.Idx → EReal) (ix2 p (0 : Fin 1)) = (V c main_v62 : S50000x1.Idx → EReal) (ix2 (row3 t p) (0 : Fin 1)) := by
  obtain ⟨-, -, e0, e1, -⟩ := idx3 t
  show (V c main_v62 : S50000x1.Idx → EReal) (((cfg3.win 1).blk t).view.emb (ix2 p (0 : Fin 1))) = _
  refine congrArg _ (funext fun a => Fin.ext ?_)
  match a with
  | ⟨0, _⟩ => show win3_1.index t (0 : Fin 2) * 2000 + 1 * p.val = t.val * 2000 + p.val; rw [e0]; omega
  | ⟨1, _⟩ => show win3_1.index t (1 : Fin 2) * 1 + 1 * 0 = 0; rw [e1]

/-- The bias window's block is the whole bias row at every point. -/
theorem blk3_2 (c : Dev nD) (t : Fin cfg3.N) (cc : Fin 128) :
    (iblk3 V c 2 t : S1x128.Idx → EReal) (ix2 (0 : Fin 1) cc) = (V c main_v74 : S1x128.Idx → EReal) (ix2 (0 : Fin 1) cc) := by
  obtain ⟨-, -, -, -, e0, e1, -⟩ := idx3 t
  show (V c main_v74 : S1x128.Idx → EReal) (((cfg3.win 2).blk t).view.emb (ix2 (0 : Fin 1) cc)) = _
  refine congrArg _ (funext fun a => Fin.ext ?_)
  match a with
  | ⟨0, _⟩ => show win3_2.index t (0 : Fin 2) * 1 + 1 * 0 = 0; rw [e0]
  | ⟨1, _⟩ => show win3_2.index t (1 : Fin 2) * 128 + 1 * cc.val = cc.val; rw [e1]; omega

/-- Where entry `(p, cc)` of the result's block at point `t` sits in the result array. -/
theorem emb3 (t : Fin cfg3.N) (p : Fin 2000) (cc : Fin 128) :
    (((cfg3.win 3).blk t).view.emb (ix2 p cc) : S50000x128.Idx) = ix2 (row3 t p) cc := by
  obtain ⟨-, -, -, -, -, -, e0, e1⟩ := idx3 t
  refine funext fun a => Fin.ext ?_
  match a with
  | ⟨0, _⟩ => show win3_3.index t (0 : Fin 2) * 2000 + 1 * p.val = t.val * 2000 + p.val; rw [e0]; omega
  | ⟨1, _⟩ => show win3_3.index t (1 : Fin 2) * 128 + 1 * cc.val = cc.val; rw [e1]; omega

/-- What point `t` writes back is block `t` of `scaleBias` of the whole arrays. -/
theorem flushed3 (c : Dev nD) (t : Fin cfg3.N) :
    (dat3 (F := Ideal) V c).flushed 3 t = ((cfg3.win 3).blk t).view.read (Elt Ideal)
      (scaleBias (V c main_v73 : S50000x128.Idx → EReal)
        (V c main_v62 : S50000x1.Idx → EReal)
        (V c main_v74 : S1x128.Idx → EReal)) := by
  show (cfg3.win 3).cut (grid3.coords t) ((dat3 (F := Ideal) V c).after 3 t) = _
  rw [after3_3]
  unfold out3_3
  rw [View.canon_unit_zero off_zero]
  simp only [View.ld_unit_zero (S := S2000x128) off_zero,
    View.ld_unit_zero (S := S2000x1) off_zero,
    View.ld_unit_zero (S := S1x128) off_zero]
  refine funext fun (j : S2000x128.Idx) => ?_
  obtain ⟨p, cc, rfl⟩ : ∃ (p : Fin 2000) (cc : Fin 128), j = ix2 p cc := ⟨j 0, j 1, eq_ix2 j⟩
  show k1_pay1 (F := Ideal) (iblk3 V c 0 t) (iblk3 V c 1 t) (iblk3 V c 2 t) (ix2 p cc)
    = scaleBias (V c main_v73 : S50000x128.Idx → EReal)
        (V c main_v62 : S50000x1.Idx → EReal)
        (V c main_v74 : S1x128.Idx → EReal)
        (((cfg3.win 3).blk t).view.emb (ix2 p cc))
  rw [emb3 t p cc]
  exact bias_block (iblk3 V c 0 t) (iblk3 V c 1 t) (iblk3 V c 2 t) (V c main_v73 : S50000x128.Idx → EReal)
    (V c main_v62 : S50000x1.Idx → EReal)
    (V c main_v74 : S1x128.Idx → EReal) p cc (row3 t p)
    (blk3_0 V c t p cc) (blk3_1 V c t p) (blk3_2 V c t cc)

/-- An index of the result array is in point `t`'s block iff each coordinate is in the block's range on its axis. -/
theorem mem_blk3 (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v75).slice (win3_3.rect t)).set ↔ _
  rw [View.set_slice_whole, Rect.mem_set_unit]
  exact Iff.rfl

/-- Every row of the result is in the block of the point `row / 2000`. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  have ht : (i 0).val / 2000 < cfg3.N := by rw [hN]; omega
  obtain ⟨-, -, -, -, -, -, e0, e1⟩ := idx3 ⟨(i 0).val / 2000, ht⟩
  refine ⟨⟨(i 0).val / 2000, ht⟩, flush3_3 _, ?_⟩
  rw [mem_blk3]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    rw [e1]; omega

/-- The result array after the stage: `scaleBias` of the arrays the stage found. -/
theorem final3 (V : (c : Dev nD) → (b : Ref sig .tc) → Buf (Elt Ideal) ((c : Thread nD τ).loc b)) (c : Dev nD) :
    (Gen.dat3 (F := Ideal) V c).arrAt 3 cfg3.N = scaleBias (V c main_v73) (V c main_v62) (V c main_v74) :=
  (dat3 (F := Ideal) V c).arrAt_eq_of_cover 3
    (scaleBias (V c main_v73 : S50000x128.Idx → EReal) (V c main_v62 : S50000x1.Idx → EReal) (V c main_v74 : S1x128.Idx → EReal))
    (fun t _ => flushed3 V c t) cover3

end Cert.KernelIdeal.RegVal

end
-- ==== Proof.Reg4.lean ====
/-
  THE SUM-AND-RECTIFIER STAGE AS ONE WHOLE-ARRAY FUNCTION, at the ideal values (the stage numbered 4 of the thirteen).

  The stage runs on a one-axis grid of 25 blocks of 2000 rows: at block `t` it reads rows `2000·t … 2000·t + 1999` of
  its two operands and writes the same rows of the result, entry by entry.  Entry `(p, c)` of what block `t` writes is
  entry `(2000·t + p, c)` of `addLeaky` of the whole arrays.  The 25 blocks cover the 50000 rows (row `r` is in block `r / 2000`),
  so the result array ends holding `addLeaky` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- A point of the grid is below 25. -/
theorem lt4 (t : Fin cfg4.N) : t.val < 25 := by
  have h := t.isLt
  have hN : cfg4.N = 25 := N_4
  omega

/-- Row `p` of block `t` is row `2000·t + p` of a 50000-row array. -/
def row4 (t : Fin cfg4.N) (p : Fin 2000) : Fin 50000 := ⟨t.val * 2000 + p.val, by have := lt4 t; have := p.isLt; omega⟩

/-- The block of window 0 at point `t`, read at `(p, k)`: row `2000·t + p` of the array. -/
theorem blk4_0 (c : Dev nD) (t : Fin cfg4.N) (p : Fin 2000) (k : Fin 128) :
    (iblk4 V c 0 t : S2000x128.Idx → EReal) (ix2 p k) = (V c main_v37 : S50000x128.Idx → EReal) (ix2 (row4 t p) k) := by
  obtain ⟨e0, e1, -⟩ := idx4 t
  show (V c main_v37 : S50000x128.Idx → EReal) (((cfg4.win 0).blk t).view.emb (ix2 p k)) = _
  refine congrArg _ (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 128 + 1 * k.val = k.val; rw [e1]; omega

/-- The block of window 1 at point `t`, read at `(p, k)`: row `2000·t + p` of the array. -/
theorem blk4_1 (c : Dev nD) (t : Fin cfg4.N) (p : Fin 2000) (k : Fin 128) :
    (iblk4 V c 1 t : S2000x128.Idx → EReal) (ix2 p k) = (V c main_v75 : S50000x128.Idx → EReal) (ix2 (row4 t p) k) := by
  obtain ⟨-, -, e0, e1, -⟩ := idx4 t
  show (V c main_v75 : S50000x128.Idx → EReal) (((cfg4.win 1).blk t).view.emb (ix2 p k)) = _
  refine congrArg _ (funext fun a => Fin.ext ?_)
  match a with
  | ⟨0, _⟩ => show win4_1.index t (0 : Fin 2) * 2000 + 1 * p.val = t.val * 2000 + p.val; rw [e0]; omega
  | ⟨1, _⟩ => show win4_1.index t (1 : Fin 2) * 128 + 1 * k.val = k.val; rw [e1]; omega

/-- Where entry `(p, cc)` of the result's block at point `t` sits in the result array. -/
theorem emb4 (t : Fin cfg4.N) (p : Fin 2000) (cc : Fin 128) :
    (((cfg4.win 2).blk t).view.emb (ix2 p cc) : S50000x128.Idx) = ix2 (row4 t p) cc := by
  obtain ⟨-, -, -, -, e0, e1⟩ := idx4 t
  refine funext fun a => Fin.ext ?_
  match a with
  | ⟨0, _⟩ => show win4_2.index t (0 : Fin 2) * 2000 + 1 * p.val = t.val * 2000 + p.val; rw [e0]; omega
  | ⟨1, _⟩ => show win4_2.index t (1 : Fin 2) * 128 + 1 * cc.val = cc.val; rw [e1]; omega

/-- What point `t` writes back is block `t` of `addLeaky` of the whole arrays. -/
theorem flushed4 (c : Dev nD) (t : Fin cfg4.N) :
    (dat4 (F := Ideal) V c).flushed 2 t = ((cfg4.win 2).blk t).view.read (Elt Ideal)
      (addLeaky (V c main_v37 : S50000x128.Idx → EReal)
        (V c main_v75 : S50000x128.Idx → EReal)) := by
  show (cfg4.win 2).cut (grid4.coords t) ((dat4 (F := Ideal) V c).after 2 t) = _
  rw [after4_2]
  unfold out4_2
  rw [View.canon_unit_zero off_zero]
  simp only [View.ld_unit_zero (S := S2000x128) off_zero]
  refine funext fun (j : S2000x128.Idx) => ?_
  obtain ⟨p, cc, rfl⟩ : ∃ (p : Fin 2000) (cc : Fin 128), j = ix2 p cc := ⟨j 0, j 1, eq_ix2 j⟩
  show k4_pay1 (F := Ideal) (iblk4 V c 0 t) (iblk4 V c 1 t) (ix2 p cc)
    = addLeaky (V c main_v37 : S50000x128.Idx → EReal)
        (V c main_v75 : S50000x128.Idx → EReal)
        (((cfg4.win 2).blk t).view.emb (ix2 p cc))
  rw [emb4 t p cc]
  exact addLeaky_block (s := S50000x128) (iblk4 V c 0 t) (iblk4 V c 1 t) (V c main_v37 : S50000x128.Idx → EReal)
    (V c main_v75 : S50000x128.Idx → EReal) (ix2 p cc) (ix2 (row4 t p) cc)
    (blk4_0 V c t p cc) (blk4_1 V c t p cc)

/-- An index of the result array is in point `t`'s block iff each coordinate is in the block's range on its axis. -/
theorem mem_blk4 (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v76).slice (win4_2.rect t)).set ↔ _
  rw [View.set_slice_whole, Rect.mem_set_unit]
  exact Iff.rfl

/-- Every row of the result is in the block of the point `row / 2000`. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  have ht : (i 0).val / 2000 < cfg4.N := by rw [hN]; omega
  obtain ⟨-, -, -, -, e0, e1⟩ := idx4 ⟨(i 0).val / 2000, ht⟩
  refine ⟨⟨(i 0).val / 2000, ht⟩, flush4_2 _, ?_⟩
  rw [mem_blk4]
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_2.index ⟨(i 0).val / 2000, ht⟩ (1 : Fin 2) * 128 ≤ (i 1).val
      ∧ (i 1).val < win4_2.index ⟨(i 0).val / 2000, ht⟩ (1 : Fin 2) * 128 + 128
    rw [e1]; omega

/-- The result array after the stage: `addLeaky` of the arrays the stage found. -/
theorem final4 (V : (c : Dev nD) → (b : Ref sig .tc) → Buf (Elt Ideal) ((c : Thread nD τ).loc b)) (c : Dev nD) :
    (Gen.dat4 (F := Ideal) V c).arrAt 2 cfg4.N = addLeaky (V c main_v37) (V c main_v75) :=
  (dat4 (F := Ideal) V c).arrAt_eq_of_cover 2
    (addLeaky (V c main_v37 : S50000x128.Idx → EReal) (V c main_v75 : S50000x128.Idx → EReal))
    (fun t _ => flushed4 V c t) cover4

end Cert.KernelIdeal.RegVal

end
-- ==== Proof.Reg5.lean ====
/-
  A SCALED-PRODUCT STAGE AS ONE WHOLE-ARRAY FUNCTION, at the ideal values (the stage numbered 5 of the thirteen).

  The stage runs on a one-axis grid of 25 blocks of 2000 rows: at block `t` it reads rows `2000·t … 2000·t + 1999` of the
  features and of the scaling column, the whole weight matrix, and writes the same rows of the result.  Entry `(p, c)` of
  what block `t` writes is entry `(2000·t + p, c)` of `scaleProd` of the whole arrays, because a row of a scaled product
  depends on that row of the row-indexed operands only.  The 25 blocks cover the 50000 rows (row `r` is in block `r / 2000`), so the
  result array ends holding `scaleProd` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`, the weight window at `(0, 0)`. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- A point of the grid is below 25. -/
theorem lt5 (t : Fin cfg5.N) : t.val < 25 := by
  have h := t.isLt
  have hN : cfg5.N = 25 := N_5
  omega

/-- Row `p` of block `t` is row `2000·t + p` of a 50000-row array. -/
def row5 (t : Fin cfg5.N) (p : Fin 2000) : Fin 50000 := ⟨t.val * 2000 + p.val, by have := lt5 t; have := p.isLt; omega⟩

/-- The block of window 0 at point `t`, read at `(p, k)`: row `2000·t + p` of the array. -/
theorem blk5_0 (c : Dev nD) (t : Fin cfg5.N) (p : Fin 2000) (k : Fin 128) :
    (iblk5 V c 0 t : S2000x128.Idx → EReal) (ix2 p k) = (V c main_arg0 : S50000x128.Idx → EReal) (ix2 (row5 t p) k) := by
  obtain ⟨e0, e1, -⟩ := idx5 t
  show (V c main_arg0 : S50000x128.Idx → EReal) (((cfg5.win 0).blk t).view.emb (ix2 p k)) = _
  refine congrArg _ (funext fun a => Fin.ext ?_)
  match a with
  | ⟨0, _⟩ => show win5_0.index t (0 : Fin 2) * 2000 + 1 * p.val = t.val * 2000 + p.val; rw [e0]; omega
  | ⟨1, _⟩ => show win5_0.index t (1 : Fin 2) * 128 + 1 * k.val = k.val; rw [e1]; omega

/-- The scaling column's block at point `t`, read at `(p, 0)`. -/
theorem blk5_1 (c : Dev nD) (t : Fin cfg5.N) (p : Fin 2000) :
    (iblk5 V c 1 t : S2000x1.Idx → EReal) (ix2 p (0 : Fin 1)) = (V c main_v97 : S50000x1.Idx → EReal) (ix2 (row5 t p) (0 : Fin 1)) := by
  obtain ⟨-, -, e0, e1, -⟩ := idx5 t
  show (V c main_v97 : S50000x1.Idx → EReal) (((cfg5.win 1).blk t).view.emb (ix2 p (0 : Fin 1))) = _
  refine congrArg _ (funext fun a => Fin.ext ?_)
  match a with
  | ⟨0, _⟩ => show win5_1.index t (0 : Fin 2) * 2000 + 1 * p.val = t.val * 2000 + p.val; rw [e0]; omega
  | ⟨1, _⟩ => show win5_1.index t (1 : Fin 2) * 1 + 1 * 0 = 0; rw [e1]

/-- The weight window's block is the whole weight matrix at every point. -/
theorem blk5_2 (c : Dev nD) (t : Fin cfg5.N) (k : Fin 128) (cc : Fin 128) :
    (iblk5 V c 2 t : S128x128.Idx → EReal) (ix2 k cc) = (V c main_arg10 : S128x128.Idx → EReal) (ix2 k cc) := by
  obtain ⟨-, -, -, -, e0, e1, -⟩ := idx5 t
  show (V c main_arg10 : S128x128.Idx → EReal) (((cfg5.win 2).blk t).view.emb (ix2 k cc)) = _
  refine congrArg _ (funext fun a => Fin.ext ?_)
  match a with
  | ⟨0, _⟩ => show win5_2.index t (0 : Fin 2) * 128 + 1 * k.val = k.val; rw [e0]; omega
  | ⟨1, _⟩ => show win5_2.index t (1 : Fin 2) * 128 + 1 * cc.val = cc.val; rw [e1]; omega

/-- Where entry `(p, cc)` of the result's block at point `t` sits in the result array. -/
theorem emb5 (t : Fin cfg5.N) (p : Fin 2000) (cc : Fin 128) :
    (((cfg5.win 3).blk t).view.emb (ix2 p cc) : S50000x128.Idx) = ix2 (row5 t p) cc := by
  obtain ⟨-, -, -, -, -, -, e0, e1⟩ := idx5 t
  refine funext fun a => Fin.ext ?_
  match a with
  | ⟨0, _⟩ => show win5_3.index t (0 : Fin 2) * 2000 + 1 * p.val = t.val * 2000 + p.val; rw [e0]; omega
  | ⟨1, _⟩ => show win5_3.index t (1 : Fin 2) * 128 + 1 * cc.val = cc.val; rw [e1]; omega

/-- What point `t` writes back is block `t` of `scaleProd` of the whole arrays. -/
theorem flushed5 (c : Dev nD) (t : Fin cfg5.N) :
    (dat5 (F := Ideal) V c).flushed 3 t = ((cfg5.win 3).blk t).view.read (Elt Ideal)
      (scaleProd (V c main_arg0 : S50000x128.Idx → EReal)
        (V c main_v97 : S50000x1.Idx → EReal)
        (V c main_arg10 : S128x128.Idx → EReal)) := by
  show (cfg5.win 3).cut (grid5.coords t) ((dat5 (F := Ideal) V c).after 3 t) = _
  rw [after5_3]
  unfold out5_3
  rw [View.canon_unit_zero off_zero]
  simp only [View.ld_unit_zero (S := S2000x128) off_zero,
    View.ld_unit_zero (S := S2000x1) off_zero,
    View.ld_unit_zero (S := S128x128) off_zero]
  refine funext fun (j : S2000x128.Idx) => ?_
  obtain ⟨p, cc, rfl⟩ : ∃ (p : Fin 2000) (cc : Fin 128), j = ix2 p cc := ⟨j 0, j 1, eq_ix2 j⟩
  show k0_pay1 (F := Ideal) (iblk5 V c 0 t) (iblk5 V c 1 t) (iblk5 V c 2 t) (ix2 p cc)
    = scaleProd (V c main_arg0 : S50000x128.Idx → EReal)
        (V c main_v97 : S50000x1.Idx → EReal)
        (V c main_arg10 : S128x128.Idx → EReal)
        (((cfg5.win 3).blk t).view.emb (ix2 p cc))
  rw [emb5 t p cc]
  exact prodA_block (iblk5 V c 0 t) (iblk5 V c 1 t) (iblk5 V c 2 t) (V c main_arg0 : S50000x128.Idx → EReal)
    (V c main_v97 : S50000x1.Idx → EReal)
    (V c main_arg10 : S128x128.Idx → EReal) p cc (row5 t p)
    (fun k => blk5_0 V c t p k) (blk5_1 V c t p) (fun k => blk5_2 V c t k cc)

/-- An index of the result array is in point `t`'s block iff each coordinate is in the block's range on its axis. -/
theorem mem_blk5 (t : Fin cfg5.N) (i : S50000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v102).slice (win5_3.rect t)).set ↔ _
  rw [View.set_slice_whole, Rect.mem_set_unit]
  exact Iff.rfl

/-- Every row of the result is in the block of the point `row / 2000`. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 25 := N_5
  have ht : (i 0).val / 2000 < cfg5.N := by rw [hN]; omega
  obtain ⟨-, -, -, -, -, -, e0, e1⟩ := idx5 ⟨(i 0).val / 2000, ht⟩
  refine ⟨⟨(i 0).val / 2000, ht⟩, flush5_3 _, ?_⟩
  rw [mem_blk5]
  intro a
  match a with
  | ⟨0, _⟩ =>
    show win5_3.index ⟨(i 0).val / 2000, ht⟩ (0 : Fin 2) * 2000 ≤ (i 0).val
      ∧ (i 0).val < win5_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_3.index ⟨(i 0).val / 2000, ht⟩ (1 : Fin 2) * 128 ≤ (i 1).val
      ∧ (i 1).val < win5_3.index ⟨(i 0).val / 2000, ht⟩ (1 : Fin 2) * 128 + 128
    rw [e1]; omega

/-- The result array after the stage: `scaleProd` of the arrays the stage found. -/
theorem final5 (V : (c : Dev nD) → (b : Ref sig .tc) → Buf (Elt Ideal) ((c : Thread nD τ).loc b)) (c : Dev nD) :
    (Gen.dat5 (F := Ideal) V c).arrAt 3 cfg5.N = scaleProd (V c main_arg0) (V c main_v97) (V c main_arg10) :=
  (dat5 (F := Ideal) V c).arrAt_eq_of_cover 3
    (scaleProd (V c main_arg0 : S50000x128.Idx → EReal) (V c main_v97 : S50000x1.Idx → EReal) (V c main_arg10 : S128x128.Idx → EReal))
    (fun t _ => flushed5 V c t) cover5

end Cert.KernelIdeal.RegVal

end
-- ==== Proof.Reg6.lean ====
/-
  A SCALE-AND-BIAS STAGE AS ONE WHOLE-ARRAY FUNCTION, at the ideal values (the stage numbered 6 of the thirteen).

  The stage runs on a one-axis grid of 15 blocks of 2000 rows: at block `t` it reads rows `2000·t … 2000·t + 1999` of the
  aggregate and of the scaling column, the one bias row, and writes the same rows of the result.  Entry `(p, c)` of what
  block `t` writes is entry `(2000·t + p, c)` of `scaleBias` of the whole arrays: the aggregate's entry times the row's one
  number plus the bias of the column.  The 15 blocks cover the 30000 rows (row `r` is in block `r / 2000`), so the result array
  ends holding `scaleBias` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`, the bias window at `(0, 0)`. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- A point of the grid is below 15. -/
theorem lt6 (t : Fin cfg6.N) : t.val < 15 := by
  have h := t.isLt
  have hN : cfg6.N = 15 := N_6
  omega

/-- Row `p` of block `t` is row `2000·t + p` of a 30000-row array. -/
def row6 (t : Fin cfg6.N) (p : Fin 2000) : Fin 30000 := ⟨t.val * 2000 + p.val, by have := lt6 t; have := p.isLt; omega⟩

/-- The block of window 0 at point `t`, read at `(p, k)`: row `2000·t + p` of the array. -/
theorem blk6_0 (c : Dev nD) (t : Fin cfg6.N) (p : Fin 2000) (k : Fin 128) :
    (iblk6 V c 0 t : S2000x128.Idx → EReal) (ix2 p k) = (V c main_v112 : S30000x128.Idx → EReal) (ix2 (row6 t p) k) := by
  obtain ⟨e0, e1, -⟩ := idx6 t
  show (V c main_v112 : S30000x128.Idx → EReal) (((cfg6.win 0).blk t).view.emb (ix2 p k)) = _
  refine congrArg _ (funext fun a => Fin.ext ?_)
  match a with
  | ⟨0, _⟩ => show win6_0.index t (0 : Fin 2) * 2000 + 1 * p.val = t.val * 2000 + p.val; rw [e0]; omega
  | ⟨1, _⟩ => show win6_0.index t (1 : Fin 2) * 128 + 1 * k.val = k.val; rw [e1]; omega

/-- The scaling column's block at point `t`, read at `(p, 0)`. -/
theorem blk6_1 (c : Dev nD) (t : Fin cfg6.N) (p : Fin 2000) :
    (iblk6 V c 1 t : S2000x1.Idx → EReal) (ix2 p (0 : Fin 1)) = (V c main_v101 : S30000x1.Idx → EReal) (ix2 (row6 t p) (0 : Fin 1)) := by
  obtain ⟨-, -, e0, e1, -⟩ := idx6 t
  show (V c main_v101 : S30000x1.Idx → EReal) (((cfg6.win 1).blk t).view.emb (ix2 p (0 : Fin 1))) = _
  refine congrArg _ (funext fun a => Fin.ext ?_)
  match a with
  | ⟨0, _⟩ => show win6_1.index t (0 : Fin 2) * 2000 + 1 * p.val = t.val * 2000 + p.val; rw [e0]; omega
  | ⟨1, _⟩ => show win6_1.index t (1 : Fin 2) * 1 + 1 * 0 = 0; rw [e1]

/-- The bias window's block is the whole bias row at every point. -/
theorem blk6_2 (c : Dev nD) (t : Fin cfg6.N) (cc : Fin 128) :
    (iblk6 V c 2 t : S1x128.Idx → EReal) (ix2 (0 : Fin 1) cc) = (V c main_v113 : S1x128.Idx → EReal) (ix2 (0 : Fin 1) cc) := by
  obtain ⟨-, -, -, -, e0, e1, -⟩ := idx6 t
  show (V c main_v113 : S1x128.Idx → EReal) (((cfg6.win 2).blk t).view.emb (ix2 (0 : Fin 1) cc)) = _
  refine congrArg _ (funext fun a => Fin.ext ?_)
  match a with
  | ⟨0, _⟩ => show win6_2.index t (0 : Fin 2) * 1 + 1 * 0 = 0; rw [e0]
  | ⟨1, _⟩ => show win6_2.index t (1 : Fin 2) * 128 + 1 * cc.val = cc.val; rw [e1]; omega

/-- Where entry `(p, cc)` of the result's block at point `t` sits in the result array. -/
theorem emb6 (t : Fin cfg6.N) (p : Fin 2000) (cc : Fin 128) :
    (((cfg6.win 3).blk t).view.emb (ix2 p cc) : S30000x128.Idx) = ix2 (row6 t p) cc := by
  obtain ⟨-, -, -, -, -, -, e0, e1⟩ := idx6 t
  refine funext fun a => Fin.ext ?_
  match a with
  | ⟨0, _⟩ => show win6_3.index t (0 : Fin 2) * 2000 + 1 * p.val = t.val * 2000 + p.val; rw [e0]; omega
  | ⟨1, _⟩ => show win6_3.index t (1 : Fin 2) * 128 + 1 * cc.val = cc.val; rw [e1]; omega

/-- What point `t` writes back is block `t` of `scaleBias` of the whole arrays. -/
theorem flushed6 (c : Dev nD) (t : Fin cfg6.N) :
    (dat6 (F := Ideal) V c).flushed 3 t = ((cfg6.win 3).blk t).view.read (Elt Ideal)
      (scaleBias (V c main_v112 : S30000x128.Idx → EReal)
        (V c main_v101 : S30000x1.Idx → EReal)
        (V c main_v113 : S1x128.Idx → EReal)) := by
  show (cfg6.win 3).cut (grid6.coords t) ((dat6 (F := Ideal) V c).after 3 t) = _
  rw [after6_3]
  unfold out6_3
  rw [View.canon_unit_zero off_zero]
  simp only [View.ld_unit_zero (S := S2000x128) off_zero,
    View.ld_unit_zero (S := S2000x1) off_zero,
    View.ld_unit_zero (S := S1x128) off_zero]
  refine funext fun (j : S2000x128.Idx) => ?_
  obtain ⟨p, cc, rfl⟩ : ∃ (p : Fin 2000) (cc : Fin 128), j = ix2 p cc := ⟨j 0, j 1, eq_ix2 j⟩
  show k1_pay1 (F := Ideal) (iblk6 V c 0 t) (iblk6 V c 1 t) (iblk6 V c 2 t) (ix2 p cc)
    = scaleBias (V c main_v112 : S30000x128.Idx → EReal)
        (V c main_v101 : S30000x1.Idx → EReal)
        (V c main_v113 : S1x128.Idx → EReal)
        (((cfg6.win 3).blk t).view.emb (ix2 p cc))
  rw [emb6 t p cc]
  exact bias_block (iblk6 V c 0 t) (iblk6 V c 1 t) (iblk6 V c 2 t) (V c main_v112 : S30000x128.Idx → EReal)
    (V c main_v101 : S30000x1.Idx → EReal)
    (V c main_v113 : S1x128.Idx → EReal) p cc (row6 t p)
    (blk6_0 V c t p cc) (blk6_1 V c t p) (blk6_2 V c t cc)

/-- An index of the result array is in point `t`'s block iff each coordinate is in the block's range on its axis. -/
theorem mem_blk6 (t : Fin cfg6.N) (i : S30000x128.Idx) :
    i ∈ ((cfg6.win 3).blk t).view.set ↔ ∀ a : Fin 2, win6_3.index t a * S2000x128.size a ≤ (i a).val
      ∧ (i a).val < win6_3.index t a * S2000x128.size a + S2000x128.size a := by
  show i ∈ ((View.whole main_v114).slice (win6_3.rect t)).set ↔ _
  rw [View.set_slice_whole, Rect.mem_set_unit]
  exact Iff.rfl

/-- Every row of the result is in the block of the point `row / 2000`. -/
theorem cover6 (i : S30000x128.Idx) :
    ∃ t : Fin cfg6.N, (cfg6.win 3).flush t = true ∧ i ∈ ((cfg6.win 3).blk t).view.set := by
  have hi0 : (i 0).val < 30000 := (i 0).isLt
  have hi1 : (i 1).val < 128 := (i 1).isLt
  have hN : cfg6.N = 15 := N_6
  have ht : (i 0).val / 2000 < cfg6.N := by rw [hN]; omega
  obtain ⟨-, -, -, -, -, -, e0, e1⟩ := idx6 ⟨(i 0).val / 2000, ht⟩
  refine ⟨⟨(i 0).val / 2000, ht⟩, flush6_3 _, ?_⟩
  rw [mem_blk6]
  intro a
  match a with
  | ⟨0, _⟩ =>
    show win6_3.index ⟨(i 0).val / 2000, ht⟩ (0 : Fin 2) * 2000 ≤ (i 0).val
      ∧ (i 0).val < win6_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win6_3.index ⟨(i 0).val / 2000, ht⟩ (1 : Fin 2) * 128 ≤ (i 1).val
      ∧ (i 1).val < win6_3.index ⟨(i 0).val / 2000, ht⟩ (1 : Fin 2) * 128 + 128
    rw [e1]; omega

/-- The result array after the stage: `scaleBias` of the arrays the stage found. -/
theorem final6 (V : (c : Dev nD) → (b : Ref sig .tc) → Buf (Elt Ideal) ((c : Thread nD τ).loc b)) (c : Dev nD) :
    (Gen.dat6 (F := Ideal) V c).arrAt 3 cfg6.N = scaleBias (V c main_v112) (V c main_v101) (V c main_v113) :=
  (dat6 (F := Ideal) V c).arrAt_eq_of_cover 3
    (scaleBias (V c main_v112 : S30000x128.Idx → EReal) (V c main_v101 : S30000x1.Idx → EReal) (V c main_v113 : S1x128.Idx → EReal))
    (fun t _ => flushed6 V c t) cover6

end Cert.KernelIdeal.RegVal

end
-- ==== Proof.Reg7.lean ====
/-
  THE LEAKY RECTIFIER STAGE AS ONE WHOLE-ARRAY FUNCTION, at the ideal values (the stage numbered 7 of the thirteen).

  The stage runs on a one-axis grid of 15 blocks of 2000 rows: at block `t` it reads rows `2000·t … 2000·t + 1999` of
  its one operand and writes the same rows of the result, entry by entry.  Entry `(p, c)` of what block `t` writes is
  entry `(2000·t + p, c)` of `leakyArr` of the whole arrays.  The 15 blocks cover the 30000 rows (row `r` is in block `r / 2000`),
  so the result array ends holding `leakyArr` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0 :=
  (by decide +kernel : ∀ t : Fin grid7.N, _)

/-- A point of the grid is below 15. -/
theorem lt7 (t : Fin cfg7.N) : t.val < 15 := by
  have h := t.isLt
  have hN : cfg7.N = 15 := N_7
  omega

/-- Row `p` of block `t` is row `2000·t + p` of a 30000-row array. -/
def row7 (t : Fin cfg7.N) (p : Fin 2000) : Fin 30000 := ⟨t.val * 2000 + p.val, by have := lt7 t; have := p.isLt; omega⟩

/-- The block of window 0 at point `t`, read at `(p, k)`: row `2000·t + p` of the array. -/
theorem blk7_0 (c : Dev nD) (t : Fin cfg7.N) (p : Fin 2000) (k : Fin 128) :
    (iblk7 V c 0 t : S2000x128.Idx → EReal) (ix2 p k) = (V c main_v114 : S30000x128.Idx → EReal) (ix2 (row7 t p) k) := by
  obtain ⟨e0, e1, -⟩ := idx7 t
  show (V c main_v114 : S30000x128.Idx → EReal) (((cfg7.win 0).blk t).view.emb (ix2 p k)) = _
  refine congrArg _ (funext fun a => Fin.ext ?_)
  match a with
  | ⟨0, _⟩ => show win7_0.index t (0 : Fin 2) * 2000 + 1 * p.val = t.val * 2000 + p.val; rw [e0]; omega
  | ⟨1, _⟩ => show win7_0.index t (1 : Fin 2) * 128 + 1 * k.val = k.val; rw [e1]; omega

/-- Where entry `(p, cc)` of the result's block at point `t` sits in the result array. -/
theorem emb7 (t : Fin cfg7.N) (p : Fin 2000) (cc : Fin 128) :
    (((cfg7.win 1).blk t).view.emb (ix2 p cc) : S30000x128.Idx) = ix2 (row7 t p) cc := by
  obtain ⟨-, -, e0, e1⟩ := idx7 t
  refine funext fun a => Fin.ext ?_
  match a with
  | ⟨0, _⟩ => show win7_1.index t (0 : Fin 2) * 2000 + 1 * p.val = t.val * 2000 + p.val; rw [e0]; omega
  | ⟨1, _⟩ => show win7_1.index t (1 : Fin 2) * 128 + 1 * cc.val = cc.val; rw [e1]; omega

/-- What point `t` writes back is block `t` of `leakyArr` of the whole arrays. -/
theorem flushed7 (c : Dev nD) (t : Fin cfg7.N) :
    (dat7 (F := Ideal) V c).flushed 1 t = ((cfg7.win 1).blk t).view.read (Elt Ideal)
      (leakyArr (V c main_v114 : S30000x128.Idx → EReal)) := by
  show (cfg7.win 1).cut (grid7.coords t) ((dat7 (F := Ideal) V c).after 1 t) = _
  rw [after7_1]
  unfold out7_1
  rw [View.canon_unit_zero off_zero]
  simp only [View.ld_unit_zero (S := S2000x128) off_zero]
  refine funext fun (j : S2000x128.Idx) => ?_
  obtain ⟨p, cc, rfl⟩ : ∃ (p : Fin 2000) (cc : Fin 128), j = ix2 p cc := ⟨j 0, j 1, eq_ix2 j⟩
  show k7_pay1 (F := Ideal) (iblk7 V c 0 t) (ix2 p cc)
    = leakyArr (V c main_v114 : S30000x128.Idx → EReal)
        (((cfg7.win 1).blk t).view.emb (ix2 p cc))
  rw [emb7 t p cc]
  exact leaky_block (s := S30000x128) (iblk7 V c 0 t) (V c main_v114 : S30000x128.Idx → EReal) (ix2 p cc) (ix2 (row7 t p) cc)
    (blk7_0 V c t p cc)

/-- An index of the result array is in point `t`'s block iff each coordinate is in the block's range on its axis. -/
theorem mem_blk7 (t : Fin cfg7.N) (i : S30000x128.Idx) :
    i ∈ ((cfg7.win 1).blk t).view.set ↔ ∀ a : Fin 2, win7_1.index t a * S2000x128.size a ≤ (i a).val
      ∧ (i a).val < win7_1.index t a * S2000x128.size a + S2000x128.size a := by
  show i ∈ ((View.whole main_v115).slice (win7_1.rect t)).set ↔ _
  rw [View.set_slice_whole, Rect.mem_set_unit]
  exact Iff.rfl

/-- Every row of the result is in the block of the point `row / 2000`. -/
theorem cover7 (i : S30000x128.Idx) :
    ∃ t : Fin cfg7.N, (cfg7.win 1).flush t = true ∧ i ∈ ((cfg7.win 1).blk t).view.set := by
  have hi0 : (i 0).val < 30000 := (i 0).isLt
  have hi1 : (i 1).val < 128 := (i 1).isLt
  have hN : cfg7.N = 15 := N_7
  have ht : (i 0).val / 2000 < cfg7.N := by rw [hN]; omega
  obtain ⟨-, -, e0, e1⟩ := idx7 ⟨(i 0).val / 2000, ht⟩
  refine ⟨⟨(i 0).val / 2000, ht⟩, flush7_1 _, ?_⟩
  rw [mem_blk7]
  intro a
  match a with
  | ⟨0, _⟩ =>
    show win7_1.index ⟨(i 0).val / 2000, ht⟩ (0 : Fin 2) * 2000 ≤ (i 0).val
      ∧ (i 0).val < win7_1.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win7_1.index ⟨(i 0).val / 2000, ht⟩ (1 : Fin 2) * 128 ≤ (i 1).val
      ∧ (i 1).val < win7_1.index ⟨(i 0).val / 2000, ht⟩ (1 : Fin 2) * 128 + 128
    rw [e1]; omega

/-- The result array after the stage: `leakyArr` of the arrays the stage found. -/
theorem final7 (V : (c : Dev nD) → (b : Ref sig .tc) → Buf (Elt Ideal) ((c : Thread nD τ).loc b)) (c : Dev nD) :
    (Gen.dat7 (F := Ideal) V c).arrAt 1 cfg7.N = leakyArr (V c main_v114) :=
  (dat7 (F := Ideal) V c).arrAt_eq_of_cover 1
    (leakyArr (V c main_v114 : S30000x128.Idx → EReal))
    (fun t _ => flushed7 V c t) cover7

end Cert.KernelIdeal.RegVal

end
-- ==== Proof.Reg8.lean ====
/-
  A SCALED-PRODUCT STAGE AS ONE WHOLE-ARRAY FUNCTION, at the ideal values (the stage numbered 8 of the thirteen).

  The stage runs on a one-axis grid of 25 blocks of 2000 rows: at block `t` it reads rows `2000·t … 2000·t + 1999` of the
  features and of the scaling column, the whole weight matrix, and writes the same rows of the result.  Entry `(p, c)` of
  what block `t` writes is entry `(2000·t + p, c)` of `scaleProd` of the whole arrays, because a row of a scaled product
  depends on that row of the row-indexed operands only.  The 25 blocks cover the 50000 rows (row `r` is in block `r / 2000`), so the
  result array ends holding `scaleProd` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`, the weight window at `(0, 0)`. -/
theorem idx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- A point of the grid is below 25. -/
theorem lt8 (t : Fin cfg8.N) : t.val < 25 := by
  have h := t.isLt
  have hN : cfg8.N = 25 := N_8
  omega

/-- Row `p` of block `t` is row `2000·t + p` of a 50000-row array. -/
def row8 (t : Fin cfg8.N) (p : Fin 2000) : Fin 50000 := ⟨t.val * 2000 + p.val, by have := lt8 t; have := p.isLt; omega⟩

/-- The block of window 0 at point `t`, read at `(p, k)`: row `2000·t + p` of the array. -/
theorem blk8_0 (c : Dev nD) (t : Fin cfg8.N) (p : Fin 2000) (k : Fin 128) :
    (iblk8 V c 0 t : S2000x128.Idx → EReal) (ix2 p k) = (V c main_v76 : S50000x128.Idx → EReal) (ix2 (row8 t p) k) := by
  obtain ⟨e0, e1, -⟩ := idx8 t
  show (V c main_v76 : S50000x128.Idx → EReal) (((cfg8.win 0).blk t).view.emb (ix2 p k)) = _
  refine congrArg _ (funext fun a => Fin.ext ?_)
  match a with
  | ⟨0, _⟩ => show win8_0.index t (0 : Fin 2) * 2000 + 1 * p.val = t.val * 2000 + p.val; rw [e0]; omega
  | ⟨1, _⟩ => show win8_0.index t (1 : Fin 2) * 128 + 1 * k.val = k.val; rw [e1]; omega

/-- The scaling column's block at point `t`, read at `(p, 0)`. -/
theorem blk8_1 (c : Dev nD) (t : Fin cfg8.N) (p : Fin 2000) :
    (iblk8 V c 1 t : S2000x1.Idx → EReal) (ix2 p (0 : Fin 1)) = (V c main_v136 : S50000x1.Idx → EReal) (ix2 (row8 t p) (0 : Fin 1)) := by
  obtain ⟨-, -, e0, e1, -⟩ := idx8 t
  show (V c main_v136 : S50000x1.Idx → EReal) (((cfg8.win 1).blk t).view.emb (ix2 p (0 : Fin 1))) = _
  refine congrArg _ (funext fun a => Fin.ext ?_)
  match a with
  | ⟨0, _⟩ => show win8_1.index t (0 : Fin 2) * 2000 + 1 * p.val = t.val * 2000 + p.val; rw [e0]; omega
  | ⟨1, _⟩ => show win8_1.index t (1 : Fin 2) * 1 + 1 * 0 = 0; rw [e1]

/-- The weight window's block is the whole weight matrix at every point. -/
theorem blk8_2 (c : Dev nD) (t : Fin cfg8.N) (k : Fin 128) (cc : Fin 128) :
    (iblk8 V c 2 t : S128x128.Idx → EReal) (ix2 k cc) = (V c main_arg14 : S128x128.Idx → EReal) (ix2 k cc) := by
  obtain ⟨-, -, -, -, e0, e1, -⟩ := idx8 t
  show (V c main_arg14 : S128x128.Idx → EReal) (((cfg8.win 2).blk t).view.emb (ix2 k cc)) = _
  refine congrArg _ (funext fun a => Fin.ext ?_)
  match a with
  | ⟨0, _⟩ => show win8_2.index t (0 : Fin 2) * 128 + 1 * k.val = k.val; rw [e0]; omega
  | ⟨1, _⟩ => show win8_2.index t (1 : Fin 2) * 128 + 1 * cc.val = cc.val; rw [e1]; omega

/-- Where entry `(p, cc)` of the result's block at point `t` sits in the result array. -/
theorem emb8 (t : Fin cfg8.N) (p : Fin 2000) (cc : Fin 128) :
    (((cfg8.win 3).blk t).view.emb (ix2 p cc) : S50000x128.Idx) = ix2 (row8 t p) cc := by
  obtain ⟨-, -, -, -, -, -, e0, e1⟩ := idx8 t
  refine funext fun a => Fin.ext ?_
  match a with
  | ⟨0, _⟩ => show win8_3.index t (0 : Fin 2) * 2000 + 1 * p.val = t.val * 2000 + p.val; rw [e0]; omega
  | ⟨1, _⟩ => show win8_3.index t (1 : Fin 2) * 128 + 1 * cc.val = cc.val; rw [e1]; omega

/-- What point `t` writes back is block `t` of `scaleProd` of the whole arrays. -/
theorem flushed8 (c : Dev nD) (t : Fin cfg8.N) :
    (dat8 (F := Ideal) V c).flushed 3 t = ((cfg8.win 3).blk t).view.read (Elt Ideal)
      (scaleProd (V c main_v76 : S50000x128.Idx → EReal)
        (V c main_v136 : S50000x1.Idx → EReal)
        (V c main_arg14 : S128x128.Idx → EReal)) := by
  show (cfg8.win 3).cut (grid8.coords t) ((dat8 (F := Ideal) V c).after 3 t) = _
  rw [after8_3]
  unfold out8_3
  rw [View.canon_unit_zero off_zero]
  simp only [View.ld_unit_zero (S := S2000x128) off_zero,
    View.ld_unit_zero (S := S2000x1) off_zero,
    View.ld_unit_zero (S := S128x128) off_zero]
  refine funext fun (j : S2000x128.Idx) => ?_
  obtain ⟨p, cc, rfl⟩ : ∃ (p : Fin 2000) (cc : Fin 128), j = ix2 p cc := ⟨j 0, j 1, eq_ix2 j⟩
  show k8_pay1 (F := Ideal) (iblk8 V c 0 t) (iblk8 V c 1 t) (iblk8 V c 2 t) (ix2 p cc)
    = scaleProd (V c main_v76 : S50000x128.Idx → EReal)
        (V c main_v136 : S50000x1.Idx → EReal)
        (V c main_arg14 : S128x128.Idx → EReal)
        (((cfg8.win 3).blk t).view.emb (ix2 p cc))
  rw [emb8 t p cc]
  exact prodB_block (iblk8 V c 0 t) (iblk8 V c 1 t) (iblk8 V c 2 t) (V c main_v76 : S50000x128.Idx → EReal)
    (V c main_v136 : S50000x1.Idx → EReal)
    (V c main_arg14 : S128x128.Idx → EReal) p cc (row8 t p)
    (fun k => blk8_0 V c t p k) (blk8_1 V c t p) (fun k => blk8_2 V c t k cc)

/-- An index of the result array is in point `t`'s block iff each coordinate is in the block's range on its axis. -/
theorem mem_blk8 (t : Fin cfg8.N) (i : S50000x128.Idx) :
    i ∈ ((cfg8.win 3).blk t).view.set ↔ ∀ a : Fin 2, win8_3.index t a * S2000x128.size a ≤ (i a).val
      ∧ (i a).val < win8_3.index t a * S2000x128.size a + S2000x128.size a := by
  show i ∈ ((View.whole main_v141).slice (win8_3.rect t)).set ↔ _
  rw [View.set_slice_whole, Rect.mem_set_unit]
  exact Iff.rfl

/-- Every row of the result is in the block of the point `row / 2000`. -/
theorem cover8 (i : S50000x128.Idx) :
    ∃ t : Fin cfg8.N, (cfg8.win 3).flush t = true ∧ i ∈ ((cfg8.win 3).blk t).view.set := by
  have hi0 : (i 0).val < 50000 := (i 0).isLt
  have hi1 : (i 1).val < 128 := (i 1).isLt
  have hN : cfg8.N = 25 := N_8
  have ht : (i 0).val / 2000 < cfg8.N := by rw [hN]; omega
  obtain ⟨-, -, -, -, -, -, e0, e1⟩ := idx8 ⟨(i 0).val / 2000, ht⟩
  refine ⟨⟨(i 0).val / 2000, ht⟩, flush8_3 _, ?_⟩
  rw [mem_blk8]
  intro a
  match a with
  | ⟨0, _⟩ =>
    show win8_3.index ⟨(i 0).val / 2000, ht⟩ (0 : Fin 2) * 2000 ≤ (i 0).val
      ∧ (i 0).val < win8_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win8_3.index ⟨(i 0).val / 2000, ht⟩ (1 : Fin 2) * 128 ≤ (i 1).val
      ∧ (i 1).val < win8_3.index ⟨(i 0).val / 2000, ht⟩ (1 : Fin 2) * 128 + 128
    rw [e1]; omega

/-- The result array after the stage: `scaleProd` of the arrays the stage found. -/
theorem final8 (V : (c : Dev nD) → (b : Ref sig .tc) → Buf (Elt Ideal) ((c : Thread nD τ).loc b)) (c : Dev nD) :
    (Gen.dat8 (F := Ideal) V c).arrAt 3 cfg8.N = scaleProd (V c main_v76) (V c main_v136) (V c main_arg14) :=
  (dat8 (F := Ideal) V c).arrAt_eq_of_cover 3
    (scaleProd (V c main_v76 : S50000x128.Idx → EReal) (V c main_v136 : S50000x1.Idx → EReal) (V c main_arg14 : S128x128.Idx → EReal))
    (fun t _ => flushed8 V c t) cover8

end Cert.KernelIdeal.RegVal

end
-- ==== Proof.Reg9.lean ====
/-
  A SCALE-AND-BIAS STAGE AS ONE WHOLE-ARRAY FUNCTION, at the ideal values (the stage numbered 9 of the thirteen).

  The stage runs on a one-axis grid of 25 blocks of 2000 rows: at block `t` it reads rows `2000·t … 2000·t + 1999` of the
  aggregate and of the scaling column, the one bias row, and writes the same rows of the result.  Entry `(p, c)` of what
  block `t` writes is entry `(2000·t + p, c)` of `scaleBias` of the whole arrays: the aggregate's entry times the row's one
  number plus the bias of the column.  The 25 blocks cover the 50000 rows (row `r` is in block `r / 2000`), so the result array
  ends holding `scaleBias` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`, the bias window at `(0, 0)`. -/
theorem idx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- A point of the grid is below 25. -/
theorem lt9 (t : Fin cfg9.N) : t.val < 25 := by
  have h := t.isLt
  have hN : cfg9.N = 25 := N_9
  omega

/-- Row `p` of block `t` is row `2000·t + p` of a 50000-row array. -/
def row9 (t : Fin cfg9.N) (p : Fin 2000) : Fin 50000 := ⟨t.val * 2000 + p.val, by have := lt9 t; have := p.isLt; omega⟩

/-- The block of window 0 at point `t`, read at `(p, k)`: row `2000·t + p` of the array. -/
theorem blk9_0 (c : Dev nD) (t : Fin cfg9.N) (p : Fin 2000) (k : Fin 128) :
    (iblk9 V c 0 t : S2000x128.Idx → EReal) (ix2 p k) = (V c main_v151 : S50000x128.Idx → EReal) (ix2 (row9 t p) k) := by
  obtain ⟨e0, e1, -⟩ := idx9 t
  show (V c main_v151 : S50000x128.Idx → EReal) (((cfg9.win 0).blk t).view.emb (ix2 p k)) = _
  refine congrArg _ (funext fun a => Fin.ext ?_)
  match a with
  | ⟨0, _⟩ => show win9_0.index t (0 : Fin 2) * 2000 + 1 * p.val = t.val * 2000 + p.val; rw [e0]; omega
  | ⟨1, _⟩ => show win9_0.index t (1 : Fin 2) * 128 + 1 * k.val = k.val; rw [e1]; omega

/-- The scaling column's block at point `t`, read at `(p, 0)`. -/
theorem blk9_1 (c : Dev nD) (t : Fin cfg9.N) (p : Fin 2000) :
    (iblk9 V c 1 t : S2000x1.Idx → EReal) (ix2 p (0 : Fin 1)) = (V c main_v140 : S50000x1.Idx → EReal) (ix2 (row9 t p) (0 : Fin 1)) := by
  obtain ⟨-, -, e0, e1, -⟩ := idx9 t
  show (V c main_v140 : S50000x1.Idx → EReal) (((cfg9.win 1).blk t).view.emb (ix2 p (0 : Fin 1))) = _
  refine congrArg _ (funext fun a => Fin.ext ?_)
  match a with
  | ⟨0, _⟩ => show win9_1.index t (0 : Fin 2) * 2000 + 1 * p.val = t.val * 2000 + p.val; rw [e0]; omega
  | ⟨1, _⟩ => show win9_1.index t (1 : Fin 2) * 1 + 1 * 0 = 0; rw [e1]

/-- The bias window's block is the whole bias row at every point. -/
theorem blk9_2 (c : Dev nD) (t : Fin cfg9.N) (cc : Fin 128) :
    (iblk9 V c 2 t : S1x128.Idx → EReal) (ix2 (0 : Fin 1) cc) = (V c main_v152 : S1x128.Idx → EReal) (ix2 (0 : Fin 1) cc) := by
  obtain ⟨-, -, -, -, e0, e1, -⟩ := idx9 t
  show (V c main_v152 : S1x128.Idx → EReal) (((cfg9.win 2).blk t).view.emb (ix2 (0 : Fin 1) cc)) = _
  refine congrArg _ (funext fun a => Fin.ext ?_)
  match a with
  | ⟨0, _⟩ => show win9_2.index t (0 : Fin 2) * 1 + 1 * 0 = 0; rw [e0]
  | ⟨1, _⟩ => show win9_2.index t (1 : Fin 2) * 128 + 1 * cc.val = cc.val; rw [e1]; omega

/-- Where entry `(p, cc)` of the result's block at point `t` sits in the result array. -/
theorem emb9 (t : Fin cfg9.N) (p : Fin 2000) (cc : Fin 128) :
    (((cfg9.win 3).blk t).view.emb (ix2 p cc) : S50000x128.Idx) = ix2 (row9 t p) cc := by
  obtain ⟨-, -, -, -, -, -, e0, e1⟩ := idx9 t
  refine funext fun a => Fin.ext ?_
  match a with
  | ⟨0, _⟩ => show win9_3.index t (0 : Fin 2) * 2000 + 1 * p.val = t.val * 2000 + p.val; rw [e0]; omega
  | ⟨1, _⟩ => show win9_3.index t (1 : Fin 2) * 128 + 1 * cc.val = cc.val; rw [e1]; omega

/-- What point `t` writes back is block `t` of `scaleBias` of the whole arrays. -/
theorem flushed9 (c : Dev nD) (t : Fin cfg9.N) :
    (dat9 (F := Ideal) V c).flushed 3 t = ((cfg9.win 3).blk t).view.read (Elt Ideal)
      (scaleBias (V c main_v151 : S50000x128.Idx → EReal)
        (V c main_v140 : S50000x1.Idx → EReal)
        (V c main_v152 : S1x128.Idx → EReal)) := by
  show (cfg9.win 3).cut (grid9.coords t) ((dat9 (F := Ideal) V c).after 3 t) = _
  rw [after9_3]
  unfold out9_3
  rw [View.canon_unit_zero off_zero]
  simp only [View.ld_unit_zero (S := S2000x128) off_zero,
    View.ld_unit_zero (S := S2000x1) off_zero,
    View.ld_unit_zero (S := S1x128) off_zero]
  refine funext fun (j : S2000x128.Idx) => ?_
  obtain ⟨p, cc, rfl⟩ : ∃ (p : Fin 2000) (cc : Fin 128), j = ix2 p cc := ⟨j 0, j 1, eq_ix2 j⟩
  show k1_pay1 (F := Ideal) (iblk9 V c 0 t) (iblk9 V c 1 t) (iblk9 V c 2 t) (ix2 p cc)
    = scaleBias (V c main_v151 : S50000x128.Idx → EReal)
        (V c main_v140 : S50000x1.Idx → EReal)
        (V c main_v152 : S1x128.Idx → EReal)
        (((cfg9.win 3).blk t).view.emb (ix2 p cc))
  rw [emb9 t p cc]
  exact bias_block (iblk9 V c 0 t) (iblk9 V c 1 t) (iblk9 V c 2 t) (V c main_v151 : S50000x128.Idx → EReal)
    (V c main_v140 : S50000x1.Idx → EReal)
    (V c main_v152 : S1x128.Idx → EReal) p cc (row9 t p)
    (blk9_0 V c t p cc) (blk9_1 V c t p) (blk9_2 V c t cc)

/-- An index of the result array is in point `t`'s block iff each coordinate is in the block's range on its axis. -/
theorem mem_blk9 (t : Fin cfg9.N) (i : S50000x128.Idx) :
    i ∈ ((cfg9.win 3).blk t).view.set ↔ ∀ a : Fin 2, win9_3.index t a * S2000x128.size a ≤ (i a).val
      ∧ (i a).val < win9_3.index t a * S2000x128.size a + S2000x128.size a := by
  show i ∈ ((View.whole main_v153).slice (win9_3.rect t)).set ↔ _
  rw [View.set_slice_whole, Rect.mem_set_unit]
  exact Iff.rfl

/-- Every row of the result is in the block of the point `row / 2000`. -/
theorem cover9 (i : S50000x128.Idx) :
    ∃ t : Fin cfg9.N, (cfg9.win 3).flush t = true ∧ i ∈ ((cfg9.win 3).blk t).view.set := by
  have hi0 : (i 0).val < 50000 := (i 0).isLt
  have hi1 : (i 1).val < 128 := (i 1).isLt
  have hN : cfg9.N = 25 := N_9
  have ht : (i 0).val / 2000 < cfg9.N := by rw [hN]; omega
  obtain ⟨-, -, -, -, -, -, e0, e1⟩ := idx9 ⟨(i 0).val / 2000, ht⟩
  refine ⟨⟨(i 0).val / 2000, ht⟩, flush9_3 _, ?_⟩
  rw [mem_blk9]
  intro a
  match a with
  | ⟨0, _⟩ =>
    show win9_3.index ⟨(i 0).val / 2000, ht⟩ (0 : Fin 2) * 2000 ≤ (i 0).val
      ∧ (i 0).val < win9_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win9_3.index ⟨(i 0).val / 2000, ht⟩ (1 : Fin 2) * 128 ≤ (i 1).val
      ∧ (i 1).val < win9_3.index ⟨(i 0).val / 2000, ht⟩ (1 : Fin 2) * 128 + 128
    rw [e1]; omega

/-- The result array after the stage: `scaleBias` of the arrays the stage found. -/
theorem final9 (V : (c : Dev nD) → (b : Ref sig .tc) → Buf (Elt Ideal) ((c : Thread nD τ).loc b)) (c : Dev nD) :
    (Gen.dat9 (F := Ideal) V c).arrAt 3 cfg9.N = scaleBias (V c main_v151) (V c main_v140) (V c main_v152) :=
  (dat9 (F := Ideal) V c).arrAt_eq_of_cover 3
    (scaleBias (V c main_v151 : S50000x128.Idx → EReal) (V c main_v140 : S50000x1.Idx → EReal) (V c main_v152 : S1x128.Idx → EReal))
    (fun t _ => flushed9 V c t) cover9

end Cert.KernelIdeal.RegVal

end
-- ==== Proof.Reg10.lean ====
/-
  A SCALED-PRODUCT STAGE AS ONE WHOLE-ARRAY FUNCTION, at the ideal values (the stage numbered 10 of the thirteen).

  The stage runs on a one-axis grid of 15 blocks of 2000 rows: at block `t` it reads rows `2000·t … 2000·t + 1999` of the
  features and of the scaling column, the whole weight matrix, and writes the same rows of the result.  Entry `(p, c)` of
  what block `t` writes is entry `(2000·t + p, c)` of `scaleProd` of the whole arrays, because a row of a scaled product
  depends on that row of the row-indexed operands only.  The 15 blocks cover the 30000 rows (row `r` is in block `r / 2000`), so the
  result array ends holding `scaleProd` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`, the weight window at `(0, 0)`. -/
theorem idx10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- A point of the grid is below 15. -/
theorem lt10 (t : Fin cfg10.N) : t.val < 15 := by
  have h := t.isLt
  have hN : cfg10.N = 15 := N_10
  omega

/-- Row `p` of block `t` is row `2000·t + p` of a 30000-row array. -/
def row10 (t : Fin cfg10.N) (p : Fin 2000) : Fin 30000 := ⟨t.val * 2000 + p.val, by have := lt10 t; have := p.isLt; omega⟩

/-- The block of window 0 at point `t`, read at `(p, k)`: row `2000·t + p` of the array. -/
theorem blk10_0 (c : Dev nD) (t : Fin cfg10.N) (p : Fin 2000) (k : Fin 128) :
    (iblk10 V c 0 t : S2000x128.Idx → EReal) (ix2 p k) = (V c main_v115 : S30000x128.Idx → EReal) (ix2 (row10 t p) k) := by
  obtain ⟨e0, e1, -⟩ := idx10 t
  show (V c main_v115 : S30000x128.Idx → EReal) (((cfg10.win 0).blk t).view.emb (ix2 p k)) = _
  refine congrArg _ (funext fun a => Fin.ext ?_)
  match a with
  | ⟨0, _⟩ => show win10_0.index t (0 : Fin 2) * 2000 + 1 * p.val = t.val * 2000 + p.val; rw [e0]; omega
  | ⟨1, _⟩ => show win10_0.index t (1 : Fin 2) * 128 + 1 * k.val = k.val; rw [e1]; omega

/-- The scaling column's block at point `t`, read at `(p, 0)`. -/
theorem blk10_1 (c : Dev nD) (t : Fin cfg10.N) (p : Fin 2000) :
    (iblk10 V c 1 t : S2000x1.Idx → EReal) (ix2 p (0 : Fin 1)) = (V c main_v174 : S30000x1.Idx → EReal) (ix2 (row10 t p) (0 : Fin 1)) := by
  obtain ⟨-, -, e0, e1, -⟩ := idx10 t
  show (V c main_v174 : S30000x1.Idx → EReal) (((cfg10.win 1).blk t).view.emb (ix2 p (0 : Fin 1))) = _
  refine congrArg _ (funext fun a => Fin.ext ?_)
  match a with
  | ⟨0, _⟩ => show win10_1.index t (0 : Fin 2) * 2000 + 1 * p.val = t.val * 2000 + p.val; rw [e0]; omega
  | ⟨1, _⟩ => show win10_1.index t (1 : Fin 2) * 1 + 1 * 0 = 0; rw [e1]

/-- The weight window's block is the whole weight matrix at every point. -/
theorem blk10_2 (c : Dev nD) (t : Fin cfg10.N) (k : Fin 128) (cc : Fin 128) :
    (iblk10 V c 2 t : S128x128.Idx → EReal) (ix2 k cc) = (V c main_arg18 : S128x128.Idx → EReal) (ix2 k cc) := by
  obtain ⟨-, -, -, -, e0, e1, -⟩ := idx10 t
  show (V c main_arg18 : S128x128.Idx → EReal) (((cfg10.win 2).blk t).view.emb (ix2 k cc)) = _
  refine congrArg _ (funext fun a => Fin.ext ?_)
  match a with
  | ⟨0, _⟩ => show win10_2.index t (0 : Fin 2) * 128 + 1 * k.val = k.val; rw [e0]; omega
  | ⟨1, _⟩ => show win10_2.index t (1 : Fin 2) * 128 + 1 * cc.val = cc.val; rw [e1]; omega

/-- Where entry `(p, cc)` of the result's block at point `t` sits in the result array. -/
theorem emb10 (t : Fin cfg10.N) (p : Fin 2000) (cc : Fin 128) :
    (((cfg10.win 3).blk t).view.emb (ix2 p cc) : S30000x128.Idx) = ix2 (row10 t p) cc := by
  obtain ⟨-, -, -, -, -, -, e0, e1⟩ := idx10 t
  refine funext fun a => Fin.ext ?_
  match a with
  | ⟨0, _⟩ => show win10_3.index t (0 : Fin 2) * 2000 + 1 * p.val = t.val * 2000 + p.val; rw [e0]; omega
  | ⟨1, _⟩ => show win10_3.index t (1 : Fin 2) * 128 + 1 * cc.val = cc.val; rw [e1]; omega

/-- What point `t` writes back is block `t` of `scaleProd` of the whole arrays. -/
theorem flushed10 (c : Dev nD) (t : Fin cfg10.N) :
    (dat10 (F := Ideal) V c).flushed 3 t = ((cfg10.win 3).blk t).view.read (Elt Ideal)
      (scaleProd (V c main_v115 : S30000x128.Idx → EReal)
        (V c main_v174 : S30000x1.Idx → EReal)
        (V c main_arg18 : S128x128.Idx → EReal)) := by
  show (cfg10.win 3).cut (grid10.coords t) ((dat10 (F := Ideal) V c).after 3 t) = _
  rw [after10_3]
  unfold out10_3
  rw [View.canon_unit_zero off_zero]
  simp only [View.ld_unit_zero (S := S2000x128) off_zero,
    View.ld_unit_zero (S := S2000x1) off_zero,
    View.ld_unit_zero (S := S128x128) off_zero]
  refine funext fun (j : S2000x128.Idx) => ?_
  obtain ⟨p, cc, rfl⟩ : ∃ (p : Fin 2000) (cc : Fin 128), j = ix2 p cc := ⟨j 0, j 1, eq_ix2 j⟩
  show k8_pay1 (F := Ideal) (iblk10 V c 0 t) (iblk10 V c 1 t) (iblk10 V c 2 t) (ix2 p cc)
    = scaleProd (V c main_v115 : S30000x128.Idx → EReal)
        (V c main_v174 : S30000x1.Idx → EReal)
        (V c main_arg18 : S128x128.Idx → EReal)
        (((cfg10.win 3).blk t).view.emb (ix2 p cc))
  rw [emb10 t p cc]
  exact prodB_block (iblk10 V c 0 t) (iblk10 V c 1 t) (iblk10 V c 2 t) (V c main_v115 : S30000x128.Idx → EReal)
    (V c main_v174 : S30000x1.Idx → EReal)
    (V c main_arg18 : S128x128.Idx → EReal) p cc (row10 t p)
    (fun k => blk10_0 V c t p k) (blk10_1 V c t p) (fun k => blk10_2 V c t k cc)

/-- An index of the result array is in point `t`'s block iff each coordinate is in the block's range on its axis. -/
theorem mem_blk10 (t : Fin cfg10.N) (i : S30000x128.Idx) :
    i ∈ ((cfg10.win 3).blk t).view.set ↔ ∀ a : Fin 2, win10_3.index t a * S2000x128.size a ≤ (i a).val
      ∧ (i a).val < win10_3.index t a * S2000x128.size a + S2000x128.size a := by
  show i ∈ ((View.whole main_v179).slice (win10_3.rect t)).set ↔ _
  rw [View.set_slice_whole, Rect.mem_set_unit]
  exact Iff.rfl

/-- Every row of the result is in the block of the point `row / 2000`. -/
theorem cover10 (i : S30000x128.Idx) :
    ∃ t : Fin cfg10.N, (cfg10.win 3).flush t = true ∧ i ∈ ((cfg10.win 3).blk t).view.set := by
  have hi0 : (i 0).val < 30000 := (i 0).isLt
  have hi1 : (i 1).val < 128 := (i 1).isLt
  have hN : cfg10.N = 15 := N_10
  have ht : (i 0).val / 2000 < cfg10.N := by rw [hN]; omega
  obtain ⟨-, -, -, -, -, -, e0, e1⟩ := idx10 ⟨(i 0).val / 2000, ht⟩
  refine ⟨⟨(i 0).val / 2000, ht⟩, flush10_3 _, ?_⟩
  rw [mem_blk10]
  intro a
  match a with
  | ⟨0, _⟩ =>
    show win10_3.index ⟨(i 0).val / 2000, ht⟩ (0 : Fin 2) * 2000 ≤ (i 0).val
      ∧ (i 0).val < win10_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win10_3.index ⟨(i 0).val / 2000, ht⟩ (1 : Fin 2) * 128 ≤ (i 1).val
      ∧ (i 1).val < win10_3.index ⟨(i 0).val / 2000, ht⟩ (1 : Fin 2) * 128 + 128
    rw [e1]; omega

/-- The result array after the stage: `scaleProd` of the arrays the stage found. -/
theorem final10 (V : (c : Dev nD) → (b : Ref sig .tc) → Buf (Elt Ideal) ((c : Thread nD τ).loc b)) (c : Dev nD) :
    (Gen.dat10 (F := Ideal) V c).arrAt 3 cfg10.N = scaleProd (V c main_v115) (V c main_v174) (V c main_arg18) :=
  (dat10 (F := Ideal) V c).arrAt_eq_of_cover 3
    (scaleProd (V c main_v115 : S30000x128.Idx → EReal) (V c main_v174 : S30000x1.Idx → EReal) (V c main_arg18 : S128x128.Idx → EReal))
    (fun t _ => flushed10 V c t) cover10

end Cert.KernelIdeal.RegVal

end
-- ==== Proof.Reg11.lean ====
/-
  A SCALE-AND-BIAS STAGE AS ONE WHOLE-ARRAY FUNCTION, at the ideal values (the stage numbered 11 of the thirteen).

  The stage runs on a one-axis grid of 25 blocks of 2000 rows: at block `t` it reads rows `2000·t … 2000·t + 1999` of the
  aggregate and of the scaling column, the one bias row, and writes the same rows of the result.  Entry `(p, c)` of what
  block `t` writes is entry `(2000·t + p, c)` of `scaleBias` of the whole arrays: the aggregate's entry times the row's one
  number plus the bias of the column.  The 25 blocks cover the 50000 rows (row `r` is in block `r / 2000`), so the result array
  ends holding `scaleBias` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`, the bias window at `(0, 0)`. -/
theorem idx11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- A point of the grid is below 25. -/
theorem lt11 (t : Fin cfg11.N) : t.val < 25 := by
  have h := t.isLt
  have hN : cfg11.N = 25 := N_11
  omega

/-- Row `p` of block `t` is row `2000·t + p` of a 50000-row array. -/
def row11 (t : Fin cfg11.N) (p : Fin 2000) : Fin 50000 := ⟨t.val * 2000 + p.val, by have := lt11 t; have := p.isLt; omega⟩

/-- The block of window 0 at point `t`, read at `(p, k)`: row `2000·t + p` of the array. -/
theorem blk11_0 (c : Dev nD) (t : Fin cfg11.N) (p : Fin 2000) (k : Fin 128) :
    (iblk11 V c 0 t : S2000x128.Idx → EReal) (ix2 p k) = (V c main_v189 : S50000x128.Idx → EReal) (ix2 (row11 t p) k) := by
  obtain ⟨e0, e1, -⟩ := idx11 t
  show (V c main_v189 : S50000x128.Idx → EReal) (((cfg11.win 0).blk t).view.emb (ix2 p k)) = _
  refine congrArg _ (funext fun a => Fin.ext ?_)
  match a with
  | ⟨0, _⟩ => show win11_0.index t (0 : Fin 2) * 2000 + 1 * p.val = t.val * 2000 + p.val; rw [e0]; omega
  | ⟨1, _⟩ => show win11_0.index t (1 : Fin 2) * 128 + 1 * k.val = k.val; rw [e1]; omega

/-- The scaling column's block at point `t`, read at `(p, 0)`. -/
theorem blk11_1 (c : Dev nD) (t : Fin cfg11.N) (p : Fin 2000) :
    (iblk11 V c 1 t : S2000x1.Idx → EReal) (ix2 p (0 : Fin 1)) = (V c main_v178 : S50000x1.Idx → EReal) (ix2 (row11 t p) (0 : Fin 1)) := by
  obtain ⟨-, -, e0, e1, -⟩ := idx11 t
  show (V c main_v178 : S50000x1.Idx → EReal) (((cfg11.win 1).blk t).view.emb (ix2 p (0 : Fin 1))) = _
  refine congrArg _ (funext fun a => Fin.ext ?_)
  match a with
  | ⟨0, _⟩ => show win11_1.index t (0 : Fin 2) * 2000 + 1 * p.val = t.val * 2000 + p.val; rw [e0]; omega
  | ⟨1, _⟩ => show win11_1.index t (1 : Fin 2) * 1 + 1 * 0 = 0; rw [e1]

/-- The bias window's block is the whole bias row at every point. -/
theorem blk11_2 (c : Dev nD) (t : Fin cfg11.N) (cc : Fin 128) :
    (iblk11 V c 2 t : S1x128.Idx → EReal) (ix2 (0 : Fin 1) cc) = (V c main_v190 : S1x128.Idx → EReal) (ix2 (0 : Fin 1) cc) := by
  obtain ⟨-, -, -, -, e0, e1, -⟩ := idx11 t
  show (V c main_v190 : S1x128.Idx → EReal) (((cfg11.win 2).blk t).view.emb (ix2 (0 : Fin 1) cc)) = _
  refine congrArg _ (funext fun a => Fin.ext ?_)
  match a with
  | ⟨0, _⟩ => show win11_2.index t (0 : Fin 2) * 1 + 1 * 0 = 0; rw [e0]
  | ⟨1, _⟩ => show win11_2.index t (1 : Fin 2) * 128 + 1 * cc.val = cc.val; rw [e1]; omega

/-- Where entry `(p, cc)` of the result's block at point `t` sits in the result array. -/
theorem emb11 (t : Fin cfg11.N) (p : Fin 2000) (cc : Fin 128) :
    (((cfg11.win 3).blk t).view.emb (ix2 p cc) : S50000x128.Idx) = ix2 (row11 t p) cc := by
  obtain ⟨-, -, -, -, -, -, e0, e1⟩ := idx11 t
  refine funext fun a => Fin.ext ?_
  match a with
  | ⟨0, _⟩ => show win11_3.index t (0 : Fin 2) * 2000 + 1 * p.val = t.val * 2000 + p.val; rw [e0]; omega
  | ⟨1, _⟩ => show win11_3.index t (1 : Fin 2) * 128 + 1 * cc.val = cc.val; rw [e1]; omega

/-- What point `t` writes back is block `t` of `scaleBias` of the whole arrays. -/
theorem flushed11 (c : Dev nD) (t : Fin cfg11.N) :
    (dat11 (F := Ideal) V c).flushed 3 t = ((cfg11.win 3).blk t).view.read (Elt Ideal)
      (scaleBias (V c main_v189 : S50000x128.Idx → EReal)
        (V c main_v178 : S50000x1.Idx → EReal)
        (V c main_v190 : S1x128.Idx → EReal)) := by
  show (cfg11.win 3).cut (grid11.coords t) ((dat11 (F := Ideal) V c).after 3 t) = _
  rw [after11_3]
  unfold out11_3
  rw [View.canon_unit_zero off_zero]
  simp only [View.ld_unit_zero (S := S2000x128) off_zero,
    View.ld_unit_zero (S := S2000x1) off_zero,
    View.ld_unit_zero (S := S1x128) off_zero]
  refine funext fun (j : S2000x128.Idx) => ?_
  obtain ⟨p, cc, rfl⟩ : ∃ (p : Fin 2000) (cc : Fin 128), j = ix2 p cc := ⟨j 0, j 1, eq_ix2 j⟩
  show k1_pay1 (F := Ideal) (iblk11 V c 0 t) (iblk11 V c 1 t) (iblk11 V c 2 t) (ix2 p cc)
    = scaleBias (V c main_v189 : S50000x128.Idx → EReal)
        (V c main_v178 : S50000x1.Idx → EReal)
        (V c main_v190 : S1x128.Idx → EReal)
        (((cfg11.win 3).blk t).view.emb (ix2 p cc))
  rw [emb11 t p cc]
  exact bias_block (iblk11 V c 0 t) (iblk11 V c 1 t) (iblk11 V c 2 t) (V c main_v189 : S50000x128.Idx → EReal)
    (V c main_v178 : S50000x1.Idx → EReal)
    (V c main_v190 : S1x128.Idx → EReal) p cc (row11 t p)
    (blk11_0 V c t p cc) (blk11_1 V c t p) (blk11_2 V c t cc)

/-- An index of the result array is in point `t`'s block iff each coordinate is in the block's range on its axis. -/
theorem mem_blk11 (t : Fin cfg11.N) (i : S50000x128.Idx) :
    i ∈ ((cfg11.win 3).blk t).view.set ↔ ∀ a : Fin 2, win11_3.index t a * S2000x128.size a ≤ (i a).val
      ∧ (i a).val < win11_3.index t a * S2000x128.size a + S2000x128.size a := by
  show i ∈ ((View.whole main_v191).slice (win11_3.rect t)).set ↔ _
  rw [View.set_slice_whole, Rect.mem_set_unit]
  exact Iff.rfl

/-- Every row of the result is in the block of the point `row / 2000`. -/
theorem cover11 (i : S50000x128.Idx) :
    ∃ t : Fin cfg11.N, (cfg11.win 3).flush t = true ∧ i ∈ ((cfg11.win 3).blk t).view.set := by
  have hi0 : (i 0).val < 50000 := (i 0).isLt
  have hi1 : (i 1).val < 128 := (i 1).isLt
  have hN : cfg11.N = 25 := N_11
  have ht : (i 0).val / 2000 < cfg11.N := by rw [hN]; omega
  obtain ⟨-, -, -, -, -, -, e0, e1⟩ := idx11 ⟨(i 0).val / 2000, ht⟩
  refine ⟨⟨(i 0).val / 2000, ht⟩, flush11_3 _, ?_⟩
  rw [mem_blk11]
  intro a
  match a with
  | ⟨0, _⟩ =>
    show win11_3.index ⟨(i 0).val / 2000, ht⟩ (0 : Fin 2) * 2000 ≤ (i 0).val
      ∧ (i 0).val < win11_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win11_3.index ⟨(i 0).val / 2000, ht⟩ (1 : Fin 2) * 128 ≤ (i 1).val
      ∧ (i 1).val < win11_3.index ⟨(i 0).val / 2000, ht⟩ (1 : Fin 2) * 128 + 128
    rw [e1]; omega

/-- The result array after the stage: `scaleBias` of the arrays the stage found. -/
theorem final11 (V : (c : Dev nD) → (b : Ref sig .tc) → Buf (Elt Ideal) ((c : Thread nD τ).loc b)) (c : Dev nD) :
    (Gen.dat11 (F := Ideal) V c).arrAt 3 cfg11.N = scaleBias (V c main_v189) (V c main_v178) (V c main_v190) :=
  (dat11 (F := Ideal) V c).arrAt_eq_of_cover 3
    (scaleBias (V c main_v189 : S50000x128.Idx → EReal) (V c main_v178 : S50000x1.Idx → EReal) (V c main_v190 : S1x128.Idx → EReal))
    (fun t _ => flushed11 V c t) cover11

end Cert.KernelIdeal.RegVal

end
-- ==== Proof.Reg12.lean ====
/-
  THE SUM STAGE AS ONE WHOLE-ARRAY FUNCTION, at the ideal values (the stage numbered 12 of the thirteen).

  The stage runs on a one-axis grid of 25 blocks of 2000 rows: at block `t` it reads rows `2000·t … 2000·t + 1999` of
  its two operands and writes the same rows of the result, entry by entry.  Entry `(p, c)` of what block `t` writes is
  entry `(2000·t + p, c)` of `addArr` of the whole arrays.  The 25 blocks cover the 50000 rows (row `r` is in block `r / 2000`),
  so the result array ends holding `addArr` of the arrays the stage found.
-/
import proofs.«173211_j66030827209235_1_alg».proof.Proof.RegCommon
import proofs.«173211_j66030827209235_1_alg».proof.Proof.Gen.KernelIdeal.Frame
import Idealize.ShloMosaic.Lib.Pipeline.Value

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen Cert.Arr
open Idealize.ShloMosaic.Pipeline (Dat)

variable (V : (c : Dev nD) → (b : Ref sig .tc) → Buf (Elt Ideal) ((c : Thread nD τ).loc b))

/-- The block index maps over the grid: the row-indexed windows are at block `(t, 0)`. -/
theorem idx12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0 :=
  (by decide +kernel : ∀ t : Fin grid12.N, _)

/-- A point of the grid is below 25. -/
theorem lt12 (t : Fin cfg12.N) : t.val < 25 := by
  have h := t.isLt
  have hN : cfg12.N = 25 := N_12
  omega

/-- Row `p` of block `t` is row `2000·t + p` of a 50000-row array. -/
def row12 (t : Fin cfg12.N) (p : Fin 2000) : Fin 50000 := ⟨t.val * 2000 + p.val, by have := lt12 t; have := p.isLt; omega⟩

/-- The block of window 0 at point `t`, read at `(p, k)`: row `2000·t + p` of the array. -/
theorem blk12_0 (c : Dev nD) (t : Fin cfg12.N) (p : Fin 2000) (k : Fin 128) :
    (iblk12 V c 0 t : S2000x128.Idx → EReal) (ix2 p k) = (V c main_v153 : S50000x128.Idx → EReal) (ix2 (row12 t p) k) := by
  obtain ⟨e0, e1, -⟩ := idx12 t
  show (V c main_v153 : S50000x128.Idx → EReal) (((cfg12.win 0).blk t).view.emb (ix2 p k)) = _
  refine congrArg _ (funext fun a => Fin.ext ?_)
  match a with
  | ⟨0, _⟩ => show win12_0.index t (0 : Fin 2) * 2000 + 1 * p.val = t.val * 2000 + p.val; rw [e0]; omega
  | ⟨1, _⟩ => show win12_0.index t (1 : Fin 2) * 128 + 1 * k.val = k.val; rw [e1]; omega

/-- The block of window 1 at point `t`, read at `(p, k)`: row `2000·t + p` of the array. -/
theorem blk12_1 (c : Dev nD) (t : Fin cfg12.N) (p : Fin 2000) (k : Fin 128) :
    (iblk12 V c 1 t : S2000x128.Idx → EReal) (ix2 p k) = (V c main_v191 : S50000x128.Idx → EReal) (ix2 (row12 t p) k) := by
  obtain ⟨-, -, e0, e1, -⟩ := idx12 t
  show (V c main_v191 : S50000x128.Idx → EReal) (((cfg12.win 1).blk t).view.emb (ix2 p k)) = _
  refine congrArg _ (funext fun a => Fin.ext ?_)
  match a with
  | ⟨0, _⟩ => show win12_1.index t (0 : Fin 2) * 2000 + 1 * p.val = t.val * 2000 + p.val; rw [e0]; omega
  | ⟨1, _⟩ => show win12_1.index t (1 : Fin 2) * 128 + 1 * k.val = k.val; rw [e1]; omega

/-- Where entry `(p, cc)` of the result's block at point `t` sits in the result array. -/
theorem emb12 (t : Fin cfg12.N) (p : Fin 2000) (cc : Fin 128) :
    (((cfg12.win 2).blk t).view.emb (ix2 p cc) : S50000x128.Idx) = ix2 (row12 t p) cc := by
  obtain ⟨-, -, -, -, e0, e1⟩ := idx12 t
  refine funext fun a => Fin.ext ?_
  match a with
  | ⟨0, _⟩ => show win12_2.index t (0 : Fin 2) * 2000 + 1 * p.val = t.val * 2000 + p.val; rw [e0]; omega
  | ⟨1, _⟩ => show win12_2.index t (1 : Fin 2) * 128 + 1 * cc.val = cc.val; rw [e1]; omega

/-- What point `t` writes back is block `t` of `addArr` of the whole arrays. -/
theorem flushed12 (c : Dev nD) (t : Fin cfg12.N) :
    (dat12 (F := Ideal) V c).flushed 2 t = ((cfg12.win 2).blk t).view.read (Elt Ideal)
      (addArr (V c main_v153 : S50000x128.Idx → EReal)
        (V c main_v191 : S50000x128.Idx → EReal)) := by
  show (cfg12.win 2).cut (grid12.coords t) ((dat12 (F := Ideal) V c).after 2 t) = _
  rw [after12_2]
  unfold out12_2
  rw [View.canon_unit_zero off_zero]
  simp only [View.ld_unit_zero (S := S2000x128) off_zero]
  refine funext fun (j : S2000x128.Idx) => ?_
  obtain ⟨p, cc, rfl⟩ : ∃ (p : Fin 2000) (cc : Fin 128), j = ix2 p cc := ⟨j 0, j 1, eq_ix2 j⟩
  show k12_pay1 (F := Ideal) (iblk12 V c 0 t) (iblk12 V c 1 t) (ix2 p cc)
    = addArr (V c main_v153 : S50000x128.Idx → EReal)
        (V c main_v191 : S50000x128.Idx → EReal)
        (((cfg12.win 2).blk t).view.emb (ix2 p cc))
  rw [emb12 t p cc]
  exact add_block (s := S50000x128) (iblk12 V c 0 t) (iblk12 V c 1 t) (V c main_v153 : S50000x128.Idx → EReal)
    (V c main_v191 : S50000x128.Idx → EReal) (ix2 p cc) (ix2 (row12 t p) cc)
    (blk12_0 V c t p cc) (blk12_1 V c t p cc)

/-- An index of the result array is in point `t`'s block iff each coordinate is in the block's range on its axis. -/
theorem mem_blk12 (t : Fin cfg12.N) (i : S50000x128.Idx) :
    i ∈ ((cfg12.win 2).blk t).view.set ↔ ∀ a : Fin 2, win12_2.index t a * S2000x128.size a ≤ (i a).val
      ∧ (i a).val < win12_2.index t a * S2000x128.size a + S2000x128.size a := by
  show i ∈ ((View.whole main_v192).slice (win12_2.rect t)).set ↔ _
  rw [View.set_slice_whole, Rect.mem_set_unit]
  exact Iff.rfl

/-- Every row of the result is in the block of the point `row / 2000`. -/
theorem cover12 (i : S50000x128.Idx) :
    ∃ t : Fin cfg12.N, (cfg12.win 2).flush t = true ∧ i ∈ ((cfg12.win 2).blk t).view.set := by
  have hi0 : (i 0).val < 50000 := (i 0).isLt
  have hi1 : (i 1).val < 128 := (i 1).isLt
  have hN : cfg12.N = 25 := N_12
  have ht : (i 0).val / 2000 < cfg12.N := by rw [hN]; omega
  obtain ⟨-, -, -, -, e0, e1⟩ := idx12 ⟨(i 0).val / 2000, ht⟩
  refine ⟨⟨(i 0).val / 2000, ht⟩, flush12_2 _, ?_⟩
  rw [mem_blk12]
  intro a
  match a with
  | ⟨0, _⟩ =>
    show win12_2.index ⟨(i 0).val / 2000, ht⟩ (0 : Fin 2) * 2000 ≤ (i 0).val
      ∧ (i 0).val < win12_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win12_2.index ⟨(i 0).val / 2000, ht⟩ (1 : Fin 2) * 128 ≤ (i 1).val
      ∧ (i 1).val < win12_2.index ⟨(i 0).val / 2000, ht⟩ (1 : Fin 2) * 128 + 128
    rw [e1]; omega

/-- The result array after the stage: `addArr` of the arrays the stage found. -/
theorem final12 (V : (c : Dev nD) → (b : Ref sig .tc) → Buf (Elt Ideal) ((c : Thread nD τ).loc b)) (c : Dev nD) :
    (Gen.dat12 (F := Ideal) V c).arrAt 2 cfg12.N = addArr (V c main_v153) (V c main_v191) :=
  (dat12 (F := Ideal) V c).arrAt_eq_of_cover 2
    (addArr (V c main_v153 : S50000x128.Idx → EReal) (V c main_v191 : S50000x128.Idx → EReal))
    (fun t _ => flushed12 V c t) cover12

end Cert.KernelIdeal.RegVal

end
-- ==== Proof.Stages.lean ====
/-
  THE TWO PROGRAMS AS COMPOSED FUNCTIONS OF THEIR ARGUMENTS.

  Both programs compute two layers of degree-normalised graph convolution over three edge relations
  (chem→chem, gene→chem, chem→gene).  One convolution, for an edge list `(src, dst)`:
    • the degree of a node is the number of edges that name it (a scatter-add of ones, a negative index wrapped once
      by the node count first), and `inv idx = 1 / sqrt (max (degree, 1))`;
    • the features are scaled row by row by `inv src`, multiplied by the weights, gathered along `src`, summed into
      their `dst` rows (`agg`), scaled row by row by `inv dst`, and the bias row is added.
  The kernel program computes the two dense stages on a grid of row blocks (`Arr.scaleProd`, `Arr.scaleBias`, the
  column of scales a reshape of `inv`); the reference writes them as whole-array operations with the scales and the bias
  broadcast (`convR…`).  Layer one's two chem-bound relations are added and passed through the leaky rectifier, the
  gene-bound one through the rectifier alone; layer two adds its two chem-bound relations.
  The degree, gather and segment-sum chains are the same operations in both programs; they are stated once, over a
  bundle `Dims` of the scatter and gather dimension records, which each program supplies with its own (equal) records.
-/
import proofs.«173211_j66030827209235_1_alg».proof.KernelIdeal
import proofs.«173211_j66030827209235_1_alg».proof.ReferenceIdeal
import proofs.«173211_j66030827209235_1_alg».proof.Proof.Gen.KernelIdeal
import proofs.«173211_j66030827209235_1_alg».proof.Proof.Gen.ReferenceIdeal
import proofs.«173211_j66030827209235_1_alg».proof.Proof.Arr

noncomputable section

namespace Cert.Stage

open Idealize.ShloMosaic
open Cert.KernelIdeal (S_ S500000 S400000 S500000x1 S400000x1 S50000 S30000 S50000x1 S30000x1 S50000x128 S30000x128 S500000x128 S400000x128 S128x128 S128 S1x128)

variable {F : FTy → Type} [FloatOps F]

/-- The contents of a 32-bit integer buffer of shape `s`, and of a single-precision float buffer. -/
abbrev CI (F : FTy → Type) (s : Shape) : Type := (⟨s, .i32⟩ : BufTy).Contents (Elt F)
abbrev CF (F : FTy → Type) (s : Shape) : Type := (⟨s, .f32⟩ : BufTy).Contents (Elt F)

/-- The scatter and gather dimension records of the three relations: the degree counts (`deg…`), the row gathers
    (`gat…`) and the segment sums (`sum…`). -/
structure Dims where
  deg5 : ScatterDims S50000 S500000x1 S500000
  deg4a : ScatterDims S30000 S400000x1 S400000
  deg4b : ScatterDims S50000 S400000x1 S400000
  gatCC : GatherDims S50000x128 S500000x1 S500000x128
  gatGC : GatherDims S30000x128 S400000x1 S400000x128
  gatCG : GatherDims S50000x128 S400000x1 S400000x128
  sumCC : ScatterDims S50000x128 S500000x1 S500000x128
  sumGC : ScatterDims S50000x128 S400000x1 S400000x128
  sumCG : ScatterDims S30000x128 S400000x1 S400000x128

/-- The kernel program's records. -/
def kD : Dims where
  deg5 := Cert.KernelIdeal.scatter_S50000_S500000x1_S500000_n_0_0_1
  deg4a := Cert.KernelIdeal.scatter_S30000_S400000x1_S400000_n_0_0_1
  deg4b := Cert.KernelIdeal.scatter_S50000_S400000x1_S400000_n_0_0_1
  gatCC := Cert.KernelIdeal.gather_S50000x128_S500000x1_S500000x128_1_0_n_n_0_1_1128
  gatGC := Cert.KernelIdeal.gather_S30000x128_S400000x1_S400000x128_1_0_n_n_0_1_1128
  gatCG := Cert.KernelIdeal.gather_S50000x128_S400000x1_S400000x128_1_0_n_n_0_1_1128
  sumCC := Cert.KernelIdeal.scatter_S50000x128_S500000x1_S500000x128_1_0_0_1
  sumGC := Cert.KernelIdeal.scatter_S50000x128_S400000x1_S400000x128_1_0_0_1
  sumCG := Cert.KernelIdeal.scatter_S30000x128_S400000x1_S400000x128_1_0_0_1

/-- The reference's records. -/
def rD : Dims where
  deg5 := Cert.ReferenceIdeal.scatter_S50000_S500000x1_S500000_n_0_0_1
  deg4a := Cert.ReferenceIdeal.scatter_S30000_S400000x1_S400000_n_0_0_1
  deg4b := Cert.ReferenceIdeal.scatter_S50000_S400000x1_S400000_n_0_0_1
  gatCC := Cert.ReferenceIdeal.gather_S50000x128_S500000x1_S500000x128_1_0_n_n_0_1_1128
  gatGC := Cert.ReferenceIdeal.gather_S30000x128_S400000x1_S400000x128_1_0_n_n_0_1_1128
  gatCG := Cert.ReferenceIdeal.gather_S50000x128_S400000x1_S400000x128_1_0_n_n_0_1_1128
  sumCC := Cert.ReferenceIdeal.scatter_S50000x128_S500000x1_S500000x128_1_0_0_1
  sumGC := Cert.ReferenceIdeal.scatter_S50000x128_S400000x1_S400000x128_1_0_0_1
  sumCG := Cert.ReferenceIdeal.scatter_S30000x128_S400000x1_S400000x128_1_0_0_1

/-- The two programs' records are the same lists of axes. -/
theorem rD_eq : rD = kD := rfl

open Cert.KernelIdeal.Gen in
/-- A signed index vector of 500000 edges into 50000 nodes, a negative entry wrapped once, as a column. -/
def wrap5 (i : (CI F S500000)) : (CI F S500000x1) :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 50000#32))) i)

open Cert.KernelIdeal.Gen in
/-- 400000 edges into 30000 nodes. -/
def wrap4a (i : (CI F S400000)) : (CI F S400000x1) :=
  broadcastInDim S400000x1 ![0] bcast_S400000_S400000x1_0
    (select (cmpi .slt i (broadcastInDim S400000 ![] bcast_S_S400000 (constantI S_ 32 0#32)))
      (addi i (broadcastInDim S400000 ![] bcast_S_S400000 (constantI S_ 32 30000#32))) i)

open Cert.KernelIdeal.Gen in
/-- 400000 edges into 50000 nodes. -/
def wrap4b (i : (CI F S400000)) : (CI F S400000x1) :=
  broadcastInDim S400000x1 ![0] bcast_S400000_S400000x1_0
    (select (cmpi .slt i (broadcastInDim S400000 ![] bcast_S_S400000 (constantI S_ 32 0#32)))
      (addi i (broadcastInDim S400000 ![] bcast_S_S400000 (constantI S_ 32 50000#32))) i)

open Cert.KernelIdeal.Gen in
/-- `1 / sqrt (max (degree, 1))` of 50000 nodes over 500000 edge endpoints. -/
def inv5 (D : Dims) (i : (CI F S500000)) : (CF F S50000) :=
  Host.rsqrt (maximumf
    (Host.scatterAdd D.deg5 (broadcastInDim S50000 ![] bcast_S_S50000 (constant S_ .f32 0x00000000#32)) (wrap5 i)
      (broadcastInDim S500000 ![] bcast_S_S500000 (constant S_ .f32 0x3F800000#32)))
    (broadcastInDim S50000 ![] bcast_S_S50000 (constant S_ .f32 0x3F800000#32)))

open Cert.KernelIdeal.Gen in
/-- of 30000 nodes over 400000 edge endpoints. -/
def inv4a (D : Dims) (i : (CI F S400000)) : (CF F S30000) :=
  Host.rsqrt (maximumf
    (Host.scatterAdd D.deg4a (broadcastInDim S30000 ![] bcast_S_S30000 (constant S_ .f32 0x00000000#32)) (wrap4a i)
      (broadcastInDim S400000 ![] bcast_S_S400000 (constant S_ .f32 0x3F800000#32)))
    (broadcastInDim S30000 ![] bcast_S_S30000 (constant S_ .f32 0x3F800000#32)))

open Cert.KernelIdeal.Gen in
/-- of 50000 nodes over 400000 edge endpoints. -/
def inv4b (D : Dims) (i : (CI F S400000)) : (CF F S50000) :=
  Host.rsqrt (maximumf
    (Host.scatterAdd D.deg4b (broadcastInDim S50000 ![] bcast_S_S50000 (constant S_ .f32 0x00000000#32)) (wrap4b i)
      (broadcastInDim S400000 ![] bcast_S_S400000 (constant S_ .f32 0x3F800000#32)))
    (broadcastInDim S50000 ![] bcast_S_S50000 (constant S_ .f32 0x3F800000#32)))

open Cert.KernelIdeal.Gen in
/-- chem→chem: the rows of `f` gathered along `src` and summed into their `dst` rows. -/
def aggCC (D : Dims) (f : (CF F S50000x128)) (src dst : (CI F S500000)) : (CF F S50000x128) :=
  Host.scatterAdd D.sumCC (broadcastInDim S50000x128 ![] bcast_S_S50000x128 (constant S_ .f32 0x00000000#32))
    (broadcastInDim S500000x1 ![0] bcast_S500000_S500000x1_0 dst) (Host.gather D.gatCC f (wrap5 src))

open Cert.KernelIdeal.Gen in
/-- gene→chem. -/
def aggGC (D : Dims) (f : (CF F S30000x128)) (src dst : (CI F S400000)) : (CF F S50000x128) :=
  Host.scatterAdd D.sumGC (broadcastInDim S50000x128 ![] bcast_S_S50000x128 (constant S_ .f32 0x00000000#32))
    (broadcastInDim S400000x1 ![0] bcast_S400000_S400000x1_0 dst) (Host.gather D.gatGC f (wrap4a src))

open Cert.KernelIdeal.Gen in
/-- chem→gene. -/
def aggCG (D : Dims) (f : (CF F S50000x128)) (src dst : (CI F S400000)) : (CF F S30000x128) :=
  Host.scatterAdd D.sumCG (broadcastInDim S30000x128 ![] bcast_S_S30000x128 (constant S_ .f32 0x00000000#32))
    (broadcastInDim S400000x1 ![0] bcast_S400000_S400000x1_0 dst) (Host.gather D.gatCG f (wrap4b src))

/-! ## The reference's spelling of one convolution and of the rectifier -/

open Cert.ReferenceIdeal.Gen in
/-- chem→chem as the reference writes it. -/
def convR_cc (x : (CF F S50000x128)) (w : (CF F S128x128)) (b : (CF F S128)) (src dst : (CI F S500000)) : (CF F S50000x128) :=
  addf (mulf (aggCC rD (Host.dotGeneral Cert.ReferenceIdeal.dot_S50000x128_S128x128_S50000x128_1_0_0_1_n_n none
        (mulf x (broadcastInDim S50000x128 ![0, 1] bcast_S50000x1_S50000x128_0_1 (broadcastInDim S50000x1 ![0] bcast_S50000_S50000x1_0 (inv5 rD src)))) w) src dst)
      (broadcastInDim S50000x128 ![0, 1] bcast_S50000x1_S50000x128_0_1 (broadcastInDim S50000x1 ![0] bcast_S50000_S50000x1_0 (inv5 rD dst))))
    (broadcastInDim S50000x128 ![0, 1] bcast_S1x128_S50000x128_0_1 (broadcastInDim S1x128 ![1] bcast_S128_S1x128_1 b))

open Cert.ReferenceIdeal.Gen in
/-- gene→chem as the reference writes it. -/
def convR_gc (x : (CF F S30000x128)) (w : (CF F S128x128)) (b : (CF F S128)) (src dst : (CI F S400000)) : (CF F S50000x128) :=
  addf (mulf (aggGC rD (Host.dotGeneral Cert.ReferenceIdeal.dot_S30000x128_S128x128_S30000x128_1_0_0_1_n_n none
        (mulf x (broadcastInDim S30000x128 ![0, 1] bcast_S30000x1_S30000x128_0_1 (broadcastInDim S30000x1 ![0] bcast_S30000_S30000x1_0 (inv4a rD src)))) w) src dst)
      (broadcastInDim S50000x128 ![0, 1] bcast_S50000x1_S50000x128_0_1 (broadcastInDim S50000x1 ![0] bcast_S50000_S50000x1_0 (inv4b rD dst))))
    (broadcastInDim S50000x128 ![0, 1] bcast_S1x128_S50000x128_0_1 (broadcastInDim S1x128 ![1] bcast_S128_S1x128_1 b))

open Cert.ReferenceIdeal.Gen in
/-- chem→gene as the reference writes it. -/
def convR_cg (x : (CF F S50000x128)) (w : (CF F S128x128)) (b : (CF F S128)) (src dst : (CI F S400000)) : (CF F S30000x128) :=
  addf (mulf (aggCG rD (Host.dotGeneral Cert.ReferenceIdeal.dot_S50000x128_S128x128_S50000x128_1_0_0_1_n_n none
        (mulf x (broadcastInDim S50000x128 ![0, 1] bcast_S50000x1_S50000x128_0_1 (broadcastInDim S50000x1 ![0] bcast_S50000_S50000x1_0 (inv4b rD src)))) w) src dst)
      (broadcastInDim S30000x128 ![0, 1] bcast_S30000x1_S30000x128_0_1 (broadcastInDim S30000x1 ![0] bcast_S30000_S30000x1_0 (inv4a rD dst))))
    (broadcastInDim S30000x128 ![0, 1] bcast_S1x128_S30000x128_0_1 (broadcastInDim S1x128 ![1] bcast_S128_S1x128_1 b))

open Cert.ReferenceIdeal.Gen in
/-- The reference's leaky rectifier on 50000 rows: `x` where `x ≥ 0`, the slope times `x` elsewhere. -/
def leakyR5 (x : (CF F S50000x128)) : (CF F S50000x128) :=
  select (cmpf .oge x (broadcastInDim S50000x128 ![] bcast_S_S50000x128 (constant S_ .f32 0x00000000#32))) x
    (mulf (broadcastInDim S50000x128 ![] bcast_S_S50000x128 (id (constant S_ .f32 0x3C23D70A#32))) x)

open Cert.ReferenceIdeal.Gen in
/-- on 30000 rows. -/
def leakyR3 (x : (CF F S30000x128)) : (CF F S30000x128) :=
  select (cmpf .oge x (broadcastInDim S30000x128 ![] bcast_S_S30000x128 (constant S_ .f32 0x00000000#32))) x
    (mulf (broadcastInDim S30000x128 ![] bcast_S_S30000x128 (id (constant S_ .f32 0x3C23D70A#32))) x)

/-- THE REFERENCE'S RESULT as a function of its twenty arguments (features of the two node kinds; the three
    relations' edge endpoints; per layer and relation a weight matrix and a bias). -/
def refOut (a0 : (CF F S50000x128)) (a1 : (CF F S30000x128)) (a2 a3 : (CI F S500000)) (a4 a5 a6 a7 : (CI F S400000))
    (a8 : (CF F S128x128)) (a9 : (CF F S128)) (a10 : (CF F S128x128)) (a11 : (CF F S128)) (a12 : (CF F S128x128)) (a13 : (CF F S128))
    (a14 : (CF F S128x128)) (a15 : (CF F S128)) (a18 : (CF F S128x128)) (a19 : (CF F S128)) : (CF F S50000x128) :=
  addf (convR_cc (leakyR5 (addf (convR_cc a0 a8 a9 a2 a3) (convR_gc a1 a12 a13 a6 a7))) a14 a15 a2 a3)
    (convR_gc (leakyR3 (convR_cg a0 a10 a11 a4 a5)) a18 a19 a6 a7)

end Cert.Stage

/-! ## The kernel program's spelling, at the ideal values -/

namespace Cert.Stage

open Idealize.ShloMosaic
open Cert.KernelIdeal (S_ S500000 S400000 S500000x1 S400000x1 S50000 S30000 S50000x1 S30000x1 S50000x128 S30000x128 S128x128 S128 S1x128)

open Cert.KernelIdeal.Gen in
/-- chem→chem on the grid of row blocks. -/
def convK_cc (x : (CF Ideal S50000x128)) (w : (CF Ideal S128x128)) (b : (CF Ideal S128)) (src dst : (CI Ideal S500000)) : (CF Ideal S50000x128) :=
  Arr.scaleBias (aggCC (F := Ideal) kD (Arr.scaleProd x (shapeCast S50000x1 (inv5 (F := Ideal) kD src) shapeCasts_S50000_S50000x1) w) src dst)
    (shapeCast S50000x1 (inv5 (F := Ideal) kD dst) shapeCasts_S50000_S50000x1) (shapeCast S1x128 b shapeCasts_S128_S1x128)

open Cert.KernelIdeal.Gen in
/-- gene→chem on the grid of row blocks. -/
def convK_gc (x : (CF Ideal S30000x128)) (w : (CF Ideal S128x128)) (b : (CF Ideal S128)) (src dst : (CI Ideal S400000)) : (CF Ideal S50000x128) :=
  Arr.scaleBias (aggGC (F := Ideal) kD (Arr.scaleProd x (shapeCast S30000x1 (inv4a (F := Ideal) kD src) shapeCasts_S30000_S30000x1) w) src dst)
    (shapeCast S50000x1 (inv4b (F := Ideal) kD dst) shapeCasts_S50000_S50000x1) (shapeCast S1x128 b shapeCasts_S128_S1x128)

open Cert.KernelIdeal.Gen in
/-- chem→gene on the grid of row blocks. -/
def convK_cg (x : (CF Ideal S50000x128)) (w : (CF Ideal S128x128)) (b : (CF Ideal S128)) (src dst : (CI Ideal S400000)) : (CF Ideal S30000x128) :=
  Arr.scaleBias (aggCG (F := Ideal) kD (Arr.scaleProd x (shapeCast S50000x1 (inv4b (F := Ideal) kD src) shapeCasts_S50000_S50000x1) w) src dst)
    (shapeCast S30000x1 (inv4a (F := Ideal) kD dst) shapeCasts_S30000_S30000x1) (shapeCast S1x128 b shapeCasts_S128_S1x128)

/-- THE KERNEL PROGRAM'S RESULT as a function of the same twenty arguments. -/
def kerOut (a0 : (CF Ideal S50000x128)) (a1 : (CF Ideal S30000x128)) (a2 a3 : (CI Ideal S500000)) (a4 a5 a6 a7 : (CI Ideal S400000))
    (a8 : (CF Ideal S128x128)) (a9 : (CF Ideal S128)) (a10 : (CF Ideal S128x128)) (a11 : (CF Ideal S128)) (a12 : (CF Ideal S128x128)) (a13 : (CF Ideal S128))
    (a14 : (CF Ideal S128x128)) (a15 : (CF Ideal S128)) (a18 : (CF Ideal S128x128)) (a19 : (CF Ideal S128)) : (CF Ideal S50000x128) :=
  Arr.addArr (convK_cc (Arr.addLeaky (convK_cc a0 a8 a9 a2 a3) (convK_gc a1 a12 a13 a6 a7)) a14 a15 a2 a3)
    (convK_gc (Arr.leakyArr (convK_cg a0 a10 a11 a4 a5)) a18 a19 a6 a7)

end Cert.Stage

end
-- ==== Proof.KHost0.lean ====
/-
  STRETCH 0 OF THE KERNEL PROGRAM'S HOST OPERATIONS: what it computes and what it leaves alone.

  The stretch's results are read off the fold of its operations over ANY contents `V` it starts from, as functions of
  `V` at the buffers it reads (the columns of inverse square-root degrees of a relation, or the gathered rows summed into
  their destinations and the bias as a row); a buffer outside the list `wl0` of the buffers it writes keeps its contents.
-/
import proofs.«173211_j66030827209235_1_alg».proof.Proof.Gen.KernelIdeal.Launch
import proofs.«173211_j66030827209235_1_alg».proof.Proof.Stages
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Cert.Stage

variable {F : FTy → Type} [FloatOps F]

/-- Every buffer stretch 0 writes. -/
def wl0 : List (Ref sig .tc) := [main_cst, main_v0, main_cst_0, main_v1, main_c, main_v2, main_v3, main_c_1, main_v4, main_v5, main_v6, main_v7, main_v8, main_cst_2, main_v9, main_c_3, main_v10, main_v11, main_c_4, main_v12, main_v13, main_v14, main_v15, main_v16, main_cst_5, main_v17, main_v18, main_v19, main_v20, main_cst_6, main_v21, main_v22, main_v23, main_v24]

/-- A buffer stretch 0 does not write keeps its contents. -/
theorem keep0 (V : Valuation τ sig (Elt F)) (b : Ref sig .tc) (hb : b ∉ wl0) :
    after hostOps0 V (Proc.devRef .tc b) = V (Proc.devRef .tc b) := by
  have hne : ∀ y ∈ wl0, b ≠ y := fun y hy e => hb (e ▸ hy)
  refine StableHlo.after_of_forall_not_mem (b := Proc.devRef .tc b) _ _ (List.forall_iff_forall_mem.mp ?_)
  simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hne _ (by decide))

/-- Stretch 0: the two columns of inverse square-root degrees. -/
theorem host0_v20 (V : Valuation τ sig (Elt F)) :
    after hostOps0 V (Proc.devRef .tc main_v20) = shapeCast S50000x1 (inv5 kD (V (Proc.devRef .tc main_arg2))) shapeCasts_S50000_S50000x1 := by
  after_results_simp
  rfl
theorem host0_v24 (V : Valuation τ sig (Elt F)) :
    after hostOps0 V (Proc.devRef .tc main_v24) = shapeCast S50000x1 (inv5 kD (V (Proc.devRef .tc main_arg3))) shapeCasts_S50000_S50000x1 := by
  after_results_simp
  rfl

end Cert.KernelIdeal.KHost

end
-- ==== Proof.KHost1.lean ====
/-
  STRETCH 1 OF THE KERNEL PROGRAM'S HOST OPERATIONS: what it computes and what it leaves alone.

  The stretch's results are read off the fold of its operations over ANY contents `V` it starts from, as functions of
  `V` at the buffers it reads (the columns of inverse square-root degrees of a relation, or the gathered rows summed into
  their destinations and the bias as a row); a buffer outside the list `wl1` of the buffers it writes keeps its contents.
-/
import proofs.«173211_j66030827209235_1_alg».proof.Proof.Gen.KernelIdeal.Launch
import proofs.«173211_j66030827209235_1_alg».proof.Proof.Stages
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Cert.Stage

variable {F : FTy → Type} [FloatOps F]

/-- Every buffer stretch 1 writes. -/
def wl1 : List (Ref sig .tc) := [main_c_7, main_v26, main_v27, main_c_8, main_v28, main_v29, main_v30, main_v31, main_v32, main_cst_9, main_v33, main_v34, main_v35, main_v36]

/-- A buffer stretch 1 does not write keeps its contents. -/
theorem keep1 (V : Valuation τ sig (Elt F)) (b : Ref sig .tc) (hb : b ∉ wl1) :
    after hostOps1 V (Proc.devRef .tc b) = V (Proc.devRef .tc b) := by
  have hne : ∀ y ∈ wl1, b ≠ y := fun y hy e => hb (e ▸ hy)
  refine StableHlo.after_of_forall_not_mem (b := Proc.devRef .tc b) _ _ (List.forall_iff_forall_mem.mp ?_)
  simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hne _ (by decide))

/-- Stretch 1: the gathered rows summed into their destinations, and the bias as a row. -/
theorem host1_v35 (V : Valuation τ sig (Elt F)) :
    after hostOps1 V (Proc.devRef .tc main_v35)
      = aggCC kD (V (Proc.devRef .tc main_v25)) (V (Proc.devRef .tc main_arg2)) (V (Proc.devRef .tc main_arg3)) := by
  after_results_simp
  rfl
theorem host1_v36 (V : Valuation τ sig (Elt F)) :
    after hostOps1 V (Proc.devRef .tc main_v36) = shapeCast S1x128 (V (Proc.devRef .tc main_arg9)) shapeCasts_S128_S1x128 := by
  after_results_simp
  rfl

end Cert.KernelIdeal.KHost

end
-- ==== Proof.KHost2.lean ====
/-
  STRETCH 2 OF THE KERNEL PROGRAM'S HOST OPERATIONS: what it computes and what it leaves alone.

  The stretch's results are read off the fold of its operations over ANY contents `V` it starts from, as functions of
  `V` at the buffers it reads (the columns of inverse square-root degrees of a relation, or the gathered rows summed into
  their destinations and the bias as a row); a buffer outside the list `wl2` of the buffers it writes keeps its contents.
-/
import proofs.«173211_j66030827209235_1_alg».proof.Proof.Gen.KernelIdeal.Launch
import proofs.«173211_j66030827209235_1_alg».proof.Proof.Stages
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Cert.Stage

variable {F : FTy → Type} [FloatOps F]

/-- Every buffer stretch 2 writes. -/
def wl2 : List (Ref sig .tc) := [main_cst_10, main_v38, main_cst_11, main_v39, main_c_12, main_v40, main_v41, main_c_13, main_v42, main_v43, main_v44, main_v45, main_v46, main_cst_14, main_v47, main_c_15, main_v48, main_v49, main_c_16, main_v50, main_v51, main_v52, main_v53, main_v54, main_cst_17, main_v55, main_v56, main_v57, main_v58, main_cst_18, main_v59, main_v60, main_v61, main_v62]

/-- A buffer stretch 2 does not write keeps its contents. -/
theorem keep2 (V : Valuation τ sig (Elt F)) (b : Ref sig .tc) (hb : b ∉ wl2) :
    after hostOps2 V (Proc.devRef .tc b) = V (Proc.devRef .tc b) := by
  have hne : ∀ y ∈ wl2, b ≠ y := fun y hy e => hb (e ▸ hy)
  refine StableHlo.after_of_forall_not_mem (b := Proc.devRef .tc b) _ _ (List.forall_iff_forall_mem.mp ?_)
  simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hne _ (by decide))

/-- Stretch 2: the two columns of inverse square-root degrees. -/
theorem host2_v58 (V : Valuation τ sig (Elt F)) :
    after hostOps2 V (Proc.devRef .tc main_v58) = shapeCast S30000x1 (inv4a kD (V (Proc.devRef .tc main_arg6))) shapeCasts_S30000_S30000x1 := by
  after_results_simp
  rfl
theorem host2_v62 (V : Valuation τ sig (Elt F)) :
    after hostOps2 V (Proc.devRef .tc main_v62) = shapeCast S50000x1 (inv4b kD (V (Proc.devRef .tc main_arg7))) shapeCasts_S50000_S50000x1 := by
  after_results_simp
  rfl

end Cert.KernelIdeal.KHost

end
-- ==== Proof.KHost3.lean ====
/-
  STRETCH 3 OF THE KERNEL PROGRAM'S HOST OPERATIONS: what it computes and what it leaves alone.

  The stretch's results are read off the fold of its operations over ANY contents `V` it starts from, as functions of
  `V` at the buffers it reads (the columns of inverse square-root degrees of a relation, or the gathered rows summed into
  their destinations and the bias as a row); a buffer outside the list `wl3` of the buffers it writes keeps its contents.
-/
import proofs.«173211_j66030827209235_1_alg».proof.Proof.Gen.KernelIdeal.Launch
import proofs.«173211_j66030827209235_1_alg».proof.Proof.Stages
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Cert.Stage

variable {F : FTy → Type} [FloatOps F]

/-- Every buffer stretch 3 writes. -/
def wl3 : List (Ref sig .tc) := [main_c_19, main_v64, main_v65, main_c_20, main_v66, main_v67, main_v68, main_v69, main_v70, main_cst_21, main_v71, main_v72, main_v73, main_v74]

/-- A buffer stretch 3 does not write keeps its contents. -/
theorem keep3 (V : Valuation τ sig (Elt F)) (b : Ref sig .tc) (hb : b ∉ wl3) :
    after hostOps3 V (Proc.devRef .tc b) = V (Proc.devRef .tc b) := by
  have hne : ∀ y ∈ wl3, b ≠ y := fun y hy e => hb (e ▸ hy)
  refine StableHlo.after_of_forall_not_mem (b := Proc.devRef .tc b) _ _ (List.forall_iff_forall_mem.mp ?_)
  simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hne _ (by decide))

/-- Stretch 3: the gathered rows summed into their destinations, and the bias as a row. -/
theorem host3_v73 (V : Valuation τ sig (Elt F)) :
    after hostOps3 V (Proc.devRef .tc main_v73)
      = aggGC kD (V (Proc.devRef .tc main_v63)) (V (Proc.devRef .tc main_arg6)) (V (Proc.devRef .tc main_arg7)) := by
  after_results_simp
  rfl
theorem host3_v74 (V : Valuation τ sig (Elt F)) :
    after hostOps3 V (Proc.devRef .tc main_v74) = shapeCast S1x128 (V (Proc.devRef .tc main_arg13)) shapeCasts_S128_S1x128 := by
  after_results_simp
  rfl

end Cert.KernelIdeal.KHost

end
-- ==== Proof.KHost5.lean ====
/-
  STRETCH 5 OF THE KERNEL PROGRAM'S HOST OPERATIONS: what it computes and what it leaves alone.

  The stretch's results are read off the fold of its operations over ANY contents `V` it starts from, as functions of
  `V` at the buffers it reads (the columns of inverse square-root degrees of a relation, or the gathered rows summed into
  their destinations and the bias as a row); a buffer outside the list `wl5` of the buffers it writes keeps its contents.
-/
import proofs.«173211_j66030827209235_1_alg».proof.Proof.Gen.KernelIdeal.Launch
import proofs.«173211_j66030827209235_1_alg».proof.Proof.Stages
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Cert.Stage

variable {F : FTy → Type} [FloatOps F]

/-- Every buffer stretch 5 writes. -/
def wl5 : List (Ref sig .tc) := [main_cst_22, main_v77, main_cst_23, main_v78, main_c_24, main_v79, main_v80, main_c_25, main_v81, main_v82, main_v83, main_v84, main_v85, main_cst_26, main_v86, main_c_27, main_v87, main_v88, main_c_28, main_v89, main_v90, main_v91, main_v92, main_v93, main_cst_29, main_v94, main_v95, main_v96, main_v97, main_cst_30, main_v98, main_v99, main_v100, main_v101]

/-- A buffer stretch 5 does not write keeps its contents. -/
theorem keep5 (V : Valuation τ sig (Elt F)) (b : Ref sig .tc) (hb : b ∉ wl5) :
    after hostOps5 V (Proc.devRef .tc b) = V (Proc.devRef .tc b) := by
  have hne : ∀ y ∈ wl5, b ≠ y := fun y hy e => hb (e ▸ hy)
  refine StableHlo.after_of_forall_not_mem (b := Proc.devRef .tc b) _ _ (List.forall_iff_forall_mem.mp ?_)
  simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hne _ (by decide))

/-- Stretch 5: the two columns of inverse square-root degrees. -/
theorem host5_v97 (V : Valuation τ sig (Elt F)) :
    after hostOps5 V (Proc.devRef .tc main_v97) = shapeCast S50000x1 (inv4b kD (V (Proc.devRef .tc main_arg4))) shapeCasts_S50000_S50000x1 := by
  after_results_simp
  rfl
theorem host5_v101 (V : Valuation τ sig (Elt F)) :
    after hostOps5 V (Proc.devRef .tc main_v101) = shapeCast S30000x1 (inv4a kD (V (Proc.devRef .tc main_arg5))) shapeCasts_S30000_S30000x1 := by
  after_results_simp
  rfl

end Cert.KernelIdeal.KHost

end
-- ==== Proof.KHost6.lean ====
/-
  STRETCH 6 OF THE KERNEL PROGRAM'S HOST OPERATIONS: what it computes and what it leaves alone.

  The stretch's results are read off the fold of its operations over ANY contents `V` it starts from, as functions of
  `V` at the buffers it reads (the columns of inverse square-root degrees of a relation, or the gathered rows summed into
  their destinations and the bias as a row); a buffer outside the list `wl6` of the buffers it writes keeps its contents.
-/
import proofs.«173211_j66030827209235_1_alg».proof.Proof.Gen.KernelIdeal.Launch
import proofs.«173211_j66030827209235_1_alg».proof.Proof.Stages
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Cert.Stage

variable {F : FTy → Type} [FloatOps F]

/-- Every buffer stretch 6 writes. -/
def wl6 : List (Ref sig .tc) := [main_c_31, main_v103, main_v104, main_c_32, main_v105, main_v106, main_v107, main_v108, main_v109, main_cst_33, main_v110, main_v111, main_v112, main_v113]

/-- A buffer stretch 6 does not write keeps its contents. -/
theorem keep6 (V : Valuation τ sig (Elt F)) (b : Ref sig .tc) (hb : b ∉ wl6) :
    after hostOps6 V (Proc.devRef .tc b) = V (Proc.devRef .tc b) := by
  have hne : ∀ y ∈ wl6, b ≠ y := fun y hy e => hb (e ▸ hy)
  refine StableHlo.after_of_forall_not_mem (b := Proc.devRef .tc b) _ _ (List.forall_iff_forall_mem.mp ?_)
  simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hne _ (by decide))

/-- Stretch 6: the gathered rows summed into their destinations, and the bias as a row. -/
theorem host6_v112 (V : Valuation τ sig (Elt F)) :
    after hostOps6 V (Proc.devRef .tc main_v112)
      = aggCG kD (V (Proc.devRef .tc main_v102)) (V (Proc.devRef .tc main_arg4)) (V (Proc.devRef .tc main_arg5)) := by
  after_results_simp
  rfl
theorem host6_v113 (V : Valuation τ sig (Elt F)) :
    after hostOps6 V (Proc.devRef .tc main_v113) = shapeCast S1x128 (V (Proc.devRef .tc main_arg11)) shapeCasts_S128_S1x128 := by
  after_results_simp
  rfl

end Cert.KernelIdeal.KHost

end
-- ==== Proof.KHost8.lean ====
/-
  STRETCH 8 OF THE KERNEL PROGRAM'S HOST OPERATIONS: what it computes and what it leaves alone.

  The stretch's results are read off the fold of its operations over ANY contents `V` it starts from, as functions of
  `V` at the buffers it reads (the columns of inverse square-root degrees of a relation, or the gathered rows summed into
  their destinations and the bias as a row); a buffer outside the list `wl8` of the buffers it writes keeps its contents.
-/
import proofs.«173211_j66030827209235_1_alg».proof.Proof.Gen.KernelIdeal.Launch
import proofs.«173211_j66030827209235_1_alg».proof.Proof.Stages
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Cert.Stage

variable {F : FTy → Type} [FloatOps F]

/-- Every buffer stretch 8 writes. -/
def wl8 : List (Ref sig .tc) := [main_cst_34, main_v116, main_cst_35, main_v117, main_c_36, main_v118, main_v119, main_c_37, main_v120, main_v121, main_v122, main_v123, main_v124, main_cst_38, main_v125, main_c_39, main_v126, main_v127, main_c_40, main_v128, main_v129, main_v130, main_v131, main_v132, main_cst_41, main_v133, main_v134, main_v135, main_v136, main_cst_42, main_v137, main_v138, main_v139, main_v140]

/-- A buffer stretch 8 does not write keeps its contents. -/
theorem keep8 (V : Valuation τ sig (Elt F)) (b : Ref sig .tc) (hb : b ∉ wl8) :
    after hostOps8 V (Proc.devRef .tc b) = V (Proc.devRef .tc b) := by
  have hne : ∀ y ∈ wl8, b ≠ y := fun y hy e => hb (e ▸ hy)
  refine StableHlo.after_of_forall_not_mem (b := Proc.devRef .tc b) _ _ (List.forall_iff_forall_mem.mp ?_)
  simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hne _ (by decide))

/-- Stretch 8: the two columns of inverse square-root degrees. -/
theorem host8_v136 (V : Valuation τ sig (Elt F)) :
    after hostOps8 V (Proc.devRef .tc main_v136) = shapeCast S50000x1 (inv5 kD (V (Proc.devRef .tc main_arg2))) shapeCasts_S50000_S50000x1 := by
  after_results_simp
  rfl
theorem host8_v140 (V : Valuation τ sig (Elt F)) :
    after hostOps8 V (Proc.devRef .tc main_v140) = shapeCast S50000x1 (inv5 kD (V (Proc.devRef .tc main_arg3))) shapeCasts_S50000_S50000x1 := by
  after_results_simp
  rfl

end Cert.KernelIdeal.KHost

end
-- ==== Proof.KHost9.lean ====
/-
  STRETCH 9 OF THE KERNEL PROGRAM'S HOST OPERATIONS: what it computes and what it leaves alone.

  The stretch's results are read off the fold of its operations over ANY contents `V` it starts from, as functions of
  `V` at the buffers it reads (the columns of inverse square-root degrees of a relation, or the gathered rows summed into
  their destinations and the bias as a row); a buffer outside the list `wl9` of the buffers it writes keeps its contents.
-/
import proofs.«173211_j66030827209235_1_alg».proof.Proof.Gen.KernelIdeal.Launch
import proofs.«173211_j66030827209235_1_alg».proof.Proof.Stages
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Cert.Stage

variable {F : FTy → Type} [FloatOps F]

/-- Every buffer stretch 9 writes. -/
def wl9 : List (Ref sig .tc) := [main_c_43, main_v142, main_v143, main_c_44, main_v144, main_v145, main_v146, main_v147, main_v148, main_cst_45, main_v149, main_v150, main_v151, main_v152]

/-- A buffer stretch 9 does not write keeps its contents. -/
theorem keep9 (V : Valuation τ sig (Elt F)) (b : Ref sig .tc) (hb : b ∉ wl9) :
    after hostOps9 V (Proc.devRef .tc b) = V (Proc.devRef .tc b) := by
  have hne : ∀ y ∈ wl9, b ≠ y := fun y hy e => hb (e ▸ hy)
  refine StableHlo.after_of_forall_not_mem (b := Proc.devRef .tc b) _ _ (List.forall_iff_forall_mem.mp ?_)
  simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hne _ (by decide))

/-- Stretch 9: the gathered rows summed into their destinations, and the bias as a row. -/
theorem host9_v151 (V : Valuation τ sig (Elt F)) :
    after hostOps9 V (Proc.devRef .tc main_v151)
      = aggCC kD (V (Proc.devRef .tc main_v141)) (V (Proc.devRef .tc main_arg2)) (V (Proc.devRef .tc main_arg3)) := by
  after_results_simp
  rfl
theorem host9_v152 (V : Valuation τ sig (Elt F)) :
    after hostOps9 V (Proc.devRef .tc main_v152) = shapeCast S1x128 (V (Proc.devRef .tc main_arg15)) shapeCasts_S128_S1x128 := by
  after_results_simp
  rfl

end Cert.KernelIdeal.KHost

end
-- ==== Proof.KHost10.lean ====
/-
  STRETCH 10 OF THE KERNEL PROGRAM'S HOST OPERATIONS: what it computes and what it leaves alone.

  The stretch's results are read off the fold of its operations over ANY contents `V` it starts from, as functions of
  `V` at the buffers it reads (the columns of inverse square-root degrees of a relation, or the gathered rows summed into
  their destinations and the bias as a row); a buffer outside the list `wl10` of the buffers it writes keeps its contents.
-/
import proofs.«173211_j66030827209235_1_alg».proof.Proof.Gen.KernelIdeal.Launch
import proofs.«173211_j66030827209235_1_alg».proof.Proof.Stages
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Cert.Stage

variable {F : FTy → Type} [FloatOps F]

/-- Every buffer stretch 10 writes. -/
def wl10 : List (Ref sig .tc) := [main_cst_46, main_v154, main_cst_47, main_v155, main_c_48, main_v156, main_v157, main_c_49, main_v158, main_v159, main_v160, main_v161, main_v162, main_cst_50, main_v163, main_c_51, main_v164, main_v165, main_c_52, main_v166, main_v167, main_v168, main_v169, main_v170, main_cst_53, main_v171, main_v172, main_v173, main_v174, main_cst_54, main_v175, main_v176, main_v177, main_v178]

/-- A buffer stretch 10 does not write keeps its contents. -/
theorem keep10 (V : Valuation τ sig (Elt F)) (b : Ref sig .tc) (hb : b ∉ wl10) :
    after hostOps10 V (Proc.devRef .tc b) = V (Proc.devRef .tc b) := by
  have hne : ∀ y ∈ wl10, b ≠ y := fun y hy e => hb (e ▸ hy)
  refine StableHlo.after_of_forall_not_mem (b := Proc.devRef .tc b) _ _ (List.forall_iff_forall_mem.mp ?_)
  simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hne _ (by decide))

/-- Stretch 10: the two columns of inverse square-root degrees. -/
theorem host10_v174 (V : Valuation τ sig (Elt F)) :
    after hostOps10 V (Proc.devRef .tc main_v174) = shapeCast S30000x1 (inv4a kD (V (Proc.devRef .tc main_arg6))) shapeCasts_S30000_S30000x1 := by
  after_results_simp
  rfl
theorem host10_v178 (V : Valuation τ sig (Elt F)) :
    after hostOps10 V (Proc.devRef .tc main_v178) = shapeCast S50000x1 (inv4b kD (V (Proc.devRef .tc main_arg7))) shapeCasts_S50000_S50000x1 := by
  after_results_simp
  rfl

end Cert.KernelIdeal.KHost

end
-- ==== Proof.KHost11.lean ====
/-
  STRETCH 11 OF THE KERNEL PROGRAM'S HOST OPERATIONS: what it computes and what it leaves alone.

  The stretch's results are read off the fold of its operations over ANY contents `V` it starts from, as functions of
  `V` at the buffers it reads (the columns of inverse square-root degrees of a relation, or the gathered rows summed into
  their destinations and the bias as a row); a buffer outside the list `wl11` of the buffers it writes keeps its contents.
-/
import proofs.«173211_j66030827209235_1_alg».proof.Proof.Gen.KernelIdeal.Launch
import proofs.«173211_j66030827209235_1_alg».proof.Proof.Stages
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Cert.Stage

variable {F : FTy → Type} [FloatOps F]

/-- Every buffer stretch 11 writes. -/
def wl11 : List (Ref sig .tc) := [main_c_55, main_v180, main_v181, main_c_56, main_v182, main_v183, main_v184, main_v185, main_v186, main_cst_57, main_v187, main_v188, main_v189, main_v190]

/-- A buffer stretch 11 does not write keeps its contents. -/
theorem keep11 (V : Valuation τ sig (Elt F)) (b : Ref sig .tc) (hb : b ∉ wl11) :
    after hostOps11 V (Proc.devRef .tc b) = V (Proc.devRef .tc b) := by
  have hne : ∀ y ∈ wl11, b ≠ y := fun y hy e => hb (e ▸ hy)
  refine StableHlo.after_of_forall_not_mem (b := Proc.devRef .tc b) _ _ (List.forall_iff_forall_mem.mp ?_)
  simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hne _ (by decide))

/-- Stretch 11: the gathered rows summed into their destinations, and the bias as a row. -/
theorem host11_v189 (V : Valuation τ sig (Elt F)) :
    after hostOps11 V (Proc.devRef .tc main_v189)
      = aggGC kD (V (Proc.devRef .tc main_v179)) (V (Proc.devRef .tc main_arg6)) (V (Proc.devRef .tc main_arg7)) := by
  after_results_simp
  rfl
theorem host11_v190 (V : Valuation τ sig (Elt F)) :
    after hostOps11 V (Proc.devRef .tc main_v190) = shapeCast S1x128 (V (Proc.devRef .tc main_arg19)) shapeCasts_S128_S1x128 := by
  after_results_simp
  rfl

end Cert.KernelIdeal.KHost

end
-- ==== Proof.KHost.lean ====
/-
  WHAT EACH STRETCH OF HOST OPERATIONS OF THE KERNEL PROGRAM COMPUTES, AND WHAT IT LEAVES ALONE.

  Between two launches the program runs a straight line of host operations.  A stretch before a row-scaled product
  computes the two columns of inverse square-root degrees of its relation (`Stage.inv…`, reshaped to a column); a stretch
  after it gathers the product's rows along the edges' sources and sums them into the destinations' rows (`Stage.agg…`)
  and reshapes the bias to a row.  Each result is read off the fold of the stretch's operations over ANY contents `V`
  the stretch starts from, as a function of `V` at the buffers it reads.  A buffer the stretch does not write (the list
  `wlJ` holds every buffer stretch `J` writes) keeps its contents.
-/
import proofs.«173211_j66030827209235_1_alg».proof.Proof.KHost0
import proofs.«173211_j66030827209235_1_alg».proof.Proof.KHost1
import proofs.«173211_j66030827209235_1_alg».proof.Proof.KHost2
import proofs.«173211_j66030827209235_1_alg».proof.Proof.KHost3
import proofs.«173211_j66030827209235_1_alg».proof.Proof.KHost5
import proofs.«173211_j66030827209235_1_alg».proof.Proof.KHost6
import proofs.«173211_j66030827209235_1_alg».proof.Proof.KHost8
import proofs.«173211_j66030827209235_1_alg».proof.Proof.KHost9
import proofs.«173211_j66030827209235_1_alg».proof.Proof.KHost10
import proofs.«173211_j66030827209235_1_alg».proof.Proof.KHost11
-- ==== Proof.KKeep.lean ====
/-
  WHAT EACH LAUNCH LEAVES ALONE, AND THE ARGUMENTS AT EVERY BOUNDARY.

  A launch writes back one array, its output; its input arrays end as they were entered (an input window is only
  fetched) and every other buffer is not touched at all.  So across launch `K` every buffer other than the output keeps
  its contents (`keepRK`).  With the host stretches' own keep-lemmas this carries each of the twenty argument arrays
  (`argsL`), which nothing writes, from the launch memory to every boundary `W1 … W23` of the run (`WJ_arg`).
-/
import proofs.«173211_j66030827209235_1_alg».proof.Proof.Gen.KernelIdeal.Frame
import proofs.«173211_j66030827209235_1_alg».proof.Proof.KHost

set_option maxRecDepth 16384

noncomputable section

namespace Cert.KernelIdeal.KKeep

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Across launch 0 every buffer but its output `main_v25` keeps its contents. -/
theorem keepR0 (c : Dev nD) (b : Ref sig .tc) (hb : b ≠ main_v25) :
    W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_v20
  · subst h1; exact (W2_arr m ρ c 1).trans (((dat0 (V1 m ρ) c).arrAt_in 1 rfl _).trans (A_eq0 (V1 m ρ) c 1))
  by_cases h2 : b = main_arg8
  · subst h2; exact (W2_arr m ρ c 2).trans (((dat0 (V1 m ρ) c).arrAt_in 2 rfl _).trans (A_eq0 (V1 m ρ) c 2))
  exact W2_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Across launch 1 every buffer but its output `main_v37` keeps its contents. -/
theorem keepR1 (c : Dev nD) (b : Ref sig .tc) (hb : b ≠ main_v37) :
    W4 m ρ c (Proc.devRef .tc b) = W3 m ρ c (Proc.devRef .tc b) := by
  by_cases h0 : b = main_v35
  · subst h0; exact (W4_arr m ρ c 0).trans (((dat1 (V3 m ρ) c).arrAt_in 0 rfl _).trans (A_eq1 (V3 m ρ) c 0))
  by_cases h1 : b = main_v24
  · subst h1; exact (W4_arr m ρ c 1).trans (((dat1 (V3 m ρ) c).arrAt_in 1 rfl _).trans (A_eq1 (V3 m ρ) c 1))
  by_cases h2 : b = main_v36
  · subst h2; exact (W4_arr m ρ c 2).trans (((dat1 (V3 m ρ) c).arrAt_in 2 rfl _).trans (A_eq1 (V3 m ρ) c 2))
  exact W4_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Across launch 2 every buffer but its output `main_v63` keeps its contents. -/
theorem keepR2 (c : Dev nD) (b : Ref sig .tc) (hb : b ≠ main_v63) :
    W6 m ρ c (Proc.devRef .tc b) = W5 m ρ c (Proc.devRef .tc b) := by
  by_cases h0 : b = main_arg1
  · subst h0; exact (W6_arr m ρ c 0).trans (((dat2 (V5 m ρ) c).arrAt_in 0 rfl _).trans (A_eq2 (V5 m ρ) c 0))
  by_cases h1 : b = main_v58
  · subst h1; exact (W6_arr m ρ c 1).trans (((dat2 (V5 m ρ) c).arrAt_in 1 rfl _).trans (A_eq2 (V5 m ρ) c 1))
  by_cases h2 : b = main_arg12
  · subst h2; exact (W6_arr m ρ c 2).trans (((dat2 (V5 m ρ) c).arrAt_in 2 rfl _).trans (A_eq2 (V5 m ρ) c 2))
  exact W6_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Across launch 3 every buffer but its output `main_v75` keeps its contents. -/
theorem keepR3 (c : Dev nD) (b : Ref sig .tc) (hb : b ≠ main_v75) :
    W8 m ρ c (Proc.devRef .tc b) = W7 m ρ c (Proc.devRef .tc b) := by
  by_cases h0 : b = main_v73
  · subst h0; exact (W8_arr m ρ c 0).trans (((dat3 (V7 m ρ) c).arrAt_in 0 rfl _).trans (A_eq3 (V7 m ρ) c 0))
  by_cases h1 : b = main_v62
  · subst h1; exact (W8_arr m ρ c 1).trans (((dat3 (V7 m ρ) c).arrAt_in 1 rfl _).trans (A_eq3 (V7 m ρ) c 1))
  by_cases h2 : b = main_v74
  · subst h2; exact (W8_arr m ρ c 2).trans (((dat3 (V7 m ρ) c).arrAt_in 2 rfl _).trans (A_eq3 (V7 m ρ) c 2))
  exact W8_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Across launch 4 every buffer but its output `main_v76` keeps its contents. -/
theorem keepR4 (c : Dev nD) (b : Ref sig .tc) (hb : b ≠ main_v76) :
    W9 m ρ c (Proc.devRef .tc b) = W8 m ρ c (Proc.devRef .tc b) := by
  by_cases h0 : b = main_v37
  · subst h0; exact (W9_arr m ρ c 0).trans (((dat4 (V8 m ρ) c).arrAt_in 0 rfl _).trans (A_eq4 (V8 m ρ) c 0))
  by_cases h1 : b = main_v75
  · subst h1; exact (W9_arr m ρ c 1).trans (((dat4 (V8 m ρ) c).arrAt_in 1 rfl _).trans (A_eq4 (V8 m ρ) c 1))
  exact W9_of_ne m ρ c b (fun w => match w with
    | ⟨0, _⟩ => fun e => h0 e.symm
    | ⟨1, _⟩ => fun e => h1 e.symm
    | ⟨2, _⟩ => fun e => hb e.symm)

/-- Across launch 5 every buffer but its output `main_v102` keeps its contents. -/
theorem keepR5 (c : Dev nD) (b : Ref sig .tc) (hb : b ≠ main_v102) :
    W11 m ρ c (Proc.devRef .tc b) = W10 m ρ c (Proc.devRef .tc b) := by
  by_cases h0 : b = main_arg0
  · subst h0; exact (W11_arr m ρ c 0).trans (((dat5 (V10 m ρ) c).arrAt_in 0 rfl _).trans (A_eq5 (V10 m ρ) c 0))
  by_cases h1 : b = main_v97
  · subst h1; exact (W11_arr m ρ c 1).trans (((dat5 (V10 m ρ) c).arrAt_in 1 rfl _).trans (A_eq5 (V10 m ρ) c 1))
  by_cases h2 : b = main_arg10
  · subst h2; exact (W11_arr m ρ c 2).trans (((dat5 (V10 m ρ) c).arrAt_in 2 rfl _).trans (A_eq5 (V10 m ρ) c 2))
  exact W11_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Across launch 6 every buffer but its output `main_v114` keeps its contents. -/
theorem keepR6 (c : Dev nD) (b : Ref sig .tc) (hb : b ≠ main_v114) :
    W13 m ρ c (Proc.devRef .tc b) = W12 m ρ c (Proc.devRef .tc b) := by
  by_cases h0 : b = main_v112
  · subst h0; exact (W13_arr m ρ c 0).trans (((dat6 (V12 m ρ) c).arrAt_in 0 rfl _).trans (A_eq6 (V12 m ρ) c 0))
  by_cases h1 : b = main_v101
  · subst h1; exact (W13_arr m ρ c 1).trans (((dat6 (V12 m ρ) c).arrAt_in 1 rfl _).trans (A_eq6 (V12 m ρ) c 1))
  by_cases h2 : b = main_v113
  · subst h2; exact (W13_arr m ρ c 2).trans (((dat6 (V12 m ρ) c).arrAt_in 2 rfl _).trans (A_eq6 (V12 m ρ) c 2))
  exact W13_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Across launch 7 every buffer but its output `main_v115` keeps its contents. -/
theorem keepR7 (c : Dev nD) (b : Ref sig .tc) (hb : b ≠ main_v115) :
    W14 m ρ c (Proc.devRef .tc b) = W13 m ρ c (Proc.devRef .tc b) := by
  by_cases h0 : b = main_v114
  · subst h0; exact (W14_arr m ρ c 0).trans (((dat7 (V13 m ρ) c).arrAt_in 0 rfl _).trans (A_eq7 (V13 m ρ) c 0))
  exact W14_of_ne m ρ c b (fun w => match w with
    | ⟨0, _⟩ => fun e => h0 e.symm
    | ⟨1, _⟩ => fun e => hb e.symm)

/-- Across launch 8 every buffer but its output `main_v141` keeps its contents. -/
theorem keepR8 (c : Dev nD) (b : Ref sig .tc) (hb : b ≠ main_v141) :
    W16 m ρ c (Proc.devRef .tc b) = W15 m ρ c (Proc.devRef .tc b) := by
  by_cases h0 : b = main_v76
  · subst h0; exact (W16_arr m ρ c 0).trans (((dat8 (V15 m ρ) c).arrAt_in 0 rfl _).trans (A_eq8 (V15 m ρ) c 0))
  by_cases h1 : b = main_v136
  · subst h1; exact (W16_arr m ρ c 1).trans (((dat8 (V15 m ρ) c).arrAt_in 1 rfl _).trans (A_eq8 (V15 m ρ) c 1))
  by_cases h2 : b = main_arg14
  · subst h2; exact (W16_arr m ρ c 2).trans (((dat8 (V15 m ρ) c).arrAt_in 2 rfl _).trans (A_eq8 (V15 m ρ) c 2))
  exact W16_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Across launch 9 every buffer but its output `main_v153` keeps its contents. -/
theorem keepR9 (c : Dev nD) (b : Ref sig .tc) (hb : b ≠ main_v153) :
    W18 m ρ c (Proc.devRef .tc b) = W17 m ρ c (Proc.devRef .tc b) := by
  by_cases h0 : b = main_v151
  · subst h0; exact (W18_arr m ρ c 0).trans (((dat9 (V17 m ρ) c).arrAt_in 0 rfl _).trans (A_eq9 (V17 m ρ) c 0))
  by_cases h1 : b = main_v140
  · subst h1; exact (W18_arr m ρ c 1).trans (((dat9 (V17 m ρ) c).arrAt_in 1 rfl _).trans (A_eq9 (V17 m ρ) c 1))
  by_cases h2 : b = main_v152
  · subst h2; exact (W18_arr m ρ c 2).trans (((dat9 (V17 m ρ) c).arrAt_in 2 rfl _).trans (A_eq9 (V17 m ρ) c 2))
  exact W18_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Across launch 10 every buffer but its output `main_v179` keeps its contents. -/
theorem keepR10 (c : Dev nD) (b : Ref sig .tc) (hb : b ≠ main_v179) :
    W20 m ρ c (Proc.devRef .tc b) = W19 m ρ c (Proc.devRef .tc b) := by
  by_cases h0 : b = main_v115
  · subst h0; exact (W20_arr m ρ c 0).trans (((dat10 (V19 m ρ) c).arrAt_in 0 rfl _).trans (A_eq10 (V19 m ρ) c 0))
  by_cases h1 : b = main_v174
  · subst h1; exact (W20_arr m ρ c 1).trans (((dat10 (V19 m ρ) c).arrAt_in 1 rfl _).trans (A_eq10 (V19 m ρ) c 1))
  by_cases h2 : b = main_arg18
  · subst h2; exact (W20_arr m ρ c 2).trans (((dat10 (V19 m ρ) c).arrAt_in 2 rfl _).trans (A_eq10 (V19 m ρ) c 2))
  exact W20_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Across launch 11 every buffer but its output `main_v191` keeps its contents. -/
theorem keepR11 (c : Dev nD) (b : Ref sig .tc) (hb : b ≠ main_v191) :
    W22 m ρ c (Proc.devRef .tc b) = W21 m ρ c (Proc.devRef .tc b) := by
  by_cases h0 : b = main_v189
  · subst h0; exact (W22_arr m ρ c 0).trans (((dat11 (V21 m ρ) c).arrAt_in 0 rfl _).trans (A_eq11 (V21 m ρ) c 0))
  by_cases h1 : b = main_v178
  · subst h1; exact (W22_arr m ρ c 1).trans (((dat11 (V21 m ρ) c).arrAt_in 1 rfl _).trans (A_eq11 (V21 m ρ) c 1))
  by_cases h2 : b = main_v190
  · subst h2; exact (W22_arr m ρ c 2).trans (((dat11 (V21 m ρ) c).arrAt_in 2 rfl _).trans (A_eq11 (V21 m ρ) c 2))
  exact W22_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Across launch 12 every buffer but its output `main_v192` keeps its contents. -/
theorem keepR12 (c : Dev nD) (b : Ref sig .tc) (hb : b ≠ main_v192) :
    W23 m ρ c (Proc.devRef .tc b) = W22 m ρ c (Proc.devRef .tc b) := by
  by_cases h0 : b = main_v153
  · subst h0; exact (W23_arr m ρ c 0).trans (((dat12 (V22 m ρ) c).arrAt_in 0 rfl _).trans (A_eq12 (V22 m ρ) c 0))
  by_cases h1 : b = main_v191
  · subst h1; exact (W23_arr m ρ c 1).trans (((dat12 (V22 m ρ) c).arrAt_in 1 rfl _).trans (A_eq12 (V22 m ρ) c 1))
  exact W23_of_ne m ρ c b (fun w => match w with
    | ⟨0, _⟩ => fun e => h0 e.symm
    | ⟨1, _⟩ => fun e => h1 e.symm
    | ⟨2, _⟩ => fun e => hb e.symm)

/-- The twenty argument arrays. -/
def argsL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem args_wl0 : ∀ x ∈ argsL, x ∉ KHost.wl0 := by decide
theorem args_wl1 : ∀ x ∈ argsL, x ∉ KHost.wl1 := by decide
theorem args_wl2 : ∀ x ∈ argsL, x ∉ KHost.wl2 := by decide
theorem args_wl3 : ∀ x ∈ argsL, x ∉ KHost.wl3 := by decide
theorem args_wl5 : ∀ x ∈ argsL, x ∉ KHost.wl5 := by decide
theorem args_wl6 : ∀ x ∈ argsL, x ∉ KHost.wl6 := by decide
theorem args_wl8 : ∀ x ∈ argsL, x ∉ KHost.wl8 := by decide
theorem args_wl9 : ∀ x ∈ argsL, x ∉ KHost.wl9 := by decide
theorem args_wl10 : ∀ x ∈ argsL, x ∉ KHost.wl10 := by decide
theorem args_wl11 : ∀ x ∈ argsL, x ∉ KHost.wl11 := by decide
theorem args_outs : ∀ x ∈ argsL, x ∉ [main_v25, main_v37, main_v63, main_v75, main_v76, main_v102, main_v114, main_v115, main_v141, main_v153, main_v179, main_v191, main_v192] := by decide

/-- No launch's output is an argument. -/
theorem arg_ne_out {b y : Ref sig .tc} (hb : b ∈ argsL) (hy : y ∈ [main_v25, main_v37, main_v63, main_v75, main_v76, main_v102, main_v114, main_v115, main_v141, main_v153, main_v179, main_v191, main_v192]) : b ≠ y :=
  fun e => args_outs b hb (e ▸ hy)

theorem W1_arg (c : Dev nD) (b : Ref sig .tc) (hb : b ∈ argsL) : W1 m ρ c (Proc.devRef .tc b) = m ((c : Thread nD τ).loc b) :=
  (KHost.keep0 (W0 m ρ c) b (args_wl0 b hb)).trans (rfl)
theorem W2_arg (c : Dev nD) (b : Ref sig .tc) (hb : b ∈ argsL) : W2 m ρ c (Proc.devRef .tc b) = m ((c : Thread nD τ).loc b) :=
  (keepR0 m ρ c b (arg_ne_out hb (by decide))).trans (W1_arg m ρ c b hb)
theorem W3_arg (c : Dev nD) (b : Ref sig .tc) (hb : b ∈ argsL) : W3 m ρ c (Proc.devRef .tc b) = m ((c : Thread nD τ).loc b) :=
  (KHost.keep1 (W2 m ρ c) b (args_wl1 b hb)).trans (W2_arg m ρ c b hb)
theorem W4_arg (c : Dev nD) (b : Ref sig .tc) (hb : b ∈ argsL) : W4 m ρ c (Proc.devRef .tc b) = m ((c : Thread nD τ).loc b) :=
  (keepR1 m ρ c b (arg_ne_out hb (by decide))).trans (W3_arg m ρ c b hb)
theorem W5_arg (c : Dev nD) (b : Ref sig .tc) (hb : b ∈ argsL) : W5 m ρ c (Proc.devRef .tc b) = m ((c : Thread nD τ).loc b) :=
  (KHost.keep2 (W4 m ρ c) b (args_wl2 b hb)).trans (W4_arg m ρ c b hb)
theorem W6_arg (c : Dev nD) (b : Ref sig .tc) (hb : b ∈ argsL) : W6 m ρ c (Proc.devRef .tc b) = m ((c : Thread nD τ).loc b) :=
  (keepR2 m ρ c b (arg_ne_out hb (by decide))).trans (W5_arg m ρ c b hb)
theorem W7_arg (c : Dev nD) (b : Ref sig .tc) (hb : b ∈ argsL) : W7 m ρ c (Proc.devRef .tc b) = m ((c : Thread nD τ).loc b) :=
  (KHost.keep3 (W6 m ρ c) b (args_wl3 b hb)).trans (W6_arg m ρ c b hb)
theorem W8_arg (c : Dev nD) (b : Ref sig .tc) (hb : b ∈ argsL) : W8 m ρ c (Proc.devRef .tc b) = m ((c : Thread nD τ).loc b) :=
  (keepR3 m ρ c b (arg_ne_out hb (by decide))).trans (W7_arg m ρ c b hb)
theorem W9_arg (c : Dev nD) (b : Ref sig .tc) (hb : b ∈ argsL) : W9 m ρ c (Proc.devRef .tc b) = m ((c : Thread nD τ).loc b) :=
  (keepR4 m ρ c b (arg_ne_out hb (by decide))).trans (W8_arg m ρ c b hb)
theorem W10_arg (c : Dev nD) (b : Ref sig .tc) (hb : b ∈ argsL) : W10 m ρ c (Proc.devRef .tc b) = m ((c : Thread nD τ).loc b) :=
  (KHost.keep5 (W9 m ρ c) b (args_wl5 b hb)).trans (W9_arg m ρ c b hb)
theorem W11_arg (c : Dev nD) (b : Ref sig .tc) (hb : b ∈ argsL) : W11 m ρ c (Proc.devRef .tc b) = m ((c : Thread nD τ).loc b) :=
  (keepR5 m ρ c b (arg_ne_out hb (by decide))).trans (W10_arg m ρ c b hb)
theorem W12_arg (c : Dev nD) (b : Ref sig .tc) (hb : b ∈ argsL) : W12 m ρ c (Proc.devRef .tc b) = m ((c : Thread nD τ).loc b) :=
  (KHost.keep6 (W11 m ρ c) b (args_wl6 b hb)).trans (W11_arg m ρ c b hb)
theorem W13_arg (c : Dev nD) (b : Ref sig .tc) (hb : b ∈ argsL) : W13 m ρ c (Proc.devRef .tc b) = m ((c : Thread nD τ).loc b) :=
  (keepR6 m ρ c b (arg_ne_out hb (by decide))).trans (W12_arg m ρ c b hb)
theorem W14_arg (c : Dev nD) (b : Ref sig .tc) (hb : b ∈ argsL) : W14 m ρ c (Proc.devRef .tc b) = m ((c : Thread nD τ).loc b) :=
  (keepR7 m ρ c b (arg_ne_out hb (by decide))).trans (W13_arg m ρ c b hb)
theorem W15_arg (c : Dev nD) (b : Ref sig .tc) (hb : b ∈ argsL) : W15 m ρ c (Proc.devRef .tc b) = m ((c : Thread nD τ).loc b) :=
  (KHost.keep8 (W14 m ρ c) b (args_wl8 b hb)).trans (W14_arg m ρ c b hb)
theorem W16_arg (c : Dev nD) (b : Ref sig .tc) (hb : b ∈ argsL) : W16 m ρ c (Proc.devRef .tc b) = m ((c : Thread nD τ).loc b) :=
  (keepR8 m ρ c b (arg_ne_out hb (by decide))).trans (W15_arg m ρ c b hb)
theorem W17_arg (c : Dev nD) (b : Ref sig .tc) (hb : b ∈ argsL) : W17 m ρ c (Proc.devRef .tc b) = m ((c : Thread nD τ).loc b) :=
  (KHost.keep9 (W16 m ρ c) b (args_wl9 b hb)).trans (W16_arg m ρ c b hb)
theorem W18_arg (c : Dev nD) (b : Ref sig .tc) (hb : b ∈ argsL) : W18 m ρ c (Proc.devRef .tc b) = m ((c : Thread nD τ).loc b) :=
  (keepR9 m ρ c b (arg_ne_out hb (by decide))).trans (W17_arg m ρ c b hb)
theorem W19_arg (c : Dev nD) (b : Ref sig .tc) (hb : b ∈ argsL) : W19 m ρ c (Proc.devRef .tc b) = m ((c : Thread nD τ).loc b) :=
  (KHost.keep10 (W18 m ρ c) b (args_wl10 b hb)).trans (W18_arg m ρ c b hb)
theorem W20_arg (c : Dev nD) (b : Ref sig .tc) (hb : b ∈ argsL) : W20 m ρ c (Proc.devRef .tc b) = m ((c : Thread nD τ).loc b) :=
  (keepR10 m ρ c b (arg_ne_out hb (by decide))).trans (W19_arg m ρ c b hb)
theorem W21_arg (c : Dev nD) (b : Ref sig .tc) (hb : b ∈ argsL) : W21 m ρ c (Proc.devRef .tc b) = m ((c : Thread nD τ).loc b) :=
  (KHost.keep11 (W20 m ρ c) b (args_wl11 b hb)).trans (W20_arg m ρ c b hb)
theorem W22_arg (c : Dev nD) (b : Ref sig .tc) (hb : b ∈ argsL) : W22 m ρ c (Proc.devRef .tc b) = m ((c : Thread nD τ).loc b) :=
  (keepR11 m ρ c b (arg_ne_out hb (by decide))).trans (W21_arg m ρ c b hb)
theorem W23_arg (c : Dev nD) (b : Ref sig .tc) (hb : b ∈ argsL) : W23 m ρ c (Proc.devRef .tc b) = m ((c : Thread nD τ).loc b) :=
  (keepR12 m ρ c b (arg_ne_out hb (by decide))).trans (W22_arg m ρ c b hb)

end Cert.KernelIdeal.KKeep

end
-- ==== Proof.KFold.lean ====
/-
  THE KERNEL PROGRAM'S RESULT, READ BOUNDARY BY BOUNDARY.

  The run's buffer contents at its twenty-four boundaries are a fold through the program (`W0 … W23`).  Reading the fold
  at the result buffer walks the program backwards: the last launch adds two arrays; each is a convolution's second
  launch (rows scaled plus bias) of a gather-and-sum of a first launch (rows scaled times weights); the scales are
  computed by the stretch before; the features are arguments or an earlier layer's output carried, untouched, across the
  launches and stretches in between.  Each produced buffer is read ONCE, at the boundary where it is produced, as a
  function of the launch arguments (each argument is the same at every boundary), and carried to where it is consumed.
  The end is `Stage.kerOut` of the twenty arguments.
-/
import proofs.«173211_j66030827209235_1_alg».proof.Proof.Reg0
import proofs.«173211_j66030827209235_1_alg».proof.Proof.Reg1
import proofs.«173211_j66030827209235_1_alg».proof.Proof.Reg2
import proofs.«173211_j66030827209235_1_alg».proof.Proof.Reg3
import proofs.«173211_j66030827209235_1_alg».proof.Proof.Reg4
import proofs.«173211_j66030827209235_1_alg».proof.Proof.Reg5
import proofs.«173211_j66030827209235_1_alg».proof.Proof.Reg6
import proofs.«173211_j66030827209235_1_alg».proof.Proof.Reg7
import proofs.«173211_j66030827209235_1_alg».proof.Proof.Reg8
import proofs.«173211_j66030827209235_1_alg».proof.Proof.Reg9
import proofs.«173211_j66030827209235_1_alg».proof.Proof.Reg10
import proofs.«173211_j66030827209235_1_alg».proof.Proof.Reg11
import proofs.«173211_j66030827209235_1_alg».proof.Proof.Reg12
import proofs.«173211_j66030827209235_1_alg».proof.Proof.KKeep

set_option maxRecDepth 16384

noncomputable section

namespace Cert.KernelIdeal.KFold

open Cert.KernelIdeal Cert.KernelIdeal.Gen Idealize.ShloMosaic Idealize.ShloMosaic.TcCoe Idealize.SL.Sem
open Cert.Stage Cert.Arr

theorem congr2 {α β γ : Sort _} (f : α → β → γ) {a a' : α} {b b' : β} (ea : a = a') (eb : b = b') : f a b = f a' b' := by
  subst ea eb; rfl
theorem congr3 {α β γ δ : Sort _} (f : α → β → γ → δ) {a a' : α} {b b' : β} {c c' : γ} (ea : a = a') (eb : b = b') (ec : c = c') :
    f a b c = f a' b' c' := by
  subst ea eb ec; rfl

variable (m : (ℓ : Loc nD τ sig) → Buf (Elt Ideal) ℓ) (ρ : Dev nD → PrngReg) (c : Dev nD)

/-! ## Convolution cc1 -/

theorem v20 : W1 m ρ c (Proc.devRef .tc main_v20) = shapeCast S50000x1 (inv5 (F := Ideal) kD (m ((c : Thread nD τ).loc main_arg2))) shapeCasts_S50000_S50000x1 :=
  (KHost.host0_v20 (W0 m ρ c)).trans (congrArg (fun z => shapeCast S50000x1 (inv5 (F := Ideal) kD z) shapeCasts_S50000_S50000x1) rfl)
theorem v24 : W1 m ρ c (Proc.devRef .tc main_v24) = shapeCast S50000x1 (inv5 (F := Ideal) kD (m ((c : Thread nD τ).loc main_arg3))) shapeCasts_S50000_S50000x1 :=
  (KHost.host0_v24 (W0 m ρ c)).trans (congrArg (fun z => shapeCast S50000x1 (inv5 (F := Ideal) kD z) shapeCasts_S50000_S50000x1) rfl)
theorem v25 : W2 m ρ c (Proc.devRef .tc main_v25) = scaleProd (m ((c : Thread nD τ).loc main_arg0)) (shapeCast S50000x1 (inv5 (F := Ideal) kD (m ((c : Thread nD τ).loc main_arg2))) shapeCasts_S50000_S50000x1) (m ((c : Thread nD τ).loc main_arg8)) :=
  (W2_arr m ρ c 3).trans ((RegVal.final0 (V1 m ρ) c).trans (congr3 scaleProd (KKeep.W1_arg m ρ c main_arg0 (by decide)) (v20 m ρ c) (KKeep.W1_arg m ρ c main_arg8 (by decide))))
theorem v35 : W3 m ρ c (Proc.devRef .tc main_v35) = aggCC (F := Ideal) kD (scaleProd (m ((c : Thread nD τ).loc main_arg0)) (shapeCast S50000x1 (inv5 (F := Ideal) kD (m ((c : Thread nD τ).loc main_arg2))) shapeCasts_S50000_S50000x1) (m ((c : Thread nD τ).loc main_arg8))) (m ((c : Thread nD τ).loc main_arg2)) (m ((c : Thread nD τ).loc main_arg3)) :=
  (KHost.host1_v35 (W2 m ρ c)).trans (congr3 (aggCC (F := Ideal) kD) (v25 m ρ c) (KKeep.W2_arg m ρ c main_arg2 (by decide)) (KKeep.W2_arg m ρ c main_arg3 (by decide)))
theorem v36 : W3 m ρ c (Proc.devRef .tc main_v36) = shapeCast S1x128 (m ((c : Thread nD τ).loc main_arg9)) shapeCasts_S128_S1x128 :=
  (KHost.host1_v36 (W2 m ρ c)).trans (congrArg (fun z => shapeCast S1x128 z shapeCasts_S128_S1x128) (KKeep.W2_arg m ρ c main_arg9 (by decide)))
theorem v24_late : W3 m ρ c (Proc.devRef .tc main_v24) = shapeCast S50000x1 (inv5 (F := Ideal) kD (m ((c : Thread nD τ).loc main_arg3))) shapeCasts_S50000_S50000x1 :=
  (KHost.keep1 (W2 m ρ c) main_v24 (by decide)).trans ((KKeep.keepR0 m ρ c main_v24 (by decide)).trans (v24 m ρ c))
theorem v37 : W4 m ρ c (Proc.devRef .tc main_v37) = convK_cc (m ((c : Thread nD τ).loc main_arg0)) (m ((c : Thread nD τ).loc main_arg8)) (m ((c : Thread nD τ).loc main_arg9)) (m ((c : Thread nD τ).loc main_arg2)) (m ((c : Thread nD τ).loc main_arg3)) :=
  (W4_arr m ρ c 3).trans ((RegVal.final1 (V3 m ρ) c).trans (congr3 scaleBias (v35 m ρ c) (v24_late m ρ c) (v36 m ρ c)))

/-! ## Convolution gc1 -/

theorem v58 : W5 m ρ c (Proc.devRef .tc main_v58) = shapeCast S30000x1 (inv4a (F := Ideal) kD (m ((c : Thread nD τ).loc main_arg6))) shapeCasts_S30000_S30000x1 :=
  (KHost.host2_v58 (W4 m ρ c)).trans (congrArg (fun z => shapeCast S30000x1 (inv4a (F := Ideal) kD z) shapeCasts_S30000_S30000x1) (KKeep.W4_arg m ρ c main_arg6 (by decide)))
theorem v62 : W5 m ρ c (Proc.devRef .tc main_v62) = shapeCast S50000x1 (inv4b (F := Ideal) kD (m ((c : Thread nD τ).loc main_arg7))) shapeCasts_S50000_S50000x1 :=
  (KHost.host2_v62 (W4 m ρ c)).trans (congrArg (fun z => shapeCast S50000x1 (inv4b (F := Ideal) kD z) shapeCasts_S50000_S50000x1) (KKeep.W4_arg m ρ c main_arg7 (by decide)))
theorem v63 : W6 m ρ c (Proc.devRef .tc main_v63) = scaleProd (m ((c : Thread nD τ).loc main_arg1)) (shapeCast S30000x1 (inv4a (F := Ideal) kD (m ((c : Thread nD τ).loc main_arg6))) shapeCasts_S30000_S30000x1) (m ((c : Thread nD τ).loc main_arg12)) :=
  (W6_arr m ρ c 3).trans ((RegVal.final2 (V5 m ρ) c).trans (congr3 scaleProd (KKeep.W5_arg m ρ c main_arg1 (by decide)) (v58 m ρ c) (KKeep.W5_arg m ρ c main_arg12 (by decide))))
theorem v73 : W7 m ρ c (Proc.devRef .tc main_v73) = aggGC (F := Ideal) kD (scaleProd (m ((c : Thread nD τ).loc main_arg1)) (shapeCast S30000x1 (inv4a (F := Ideal) kD (m ((c : Thread nD τ).loc main_arg6))) shapeCasts_S30000_S30000x1) (m ((c : Thread nD τ).loc main_arg12))) (m ((c : Thread nD τ).loc main_arg6)) (m ((c : Thread nD τ).loc main_arg7)) :=
  (KHost.host3_v73 (W6 m ρ c)).trans (congr3 (aggGC (F := Ideal) kD) (v63 m ρ c) (KKeep.W6_arg m ρ c main_arg6 (by decide)) (KKeep.W6_arg m ρ c main_arg7 (by decide)))
theorem v74 : W7 m ρ c (Proc.devRef .tc main_v74) = shapeCast S1x128 (m ((c : Thread nD τ).loc main_arg13)) shapeCasts_S128_S1x128 :=
  (KHost.host3_v74 (W6 m ρ c)).trans (congrArg (fun z => shapeCast S1x128 z shapeCasts_S128_S1x128) (KKeep.W6_arg m ρ c main_arg13 (by decide)))
theorem v62_late : W7 m ρ c (Proc.devRef .tc main_v62) = shapeCast S50000x1 (inv4b (F := Ideal) kD (m ((c : Thread nD τ).loc main_arg7))) shapeCasts_S50000_S50000x1 :=
  (KHost.keep3 (W6 m ρ c) main_v62 (by decide)).trans ((KKeep.keepR2 m ρ c main_v62 (by decide)).trans (v62 m ρ c))
theorem v75 : W8 m ρ c (Proc.devRef .tc main_v75) = convK_gc (m ((c : Thread nD τ).loc main_arg1)) (m ((c : Thread nD τ).loc main_arg12)) (m ((c : Thread nD τ).loc main_arg13)) (m ((c : Thread nD τ).loc main_arg6)) (m ((c : Thread nD τ).loc main_arg7)) :=
  (W8_arr m ρ c 3).trans ((RegVal.final3 (V7 m ρ) c).trans (congr3 scaleBias (v73 m ρ c) (v62_late m ρ c) (v74 m ρ c)))

/-! ## Layer one's chem features: the two chem-bound relations added, through the rectifier -/

/-- Layer one's chem features. -/
def H1 (m : (ℓ : Loc nD τ sig) → Buf (Elt Ideal) ℓ) (c : Dev nD) :=
  addLeaky (convK_cc (m ((c : Thread nD τ).loc main_arg0)) (m ((c : Thread nD τ).loc main_arg8)) (m ((c : Thread nD τ).loc main_arg9)) (m ((c : Thread nD τ).loc main_arg2)) (m ((c : Thread nD τ).loc main_arg3))) (convK_gc (m ((c : Thread nD τ).loc main_arg1)) (m ((c : Thread nD τ).loc main_arg12)) (m ((c : Thread nD τ).loc main_arg13)) (m ((c : Thread nD τ).loc main_arg6)) (m ((c : Thread nD τ).loc main_arg7)))

theorem v37_at8 : W8 m ρ c (Proc.devRef .tc main_v37) = convK_cc (m ((c : Thread nD τ).loc main_arg0)) (m ((c : Thread nD τ).loc main_arg8)) (m ((c : Thread nD τ).loc main_arg9)) (m ((c : Thread nD τ).loc main_arg2)) (m ((c : Thread nD τ).loc main_arg3)) :=
  ((KKeep.keepR3 m ρ c main_v37 (by decide)).trans ((KHost.keep3 (W6 m ρ c) main_v37 (by decide)).trans ((KKeep.keepR2 m ρ c main_v37 (by decide)).trans ((KHost.keep2 (W4 m ρ c) main_v37 (by decide)).trans (v37 m ρ c)))))

theorem v76 : W9 m ρ c (Proc.devRef .tc main_v76) = H1 m c :=
  (W9_arr m ρ c 2).trans ((RegVal.final4 (V8 m ρ) c).trans (congr2 addLeaky (v37_at8 m ρ c) (v75 m ρ c)))

/-! ## Convolution cg1 -/

theorem v97 : W10 m ρ c (Proc.devRef .tc main_v97) = shapeCast S50000x1 (inv4b (F := Ideal) kD (m ((c : Thread nD τ).loc main_arg4))) shapeCasts_S50000_S50000x1 :=
  (KHost.host5_v97 (W9 m ρ c)).trans (congrArg (fun z => shapeCast S50000x1 (inv4b (F := Ideal) kD z) shapeCasts_S50000_S50000x1) (KKeep.W9_arg m ρ c main_arg4 (by decide)))
theorem v101 : W10 m ρ c (Proc.devRef .tc main_v101) = shapeCast S30000x1 (inv4a (F := Ideal) kD (m ((c : Thread nD τ).loc main_arg5))) shapeCasts_S30000_S30000x1 :=
  (KHost.host5_v101 (W9 m ρ c)).trans (congrArg (fun z => shapeCast S30000x1 (inv4a (F := Ideal) kD z) shapeCasts_S30000_S30000x1) (KKeep.W9_arg m ρ c main_arg5 (by decide)))
theorem v102 : W11 m ρ c (Proc.devRef .tc main_v102) = scaleProd (m ((c : Thread nD τ).loc main_arg0)) (shapeCast S50000x1 (inv4b (F := Ideal) kD (m ((c : Thread nD τ).loc main_arg4))) shapeCasts_S50000_S50000x1) (m ((c : Thread nD τ).loc main_arg10)) :=
  (W11_arr m ρ c 3).trans ((RegVal.final5 (V10 m ρ) c).trans (congr3 scaleProd (KKeep.W10_arg m ρ c main_arg0 (by decide)) (v97 m ρ c) (KKeep.W10_arg m ρ c main_arg10 (by decide))))
theorem v112 : W12 m ρ c (Proc.devRef .tc main_v112) = aggCG (F := Ideal) kD (scaleProd (m ((c : Thread nD τ).loc main_arg0)) (shapeCast S50000x1 (inv4b (F := Ideal) kD (m ((c : Thread nD τ).loc main_arg4))) shapeCasts_S50000_S50000x1) (m ((c : Thread nD τ).loc main_arg10))) (m ((c : Thread nD τ).loc main_arg4)) (m ((c : Thread nD τ).loc main_arg5)) :=
  (KHost.host6_v112 (W11 m ρ c)).trans (congr3 (aggCG (F := Ideal) kD) (v102 m ρ c) (KKeep.W11_arg m ρ c main_arg4 (by decide)) (KKeep.W11_arg m ρ c main_arg5 (by decide)))
theorem v113 : W12 m ρ c (Proc.devRef .tc main_v113) = shapeCast S1x128 (m ((c : Thread nD τ).loc main_arg11)) shapeCasts_S128_S1x128 :=
  (KHost.host6_v113 (W11 m ρ c)).trans (congrArg (fun z => shapeCast S1x128 z shapeCasts_S128_S1x128) (KKeep.W11_arg m ρ c main_arg11 (by decide)))
theorem v101_late : W12 m ρ c (Proc.devRef .tc main_v101) = shapeCast S30000x1 (inv4a (F := Ideal) kD (m ((c : Thread nD τ).loc main_arg5))) shapeCasts_S30000_S30000x1 :=
  (KHost.keep6 (W11 m ρ c) main_v101 (by decide)).trans ((KKeep.keepR5 m ρ c main_v101 (by decide)).trans (v101 m ρ c))
theorem v114 : W13 m ρ c (Proc.devRef .tc main_v114) = convK_cg (m ((c : Thread nD τ).loc main_arg0)) (m ((c : Thread nD τ).loc main_arg10)) (m ((c : Thread nD τ).loc main_arg11)) (m ((c : Thread nD τ).loc main_arg4)) (m ((c : Thread nD τ).loc main_arg5)) :=
  (W13_arr m ρ c 3).trans ((RegVal.final6 (V12 m ρ) c).trans (congr3 scaleBias (v112 m ρ c) (v101_late m ρ c) (v113 m ρ c)))

/-! ## Layer one's gene features: the gene-bound relation through the rectifier -/

/-- Layer one's gene features. -/
def G1 (m : (ℓ : Loc nD τ sig) → Buf (Elt Ideal) ℓ) (c : Dev nD) :=
  leakyArr (convK_cg (m ((c : Thread nD τ).loc main_arg0)) (m ((c : Thread nD τ).loc main_arg10)) (m ((c : Thread nD τ).loc main_arg11)) (m ((c : Thread nD τ).loc main_arg4)) (m ((c : Thread nD τ).loc main_arg5)))

theorem v115 : W14 m ρ c (Proc.devRef .tc main_v115) = G1 m c :=
  (W14_arr m ρ c 1).trans ((RegVal.final7 (V13 m ρ) c).trans (congrArg leakyArr (v114 m ρ c)))

theorem v76_at15 : W15 m ρ c (Proc.devRef .tc main_v76) = H1 m c :=
  ((KHost.keep8 (W14 m ρ c) main_v76 (by decide)).trans ((KKeep.keepR7 m ρ c main_v76 (by decide)).trans ((KKeep.keepR6 m ρ c main_v76 (by decide)).trans ((KHost.keep6 (W11 m ρ c) main_v76 (by decide)).trans ((KKeep.keepR5 m ρ c main_v76 (by decide)).trans ((KHost.keep5 (W9 m ρ c) main_v76 (by decide)).trans (v76 m ρ c)))))))

/-! ## Convolution cc2 -/

theorem v136 : W15 m ρ c (Proc.devRef .tc main_v136) = shapeCast S50000x1 (inv5 (F := Ideal) kD (m ((c : Thread nD τ).loc main_arg2))) shapeCasts_S50000_S50000x1 :=
  (KHost.host8_v136 (W14 m ρ c)).trans (congrArg (fun z => shapeCast S50000x1 (inv5 (F := Ideal) kD z) shapeCasts_S50000_S50000x1) (KKeep.W14_arg m ρ c main_arg2 (by decide)))
theorem v140 : W15 m ρ c (Proc.devRef .tc main_v140) = shapeCast S50000x1 (inv5 (F := Ideal) kD (m ((c : Thread nD τ).loc main_arg3))) shapeCasts_S50000_S50000x1 :=
  (KHost.host8_v140 (W14 m ρ c)).trans (congrArg (fun z => shapeCast S50000x1 (inv5 (F := Ideal) kD z) shapeCasts_S50000_S50000x1) (KKeep.W14_arg m ρ c main_arg3 (by decide)))
theorem v141 : W16 m ρ c (Proc.devRef .tc main_v141) = scaleProd (H1 m c) (shapeCast S50000x1 (inv5 (F := Ideal) kD (m ((c : Thread nD τ).loc main_arg2))) shapeCasts_S50000_S50000x1) (m ((c : Thread nD τ).loc main_arg14)) :=
  (W16_arr m ρ c 3).trans ((RegVal.final8 (V15 m ρ) c).trans (congr3 scaleProd (v76_at15 m ρ c) (v136 m ρ c) (KKeep.W15_arg m ρ c main_arg14 (by decide))))
theorem v151 : W17 m ρ c (Proc.devRef .tc main_v151) = aggCC (F := Ideal) kD (scaleProd (H1 m c) (shapeCast S50000x1 (inv5 (F := Ideal) kD (m ((c : Thread nD τ).loc main_arg2))) shapeCasts_S50000_S50000x1) (m ((c : Thread nD τ).loc main_arg14))) (m ((c : Thread nD τ).loc main_arg2)) (m ((c : Thread nD τ).loc main_arg3)) :=
  (KHost.host9_v151 (W16 m ρ c)).trans (congr3 (aggCC (F := Ideal) kD) (v141 m ρ c) (KKeep.W16_arg m ρ c main_arg2 (by decide)) (KKeep.W16_arg m ρ c main_arg3 (by decide)))
theorem v152 : W17 m ρ c (Proc.devRef .tc main_v152) = shapeCast S1x128 (m ((c : Thread nD τ).loc main_arg15)) shapeCasts_S128_S1x128 :=
  (KHost.host9_v152 (W16 m ρ c)).trans (congrArg (fun z => shapeCast S1x128 z shapeCasts_S128_S1x128) (KKeep.W16_arg m ρ c main_arg15 (by decide)))
theorem v140_late : W17 m ρ c (Proc.devRef .tc main_v140) = shapeCast S50000x1 (inv5 (F := Ideal) kD (m ((c : Thread nD τ).loc main_arg3))) shapeCasts_S50000_S50000x1 :=
  (KHost.keep9 (W16 m ρ c) main_v140 (by decide)).trans ((KKeep.keepR8 m ρ c main_v140 (by decide)).trans (v140 m ρ c))
theorem v153 : W18 m ρ c (Proc.devRef .tc main_v153) = convK_cc (H1 m c) (m ((c : Thread nD τ).loc main_arg14)) (m ((c : Thread nD τ).loc main_arg15)) (m ((c : Thread nD τ).loc main_arg2)) (m ((c : Thread nD τ).loc main_arg3)) :=
  (W18_arr m ρ c 3).trans ((RegVal.final9 (V17 m ρ) c).trans (congr3 scaleBias (v151 m ρ c) (v140_late m ρ c) (v152 m ρ c)))

theorem v115_at19 : W19 m ρ c (Proc.devRef .tc main_v115) = G1 m c :=
  ((KHost.keep10 (W18 m ρ c) main_v115 (by decide)).trans ((KKeep.keepR9 m ρ c main_v115 (by decide)).trans ((KHost.keep9 (W16 m ρ c) main_v115 (by decide)).trans ((KKeep.keepR8 m ρ c main_v115 (by decide)).trans ((KHost.keep8 (W14 m ρ c) main_v115 (by decide)).trans (v115 m ρ c))))))

/-! ## Convolution gc2 -/

theorem v174 : W19 m ρ c (Proc.devRef .tc main_v174) = shapeCast S30000x1 (inv4a (F := Ideal) kD (m ((c : Thread nD τ).loc main_arg6))) shapeCasts_S30000_S30000x1 :=
  (KHost.host10_v174 (W18 m ρ c)).trans (congrArg (fun z => shapeCast S30000x1 (inv4a (F := Ideal) kD z) shapeCasts_S30000_S30000x1) (KKeep.W18_arg m ρ c main_arg6 (by decide)))
theorem v178 : W19 m ρ c (Proc.devRef .tc main_v178) = shapeCast S50000x1 (inv4b (F := Ideal) kD (m ((c : Thread nD τ).loc main_arg7))) shapeCasts_S50000_S50000x1 :=
  (KHost.host10_v178 (W18 m ρ c)).trans (congrArg (fun z => shapeCast S50000x1 (inv4b (F := Ideal) kD z) shapeCasts_S50000_S50000x1) (KKeep.W18_arg m ρ c main_arg7 (by decide)))
theorem v179 : W20 m ρ c (Proc.devRef .tc main_v179) = scaleProd (G1 m c) (shapeCast S30000x1 (inv4a (F := Ideal) kD (m ((c : Thread nD τ).loc main_arg6))) shapeCasts_S30000_S30000x1) (m ((c : Thread nD τ).loc main_arg18)) :=
  (W20_arr m ρ c 3).trans ((RegVal.final10 (V19 m ρ) c).trans (congr3 scaleProd (v115_at19 m ρ c) (v174 m ρ c) (KKeep.W19_arg m ρ c main_arg18 (by decide))))
theorem v189 : W21 m ρ c (Proc.devRef .tc main_v189) = aggGC (F := Ideal) kD (scaleProd (G1 m c) (shapeCast S30000x1 (inv4a (F := Ideal) kD (m ((c : Thread nD τ).loc main_arg6))) shapeCasts_S30000_S30000x1) (m ((c : Thread nD τ).loc main_arg18))) (m ((c : Thread nD τ).loc main_arg6)) (m ((c : Thread nD τ).loc main_arg7)) :=
  (KHost.host11_v189 (W20 m ρ c)).trans (congr3 (aggGC (F := Ideal) kD) (v179 m ρ c) (KKeep.W20_arg m ρ c main_arg6 (by decide)) (KKeep.W20_arg m ρ c main_arg7 (by decide)))
theorem v190 : W21 m ρ c (Proc.devRef .tc main_v190) = shapeCast S1x128 (m ((c : Thread nD τ).loc main_arg19)) shapeCasts_S128_S1x128 :=
  (KHost.host11_v190 (W20 m ρ c)).trans (congrArg (fun z => shapeCast S1x128 z shapeCasts_S128_S1x128) (KKeep.W20_arg m ρ c main_arg19 (by decide)))
theorem v178_late : W21 m ρ c (Proc.devRef .tc main_v178) = shapeCast S50000x1 (inv4b (F := Ideal) kD (m ((c : Thread nD τ).loc main_arg7))) shapeCasts_S50000_S50000x1 :=
  (KHost.keep11 (W20 m ρ c) main_v178 (by decide)).trans ((KKeep.keepR10 m ρ c main_v178 (by decide)).trans (v178 m ρ c))
theorem v191 : W22 m ρ c (Proc.devRef .tc main_v191) = convK_gc (G1 m c) (m ((c : Thread nD τ).loc main_arg18)) (m ((c : Thread nD τ).loc main_arg19)) (m ((c : Thread nD τ).loc main_arg6)) (m ((c : Thread nD τ).loc main_arg7)) :=
  (W22_arr m ρ c 3).trans ((RegVal.final11 (V21 m ρ) c).trans (congr3 scaleBias (v189 m ρ c) (v178_late m ρ c) (v190 m ρ c)))

theorem v153_at22 : W22 m ρ c (Proc.devRef .tc main_v153) = convK_cc (H1 m c) (m ((c : Thread nD τ).loc main_arg14)) (m ((c : Thread nD τ).loc main_arg15)) (m ((c : Thread nD τ).loc main_arg2)) (m ((c : Thread nD τ).loc main_arg3)) :=
  ((KKeep.keepR11 m ρ c main_v153 (by decide)).trans ((KHost.keep11 (W20 m ρ c) main_v153 (by decide)).trans ((KKeep.keepR10 m ρ c main_v153 (by decide)).trans ((KHost.keep10 (W18 m ρ c) main_v153 (by decide)).trans (v153 m ρ c)))))

/-! ## The result -/

/-- The result buffer at the last boundary: the kernel program's composed function of its arguments. -/
theorem out : W23 m ρ c (Proc.devRef .tc main_v192)
    = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (m ((c : Thread nD τ).loc main_arg19)) :=
  (W23_arr m ρ c 2).trans ((RegVal.final12 (V22 m ρ) c).trans (congr2 addArr (v153_at22 m ρ c) (v191 m ρ c)))

end Cert.KernelIdeal.KFold

end
-- ==== Proof.Bridge.lean ====
/-
  THE TWO SPELLINGS OF THE DENSE STAGES ARE ONE FUNCTION, at the ideal values.

  The kernel program hands each launch a COLUMN of scales (the degree vector reshaped to `[R, 1]`) and a ROW of biases
  (`[1, 128]`); the reference broadcasts the degree vector to a column and then over the 128 columns, multiplies, and
  broadcasts the bias to a row and then over the rows.  Read at an index `(p, c)` both use the one number `v p` of the
  degree vector and the one number `b c` of the bias, so
    • rows scaled then multiplied by the weights: `Arr.scaleProd x (column v) w` is the reference's `dot_general` of
      `x · broadcast v` with `w` (both are `∑ k, (x (p, k) · v p) · w (k, c)`, the same sum term by term);
    • rows scaled plus the bias: `Arr.scaleBias a (column v) (row b)` is `a · broadcast v + broadcast b`.
  The leaky rectifier is written `x > 0 ? x : s · x` in the kernels and `x ≥ 0 ? x : s · x` in the reference; the two
  differ only at `x = 0`, where `s · 0 = 0 = x`.  No sum is regrouped and nothing needs to be finite.
-/
import proofs.«173211_j66030827209235_1_alg».proof.Proof.Stages
import Idealize.ShloMosaic.Lib.ValueLayout
import Idealize.ShloMosaic.Lib.Pipeline.Value

noncomputable section

open scoped BigOperators

namespace Cert.Bridge

open Idealize.ShloMosaic Idealize.ShloMosaic.ValueIdx Cert.Arr Cert.Stage
open Cert.KernelIdeal.RegionValue (prodArr prodArr_apply)

/-! ## Columns and rows read at an index -/

/-- A vector `[a]` recast as a column `[a, 1]`, read at `(p, 0)`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector `[a]` broadcast to a column `[a, 1]` along axis 0, read at `(p, 0)`. -/
theorem bcast_a_a1_apply {α : Type} {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- A column `[a, 1]` broadcast over `b` columns, read at `(p, c)`: the column's entry of row `p`. -/
theorem bcast_a1_ab_apply {α : Type} {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) :=
  broadcastInDim_apply _ h x (ix2 p c) (ix2 p (0 : Fin 1)) fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A vector `[b]` broadcast to a row `[1, b]` along axis 1, read at `(0, c)`. -/
theorem bcast_b_1b_apply {α : Type} {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x (ix2 u c) (ix1 c) fun ax => by
    match ax with
    | ⟨0, _⟩ =>
      show c.val = if b = 1 then 0 else c.val
      split
      · have := c.isLt; omega
      · rfl

/-- A row `[1, b]` broadcast over `a` rows, read at `(p, c)`: the row's entry of column `c`. -/
theorem bcast_1b_ab_apply {α : Type} {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) :=
  broadcastInDim_apply _ h x (ix2 p c) (ix2 (0 : Fin 1) c) fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A scalar broadcast to any shape, read anywhere. -/
theorem bcast_scalar_apply {α : Type} {t : Shape} (x : (⟨0, ![]⟩ : Shape).Idx → α) (h : (⟨0, ![]⟩ : Shape).BroadcastsInDim t ![])
    (j : t.Idx) (k : (⟨0, ![]⟩ : Shape).Idx) : broadcastInDim t ![] h x j = x k :=
  broadcastInDim_apply _ h x j k fun ax => ax.elim0

/-! ## The dense stages -/

/-- The reference's `x · broadcast v` is the rows of `x` scaled by the column of `v`. -/
theorem mul_bcast_eq_scaleRows {R C : ℕ} (x : FVec Ideal ⟨2, ![R, C]⟩ .f32) (v : FVec Ideal ⟨1, ![R]⟩ .f32)
    (h1 : (⟨1, ![R]⟩ : Shape).BroadcastsInDim ⟨2, ![R, 1]⟩ ![0]) (h2 : (⟨2, ![R, 1]⟩ : Shape).BroadcastsInDim ⟨2, ![R, C]⟩ ![0, 1])
    (hsc : (⟨1, ![R]⟩ : Shape).ShapeCasts ⟨2, ![R, 1]⟩) :
    mulf x (broadcastInDim ⟨2, ![R, C]⟩ ![0, 1] h2 (broadcastInDim ⟨2, ![R, 1]⟩ ![0] h1 v))
      = scaleRows x (shapeCast ⟨2, ![R, 1]⟩ v hsc) := by
  funext i
  obtain ⟨p, c, rfl⟩ : ∃ (p : Fin R) (c : Fin C), i = ix2 p c := ⟨i 0, i 1, eq_ix2 i⟩
  show x (ix2 p c) * broadcastInDim ⟨2, ![R, C]⟩ ![0, 1] h2 (broadcastInDim ⟨2, ![R, 1]⟩ ![0] h1 v) (ix2 p c)
      = x (ix2 p c) * shapeCast ⟨2, ![R, 1]⟩ v hsc (ix2 p (0 : Fin 1))
  rw [bcast_a1_ab_apply, bcast_a_a1_apply, shapeCast_a_a1_apply]

/-- Rows scaled, then the product with the weights: the reference's `dot_general`. -/
theorem scaleProd_eq {R K N : ℕ} (d : DotDims ⟨2, ![R, K]⟩ ⟨2, ![K, N]⟩ ⟨2, ![R, N]⟩) (hd : d = DotDims.plain R K N)
    (x : FVec Ideal ⟨2, ![R, K]⟩ .f32) (v : FVec Ideal ⟨1, ![R]⟩ .f32) (w : FVec Ideal ⟨2, ![K, N]⟩ .f32)
    (h1 : (⟨1, ![R]⟩ : Shape).BroadcastsInDim ⟨2, ![R, 1]⟩ ![0]) (h2 : (⟨2, ![R, 1]⟩ : Shape).BroadcastsInDim ⟨2, ![R, K]⟩ ![0, 1])
    (hsc : (⟨1, ![R]⟩ : Shape).ShapeCasts ⟨2, ![R, 1]⟩) :
    scaleProd x (shapeCast ⟨2, ![R, 1]⟩ v hsc) w
      = Host.dotGeneral d none (mulf x (broadcastInDim ⟨2, ![R, K]⟩ ![0, 1] h2 (broadcastInDim ⟨2, ![R, 1]⟩ ![0] h1 v))) w := by
  subst hd
  rw [mul_bcast_eq_scaleRows x v h1 h2 hsc, Cert.ProdRows.hprod]
  rfl

/-- Rows scaled plus the bias row: the reference's `a · broadcast v + broadcast b`. -/
theorem scaleBias_eq {R C : ℕ} (a : FVec Ideal ⟨2, ![R, C]⟩ .f32) (v : FVec Ideal ⟨1, ![R]⟩ .f32) (b : FVec Ideal ⟨1, ![C]⟩ .f32)
    (h1 : (⟨1, ![R]⟩ : Shape).BroadcastsInDim ⟨2, ![R, 1]⟩ ![0]) (h2 : (⟨2, ![R, 1]⟩ : Shape).BroadcastsInDim ⟨2, ![R, C]⟩ ![0, 1])
    (g1 : (⟨1, ![C]⟩ : Shape).BroadcastsInDim ⟨2, ![1, C]⟩ ![1]) (g2 : (⟨2, ![1, C]⟩ : Shape).BroadcastsInDim ⟨2, ![R, C]⟩ ![0, 1])
    (hsc : (⟨1, ![R]⟩ : Shape).ShapeCasts ⟨2, ![R, 1]⟩) (hsb : (⟨1, ![C]⟩ : Shape).ShapeCasts ⟨2, ![1, C]⟩) :
    scaleBias a (shapeCast ⟨2, ![R, 1]⟩ v hsc) (shapeCast ⟨2, ![1, C]⟩ b hsb)
      = addf (mulf a (broadcastInDim ⟨2, ![R, C]⟩ ![0, 1] h2 (broadcastInDim ⟨2, ![R, 1]⟩ ![0] h1 v)))
          (broadcastInDim ⟨2, ![R, C]⟩ ![0, 1] g2 (broadcastInDim ⟨2, ![1, C]⟩ ![1] g1 b)) := by
  funext i
  obtain ⟨p, c, rfl⟩ : ∃ (p : Fin R) (c : Fin C), i = ix2 p c := ⟨i 0, i 1, eq_ix2 i⟩
  show a (ix2 p c) * shapeCast ⟨2, ![R, 1]⟩ v hsc (ix2 p (0 : Fin 1)) + shapeCast ⟨2, ![1, C]⟩ b hsb (ix2 (0 : Fin 1) c)
      = a (ix2 p c) * broadcastInDim ⟨2, ![R, C]⟩ ![0, 1] h2 (broadcastInDim ⟨2, ![R, 1]⟩ ![0] h1 v) (ix2 p c)
        + broadcastInDim ⟨2, ![R, C]⟩ ![0, 1] g2 (broadcastInDim ⟨2, ![1, C]⟩ ![1] g1 b) (ix2 p c)
  rw [bcast_a1_ab_apply, bcast_a_a1_apply, shapeCast_a_a1_apply, bcast_1b_ab_apply, bcast_b_1b_apply, shapeCast_a_1a_apply]

/-! ## The rectifier -/

/-- One entry: greater than zero, or at least zero, decides the same value. -/
theorem leaky1_eq (v : EReal) :
    leaky1 v = Scalar.select (Ideal.cmp .oge v (Ideal.ofBits .f32 0x00000000#32)) v (Ideal.ofBits .f32 0x3C23D70A#32 * v) := by
  show Scalar.select (Ideal.cmp .ogt v (Ideal.ofBits .f32 0x00000000#32)) v (Ideal.ofBits .f32 0x3C23D70A#32 * v) = _
  rw [Ideal.ofBits_zero_f32]
  unfold Ideal.cmp Scalar.select
  by_cases h : (0 : EReal) < v
  · simp [h, le_of_lt h]
  · by_cases h0 : v = 0
    · subst h0; simp
    · have hlt : v < 0 := lt_of_le_of_ne (not_lt.mp h) h0
      simp [h, not_le.mpr hlt]

/-- The kernels' rectifier is the reference's, on any shape. -/
theorem leakyArr_eq {t : Shape} (x : FVec Ideal t .f32) (h : (⟨0, ![]⟩ : Shape).BroadcastsInDim t ![]) :
    leakyArr x = select (cmpf .oge x (broadcastInDim t ![] h (constant ⟨0, ![]⟩ .f32 0x00000000#32))) x
      (mulf (broadcastInDim t ![] h (id (constant ⟨0, ![]⟩ .f32 0x3C23D70A#32))) x) := by
  funext i
  show leaky1 (x i) = Scalar.select (Ideal.cmp .oge (x i) (broadcastInDim t ![] h (constant (F := Ideal) ⟨0, ![]⟩ .f32 0x00000000#32) i)) (x i)
      (broadcastInDim t ![] h (constant (F := Ideal) ⟨0, ![]⟩ .f32 0x3C23D70A#32) i * x i)
  rw [bcast_scalar_apply _ h i (fun a => a.elim0), bcast_scalar_apply _ h i (fun a => a.elim0), leaky1_eq]
  rfl

theorem addLeaky_eq {t : Shape} (a b : FVec Ideal t .f32) : addLeaky a b = leakyArr (addf a b) := rfl

theorem addArr_eq {t : Shape} (a b : FVec Ideal t .f32) : addArr a b = addf a b := rfl

/-! ## One convolution, and the whole programs -/

open Cert.KernelIdeal (S_ S500000 S400000 S50000 S30000 S50000x1 S30000x1 S50000x128 S30000x128 S128x128 S128 S1x128)

theorem convCC_eq (x : (CF Ideal S50000x128)) (w : (CF Ideal S128x128)) (b : (CF Ideal S128)) (src dst : (CI Ideal S500000)) :
    convK_cc x w b src dst = convR_cc (F := Ideal) x w b src dst := by
  unfold convK_cc convR_cc
  rw [rD_eq]
  rw [scaleProd_eq (R := 50000) (K := 128) (N := 128) Cert.ReferenceIdeal.dot_S50000x128_S128x128_S50000x128_1_0_0_1_n_n rfl x (inv5 (F := Ideal) kD src) w
    Cert.ReferenceIdeal.Gen.bcast_S50000_S50000x1_0 Cert.ReferenceIdeal.Gen.bcast_S50000x1_S50000x128_0_1 Cert.KernelIdeal.Gen.shapeCasts_S50000_S50000x1]
  exact scaleBias_eq (R := 50000) (C := 128) _ (inv5 (F := Ideal) kD dst) b
    Cert.ReferenceIdeal.Gen.bcast_S50000_S50000x1_0 Cert.ReferenceIdeal.Gen.bcast_S50000x1_S50000x128_0_1 Cert.ReferenceIdeal.Gen.bcast_S128_S1x128_1 Cert.ReferenceIdeal.Gen.bcast_S1x128_S50000x128_0_1
    Cert.KernelIdeal.Gen.shapeCasts_S50000_S50000x1 Cert.KernelIdeal.Gen.shapeCasts_S128_S1x128

theorem convGC_eq (x : (CF Ideal S30000x128)) (w : (CF Ideal S128x128)) (b : (CF Ideal S128)) (src dst : (CI Ideal S400000)) :
    convK_gc x w b src dst = convR_gc (F := Ideal) x w b src dst := by
  unfold convK_gc convR_gc
  rw [rD_eq]
  rw [scaleProd_eq (R := 30000) (K := 128) (N := 128) Cert.ReferenceIdeal.dot_S30000x128_S128x128_S30000x128_1_0_0_1_n_n rfl x (inv4a (F := Ideal) kD src) w
    Cert.ReferenceIdeal.Gen.bcast_S30000_S30000x1_0 Cert.ReferenceIdeal.Gen.bcast_S30000x1_S30000x128_0_1 Cert.KernelIdeal.Gen.shapeCasts_S30000_S30000x1]
  exact scaleBias_eq (R := 50000) (C := 128) _ (inv4b (F := Ideal) kD dst) b
    Cert.ReferenceIdeal.Gen.bcast_S50000_S50000x1_0 Cert.ReferenceIdeal.Gen.bcast_S50000x1_S50000x128_0_1 Cert.ReferenceIdeal.Gen.bcast_S128_S1x128_1 Cert.ReferenceIdeal.Gen.bcast_S1x128_S50000x128_0_1
    Cert.KernelIdeal.Gen.shapeCasts_S50000_S50000x1 Cert.KernelIdeal.Gen.shapeCasts_S128_S1x128

theorem convCG_eq (x : (CF Ideal S50000x128)) (w : (CF Ideal S128x128)) (b : (CF Ideal S128)) (src dst : (CI Ideal S400000)) :
    convK_cg x w b src dst = convR_cg (F := Ideal) x w b src dst := by
  unfold convK_cg convR_cg
  rw [rD_eq]
  rw [scaleProd_eq (R := 50000) (K := 128) (N := 128) Cert.ReferenceIdeal.dot_S50000x128_S128x128_S50000x128_1_0_0_1_n_n rfl x (inv4b (F := Ideal) kD src) w
    Cert.ReferenceIdeal.Gen.bcast_S50000_S50000x1_0 Cert.ReferenceIdeal.Gen.bcast_S50000x1_S50000x128_0_1 Cert.KernelIdeal.Gen.shapeCasts_S50000_S50000x1]
  exact scaleBias_eq (R := 30000) (C := 128) _ (inv4a (F := Ideal) kD dst) b
    Cert.ReferenceIdeal.Gen.bcast_S30000_S30000x1_0 Cert.ReferenceIdeal.Gen.bcast_S30000x1_S30000x128_0_1 Cert.ReferenceIdeal.Gen.bcast_S128_S1x128_1 Cert.ReferenceIdeal.Gen.bcast_S1x128_S30000x128_0_1
    Cert.KernelIdeal.Gen.shapeCasts_S30000_S30000x1 Cert.KernelIdeal.Gen.shapeCasts_S128_S1x128

/-- THE TWO PROGRAMS' RESULTS ARE ONE FUNCTION of the twenty arguments. -/
theorem out_eq (a0 : (CF Ideal S50000x128)) (a1 : (CF Ideal S30000x128)) (a2 a3 : (CI Ideal S500000)) (a4 a5 a6 a7 : (CI Ideal S400000))
    (a8 : (CF Ideal S128x128)) (a9 : (CF Ideal S128)) (a10 : (CF Ideal S128x128)) (a11 : (CF Ideal S128)) (a12 : (CF Ideal S128x128)) (a13 : (CF Ideal S128))
    (a14 : (CF Ideal S128x128)) (a15 : (CF Ideal S128)) (a18 : (CF Ideal S128x128)) (a19 : (CF Ideal S128)) :
    kerOut a0 a1 a2 a3 a4 a5 a6 a7 a8 a9 a10 a11 a12 a13 a14 a15 a18 a19
      = refOut (F := Ideal) a0 a1 a2 a3 a4 a5 a6 a7 a8 a9 a10 a11 a12 a13 a14 a15 a18 a19 := by
  unfold kerOut refOut leakyR5 leakyR3
  rw [addArr_eq, addLeaky_eq, leakyArr_eq _ Cert.ReferenceIdeal.Gen.bcast_S_S50000x128,
    leakyArr_eq _ Cert.ReferenceIdeal.Gen.bcast_S_S30000x128, convCC_eq, convCC_eq, convGC_eq, convGC_eq, convCG_eq]

end Cert.Bridge

end
-- ==== Proof.RefRun.lean ====
import proofs.«173211_j66030827209235_1_alg».proof.Proof.Gen.ReferenceIdeal
import Idealize.ShloMosaic.Lib.StableHlo.Run

/-!
# The run of the reference program

The reference's `@main` is a straight line of host operations: five graph convolutions (a degree
normalisation of the source rows, a dense product, a gather along the edges, a segment sum into the
destination rows, a second normalisation, a bias) and two leaky rectifiers between the first three and the
last two. Here it is the list `ops` of its 293 operations, the two rectifiers' bodies standing at their
calls over the calls' own buffers, cut into seven consecutive stretches (one per convolution, one per
rectifier); `main_eq` says the program is that line, and `run_main` that every weakly fair execution
terminates with each buffer at the fold `after ops` of the operations' results over the launch contents.
A stretch that crosses one of the five windows the program text is cut into is itself two lists
(`ops2 = ops2a ++ ops2b`), so that each window is a concatenation of whole lists.
-/

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_append {τ' : Topo} {sig' : RefSig} {Val : EltTy → Type} (l₁ l₂ : List (HloOp τ' sig' Val))
    (V : Valuation τ' sig' Val) : after (l₁ ++ l₂) V = after l₂ (after l₁ V) := by
  induction l₁ generalizing V with
  | nil => rfl
  | cons op l ih => exact ih (op.result V)

/-- The first graph convolution (source table `%arg0`, edges `%arg2 → %arg3`, weights `%arg8`, bias `%arg9`): `%cst … %42`. -/
abbrev ops1 : List (HloOp τ sig (Elt F)) :=
  [ StableHlo.nullary main_cst (constant S_ .f32 0x3F800000#32),
    StableHlo.unary main_cst main_v0 (broadcastInDim S500000 ![] bcast_S_S500000 : (⟨S_, .f32⟩ : BufTy).Contents (Elt F) → (⟨S500000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v2 (broadcastInDim S500000 ![] bcast_S_S500000 : (⟨S_, .i32⟩ : BufTy).Contents (Elt F) → (⟨S500000, .i32⟩ : BufTy).Contents (Elt F)),
    StableHlo.binary main_arg2 main_v2 main_v3 (cmpi .slt : (⟨S500000, .i32⟩ : BufTy).Contents (Elt F) → (⟨S500000, .i32⟩ : BufTy).Contents (Elt F) → (⟨S500000, .i1⟩ : BufTy).Contents (Elt F)),
    StableHlo.nullary main_c_1 (constantI S_ 32 50000#32),
    StableHlo.unary main_c_1 main_v4 (broadcastInDim S500000 ![] bcast_S_S500000 : (⟨S_, .i32⟩ : BufTy).Contents (Elt F) → (⟨S500000, .i32⟩ : BufTy).Contents (Elt F)),
    StableHlo.binary main_arg2 main_v4 main_v5 (addi : (⟨S500000, .i32⟩ : BufTy).Contents (Elt F) → (⟨S500000, .i32⟩ : BufTy).Contents (Elt F) → (⟨S500000, .i32⟩ : BufTy).Contents (Elt F)),
    StableHlo.ternary main_v3 main_v5 main_arg2 main_v6 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v6 main_v7 (broadcastInDim S500000x1 ![0] bcast_S500000_S500000x1_0 : (⟨S500000, .i32⟩ : BufTy).Contents (Elt F) → (⟨S500000x1, .i32⟩ : BufTy).Contents (Elt F)),
    StableHlo.ternary main_v1 main_v7 main_v0 main_v8 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    StableHlo.nullary main_cst_2 (constant S_ .f32 0x00000000#32),
    StableHlo.unary main_cst_2 main_v9 (broadcastInDim S50000 ![] bcast_S_S50000 : (⟨S_, .f32⟩ : BufTy).Contents (Elt F) → (⟨S50000, .f32⟩ : BufTy).Contents (Elt F)),
    StableHlo.nullary main_c_3 (constantI S_ 32 0#32),
    StableHlo.unary main_c_3 main_v10 (broadcastInDim S500000 ![] bcast_S_S500000 : (⟨S_, .i32⟩ : BufTy).Contents (Elt F) → (⟨S500000, .i32⟩ : BufTy).Contents (Elt F)),
    StableHlo.binary main_arg3 main_v10 main_v11 (cmpi .slt : (⟨S500000, .i32⟩ : BufTy).Contents (Elt F) → (⟨S500000, .i32⟩ : BufTy).Contents (Elt F) → (⟨S500000, .i1⟩ : BufTy).Contents (Elt F)),
    StableHlo.nullary main_c_4 (constantI S_ 32 50000#32),
    StableHlo.unary main_c_4 main_v12 (broadcastInDim S500000 ![] bcast_S_S500000 : (⟨S_, .i32⟩ : BufTy).Contents (Elt F) → (⟨S500000, .i32⟩ : BufTy).Contents (Elt F)),
    StableHlo.binary main_arg3 main_v12 main_v13 (addi : (⟨S500000, .i32⟩ : BufTy).Contents (Elt F) → (⟨S500000, .i32⟩ : BufTy).Contents (Elt F) → (⟨S500000, .i32⟩ : BufTy).Contents (Elt F)),
    StableHlo.ternary main_v11 main_v13 main_arg3 main_v14 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v14 main_v15 (broadcastInDim S500000x1 ![0] bcast_S500000_S500000x1_0 : (⟨S500000, .i32⟩ : BufTy).Contents (Elt F) → (⟨S500000x1, .i32⟩ : BufTy).Contents (Elt F)),
    StableHlo.ternary main_v9 main_v15 main_v0 main_v16 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    StableHlo.nullary main_cst_5 (constant S_ .f32 0x3F800000#32),
    StableHlo.unary main_cst_5 main_v17 (broadcastInDim S50000 ![] bcast_S_S50000 : (⟨S_, .f32⟩ : BufTy).Contents (Elt F) → (⟨S50000, .f32⟩ : BufTy).Contents (Elt F)),
    StableHlo.binary main_v8 main_v17 main_v18 (maximumf : (⟨S50000, .f32⟩ : BufTy).Contents (Elt F) → (⟨S50000, .f32⟩ : BufTy).Contents (Elt F) → (⟨S50000, .f32⟩ : BufTy).Contents (Elt F)),
    StableHlo.unary main_v18 main_v19 (Host.rsqrt : (⟨S50000, .f32⟩ : BufTy).Contents (Elt F) → (⟨S50000, .f32⟩ : BufTy).Contents (Elt F)),
    StableHlo.nullary main_cst_6 (constant S_ .f32 0x3F800000#32),
    StableHlo.unary main_cst_6 main_v20 (broadcastInDim S50000 ![] bcast_S_S50000 : (⟨S_, .f32⟩ : BufTy).Contents (Elt F) → (⟨S50000, .f32⟩ : BufTy).Contents (Elt F)),
    StableHlo.binary main_v16 main_v20 main_v21 (maximumf : (⟨S50000, .f32⟩ : BufTy).Contents (Elt F) → (⟨S50000, .f32⟩ : BufTy).Contents (Elt F) → (⟨S50000, .f32⟩ : BufTy).Contents (Elt F)),
    StableHlo.unary main_v21 main_v22 (Host.rsqrt : (⟨S50000, .f32⟩ : BufTy).Contents (Elt F) → (⟨S50000, .f32⟩ : BufTy).Contents (Elt F)),
    StableHlo.unary main_v19 main_v23 (broadcastInDim S50000x1 ![0] bcast_S50000_S50000x1_0 : (⟨S50000, .f32⟩ : BufTy).Contents (Elt F) → (⟨S50000x1, .f32⟩ : BufTy).Contents (Elt F)),
    StableHlo.unary main_v23 main_v24 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v24 main_v25 (mulf : (⟨S50000x128, .f32⟩ : BufTy).Contents (Elt F) → (⟨S50000x128, .f32⟩ : BufTy).Contents (Elt F) → (⟨S50000x128, .f32⟩ : BufTy).Contents (Elt F)),
    StableHlo.binary main_v25 main_arg8 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v27 (broadcastInDim S500000 ![] bcast_S_S500000 : (⟨S_, .i32⟩ : BufTy).Contents (Elt F) → (⟨S500000, .i32⟩ : BufTy).Contents (Elt F)),
    StableHlo.binary main_arg2 main_v27 main_v28 (cmpi .slt : (⟨S500000, .i32⟩ : BufTy).Contents (Elt F) → (⟨S500000, .i32⟩ : BufTy).Contents (Elt F) → (⟨S500000, .i1⟩ : BufTy).Contents (Elt F)),
    StableHlo.nullary main_c_8 (constantI S_ 32 50000#32),
    StableHlo.unary main_c_8 main_v29 (broadcastInDim S500000 ![] bcast_S_S500000 : (⟨S_, .i32⟩ : BufTy).Contents (Elt F) → (⟨S500000, .i32⟩ : BufTy).Contents (Elt F)),
    StableHlo.binary main_arg2 main_v29 main_v30 (addi : (⟨S500000, .i32⟩ : BufTy).Contents (Elt F) → (⟨S500000, .i32⟩ : BufTy).Contents (Elt F) → (⟨S500000, .i32⟩ : BufTy).Contents (Elt F)),
    StableHlo.ternary main_v28 main_v30 main_arg2 main_v31 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v31 main_v32 (broadcastInDim S500000x1 ![0] bcast_S500000_S500000x1_0 : (⟨S500000, .i32⟩ : BufTy).Contents (Elt F) → (⟨S500000x1, .i32⟩ : BufTy).Contents (Elt F)),
    StableHlo.binary main_v26 main_v32 main_v33 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nullary main_cst_9 (constant S_ .f32 0x00000000#32),
    StableHlo.unary main_cst_9 main_v34 (broadcastInDim S50000x128 ![] bcast_S_S50000x128 : (⟨S_, .f32⟩ : BufTy).Contents (Elt F) → (⟨S50000x128, .f32⟩ : BufTy).Contents (Elt F)),
    StableHlo.unary main_arg3 main_v35 (broadcastInDim S500000x1 ![0] bcast_S500000_S500000x1_0 : (⟨S500000, .i32⟩ : BufTy).Contents (Elt F) → (⟨S500000x1, .i32⟩ : BufTy).Contents (Elt F)),
    StableHlo.ternary main_v34 main_v35 main_v33 main_v36 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    StableHlo.unary main_v22 main_v37 (broadcastInDim S50000x1 ![0] bcast_S50000_S50000x1_0 : (⟨S50000, .f32⟩ : BufTy).Contents (Elt F) → (⟨S50000x1, .f32⟩ : BufTy).Contents (Elt F)),
    StableHlo.unary main_v37 main_v38 (broadcastInDim S50000x128 ![0, 1] bcast_S50000x1_S50000x128_0_1 : (⟨S50000x1, .f32⟩ : BufTy).Contents (Elt F) → (⟨S50000x128, .f32⟩ : BufTy).Contents (Elt F)),
    StableHlo.binary main_v36 main_v38 main_v39 (mulf : (⟨S50000x128, .f32⟩ : BufTy).Contents (Elt F) → (⟨S50000x128, .f32⟩ : BufTy).Contents (Elt F) → (⟨S50000x128, .f32⟩ : BufTy).Contents (Elt F)),
    StableHlo.unary main_arg9 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (addf : (⟨S50000x128, .f32⟩ : BufTy).Contents (Elt F) → (⟨S50000x128, .f32⟩ : BufTy).Contents (Elt F) → (⟨S50000x128, .f32⟩ : BufTy).Contents (Elt F)) ]

/-- The second graph convolution (source table `%arg1`, edges `%arg6 → %arg7`, weights `%arg12`, bias `%arg13`), its first five operations: `%cst_10 … %c_12`. -/
abbrev ops2a : List (HloOp τ sig (Elt F)) :=
  [ StableHlo.nullary main_cst_10 (constant S_ .f32 0x3F800000#32),
    StableHlo.unary main_cst_10 main_v43 (broadcastInDim S400000 ![] bcast_S_S400000 : (⟨S_, .f32⟩ : BufTy).Contents (Elt F) → (⟨S400000, .f32⟩ : BufTy).Contents (Elt F)),
    StableHlo.nullary main_cst_11 (constant S_ .f32 0x00000000#32),
    StableHlo.unary main_cst_11 main_v44 (broadcastInDim S30000 ![] bcast_S_S30000 : (⟨S_, .f32⟩ : BufTy).Contents (Elt F) → (⟨S30000, .f32⟩ : BufTy).Contents (Elt F)),
    StableHlo.nullary main_c_12 (constantI S_ 32 0#32) ]

/-- The second graph convolution, the rest, and the sum of the two convolutions into the first table: `%45 … %86`. -/
abbrev ops2b : List (HloOp τ sig (Elt F)) :=
  [ StableHlo.unary main_c_12 main_v45 (broadcastInDim S400000 ![] bcast_S_S400000 : (⟨S_, .i32⟩ : BufTy).Contents (Elt F) → (⟨S400000, .i32⟩ : BufTy).Contents (Elt F)),
    StableHlo.binary main_arg6 main_v45 main_v46 (cmpi .slt : (⟨S400000, .i32⟩ : BufTy).Contents (Elt F) → (⟨S400000, .i32⟩ : BufTy).Contents (Elt F) → (⟨S400000, .i1⟩ : BufTy).Contents (Elt F)),
    StableHlo.nullary main_c_13 (constantI S_ 32 30000#32),
    StableHlo.unary main_c_13 main_v47 (broadcastInDim S400000 ![] bcast_S_S400000 : (⟨S_, .i32⟩ : BufTy).Contents (Elt F) → (⟨S400000, .i32⟩ : BufTy).Contents (Elt F)),
    StableHlo.binary main_arg6 main_v47 main_v48 (addi : (⟨S400000, .i32⟩ : BufTy).Contents (Elt F) → (⟨S400000, .i32⟩ : BufTy).Contents (Elt F) → (⟨S400000, .i32⟩ : BufTy).Contents (Elt F)),
    StableHlo.ternary main_v46 main_v48 main_arg6 main_v49 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v49 main_v50 (broadcastInDim S400000x1 ![0] bcast_S400000_S400000x1_0 : (⟨S400000, .i32⟩ : BufTy).Contents (Elt F) → (⟨S400000x1, .i32⟩ : BufTy).Contents (Elt F)),
    StableHlo.ternary main_v44 main_v50 main_v43 main_v51 ((fun x i u => Host.scatterAdd scatter_S30000_S400000x1_S400000_n_0_0_1 x i u) : (⟨S30000, .f32⟩ : BufTy).Contents (Elt F) → (⟨S400000x1, .i32⟩ : BufTy).Contents (Elt F) → (⟨S400000, .f32⟩ : BufTy).Contents (Elt F) → (⟨S30000, .f32⟩ : BufTy).Contents (Elt F)),
    StableHlo.nullary main_cst_14 (constant S_ .f32 0x00000000#32),
    StableHlo.unary main_cst_14 main_v52 (broadcastInDim S50000 ![] bcast_S_S50000 : (⟨S_, .f32⟩ : BufTy).Contents (Elt F) → (⟨S50000, .f32⟩ : BufTy).Contents (Elt F)),
    StableHlo.nullary main_c_15 (constantI S_ 32 0#32),
    StableHlo.unary main_c_15 main_v53 (broadcastInDim S400000 ![] bcast_S_S400000 : (⟨S_, .i32⟩ : BufTy).Contents (Elt F) → (⟨S400000, .i32⟩ : BufTy).Contents (Elt F)),
    StableHlo.binary main_arg7 main_v53 main_v54 (cmpi .slt : (⟨S400000, .i32⟩ : BufTy).Contents (Elt F) → (⟨S400000, .i32⟩ : BufTy).Contents (Elt F) → (⟨S400000, .i1⟩ : BufTy).Contents (Elt F)),
    StableHlo.nullary main_c_16 (constantI S_ 32 50000#32),
    StableHlo.unary main_c_16 main_v55 (broadcastInDim S400000 ![] bcast_S_S400000 : (⟨S_, .i32⟩ : BufTy).Contents (Elt F) → (⟨S400000, .i32⟩ : BufTy).Contents (Elt F)),
    StableHlo.binary main_arg7 main_v55 main_v56 (addi : (⟨S400000, .i32⟩ : BufTy).Contents (Elt F) → (⟨S400000, .i32⟩ : BufTy).Contents (Elt F) → (⟨S400000, .i32⟩ : BufTy).Contents (Elt F)),
    StableHlo.ternary main_v54 main_v56 main_arg7 main_v57 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v57 main_v58 (broadcastInDim S400000x1 ![0] bcast_S400000_S400000x1_0 : (⟨S400000, .i32⟩ : BufTy).Contents (Elt F) → (⟨S400000x1, .i32⟩ : BufTy).Contents (Elt F)),
    StableHlo.ternary main_v52 main_v58 main_v43 main_v59 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_17 (constant S_ .f32 0x3F800000#32),
    StableHlo.unary main_cst_17 main_v60 (broadcastInDim S30000 ![] bcast_S_S30000 : (⟨S_, .f32⟩ : BufTy).Contents (Elt F) → (⟨S30000, .f32⟩ : BufTy).Contents (Elt F)),
    StableHlo.binary main_v51 main_v60 main_v61 (maximumf : (⟨S30000, .f32⟩ : BufTy).Contents (Elt F) → (⟨S30000, .f32⟩ : BufTy).Contents (Elt F) → (⟨S30000, .f32⟩ : BufTy).Contents (Elt F)),
    StableHlo.unary main_v61 main_v62 (Host.rsqrt : (⟨S30000, .f32⟩ : BufTy).Contents (Elt F) → (⟨S30000, .f32⟩ : BufTy).Contents (Elt F)),
    StableHlo.nullary main_cst_18 (constant S_ .f32 0x3F800000#32),
    StableHlo.unary main_cst_18 main_v63 (broadcastInDim S50000 ![] bcast_S_S50000 : (⟨S_, .f32⟩ : BufTy).Contents (Elt F) → (⟨S50000, .f32⟩ : BufTy).Contents (Elt F)),
    StableHlo.binary main_v59 main_v63 main_v64 (maximumf : (⟨S50000, .f32⟩ : BufTy).Contents (Elt F) → (⟨S50000, .f32⟩ : BufTy).Contents (Elt F) → (⟨S50000, .f32⟩ : BufTy).Contents (Elt F)),
    StableHlo.unary main_v64 main_v65 (Host.rsqrt : (⟨S50000, .f32⟩ : BufTy).Contents (Elt F) → (⟨S50000, .f32⟩ : BufTy).Contents (Elt F)),
    StableHlo.unary main_v62 main_v66 (broadcastInDim S30000x1 ![0] bcast_S30000_S30000x1_0 : (⟨S30000, .f32⟩ : BufTy).Contents (Elt F) → (⟨S30000x1, .f32⟩ : BufTy).Contents (Elt F)),
    StableHlo.unary main_v66 main_v67 (broadcastInDim S30000x128 ![0, 1] bcast_S30000x1_S30000x128_0_1 : (⟨S30000x1, .f32⟩ : BufTy).Contents (Elt F) → (⟨S30000x128, .f32⟩ : BufTy).Contents (Elt F)),
    StableHlo.binary main_arg1 main_v67 main_v68 (mulf : (⟨S30000x128, .f32⟩ : BufTy).Contents (Elt F) → (⟨S30000x128, .f32⟩ : BufTy).Contents (Elt F) → (⟨S30000x128, .f32⟩ : BufTy).Contents (Elt F)),
    StableHlo.binary main_v68 main_arg12 main_v69 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    StableHlo.nullary main_c_19 (constantI S_ 32 0#32),
    StableHlo.unary main_c_19 main_v70 (broadcastInDim S400000 ![] bcast_S_S400000 : (⟨S_, .i32⟩ : BufTy).Contents (Elt F) → (⟨S400000, .i32⟩ : BufTy).Contents (Elt F)),
    StableHlo.binary main_arg6 main_v70 main_v71 (cmpi .slt : (⟨S400000, .i32⟩ : BufTy).Contents (Elt F) → (⟨S400000, .i32⟩ : BufTy).Contents (Elt F) → (⟨S400000, .i1⟩ : BufTy).Contents (Elt F)),
    StableHlo.nullary main_c_20 (constantI S_ 32 30000#32),
    StableHlo.unary main_c_20 main_v72 (broadcastInDim S400000 ![] bcast_S_S400000 : (⟨S_, .i32⟩ : BufTy).Contents (Elt F) → (⟨S400000, .i32⟩ : BufTy).Contents (Elt F)),
    StableHlo.binary main_arg6 main_v72 main_v73 (addi : (⟨S400000, .i32⟩ : BufTy).Contents (Elt F) → (⟨S400000, .i32⟩ : BufTy).Contents (Elt F) → (⟨S400000, .i32⟩ : BufTy).Contents (Elt F)),
    StableHlo.ternary main_v71 main_v73 main_arg6 main_v74 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v74 main_v75 (broadcastInDim S400000x1 ![0] bcast_S400000_S400000x1_0 : (⟨S400000, .i32⟩ : BufTy).Contents (Elt F) → (⟨S400000x1, .i32⟩ : BufTy).Contents (Elt F)),
    StableHlo.binary main_v69 main_v75 main_v76 ((fun x i => Host.gather gather_S30000x128_S400000x1_S400000x128_1_0_n_n_0_1_1128 x i) : (⟨S30000x128, .f32⟩ : BufTy).Contents (Elt F) → (⟨S400000x1, .i32⟩ : BufTy).Contents (Elt F) → (⟨S400000x128, .f32⟩ : BufTy).Contents (Elt F)),
    StableHlo.nullary main_cst_21 (constant S_ .f32 0x00000000#32),
    StableHlo.unary main_cst_21 main_v77 (broadcastInDim S50000x128 ![] bcast_S_S50000x128 : (⟨S_, .f32⟩ : BufTy).Contents (Elt F) → (⟨S50000x128, .f32⟩ : BufTy).Contents (Elt F)),
    StableHlo.unary main_arg7 main_v78 (broadcastInDim S400000x1 ![0] bcast_S400000_S400000x1_0 : (⟨S400000, .i32⟩ : BufTy).Contents (Elt F) → (⟨S400000x1, .i32⟩ : BufTy).Contents (Elt F)),
    StableHlo.ternary main_v77 main_v78 main_v76 main_v79 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.unary main_v65 main_v80 (broadcastInDim S50000x1 ![0] bcast_S50000_S50000x1_0 : (⟨S50000, .f32⟩ : BufTy).Contents (Elt F) → (⟨S50000x1, .f32⟩ : BufTy).Contents (Elt F)),
    StableHlo.unary main_v80 main_v81 (broadcastInDim S50000x128 ![0, 1] bcast_S50000x1_S50000x128_0_1 : (⟨S50000x1, .f32⟩ : BufTy).Contents (Elt F) → (⟨S50000x128, .f32⟩ : BufTy).Contents (Elt F)),
    StableHlo.binary main_v79 main_v81 main_v82 (mulf : (⟨S50000x128, .f32⟩ : BufTy).Contents (Elt F) → (⟨S50000x128, .f32⟩ : BufTy).Contents (Elt F) → (⟨S50000x128, .f32⟩ : BufTy).Contents (Elt F)),
    StableHlo.unary main_arg13 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)),
    StableHlo.binary main_v42 main_v85 main_v86 (addf : (⟨S50000x128, .f32⟩ : BufTy).Contents (Elt F) → (⟨S50000x128, .f32⟩ : BufTy).Contents (Elt F) → (⟨S50000x128, .f32⟩ : BufTy).Contents (Elt F)) ]

/-- The third graph convolution (source table `%arg0`, edges `%arg4 → %arg5`, weights `%arg10`, bias `%arg11`), its first nine operations: `%cst_22 … %91`. -/
abbrev ops3a : List (HloOp τ sig (Elt F)) :=
  [ StableHlo.nullary main_cst_22 (constant S_ .f32 0x3F800000#32),
    StableHlo.unary main_cst_22 main_v87 (broadcastInDim S400000 ![] bcast_S_S400000 : (⟨S_, .f32⟩ : BufTy).Contents (Elt F) → (⟨S400000, .f32⟩ : BufTy).Contents (Elt F)),
    StableHlo.nullary main_cst_23 (constant S_ .f32 0x00000000#32),
    StableHlo.unary main_cst_23 main_v88 (broadcastInDim S50000 ![] bcast_S_S50000 : (⟨S_, .f32⟩ : BufTy).Contents (Elt F) → (⟨S50000, .f32⟩ : BufTy).Contents (Elt F)),
    StableHlo.nullary main_c_24 (constantI S_ 32 0#32),
    StableHlo.unary main_c_24 main_v89 (broadcastInDim S400000 ![] bcast_S_S400000 : (⟨S_, .i32⟩ : BufTy).Contents (Elt F) → (⟨S400000, .i32⟩ : BufTy).Contents (Elt F)),
    StableHlo.binary main_arg4 main_v89 main_v90 (cmpi .slt : (⟨S400000, .i32⟩ : BufTy).Contents (Elt F) → (⟨S400000, .i32⟩ : BufTy).Contents (Elt F) → (⟨S400000, .i1⟩ : BufTy).Contents (Elt F)),
    StableHlo.nullary main_c_25 (constantI S_ 32 50000#32),
    StableHlo.unary main_c_25 main_v91 (broadcastInDim S400000 ![] bcast_S_S400000 : (⟨S_, .i32⟩ : BufTy).Contents (Elt F) → (⟨S400000, .i32⟩ : BufTy).Contents (Elt F)) ]

/-- The third graph convolution, the rest: `%92 … %129`. -/
abbrev ops3b : List (HloOp τ sig (Elt F)) :=
  [ StableHlo.binary main_arg4 main_v91 main_v92 (addi : (⟨S400000, .i32⟩ : BufTy).Contents (Elt F) → (⟨S400000, .i32⟩ : BufTy).Contents (Elt F) → (⟨S400000, .i32⟩ : BufTy).Contents (Elt F)),
    StableHlo.ternary main_v90 main_v92 main_arg4 main_v93 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v93 main_v94 (broadcastInDim S400000x1 ![0] bcast_S400000_S400000x1_0 : (⟨S400000, .i32⟩ : BufTy).Contents (Elt F) → (⟨S400000x1, .i32⟩ : BufTy).Contents (Elt F)),
    StableHlo.ternary main_v88 main_v94 main_v87 main_v95 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_26 (constant S_ .f32 0x00000000#32),
    StableHlo.unary main_cst_26 main_v96 (broadcastInDim S30000 ![] bcast_S_S30000 : (⟨S_, .f32⟩ : BufTy).Contents (Elt F) → (⟨S30000, .f32⟩ : BufTy).Contents (Elt F)),
    StableHlo.nullary main_c_27 (constantI S_ 32 0#32),
    StableHlo.unary main_c_27 main_v97 (broadcastInDim S400000 ![] bcast_S_S400000 : (⟨S_, .i32⟩ : BufTy).Contents (Elt F) → (⟨S400000, .i32⟩ : BufTy).Contents (Elt F)),
    StableHlo.binary main_arg5 main_v97 main_v98 (cmpi .slt : (⟨S400000, .i32⟩ : BufTy).Contents (Elt F) → (⟨S400000, .i32⟩ : BufTy).Contents (Elt F) → (⟨S400000, .i1⟩ : BufTy).Contents (Elt F)),
    StableHlo.nullary main_c_28 (constantI S_ 32 30000#32),
    StableHlo.unary main_c_28 main_v99 (broadcastInDim S400000 ![] bcast_S_S400000 : (⟨S_, .i32⟩ : BufTy).Contents (Elt F) → (⟨S400000, .i32⟩ : BufTy).Contents (Elt F)),
    StableHlo.binary main_arg5 main_v99 main_v100 (addi : (⟨S400000, .i32⟩ : BufTy).Contents (Elt F) → (⟨S400000, .i32⟩ : BufTy).Contents (Elt F) → (⟨S400000, .i32⟩ : BufTy).Contents (Elt F)),
    StableHlo.ternary main_v98 main_v100 main_arg5 main_v101 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v101 main_v102 (broadcastInDim S400000x1 ![0] bcast_S400000_S400000x1_0 : (⟨S400000, .i32⟩ : BufTy).Contents (Elt F) → (⟨S400000x1, .i32⟩ : BufTy).Contents (Elt F)),
    StableHlo.ternary main_v96 main_v102 main_v87 main_v103 ((fun x i u => Host.scatterAdd scatter_S30000_S400000x1_S400000_n_0_0_1 x i u) : (⟨S30000, .f32⟩ : BufTy).Contents (Elt F) → (⟨S400000x1, .i32⟩ : BufTy).Contents (Elt F) → (⟨S400000, .f32⟩ : BufTy).Contents (Elt F) → (⟨S30000, .f32⟩ : BufTy).Contents (Elt F)),
    StableHlo.nullary main_cst_29 (constant S_ .f32 0x3F800000#32),
    StableHlo.unary main_cst_29 main_v104 (broadcastInDim S50000 ![] bcast_S_S50000 : (⟨S_, .f32⟩ : BufTy).Contents (Elt F) → (⟨S50000, .f32⟩ : BufTy).Contents (Elt F)),
    StableHlo.binary main_v95 main_v104 main_v105 (maximumf : (⟨S50000, .f32⟩ : BufTy).Contents (Elt F) → (⟨S50000, .f32⟩ : BufTy).Contents (Elt F) → (⟨S50000, .f32⟩ : BufTy).Contents (Elt F)),
    StableHlo.unary main_v105 main_v106 (Host.rsqrt : (⟨S50000, .f32⟩ : BufTy).Contents (Elt F) → (⟨S50000, .f32⟩ : BufTy).Contents (Elt F)),
    StableHlo.nullary main_cst_30 (constant S_ .f32 0x3F800000#32),
    StableHlo.unary main_cst_30 main_v107 (broadcastInDim S30000 ![] bcast_S_S30000 : (⟨S_, .f32⟩ : BufTy).Contents (Elt F) → (⟨S30000, .f32⟩ : BufTy).Contents (Elt F)),
    StableHlo.binary main_v103 main_v107 main_v108 (maximumf : (⟨S30000, .f32⟩ : BufTy).Contents (Elt F) → (⟨S30000, .f32⟩ : BufTy).Contents (Elt F) → (⟨S30000, .f32⟩ : BufTy).Contents (Elt F)),
    StableHlo.unary main_v108 main_v109 (Host.rsqrt : (⟨S30000, .f32⟩ : BufTy).Contents (Elt F) → (⟨S30000, .f32⟩ : BufTy).Contents (Elt F)),
    StableHlo.unary main_v106 main_v110 (broadcastInDim S50000x1 ![0] bcast_S50000_S50000x1_0 : (⟨S50000, .f32⟩ : BufTy).Contents (Elt F) → (⟨S50000x1, .f32⟩ : BufTy).Contents (Elt F)),
    StableHlo.unary main_v110 main_v111 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v111 main_v112 (mulf : (⟨S50000x128, .f32⟩ : BufTy).Contents (Elt F) → (⟨S50000x128, .f32⟩ : BufTy).Contents (Elt F) → (⟨S50000x128, .f32⟩ : BufTy).Contents (Elt F)),
    StableHlo.binary main_v112 main_arg10 main_v113 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_31 (constantI S_ 32 0#32),
    StableHlo.unary main_c_31 main_v114 (broadcastInDim S400000 ![] bcast_S_S400000 : (⟨S_, .i32⟩ : BufTy).Contents (Elt F) → (⟨S400000, .i32⟩ : BufTy).Contents (Elt F)),
    StableHlo.binary main_arg4 main_v114 main_v115 (cmpi .slt : (⟨S400000, .i32⟩ : BufTy).Contents (Elt F) → (⟨S400000, .i32⟩ : BufTy).Contents (Elt F) → (⟨S400000, .i1⟩ : BufTy).Contents (Elt F)),
    StableHlo.nullary main_c_32 (constantI S_ 32 50000#32),
    StableHlo.unary main_c_32 main_v116 (broadcastInDim S400000 ![] bcast_S_S400000 : (⟨S_, .i32⟩ : BufTy).Contents (Elt F) → (⟨S400000, .i32⟩ : BufTy).Contents (Elt F)),
    StableHlo.binary main_arg4 main_v116 main_v117 (addi : (⟨S400000, .i32⟩ : BufTy).Contents (Elt F) → (⟨S400000, .i32⟩ : BufTy).Contents (Elt F) → (⟨S400000, .i32⟩ : BufTy).Contents (Elt F)),
    StableHlo.ternary main_v115 main_v117 main_arg4 main_v118 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v118 main_v119 (broadcastInDim S400000x1 ![0] bcast_S400000_S400000x1_0 : (⟨S400000, .i32⟩ : BufTy).Contents (Elt F) → (⟨S400000x1, .i32⟩ : BufTy).Contents (Elt F)),
    StableHlo.binary main_v113 main_v119 main_v120 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.nullary main_cst_33 (constant S_ .f32 0x00000000#32),
    StableHlo.unary main_cst_33 main_v121 (broadcastInDim S30000x128 ![] bcast_S_S30000x128 : (⟨S_, .f32⟩ : BufTy).Contents (Elt F) → (⟨S30000x128, .f32⟩ : BufTy).Contents (Elt F)),
    StableHlo.unary main_arg5 main_v122 (broadcastInDim S400000x1 ![0] bcast_S400000_S400000x1_0 : (⟨S400000, .i32⟩ : BufTy).Contents (Elt F) → (⟨S400000x1, .i32⟩ : BufTy).Contents (Elt F)),
    StableHlo.ternary main_v121 main_v122 main_v120 main_v123 ((fun x i u => Host.scatterAdd scatter_S30000x128_S400000x1_S400000x128_1_0_0_1 x i u) : (⟨S30000x128, .f32⟩ : BufTy).Contents (Elt F) → (⟨S400000x1, .i32⟩ : BufTy).Contents (Elt F) → (⟨S400000x128, .f32⟩ : BufTy).Contents (Elt F) → (⟨S30000x128, .f32⟩ : BufTy).Contents (Elt F)),
    StableHlo.unary main_v109 main_v124 (broadcastInDim S30000x1 ![0] bcast_S30000_S30000x1_0 : (⟨S30000, .f32⟩ : BufTy).Contents (Elt F) → (⟨S30000x1, .f32⟩ : BufTy).Contents (Elt F)),
    StableHlo.unary main_v124 main_v125 (broadcastInDim S30000x128 ![0, 1] bcast_S30000x1_S30000x128_0_1 : (⟨S30000x1, .f32⟩ : BufTy).Contents (Elt F) → (⟨S30000x128, .f32⟩ : BufTy).Contents (Elt F)),
    StableHlo.binary main_v123 main_v125 main_v126 (mulf : (⟨S30000x128, .f32⟩ : BufTy).Contents (Elt F) → (⟨S30000x128, .f32⟩ : BufTy).Contents (Elt F) → (⟨S30000x128, .f32⟩ : BufTy).Contents (Elt F)),
    StableHlo.unary main_arg11 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S30000x128 ![0, 1] bcast_S1x128_S30000x128_0_1 : (⟨S1x128, .f32⟩ : BufTy).Contents (Elt F) → (⟨S30000x128, .f32⟩ : BufTy).Contents (Elt F)),
    StableHlo.binary main_v126 main_v128 main_v129 (addf : (⟨S30000x128, .f32⟩ : BufTy).Contents (Elt F) → (⟨S30000x128, .f32⟩ : BufTy).Contents (Elt F) → (⟨S30000x128, .f32⟩ : BufTy).Contents (Elt F)) ]

/-- The slope constant and the first leaky rectifier, its body's seven operations over the call's own buffers, on `%86`: `%cst_34`, `%130`. -/
abbrev ops4 : List (HloOp τ sig (Elt F)) :=
  [ StableHlo.nullary main_cst_34 (constant S_ .f32 0x3C23D70A#32),
    StableHlo.TRef.nullary main_call0.cst (constant S_ .f32 0x00000000#32),
    StableHlo.TRef.unary main_call0.cst main_call0.v0 (broadcastInDim S50000x128 ![] bcast_S_S50000x128),
    StableHlo.TRef.binary (.of main_v86 : StableHlo.TRef sig ⟨S50000x128, .f32⟩) main_call0.v0 main_call0.v1 (cmpf .oge),
    StableHlo.TRef.unary (.of main_cst_34 : StableHlo.TRef sig ⟨S_, .f32⟩) main_call0.v2 id,
    StableHlo.TRef.unary main_call0.v2 main_call0.v3 (broadcastInDim S50000x128 ![] bcast_S_S50000x128),
    StableHlo.TRef.binary main_call0.v3 (.of main_v86 : StableHlo.TRef sig ⟨S50000x128, .f32⟩) main_call0.v4 mulf,
    StableHlo.TRef.ternary main_call0.v1 (.of main_v86 : StableHlo.TRef sig ⟨S50000x128, .f32⟩) main_call0.v4 main_call0.call0.v0 select ]

/-- The slope constant and the second leaky rectifier, likewise, on `%129`: `%cst_35`, `%131`. -/
abbrev ops5 : List (HloOp τ sig (Elt F)) :=
  [ StableHlo.nullary main_cst_35 (constant S_ .f32 0x3C23D70A#32),
    StableHlo.TRef.nullary main_call1.cst (constant S_ .f32 0x00000000#32),
    StableHlo.TRef.unary main_call1.cst main_call1.v0 (broadcastInDim S30000x128 ![] bcast_S_S30000x128),
    StableHlo.TRef.binary (.of main_v129 : StableHlo.TRef sig ⟨S30000x128, .f32⟩) main_call1.v0 main_call1.v1 (cmpf .oge),
    StableHlo.TRef.unary (.of main_cst_35 : StableHlo.TRef sig ⟨S_, .f32⟩) main_call1.v2 id,
    StableHlo.TRef.unary main_call1.v2 main_call1.v3 (broadcastInDim S30000x128 ![] bcast_S_S30000x128),
    StableHlo.TRef.binary main_call1.v3 (.of main_v129 : StableHlo.TRef sig ⟨S30000x128, .f32⟩) main_call1.v4 mulf,
    StableHlo.TRef.ternary main_call1.v1 (.of main_v129 : StableHlo.TRef sig ⟨S30000x128, .f32⟩) main_call1.v4 main_call1.call0.v0 select ]

/-- The fourth graph convolution (source `%130`, edges `%arg2 → %arg3`, weights `%arg14`, bias `%arg15`), its first ten operations: `%cst_36 … %137`. -/
abbrev ops6a : List (HloOp τ sig (Elt F)) :=
  [ StableHlo.nullary main_cst_36 (constant S_ .f32 0x3F800000#32),
    StableHlo.unary main_cst_36 main_v132 (broadcastInDim S500000 ![] bcast_S_S500000 : (⟨S_, .f32⟩ : BufTy).Contents (Elt F) → (⟨S500000, .f32⟩ : BufTy).Contents (Elt F)),
    StableHlo.nullary main_cst_37 (constant S_ .f32 0x00000000#32),
    StableHlo.unary main_cst_37 main_v133 (broadcastInDim S50000 ![] bcast_S_S50000 : (⟨S_, .f32⟩ : BufTy).Contents (Elt F) → (⟨S50000, .f32⟩ : BufTy).Contents (Elt F)),
    StableHlo.nullary main_c_38 (constantI S_ 32 0#32),
    StableHlo.unary main_c_38 main_v134 (broadcastInDim S500000 ![] bcast_S_S500000 : (⟨S_, .i32⟩ : BufTy).Contents (Elt F) → (⟨S500000, .i32⟩ : BufTy).Contents (Elt F)),
    StableHlo.binary main_arg2 main_v134 main_v135 (cmpi .slt : (⟨S500000, .i32⟩ : BufTy).Contents (Elt F) → (⟨S500000, .i32⟩ : BufTy).Contents (Elt F) → (⟨S500000, .i1⟩ : BufTy).Contents (Elt F)),
    StableHlo.nullary main_c_39 (constantI S_ 32 50000#32),
    StableHlo.unary main_c_39 main_v136 (broadcastInDim S500000 ![] bcast_S_S500000 : (⟨S_, .i32⟩ : BufTy).Contents (Elt F) → (⟨S500000, .i32⟩ : BufTy).Contents (Elt F)),
    StableHlo.binary main_arg2 main_v136 main_v137 (addi : (⟨S500000, .i32⟩ : BufTy).Contents (Elt F) → (⟨S500000, .i32⟩ : BufTy).Contents (Elt F) → (⟨S500000, .i32⟩ : BufTy).Contents (Elt F)) ]

/-- The fourth graph convolution, the rest: `%138 … %174`. -/
abbrev ops6b : List (HloOp τ sig (Elt F)) :=
  [ StableHlo.ternary main_v135 main_v137 main_arg2 main_v138 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v138 main_v139 (broadcastInDim S500000x1 ![0] bcast_S500000_S500000x1_0 : (⟨S500000, .i32⟩ : BufTy).Contents (Elt F) → (⟨S500000x1, .i32⟩ : BufTy).Contents (Elt F)),
    StableHlo.ternary main_v133 main_v139 main_v132 main_v140 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    StableHlo.nullary main_cst_40 (constant S_ .f32 0x00000000#32),
    StableHlo.unary main_cst_40 main_v141 (broadcastInDim S50000 ![] bcast_S_S50000 : (⟨S_, .f32⟩ : BufTy).Contents (Elt F) → (⟨S50000, .f32⟩ : BufTy).Contents (Elt F)),
    StableHlo.nullary main_c_41 (constantI S_ 32 0#32),
    StableHlo.unary main_c_41 main_v142 (broadcastInDim S500000 ![] bcast_S_S500000 : (⟨S_, .i32⟩ : BufTy).Contents (Elt F) → (⟨S500000, .i32⟩ : BufTy).Contents (Elt F)),
    StableHlo.binary main_arg3 main_v142 main_v143 (cmpi .slt : (⟨S500000, .i32⟩ : BufTy).Contents (Elt F) → (⟨S500000, .i32⟩ : BufTy).Contents (Elt F) → (⟨S500000, .i1⟩ : BufTy).Contents (Elt F)),
    StableHlo.nullary main_c_42 (constantI S_ 32 50000#32),
    StableHlo.unary main_c_42 main_v144 (broadcastInDim S500000 ![] bcast_S_S500000 : (⟨S_, .i32⟩ : BufTy).Contents (Elt F) → (⟨S500000, .i32⟩ : BufTy).Contents (Elt F)),
    StableHlo.binary main_arg3 main_v144 main_v145 (addi : (⟨S500000, .i32⟩ : BufTy).Contents (Elt F) → (⟨S500000, .i32⟩ : BufTy).Contents (Elt F) → (⟨S500000, .i32⟩ : BufTy).Contents (Elt F)),
    StableHlo.ternary main_v143 main_v145 main_arg3 main_v146 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v146 main_v147 (broadcastInDim S500000x1 ![0] bcast_S500000_S500000x1_0 : (⟨S500000, .i32⟩ : BufTy).Contents (Elt F) → (⟨S500000x1, .i32⟩ : BufTy).Contents (Elt F)),
    StableHlo.ternary main_v141 main_v147 main_v132 main_v148 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    StableHlo.nullary main_cst_43 (constant S_ .f32 0x3F800000#32),
    StableHlo.unary main_cst_43 main_v149 (broadcastInDim S50000 ![] bcast_S_S50000 : (⟨S_, .f32⟩ : BufTy).Contents (Elt F) → (⟨S50000, .f32⟩ : BufTy).Contents (Elt F)),
    StableHlo.binary main_v140 main_v149 main_v150 (maximumf : (⟨S50000, .f32⟩ : BufTy).Contents (Elt F) → (⟨S50000, .f32⟩ : BufTy).Contents (Elt F) → (⟨S50000, .f32⟩ : BufTy).Contents (Elt F)),
    StableHlo.unary main_v150 main_v151 (Host.rsqrt : (⟨S50000, .f32⟩ : BufTy).Contents (Elt F) → (⟨S50000, .f32⟩ : BufTy).Contents (Elt F)),
    StableHlo.nullary main_cst_44 (constant S_ .f32 0x3F800000#32),
    StableHlo.unary main_cst_44 main_v152 (broadcastInDim S50000 ![] bcast_S_S50000 : (⟨S_, .f32⟩ : BufTy).Contents (Elt F) → (⟨S50000, .f32⟩ : BufTy).Contents (Elt F)),
    StableHlo.binary main_v148 main_v152 main_v153 (maximumf : (⟨S50000, .f32⟩ : BufTy).Contents (Elt F) → (⟨S50000, .f32⟩ : BufTy).Contents (Elt F) → (⟨S50000, .f32⟩ : BufTy).Contents (Elt F)),
    StableHlo.unary main_v153 main_v154 (Host.rsqrt : (⟨S50000, .f32⟩ : BufTy).Contents (Elt F) → (⟨S50000, .f32⟩ : BufTy).Contents (Elt F)),
    StableHlo.unary main_v151 main_v155 (broadcastInDim S50000x1 ![0] bcast_S50000_S50000x1_0 : (⟨S50000, .f32⟩ : BufTy).Contents (Elt F) → (⟨S50000x1, .f32⟩ : BufTy).Contents (Elt F)),
    StableHlo.unary main_v155 main_v156 (broadcastInDim S50000x128 ![0, 1] bcast_S50000x1_S50000x128_0_1 : (⟨S50000x1, .f32⟩ : BufTy).Contents (Elt F) → (⟨S50000x128, .f32⟩ : BufTy).Contents (Elt F)),
    StableHlo.binary main_v130 main_v156 main_v157 (mulf : (⟨S50000x128, .f32⟩ : BufTy).Contents (Elt F) → (⟨S50000x128, .f32⟩ : BufTy).Contents (Elt F) → (⟨S50000x128, .f32⟩ : BufTy).Contents (Elt F)),
    StableHlo.binary main_v157 main_arg14 main_v158 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_45 (constantI S_ 32 0#32),
    StableHlo.unary main_c_45 main_v159 (broadcastInDim S500000 ![] bcast_S_S500000 : (⟨S_, .i32⟩ : BufTy).Contents (Elt F) → (⟨S500000, .i32⟩ : BufTy).Contents (Elt F)),
    StableHlo.binary main_arg2 main_v159 main_v160 (cmpi .slt : (⟨S500000, .i32⟩ : BufTy).Contents (Elt F) → (⟨S500000, .i32⟩ : BufTy).Contents (Elt F) → (⟨S500000, .i1⟩ : BufTy).Contents (Elt F)),
    StableHlo.nullary main_c_46 (constantI S_ 32 50000#32),
    StableHlo.unary main_c_46 main_v161 (broadcastInDim S500000 ![] bcast_S_S500000 : (⟨S_, .i32⟩ : BufTy).Contents (Elt F) → (⟨S500000, .i32⟩ : BufTy).Contents (Elt F)),
    StableHlo.binary main_arg2 main_v161 main_v162 (addi : (⟨S500000, .i32⟩ : BufTy).Contents (Elt F) → (⟨S500000, .i32⟩ : BufTy).Contents (Elt F) → (⟨S500000, .i32⟩ : BufTy).Contents (Elt F)),
    StableHlo.ternary main_v160 main_v162 main_arg2 main_v163 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v163 main_v164 (broadcastInDim S500000x1 ![0] bcast_S500000_S500000x1_0 : (⟨S500000, .i32⟩ : BufTy).Contents (Elt F) → (⟨S500000x1, .i32⟩ : BufTy).Contents (Elt F)),
    StableHlo.binary main_v158 main_v164 main_v165 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nullary main_cst_47 (constant S_ .f32 0x00000000#32),
    StableHlo.unary main_cst_47 main_v166 (broadcastInDim S50000x128 ![] bcast_S_S50000x128 : (⟨S_, .f32⟩ : BufTy).Contents (Elt F) → (⟨S50000x128, .f32⟩ : BufTy).Contents (Elt F)),
    StableHlo.unary main_arg3 main_v167 (broadcastInDim S500000x1 ![0] bcast_S500000_S500000x1_0 : (⟨S500000, .i32⟩ : BufTy).Contents (Elt F) → (⟨S500000x1, .i32⟩ : BufTy).Contents (Elt F)),
    StableHlo.ternary main_v166 main_v167 main_v165 main_v168 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    StableHlo.unary main_v154 main_v169 (broadcastInDim S50000x1 ![0] bcast_S50000_S50000x1_0 : (⟨S50000, .f32⟩ : BufTy).Contents (Elt F) → (⟨S50000x1, .f32⟩ : BufTy).Contents (Elt F)),
    StableHlo.unary main_v169 main_v170 (broadcastInDim S50000x128 ![0, 1] bcast_S50000x1_S50000x128_0_1 : (⟨S50000x1, .f32⟩ : BufTy).Contents (Elt F) → (⟨S50000x128, .f32⟩ : BufTy).Contents (Elt F)),
    StableHlo.binary main_v168 main_v170 main_v171 (mulf : (⟨S50000x128, .f32⟩ : BufTy).Contents (Elt F) → (⟨S50000x128, .f32⟩ : BufTy).Contents (Elt F) → (⟨S50000x128, .f32⟩ : BufTy).Contents (Elt F)),
    StableHlo.unary main_arg15 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v171 main_v173 main_v174 (addf : (⟨S50000x128, .f32⟩ : BufTy).Contents (Elt F) → (⟨S50000x128, .f32⟩ : BufTy).Contents (Elt F) → (⟨S50000x128, .f32⟩ : BufTy).Contents (Elt F)) ]

/-- The fifth graph convolution (source `%131`, edges `%arg6 → %arg7`, weights `%arg18`, bias `%arg19`), its first fifteen operations: `%cst_48 … %184`. -/
abbrev ops7a : List (HloOp τ sig (Elt F)) :=
  [ StableHlo.nullary main_cst_48 (constant S_ .f32 0x3F800000#32),
    StableHlo.unary main_cst_48 main_v175 (broadcastInDim S400000 ![] bcast_S_S400000 : (⟨S_, .f32⟩ : BufTy).Contents (Elt F) → (⟨S400000, .f32⟩ : BufTy).Contents (Elt F)),
    StableHlo.nullary main_cst_49 (constant S_ .f32 0x00000000#32),
    StableHlo.unary main_cst_49 main_v176 (broadcastInDim S30000 ![] bcast_S_S30000 : (⟨S_, .f32⟩ : BufTy).Contents (Elt F) → (⟨S30000, .f32⟩ : BufTy).Contents (Elt F)),
    StableHlo.nullary main_c_50 (constantI S_ 32 0#32),
    StableHlo.unary main_c_50 main_v177 (broadcastInDim S400000 ![] bcast_S_S400000 : (⟨S_, .i32⟩ : BufTy).Contents (Elt F) → (⟨S400000, .i32⟩ : BufTy).Contents (Elt F)),
    StableHlo.binary main_arg6 main_v177 main_v178 (cmpi .slt : (⟨S400000, .i32⟩ : BufTy).Contents (Elt F) → (⟨S400000, .i32⟩ : BufTy).Contents (Elt F) → (⟨S400000, .i1⟩ : BufTy).Contents (Elt F)),
    StableHlo.nullary main_c_51 (constantI S_ 32 30000#32),
    StableHlo.unary main_c_51 main_v179 (broadcastInDim S400000 ![] bcast_S_S400000 : (⟨S_, .i32⟩ : BufTy).Contents (Elt F) → (⟨S400000, .i32⟩ : BufTy).Contents (Elt F)),
    StableHlo.binary main_arg6 main_v179 main_v180 (addi : (⟨S400000, .i32⟩ : BufTy).Contents (Elt F) → (⟨S400000, .i32⟩ : BufTy).Contents (Elt F) → (⟨S400000, .i32⟩ : BufTy).Contents (Elt F)),
    StableHlo.ternary main_v178 main_v180 main_arg6 main_v181 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v181 main_v182 (broadcastInDim S400000x1 ![0] bcast_S400000_S400000x1_0 : (⟨S400000, .i32⟩ : BufTy).Contents (Elt F) → (⟨S400000x1, .i32⟩ : BufTy).Contents (Elt F)),
    StableHlo.ternary main_v176 main_v182 main_v175 main_v183 ((fun x i u => Host.scatterAdd scatter_S30000_S400000x1_S400000_n_0_0_1 x i u) : (⟨S30000, .f32⟩ : BufTy).Contents (Elt F) → (⟨S400000x1, .i32⟩ : BufTy).Contents (Elt F) → (⟨S400000, .f32⟩ : BufTy).Contents (Elt F) → (⟨S30000, .f32⟩ : BufTy).Contents (Elt F)),
    StableHlo.nullary main_cst_52 (constant S_ .f32 0x00000000#32),
    StableHlo.unary main_cst_52 main_v184 (broadcastInDim S50000 ![] bcast_S_S50000 : (⟨S_, .f32⟩ : BufTy).Contents (Elt F) → (⟨S50000, .f32⟩ : BufTy).Contents (Elt F)) ]

/-- The fifth graph convolution, the rest, and the sum of the last two convolutions, the result: `%c_53 … %218`. -/
abbrev ops7b : List (HloOp τ sig (Elt F)) :=
  [ StableHlo.nullary main_c_53 (constantI S_ 32 0#32),
    StableHlo.unary main_c_53 main_v185 (broadcastInDim S400000 ![] bcast_S_S400000 : (⟨S_, .i32⟩ : BufTy).Contents (Elt F) → (⟨S400000, .i32⟩ : BufTy).Contents (Elt F)),
    StableHlo.binary main_arg7 main_v185 main_v186 (cmpi .slt : (⟨S400000, .i32⟩ : BufTy).Contents (Elt F) → (⟨S400000, .i32⟩ : BufTy).Contents (Elt F) → (⟨S400000, .i1⟩ : BufTy).Contents (Elt F)),
    StableHlo.nullary main_c_54 (constantI S_ 32 50000#32),
    StableHlo.unary main_c_54 main_v187 (broadcastInDim S400000 ![] bcast_S_S400000 : (⟨S_, .i32⟩ : BufTy).Contents (Elt F) → (⟨S400000, .i32⟩ : BufTy).Contents (Elt F)),
    StableHlo.binary main_arg7 main_v187 main_v188 (addi : (⟨S400000, .i32⟩ : BufTy).Contents (Elt F) → (⟨S400000, .i32⟩ : BufTy).Contents (Elt F) → (⟨S400000, .i32⟩ : BufTy).Contents (Elt F)),
    StableHlo.ternary main_v186 main_v188 main_arg7 main_v189 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v189 main_v190 (broadcastInDim S400000x1 ![0] bcast_S400000_S400000x1_0 : (⟨S400000, .i32⟩ : BufTy).Contents (Elt F) → (⟨S400000x1, .i32⟩ : BufTy).Contents (Elt F)),
    StableHlo.ternary main_v184 main_v190 main_v175 main_v191 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_55 (constant S_ .f32 0x3F800000#32),
    StableHlo.unary main_cst_55 main_v192 (broadcastInDim S30000 ![] bcast_S_S30000 : (⟨S_, .f32⟩ : BufTy).Contents (Elt F) → (⟨S30000, .f32⟩ : BufTy).Contents (Elt F)),
    StableHlo.binary main_v183 main_v192 main_v193 (maximumf : (⟨S30000, .f32⟩ : BufTy).Contents (Elt F) → (⟨S30000, .f32⟩ : BufTy).Contents (Elt F) → (⟨S30000, .f32⟩ : BufTy).Contents (Elt F)),
    StableHlo.unary main_v193 main_v194 (Host.rsqrt : (⟨S30000, .f32⟩ : BufTy).Contents (Elt F) → (⟨S30000, .f32⟩ : BufTy).Contents (Elt F)),
    StableHlo.nullary main_cst_56 (constant S_ .f32 0x3F800000#32),
    StableHlo.unary main_cst_56 main_v195 (broadcastInDim S50000 ![] bcast_S_S50000 : (⟨S_, .f32⟩ : BufTy).Contents (Elt F) → (⟨S50000, .f32⟩ : BufTy).Contents (Elt F)),
    StableHlo.binary main_v191 main_v195 main_v196 (maximumf : (⟨S50000, .f32⟩ : BufTy).Contents (Elt F) → (⟨S50000, .f32⟩ : BufTy).Contents (Elt F) → (⟨S50000, .f32⟩ : BufTy).Contents (Elt F)),
    StableHlo.unary main_v196 main_v197 (Host.rsqrt : (⟨S50000, .f32⟩ : BufTy).Contents (Elt F) → (⟨S50000, .f32⟩ : BufTy).Contents (Elt F)),
    StableHlo.unary main_v194 main_v198 (broadcastInDim S30000x1 ![0] bcast_S30000_S30000x1_0 : (⟨S30000, .f32⟩ : BufTy).Contents (Elt F) → (⟨S30000x1, .f32⟩ : BufTy).Contents (Elt F)),
    StableHlo.unary main_v198 main_v199 (broadcastInDim S30000x128 ![0, 1] bcast_S30000x1_S30000x128_0_1 : (⟨S30000x1, .f32⟩ : BufTy).Contents (Elt F) → (⟨S30000x128, .f32⟩ : BufTy).Contents (Elt F)),
    StableHlo.binary main_v131 main_v199 main_v200 (mulf : (⟨S30000x128, .f32⟩ : BufTy).Contents (Elt F) → (⟨S30000x128, .f32⟩ : BufTy).Contents (Elt F) → (⟨S30000x128, .f32⟩ : BufTy).Contents (Elt F)),
    StableHlo.binary main_v200 main_arg18 main_v201 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    StableHlo.nullary main_c_57 (constantI S_ 32 0#32),
    StableHlo.unary main_c_57 main_v202 (broadcastInDim S400000 ![] bcast_S_S400000 : (⟨S_, .i32⟩ : BufTy).Contents (Elt F) → (⟨S400000, .i32⟩ : BufTy).Contents (Elt F)),
    StableHlo.binary main_arg6 main_v202 main_v203 (cmpi .slt : (⟨S400000, .i32⟩ : BufTy).Contents (Elt F) → (⟨S400000, .i32⟩ : BufTy).Contents (Elt F) → (⟨S400000, .i1⟩ : BufTy).Contents (Elt F)),
    StableHlo.nullary main_c_58 (constantI S_ 32 30000#32),
    StableHlo.unary main_c_58 main_v204 (broadcastInDim S400000 ![] bcast_S_S400000 : (⟨S_, .i32⟩ : BufTy).Contents (Elt F) → (⟨S400000, .i32⟩ : BufTy).Contents (Elt F)),
    StableHlo.binary main_arg6 main_v204 main_v205 (addi : (⟨S400000, .i32⟩ : BufTy).Contents (Elt F) → (⟨S400000, .i32⟩ : BufTy).Contents (Elt F) → (⟨S400000, .i32⟩ : BufTy).Contents (Elt F)),
    StableHlo.ternary main_v203 main_v205 main_arg6 main_v206 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v206 main_v207 (broadcastInDim S400000x1 ![0] bcast_S400000_S400000x1_0 : (⟨S400000, .i32⟩ : BufTy).Contents (Elt F) → (⟨S400000x1, .i32⟩ : BufTy).Contents (Elt F)),
    StableHlo.binary main_v201 main_v207 main_v208 ((fun x i => Host.gather gather_S30000x128_S400000x1_S400000x128_1_0_n_n_0_1_1128 x i) : (⟨S30000x128, .f32⟩ : BufTy).Contents (Elt F) → (⟨S400000x1, .i32⟩ : BufTy).Contents (Elt F) → (⟨S400000x128, .f32⟩ : BufTy).Contents (Elt F)),
    StableHlo.nullary main_cst_59 (constant S_ .f32 0x00000000#32),
    StableHlo.unary main_cst_59 main_v209 (broadcastInDim S50000x128 ![] bcast_S_S50000x128 : (⟨S_, .f32⟩ : BufTy).Contents (Elt F) → (⟨S50000x128, .f32⟩ : BufTy).Contents (Elt F)),
    StableHlo.unary main_arg7 main_v210 (broadcastInDim S400000x1 ![0] bcast_S400000_S400000x1_0 : (⟨S400000, .i32⟩ : BufTy).Contents (Elt F) → (⟨S400000x1, .i32⟩ : BufTy).Contents (Elt F)),
    StableHlo.ternary main_v209 main_v210 main_v208 main_v211 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.unary main_v197 main_v212 (broadcastInDim S50000x1 ![0] bcast_S50000_S50000x1_0 : (⟨S50000, .f32⟩ : BufTy).Contents (Elt F) → (⟨S50000x1, .f32⟩ : BufTy).Contents (Elt F)),
    StableHlo.unary main_v212 main_v213 (broadcastInDim S50000x128 ![0, 1] bcast_S50000x1_S50000x128_0_1 : (⟨S50000x1, .f32⟩ : BufTy).Contents (Elt F) → (⟨S50000x128, .f32⟩ : BufTy).Contents (Elt F)),
    StableHlo.binary main_v211 main_v213 main_v214 (mulf : (⟨S50000x128, .f32⟩ : BufTy).Contents (Elt F) → (⟨S50000x128, .f32⟩ : BufTy).Contents (Elt F) → (⟨S50000x128, .f32⟩ : BufTy).Contents (Elt F)),
    StableHlo.unary main_arg19 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S50000x128 ![0, 1] bcast_S1x128_S50000x128_0_1 : (⟨S1x128, .f32⟩ : BufTy).Contents (Elt F) → (⟨S50000x128, .f32⟩ : BufTy).Contents (Elt F)),
    StableHlo.binary main_v214 main_v216 main_v217 (addf : (⟨S50000x128, .f32⟩ : BufTy).Contents (Elt F) → (⟨S50000x128, .f32⟩ : BufTy).Contents (Elt F) → (⟨S50000x128, .f32⟩ : BufTy).Contents (Elt F)),
    StableHlo.binary main_v174 main_v217 main_v218 (addf : (⟨S50000x128, .f32⟩ : BufTy).Contents (Elt F) → (⟨S50000x128, .f32⟩ : BufTy).Contents (Elt F) → (⟨S50000x128, .f32⟩ : BufTy).Contents (Elt F)) ]

/-- The second convolution's stretch, `%cst_10 … %86`. -/
abbrev ops2 : List (HloOp τ sig (Elt F)) := ops2a ++ ops2b
/-- The third convolution's stretch, `%cst_22 … %129`. -/
abbrev ops3 : List (HloOp τ sig (Elt F)) := ops3a ++ ops3b
/-- The fourth convolution's stretch, `%cst_36 … %174`. -/
abbrev ops6 : List (HloOp τ sig (Elt F)) := ops6a ++ ops6b
/-- The fifth convolution's stretch, `%cst_48 … %218`. -/
abbrev ops7 : List (HloOp τ sig (Elt F)) := ops7a ++ ops7b

/-- `@main`'s 293 operations in order: the seven stretches one after the other. -/
abbrev ops : List (HloOp τ sig (Elt F)) := ops1 ++ (ops2 ++ (ops3 ++ (ops4 ++ (ops5 ++ (ops6 ++ ops7)))))

/-! ## The program is that line

Each window of the program text is, by computation, the line of the lists it covers: the sequencing of a
line is structural, a called function's body unfolds at its call, and `seq` of a concatenation unfolds with it. -/

set_option maxRecDepth 8192 in
theorem main_part0_eq (c : Dev nD) : main_part0 (F := F) c = seq (ops1 ++ ops2a) := rfl
set_option maxRecDepth 8192 in
theorem main_part1_eq (c : Dev nD) : main_part1 (F := F) c = seq (ops2b ++ ops3a) := rfl
set_option maxRecDepth 8192 in
theorem main_part2_eq (c : Dev nD) : main_part2 (F := F) c = seq (ops3b ++ (ops4 ++ (ops5 ++ ops6a))) := rfl
set_option maxRecDepth 8192 in
theorem main_part3_eq (c : Dev nD) : main_part3 (F := F) c = seq (ops6b ++ ops7a) := rfl
set_option maxRecDepth 8192 in
theorem main_part4_eq (c : Dev nD) : main_part4 (F := F) c = seq (ops7b) := rfl

/-- `@main` is the straight line of `ops`: its five windows in order are the lines above, and a line of a
    concatenation is the lines one after the other (`seq_append`), whatever the bracketing (`bind_assoc`). -/
theorem main_eq (c : Dev nD) : main (F := F) c = seq ops := by
  rw [show main (F := F) c = (main_part0 c >>= fun _ => main_part1 c >>= fun _ => main_part2 c >>= fun _ =>
      main_part3 c >>= fun _ => main_part4 c) from rfl,
    main_part0_eq, main_part1_eq, main_part2_eq, main_part3_eq, main_part4_eq]
  simp only [ops, ops2, ops3, ops6, ops7, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

theorem ops1_sub : (ops1 : List (HloOp τ sig (Elt F))).Forall fun op => op.bufs ⊆ tcRefs τ sig :=
  ⟨nullary_bufs_sub .., unary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    ternary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..,
    nullary_bufs_sub .., unary_bufs_sub .., binary_bufs_sub .., unary_bufs_sub .., nullary_bufs_sub .., unary_bufs_sub ..,
    binary_bufs_sub .., unary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub ..⟩
theorem ops2a_sub : (ops2a : List (HloOp τ sig (Elt F))).Forall fun op => op.bufs ⊆ tcRefs τ sig :=
  ⟨nullary_bufs_sub .., unary_bufs_sub .., nullary_bufs_sub .., unary_bufs_sub .., nullary_bufs_sub ..⟩
theorem ops2b_sub : (ops2b : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., ternary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    ternary_bufs_sub .., nullary_bufs_sub .., unary_bufs_sub .., binary_bufs_sub .., unary_bufs_sub .., nullary_bufs_sub ..,
    unary_bufs_sub .., binary_bufs_sub .., unary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., binary_bufs_sub ..⟩
theorem ops3a_sub : (ops3a : List (HloOp τ sig (Elt F))).Forall fun op => op.bufs ⊆ tcRefs τ sig :=
  ⟨nullary_bufs_sub .., unary_bufs_sub .., nullary_bufs_sub .., unary_bufs_sub .., nullary_bufs_sub .., unary_bufs_sub ..,
    binary_bufs_sub .., nullary_bufs_sub .., unary_bufs_sub ..⟩
theorem ops3b_sub : (ops3b : List (HloOp τ sig (Elt F))).Forall fun op => op.bufs ⊆ tcRefs τ sig :=
  ⟨binary_bufs_sub .., ternary_bufs_sub .., unary_bufs_sub .., ternary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., nullary_bufs_sub .., unary_bufs_sub .., binary_bufs_sub ..,
    unary_bufs_sub .., nullary_bufs_sub .., unary_bufs_sub .., binary_bufs_sub .., unary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub ..⟩
theorem ops4_sub : (ops4 : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub ..⟩
theorem ops5_sub : (ops5 : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub ..⟩
theorem ops6a_sub : (ops6a : List (HloOp τ sig (Elt F))).Forall fun op => op.bufs ⊆ tcRefs τ sig :=
  ⟨nullary_bufs_sub .., unary_bufs_sub .., nullary_bufs_sub .., unary_bufs_sub .., nullary_bufs_sub .., unary_bufs_sub ..,
    binary_bufs_sub .., nullary_bufs_sub .., unary_bufs_sub .., binary_bufs_sub ..⟩
theorem ops6b_sub : (ops6b : List (HloOp τ sig (Elt F))).Forall fun op => op.bufs ⊆ tcRefs τ sig :=
  ⟨ternary_bufs_sub .., unary_bufs_sub .., ternary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., binary_bufs_sub .., unary_bufs_sub ..,
    nullary_bufs_sub .., unary_bufs_sub .., binary_bufs_sub .., unary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub ..⟩
theorem ops7a_sub : (ops7a : List (HloOp τ sig (Elt F))).Forall fun op => op.bufs ⊆ tcRefs τ sig :=
  ⟨nullary_bufs_sub .., unary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    ternary_bufs_sub .., nullary_bufs_sub .., unary_bufs_sub ..⟩
theorem ops7b_sub : (ops7b : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., ternary_bufs_sub .., nullary_bufs_sub .., unary_bufs_sub .., binary_bufs_sub ..,
    unary_bufs_sub .., nullary_bufs_sub .., unary_bufs_sub .., binary_bufs_sub .., unary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., binary_bufs_sub ..⟩

theorem ops_sub : (ops : List (HloOp τ sig (Elt F))).Forall fun op => op.bufs ⊆ tcRefs τ sig :=
  List.forall_append.mpr ⟨ops1_sub, List.forall_append.mpr ⟨List.forall_append.mpr ⟨ops2a_sub, ops2b_sub⟩,
    List.forall_append.mpr ⟨List.forall_append.mpr ⟨ops3a_sub, ops3b_sub⟩, List.forall_append.mpr ⟨ops4_sub,
    List.forall_append.mpr ⟨ops5_sub, List.forall_append.mpr ⟨List.forall_append.mpr ⟨ops6a_sub, ops6b_sub⟩,
    List.forall_append.mpr ⟨ops7a_sub, ops7b_sub⟩⟩⟩⟩⟩⟩⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩
theorem ops2a_fresh : (ops2a : List (HloOp τ sig (Elt F))).Forall fun op => op.fresh = ∅ :=
  ⟨rfl, rfl, rfl, rfl, rfl⟩
theorem ops2b_fresh : (ops2b : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩
theorem ops3a_fresh : (ops3a : List (HloOp τ sig (Elt F))).Forall fun op => op.fresh = ∅ :=
  ⟨rfl, rfl, rfl, rfl, rfl, rfl, rfl, rfl, rfl⟩
theorem ops3b_fresh : (ops3b : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩
theorem ops4_fresh : (ops4 : List (HloOp τ sig (Elt F))).Forall fun op => op.fresh = ∅ :=
  ⟨rfl, rfl, rfl, rfl, rfl, rfl, rfl, rfl⟩
theorem ops5_fresh : (ops5 : List (HloOp τ sig (Elt F))).Forall fun op => op.fresh = ∅ :=
  ⟨rfl, rfl, rfl, rfl, rfl, rfl, rfl, rfl⟩
theorem ops6a_fresh : (ops6a : List (HloOp τ sig (Elt F))).Forall fun op => op.fresh = ∅ :=
  ⟨rfl, rfl, rfl, rfl, rfl, rfl, rfl, rfl, rfl, rfl⟩
theorem ops6b_fresh : (ops6b : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩
theorem ops7a_fresh : (ops7a : List (HloOp τ sig (Elt F))).Forall fun op => op.fresh = ∅ :=
  ⟨rfl, rfl, rfl, rfl, rfl, rfl, rfl, rfl, rfl, rfl, rfl, rfl, rfl, rfl, rfl⟩
theorem ops7b_fresh : (ops7b : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩

/-- No operation of the line leaves a buffer at contents it does not determine. -/
theorem ops_fresh : ∀ op ∈ (ops : List (HloOp τ sig (Elt F))), op.fresh = ∅ :=
  List.forall_iff_forall_mem.mp
  (List.forall_append.mpr ⟨ops1_fresh, List.forall_append.mpr ⟨List.forall_append.mpr ⟨ops2a_fresh, ops2b_fresh⟩,
    List.forall_append.mpr ⟨List.forall_append.mpr ⟨ops3a_fresh, ops3b_fresh⟩, List.forall_append.mpr ⟨ops4_fresh,
    List.forall_append.mpr ⟨ops5_fresh, List.forall_append.mpr ⟨List.forall_append.mpr ⟨ops6a_fresh, ops6b_fresh⟩,
    List.forall_append.mpr ⟨ops7a_fresh, ops7b_fresh⟩⟩⟩⟩⟩⟩⟩)

/-! ## The run -/

/-- At the compiled mesh, for any float values, from any memory with zero counters: every weakly fair execution
    of `@main` on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over the whole line, stretch by stretch. -/
theorem after_ops (V : Valuation τ sig (Elt F)) :
    after ops V = after ops7 (after ops6 (after ops5 (after ops4 (after ops3 (after ops2 (after ops1 V)))))) := by
  rw [show (ops : List (HloOp τ sig (Elt F))) = ops1 ++ (ops2 ++ (ops3 ++ (ops4 ++ (ops5 ++ (ops6 ++ ops7))))) from rfl,
    after_append ops1, after_append ops2, after_append ops3, after_append ops4, after_append ops5, after_append ops6]

end Cert.ReferenceIdeal.Run

end
-- ==== Proof.RefKeep.lean ====
import proofs.«173211_j66030827209235_1_alg».proof.Proof.RefRun

/-!
# What the reference's line leaves alone

Each operation of the line writes one buffer, its result's. Per stretch the written buffers are listed
(`W1 … W7`); a buffer outside a stretch's list holds after the stretch what it held before, and a buffer outside
all seven — each of the twenty arguments — holds at the end what the launch gave it.
-/

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is listed writes within the list. -/
theorem writes_sub_of_mem {op : HloOp τ sig (Elt F)} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers stretch 1 writes, in order. -/
abbrev W1 : List (Ref sig .tc) :=
  [main_cst, main_v0, main_cst_0, main_v1, main_c, main_v2, main_v3, main_c_1, main_v4, main_v5,
   main_v6, main_v7, main_v8, main_cst_2, main_v9, main_c_3, main_v10, main_v11, main_c_4, main_v12,
   main_v13, main_v14, main_v15, main_v16, main_cst_5, main_v17, main_v18, main_v19, main_cst_6, main_v20,
   main_v21, main_v22, main_v23, main_v24, main_v25, main_v26, main_c_7, main_v27, main_v28, main_c_8,
   main_v29, main_v30, main_v31, main_v32, main_v33, main_cst_9, main_v34, main_v35, main_v36, main_v37,
   main_v38, main_v39, main_v40, main_v41, main_v42]

set_option maxRecDepth 8192 in
theorem ops1_writes : (ops1 : List (HloOp τ sig (Elt F))).Forall fun op => op.writes ⊆ (W1.map (Proc.devRef (τ := τ) .tc)).toFinset :=
  ⟨writes_sub_of_mem main_cst rfl (by decide), writes_sub_of_mem main_v0 rfl (by decide), writes_sub_of_mem main_cst_0 rfl (by decide),
    writes_sub_of_mem main_v1 rfl (by decide), writes_sub_of_mem main_c rfl (by decide), writes_sub_of_mem main_v2 rfl (by decide),
    writes_sub_of_mem main_v3 rfl (by decide), writes_sub_of_mem main_c_1 rfl (by decide), writes_sub_of_mem main_v4 rfl (by decide),
    writes_sub_of_mem main_v5 rfl (by decide), writes_sub_of_mem main_v6 rfl (by decide), writes_sub_of_mem main_v7 rfl (by decide),
    writes_sub_of_mem main_v8 rfl (by decide), writes_sub_of_mem main_cst_2 rfl (by decide), writes_sub_of_mem main_v9 rfl (by decide),
    writes_sub_of_mem main_c_3 rfl (by decide), writes_sub_of_mem main_v10 rfl (by decide), writes_sub_of_mem main_v11 rfl (by decide),
    writes_sub_of_mem main_c_4 rfl (by decide), writes_sub_of_mem main_v12 rfl (by decide), writes_sub_of_mem main_v13 rfl (by decide),
    writes_sub_of_mem main_v14 rfl (by decide), writes_sub_of_mem main_v15 rfl (by decide), writes_sub_of_mem main_v16 rfl (by decide),
    writes_sub_of_mem main_cst_5 rfl (by decide), writes_sub_of_mem main_v17 rfl (by decide), writes_sub_of_mem main_v18 rfl (by decide),
    writes_sub_of_mem main_v19 rfl (by decide), writes_sub_of_mem main_cst_6 rfl (by decide), writes_sub_of_mem main_v20 rfl (by decide),
    writes_sub_of_mem main_v21 rfl (by decide), writes_sub_of_mem main_v22 rfl (by decide), writes_sub_of_mem main_v23 rfl (by decide),
    writes_sub_of_mem main_v24 rfl (by decide), writes_sub_of_mem main_v25 rfl (by decide), writes_sub_of_mem main_v26 rfl (by decide),
    writes_sub_of_mem main_c_7 rfl (by decide), writes_sub_of_mem main_v27 rfl (by decide), writes_sub_of_mem main_v28 rfl (by decide),
    writes_sub_of_mem main_c_8 rfl (by decide), writes_sub_of_mem main_v29 rfl (by decide), writes_sub_of_mem main_v30 rfl (by decide),
    writes_sub_of_mem main_v31 rfl (by decide), writes_sub_of_mem main_v32 rfl (by decide), writes_sub_of_mem main_v33 rfl (by decide),
    writes_sub_of_mem main_cst_9 rfl (by decide), writes_sub_of_mem main_v34 rfl (by decide), writes_sub_of_mem main_v35 rfl (by decide),
    writes_sub_of_mem main_v36 rfl (by decide), writes_sub_of_mem main_v37 rfl (by decide), writes_sub_of_mem main_v38 rfl (by decide),
    writes_sub_of_mem main_v39 rfl (by decide), writes_sub_of_mem main_v40 rfl (by decide), writes_sub_of_mem main_v41 rfl (by decide),
    writes_sub_of_mem main_v42 rfl (by decide)⟩

/-- A buffer stretch 1 does not write keeps its contents through it. -/
theorem ops1_keep (V : Valuation τ sig (Elt F)) (r : Ref sig .tc) (h : r ∉ W1) :
    after ops1 V (Proc.devRef .tc r) = V (Proc.devRef .tc r) :=
  after_of_writes_sub ops1 V ops1_writes h

/-- The buffers stretch 2 writes, in order. -/
abbrev W2 : List (Ref sig .tc) :=
  [main_cst_10, main_v43, main_cst_11, main_v44, main_c_12, main_v45, main_v46, main_c_13, main_v47, main_v48,
   main_v49, main_v50, main_v51, main_cst_14, main_v52, main_c_15, main_v53, main_v54, main_c_16, main_v55,
   main_v56, main_v57, main_v58, main_v59, main_cst_17, main_v60, main_v61, main_v62, main_cst_18, main_v63,
   main_v64, main_v65, main_v66, main_v67, main_v68, main_v69, main_c_19, main_v70, main_v71, main_c_20,
   main_v72, main_v73, main_v74, main_v75, main_v76, main_cst_21, main_v77, main_v78, main_v79, main_v80,
   main_v81, main_v82, main_v83, main_v84, main_v85, main_v86]

set_option maxRecDepth 8192 in
theorem ops2a_writes : (ops2a : List (HloOp τ sig (Elt F))).Forall fun op => op.writes ⊆ (W2.map (Proc.devRef (τ := τ) .tc)).toFinset :=
  ⟨writes_sub_of_mem main_cst_10 rfl (by decide), writes_sub_of_mem main_v43 rfl (by decide), writes_sub_of_mem main_cst_11 rfl (by decide),
    writes_sub_of_mem main_v44 rfl (by decide), writes_sub_of_mem main_c_12 rfl (by decide)⟩

set_option maxRecDepth 8192 in
theorem ops2b_writes : (ops2b : List (HloOp τ sig (Elt F))).Forall fun op => op.writes ⊆ (W2.map (Proc.devRef (τ := τ) .tc)).toFinset :=
  ⟨writes_sub_of_mem main_v45 rfl (by decide), writes_sub_of_mem main_v46 rfl (by decide), writes_sub_of_mem main_c_13 rfl (by decide),
    writes_sub_of_mem main_v47 rfl (by decide), writes_sub_of_mem main_v48 rfl (by decide), writes_sub_of_mem main_v49 rfl (by decide),
    writes_sub_of_mem main_v50 rfl (by decide), writes_sub_of_mem main_v51 rfl (by decide), writes_sub_of_mem main_cst_14 rfl (by decide),
    writes_sub_of_mem main_v52 rfl (by decide), writes_sub_of_mem main_c_15 rfl (by decide), writes_sub_of_mem main_v53 rfl (by decide),
    writes_sub_of_mem main_v54 rfl (by decide), writes_sub_of_mem main_c_16 rfl (by decide), writes_sub_of_mem main_v55 rfl (by decide),
    writes_sub_of_mem main_v56 rfl (by decide), writes_sub_of_mem main_v57 rfl (by decide), writes_sub_of_mem main_v58 rfl (by decide),
    writes_sub_of_mem main_v59 rfl (by decide), writes_sub_of_mem main_cst_17 rfl (by decide), writes_sub_of_mem main_v60 rfl (by decide),
    writes_sub_of_mem main_v61 rfl (by decide), writes_sub_of_mem main_v62 rfl (by decide), writes_sub_of_mem main_cst_18 rfl (by decide),
    writes_sub_of_mem main_v63 rfl (by decide), writes_sub_of_mem main_v64 rfl (by decide), writes_sub_of_mem main_v65 rfl (by decide),
    writes_sub_of_mem main_v66 rfl (by decide), writes_sub_of_mem main_v67 rfl (by decide), writes_sub_of_mem main_v68 rfl (by decide),
    writes_sub_of_mem main_v69 rfl (by decide), writes_sub_of_mem main_c_19 rfl (by decide), writes_sub_of_mem main_v70 rfl (by decide),
    writes_sub_of_mem main_v71 rfl (by decide), writes_sub_of_mem main_c_20 rfl (by decide), writes_sub_of_mem main_v72 rfl (by decide),
    writes_sub_of_mem main_v73 rfl (by decide), writes_sub_of_mem main_v74 rfl (by decide), writes_sub_of_mem main_v75 rfl (by decide),
    writes_sub_of_mem main_v76 rfl (by decide), writes_sub_of_mem main_cst_21 rfl (by decide), writes_sub_of_mem main_v77 rfl (by decide),
    writes_sub_of_mem main_v78 rfl (by decide), writes_sub_of_mem main_v79 rfl (by decide), writes_sub_of_mem main_v80 rfl (by decide),
    writes_sub_of_mem main_v81 rfl (by decide), writes_sub_of_mem main_v82 rfl (by decide), writes_sub_of_mem main_v83 rfl (by decide),
    writes_sub_of_mem main_v84 rfl (by decide), writes_sub_of_mem main_v85 rfl (by decide), writes_sub_of_mem main_v86 rfl (by decide)⟩

theorem ops2_writes : (ops2 : List (HloOp τ sig (Elt F))).Forall fun op => op.writes ⊆ (W2.map (Proc.devRef (τ := τ) .tc)).toFinset :=
  List.forall_append.mpr ⟨ops2a_writes, ops2b_writes⟩

/-- A buffer stretch 2 does not write keeps its contents through it. -/
theorem ops2_keep (V : Valuation τ sig (Elt F)) (r : Ref sig .tc) (h : r ∉ W2) :
    after ops2 V (Proc.devRef .tc r) = V (Proc.devRef .tc r) :=
  after_of_writes_sub ops2 V ops2_writes h

/-- The buffers stretch 3 writes, in order. -/
abbrev W3 : List (Ref sig .tc) :=
  [main_cst_22, main_v87, main_cst_23, main_v88, main_c_24, main_v89, main_v90, main_c_25, main_v91, main_v92,
   main_v93, main_v94, main_v95, main_cst_26, main_v96, main_c_27, main_v97, main_v98, main_c_28, main_v99,
   main_v100, main_v101, main_v102, main_v103, main_cst_29, main_v104, main_v105, main_v106, main_cst_30, main_v107,
   main_v108, main_v109, main_v110, main_v111, main_v112, main_v113, main_c_31, main_v114, main_v115, main_c_32,
   main_v116, main_v117, main_v118, main_v119, main_v120, main_cst_33, main_v121, main_v122, main_v123, main_v124,
   main_v125, main_v126, main_v127, main_v128, main_v129]

set_option maxRecDepth 8192 in
theorem ops3a_writes : (ops3a : List (HloOp τ sig (Elt F))).Forall fun op => op.writes ⊆ (W3.map (Proc.devRef (τ := τ) .tc)).toFinset :=
  ⟨writes_sub_of_mem main_cst_22 rfl (by decide), writes_sub_of_mem main_v87 rfl (by decide), writes_sub_of_mem main_cst_23 rfl (by decide),
    writes_sub_of_mem main_v88 rfl (by decide), writes_sub_of_mem main_c_24 rfl (by decide), writes_sub_of_mem main_v89 rfl (by decide),
    writes_sub_of_mem main_v90 rfl (by decide), writes_sub_of_mem main_c_25 rfl (by decide), writes_sub_of_mem main_v91 rfl (by decide)⟩

set_option maxRecDepth 8192 in
theorem ops3b_writes : (ops3b : List (HloOp τ sig (Elt F))).Forall fun op => op.writes ⊆ (W3.map (Proc.devRef (τ := τ) .tc)).toFinset :=
  ⟨writes_sub_of_mem main_v92 rfl (by decide), writes_sub_of_mem main_v93 rfl (by decide), writes_sub_of_mem main_v94 rfl (by decide),
    writes_sub_of_mem main_v95 rfl (by decide), writes_sub_of_mem main_cst_26 rfl (by decide), writes_sub_of_mem main_v96 rfl (by decide),
    writes_sub_of_mem main_c_27 rfl (by decide), writes_sub_of_mem main_v97 rfl (by decide), writes_sub_of_mem main_v98 rfl (by decide),
    writes_sub_of_mem main_c_28 rfl (by decide), writes_sub_of_mem main_v99 rfl (by decide), writes_sub_of_mem main_v100 rfl (by decide),
    writes_sub_of_mem main_v101 rfl (by decide), writes_sub_of_mem main_v102 rfl (by decide), writes_sub_of_mem main_v103 rfl (by decide),
    writes_sub_of_mem main_cst_29 rfl (by decide), writes_sub_of_mem main_v104 rfl (by decide), writes_sub_of_mem main_v105 rfl (by decide),
    writes_sub_of_mem main_v106 rfl (by decide), writes_sub_of_mem main_cst_30 rfl (by decide), writes_sub_of_mem main_v107 rfl (by decide),
    writes_sub_of_mem main_v108 rfl (by decide), writes_sub_of_mem main_v109 rfl (by decide), writes_sub_of_mem main_v110 rfl (by decide),
    writes_sub_of_mem main_v111 rfl (by decide), writes_sub_of_mem main_v112 rfl (by decide), writes_sub_of_mem main_v113 rfl (by decide),
    writes_sub_of_mem main_c_31 rfl (by decide), writes_sub_of_mem main_v114 rfl (by decide), writes_sub_of_mem main_v115 rfl (by decide),
    writes_sub_of_mem main_c_32 rfl (by decide), writes_sub_of_mem main_v116 rfl (by decide), writes_sub_of_mem main_v117 rfl (by decide),
    writes_sub_of_mem main_v118 rfl (by decide), writes_sub_of_mem main_v119 rfl (by decide), writes_sub_of_mem main_v120 rfl (by decide),
    writes_sub_of_mem main_cst_33 rfl (by decide), writes_sub_of_mem main_v121 rfl (by decide), writes_sub_of_mem main_v122 rfl (by decide),
    writes_sub_of_mem main_v123 rfl (by decide), writes_sub_of_mem main_v124 rfl (by decide), writes_sub_of_mem main_v125 rfl (by decide),
    writes_sub_of_mem main_v126 rfl (by decide), writes_sub_of_mem main_v127 rfl (by decide), writes_sub_of_mem main_v128 rfl (by decide),
    writes_sub_of_mem main_v129 rfl (by decide)⟩

theorem ops3_writes : (ops3 : List (HloOp τ sig (Elt F))).Forall fun op => op.writes ⊆ (W3.map (Proc.devRef (τ := τ) .tc)).toFinset :=
  List.forall_append.mpr ⟨ops3a_writes, ops3b_writes⟩

/-- A buffer stretch 3 does not write keeps its contents through it. -/
theorem ops3_keep (V : Valuation τ sig (Elt F)) (r : Ref sig .tc) (h : r ∉ W3) :
    after ops3 V (Proc.devRef .tc r) = V (Proc.devRef .tc r) :=
  after_of_writes_sub ops3 V ops3_writes h

/-- The buffers stretch 4 writes, in order. -/
abbrev W4 : List (Ref sig .tc) :=
  [main_cst_34, main_call0_cst, main_call0_v0, main_call0_v1, main_call0_v2, main_call0_v3, main_call0_v4, main_v130]

set_option maxRecDepth 8192 in
theorem ops4_writes : (ops4 : List (HloOp τ sig (Elt F))).Forall fun op => op.writes ⊆ (W4.map (Proc.devRef (τ := τ) .tc)).toFinset :=
  ⟨writes_sub_of_mem main_cst_34 rfl (by decide), writes_sub_of_mem main_call0_cst rfl (by decide), writes_sub_of_mem main_call0_v0 rfl (by decide),
    writes_sub_of_mem main_call0_v1 rfl (by decide), writes_sub_of_mem main_call0_v2 rfl (by decide), writes_sub_of_mem main_call0_v3 rfl (by decide),
    writes_sub_of_mem main_call0_v4 rfl (by decide), writes_sub_of_mem main_v130 rfl (by decide)⟩

/-- A buffer stretch 4 does not write keeps its contents through it. -/
theorem ops4_keep (V : Valuation τ sig (Elt F)) (r : Ref sig .tc) (h : r ∉ W4) :
    after ops4 V (Proc.devRef .tc r) = V (Proc.devRef .tc r) :=
  after_of_writes_sub ops4 V ops4_writes h

/-- The buffers stretch 5 writes, in order. -/
abbrev W5 : List (Ref sig .tc) :=
  [main_cst_35, main_call1_cst, main_call1_v0, main_call1_v1, main_call1_v2, main_call1_v3, main_call1_v4, main_v131]

set_option maxRecDepth 8192 in
theorem ops5_writes : (ops5 : List (HloOp τ sig (Elt F))).Forall fun op => op.writes ⊆ (W5.map (Proc.devRef (τ := τ) .tc)).toFinset :=
  ⟨writes_sub_of_mem main_cst_35 rfl (by decide), writes_sub_of_mem main_call1_cst rfl (by decide), writes_sub_of_mem main_call1_v0 rfl (by decide),
    writes_sub_of_mem main_call1_v1 rfl (by decide), writes_sub_of_mem main_call1_v2 rfl (by decide), writes_sub_of_mem main_call1_v3 rfl (by decide),
    writes_sub_of_mem main_call1_v4 rfl (by decide), writes_sub_of_mem main_v131 rfl (by decide)⟩

/-- A buffer stretch 5 does not write keeps its contents through it. -/
theorem ops5_keep (V : Valuation τ sig (Elt F)) (r : Ref sig .tc) (h : r ∉ W5) :
    after ops5 V (Proc.devRef .tc r) = V (Proc.devRef .tc r) :=
  after_of_writes_sub ops5 V ops5_writes h

/-- The buffers stretch 6 writes, in order. -/
abbrev W6 : List (Ref sig .tc) :=
  [main_cst_36, main_v132, main_cst_37, main_v133, main_c_38, main_v134, main_v135, main_c_39, main_v136, main_v137,
   main_v138, main_v139, main_v140, main_cst_40, main_v141, main_c_41, main_v142, main_v143, main_c_42, main_v144,
   main_v145, main_v146, main_v147, main_v148, main_cst_43, main_v149, main_v150, main_v151, main_cst_44, main_v152,
   main_v153, main_v154, main_v155, main_v156, main_v157, main_v158, main_c_45, main_v159, main_v160, main_c_46,
   main_v161, main_v162, main_v163, main_v164, main_v165, main_cst_47, main_v166, main_v167, main_v168, main_v169,
   main_v170, main_v171, main_v172, main_v173, main_v174]

set_option maxRecDepth 8192 in
theorem ops6a_writes : (ops6a : List (HloOp τ sig (Elt F))).Forall fun op => op.writes ⊆ (W6.map (Proc.devRef (τ := τ) .tc)).toFinset :=
  ⟨writes_sub_of_mem main_cst_36 rfl (by decide), writes_sub_of_mem main_v132 rfl (by decide), writes_sub_of_mem main_cst_37 rfl (by decide),
    writes_sub_of_mem main_v133 rfl (by decide), writes_sub_of_mem main_c_38 rfl (by decide), writes_sub_of_mem main_v134 rfl (by decide),
    writes_sub_of_mem main_v135 rfl (by decide), writes_sub_of_mem main_c_39 rfl (by decide), writes_sub_of_mem main_v136 rfl (by decide),
    writes_sub_of_mem main_v137 rfl (by decide)⟩

set_option maxRecDepth 8192 in
theorem ops6b_writes : (ops6b : List (HloOp τ sig (Elt F))).Forall fun op => op.writes ⊆ (W6.map (Proc.devRef (τ := τ) .tc)).toFinset :=
  ⟨writes_sub_of_mem main_v138 rfl (by decide), writes_sub_of_mem main_v139 rfl (by decide), writes_sub_of_mem main_v140 rfl (by decide),
    writes_sub_of_mem main_cst_40 rfl (by decide), writes_sub_of_mem main_v141 rfl (by decide), writes_sub_of_mem main_c_41 rfl (by decide),
    writes_sub_of_mem main_v142 rfl (by decide), writes_sub_of_mem main_v143 rfl (by decide), writes_sub_of_mem main_c_42 rfl (by decide),
    writes_sub_of_mem main_v144 rfl (by decide), writes_sub_of_mem main_v145 rfl (by decide), writes_sub_of_mem main_v146 rfl (by decide),
    writes_sub_of_mem main_v147 rfl (by decide), writes_sub_of_mem main_v148 rfl (by decide), writes_sub_of_mem main_cst_43 rfl (by decide),
    writes_sub_of_mem main_v149 rfl (by decide), writes_sub_of_mem main_v150 rfl (by decide), writes_sub_of_mem main_v151 rfl (by decide),
    writes_sub_of_mem main_cst_44 rfl (by decide), writes_sub_of_mem main_v152 rfl (by decide), writes_sub_of_mem main_v153 rfl (by decide),
    writes_sub_of_mem main_v154 rfl (by decide), writes_sub_of_mem main_v155 rfl (by decide), writes_sub_of_mem main_v156 rfl (by decide),
    writes_sub_of_mem main_v157 rfl (by decide), writes_sub_of_mem main_v158 rfl (by decide), writes_sub_of_mem main_c_45 rfl (by decide),
    writes_sub_of_mem main_v159 rfl (by decide), writes_sub_of_mem main_v160 rfl (by decide), writes_sub_of_mem main_c_46 rfl (by decide),
    writes_sub_of_mem main_v161 rfl (by decide), writes_sub_of_mem main_v162 rfl (by decide), writes_sub_of_mem main_v163 rfl (by decide),
    writes_sub_of_mem main_v164 rfl (by decide), writes_sub_of_mem main_v165 rfl (by decide), writes_sub_of_mem main_cst_47 rfl (by decide),
    writes_sub_of_mem main_v166 rfl (by decide), writes_sub_of_mem main_v167 rfl (by decide), writes_sub_of_mem main_v168 rfl (by decide),
    writes_sub_of_mem main_v169 rfl (by decide), writes_sub_of_mem main_v170 rfl (by decide), writes_sub_of_mem main_v171 rfl (by decide),
    writes_sub_of_mem main_v172 rfl (by decide), writes_sub_of_mem main_v173 rfl (by decide), writes_sub_of_mem main_v174 rfl (by decide)⟩

theorem ops6_writes : (ops6 : List (HloOp τ sig (Elt F))).Forall fun op => op.writes ⊆ (W6.map (Proc.devRef (τ := τ) .tc)).toFinset :=
  List.forall_append.mpr ⟨ops6a_writes, ops6b_writes⟩

/-- A buffer stretch 6 does not write keeps its contents through it. -/
theorem ops6_keep (V : Valuation τ sig (Elt F)) (r : Ref sig .tc) (h : r ∉ W6) :
    after ops6 V (Proc.devRef .tc r) = V (Proc.devRef .tc r) :=
  after_of_writes_sub ops6 V ops6_writes h

/-- The buffers stretch 7 writes, in order. -/
abbrev W7 : List (Ref sig .tc) :=
  [main_cst_48, main_v175, main_cst_49, main_v176, main_c_50, main_v177, main_v178, main_c_51, main_v179, main_v180,
   main_v181, main_v182, main_v183, main_cst_52, main_v184, main_c_53, main_v185, main_v186, main_c_54, main_v187,
   main_v188, main_v189, main_v190, main_v191, main_cst_55, main_v192, main_v193, main_v194, main_cst_56, main_v195,
   main_v196, main_v197, main_v198, main_v199, main_v200, main_v201, main_c_57, main_v202, main_v203, main_c_58,
   main_v204, main_v205, main_v206, main_v207, main_v208, main_cst_59, main_v209, main_v210, main_v211, main_v212,
   main_v213, main_v214, main_v215, main_v216, main_v217, main_v218]

set_option maxRecDepth 8192 in
theorem ops7a_writes : (ops7a : List (HloOp τ sig (Elt F))).Forall fun op => op.writes ⊆ (W7.map (Proc.devRef (τ := τ) .tc)).toFinset :=
  ⟨writes_sub_of_mem main_cst_48 rfl (by decide), writes_sub_of_mem main_v175 rfl (by decide), writes_sub_of_mem main_cst_49 rfl (by decide),
    writes_sub_of_mem main_v176 rfl (by decide), writes_sub_of_mem main_c_50 rfl (by decide), writes_sub_of_mem main_v177 rfl (by decide),
    writes_sub_of_mem main_v178 rfl (by decide), writes_sub_of_mem main_c_51 rfl (by decide), writes_sub_of_mem main_v179 rfl (by decide),
    writes_sub_of_mem main_v180 rfl (by decide), writes_sub_of_mem main_v181 rfl (by decide), writes_sub_of_mem main_v182 rfl (by decide),
    writes_sub_of_mem main_v183 rfl (by decide), writes_sub_of_mem main_cst_52 rfl (by decide), writes_sub_of_mem main_v184 rfl (by decide)⟩

set_option maxRecDepth 8192 in
theorem ops7b_writes : (ops7b : List (HloOp τ sig (Elt F))).Forall fun op => op.writes ⊆ (W7.map (Proc.devRef (τ := τ) .tc)).toFinset :=
  ⟨writes_sub_of_mem main_c_53 rfl (by decide), writes_sub_of_mem main_v185 rfl (by decide), writes_sub_of_mem main_v186 rfl (by decide),
    writes_sub_of_mem main_c_54 rfl (by decide), writes_sub_of_mem main_v187 rfl (by decide), writes_sub_of_mem main_v188 rfl (by decide),
    writes_sub_of_mem main_v189 rfl (by decide), writes_sub_of_mem main_v190 rfl (by decide), writes_sub_of_mem main_v191 rfl (by decide),
    writes_sub_of_mem main_cst_55 rfl (by decide), writes_sub_of_mem main_v192 rfl (by decide), writes_sub_of_mem main_v193 rfl (by decide),
    writes_sub_of_mem main_v194 rfl (by decide), writes_sub_of_mem main_cst_56 rfl (by decide), writes_sub_of_mem main_v195 rfl (by decide),
    writes_sub_of_mem main_v196 rfl (by decide), writes_sub_of_mem main_v197 rfl (by decide), writes_sub_of_mem main_v198 rfl (by decide),
    writes_sub_of_mem main_v199 rfl (by decide), writes_sub_of_mem main_v200 rfl (by decide), writes_sub_of_mem main_v201 rfl (by decide),
    writes_sub_of_mem main_c_57 rfl (by decide), writes_sub_of_mem main_v202 rfl (by decide), writes_sub_of_mem main_v203 rfl (by decide),
    writes_sub_of_mem main_c_58 rfl (by decide), writes_sub_of_mem main_v204 rfl (by decide), writes_sub_of_mem main_v205 rfl (by decide),
    writes_sub_of_mem main_v206 rfl (by decide), writes_sub_of_mem main_v207 rfl (by decide), writes_sub_of_mem main_v208 rfl (by decide),
    writes_sub_of_mem main_cst_59 rfl (by decide), writes_sub_of_mem main_v209 rfl (by decide), writes_sub_of_mem main_v210 rfl (by decide),
    writes_sub_of_mem main_v211 rfl (by decide), writes_sub_of_mem main_v212 rfl (by decide), writes_sub_of_mem main_v213 rfl (by decide),
    writes_sub_of_mem main_v214 rfl (by decide), writes_sub_of_mem main_v215 rfl (by decide), writes_sub_of_mem main_v216 rfl (by decide),
    writes_sub_of_mem main_v217 rfl (by decide), writes_sub_of_mem main_v218 rfl (by decide)⟩

theorem ops7_writes : (ops7 : List (HloOp τ sig (Elt F))).Forall fun op => op.writes ⊆ (W7.map (Proc.devRef (τ := τ) .tc)).toFinset :=
  List.forall_append.mpr ⟨ops7a_writes, ops7b_writes⟩

/-- A buffer stretch 7 does not write keeps its contents through it. -/
theorem ops7_keep (V : Valuation τ sig (Elt F)) (r : Ref sig .tc) (h : r ∉ W7) :
    after ops7 V (Proc.devRef .tc r) = V (Proc.devRef .tc r) :=
  after_of_writes_sub ops7 V ops7_writes h

/-- A buffer no stretch writes keeps its contents through the whole line. -/
theorem ops_keep (V : Valuation τ sig (Elt F)) (r : Ref sig .tc) (h1 : r ∉ W1) (h2 : r ∉ W2) (h3 : r ∉ W3) (h4 : r ∉ W4)
    (h5 : r ∉ W5) (h6 : r ∉ W6) (h7 : r ∉ W7) : after ops V (Proc.devRef .tc r) = V (Proc.devRef .tc r) := by
  rw [after_ops, ops7_keep _ r h7, ops6_keep _ r h6, ops5_keep _ r h5, ops4_keep _ r h4, ops3_keep _ r h3,
    ops2_keep _ r h2, ops1_keep _ r h1]

/-! ## The arguments -/

theorem arg0_eq (V : Valuation τ sig (Elt F)) : after ops V (main_arg0 : DevRef τ sig) = V (main_arg0 : DevRef τ sig) :=
  ops_keep V main_arg0 (by decide) (by decide) (by decide) (by decide) (by decide) (by decide) (by decide)
theorem arg1_eq (V : Valuation τ sig (Elt F)) : after ops V (main_arg1 : DevRef τ sig) = V (main_arg1 : DevRef τ sig) :=
  ops_keep V main_arg1 (by decide) (by decide) (by decide) (by decide) (by decide) (by decide) (by decide)
theorem arg2_eq (V : Valuation τ sig (Elt F)) : after ops V (main_arg2 : DevRef τ sig) = V (main_arg2 : DevRef τ sig) :=
  ops_keep V main_arg2 (by decide) (by decide) (by decide) (by decide) (by decide) (by decide) (by decide)
theorem arg3_eq (V : Valuation τ sig (Elt F)) : after ops V (main_arg3 : DevRef τ sig) = V (main_arg3 : DevRef τ sig) :=
  ops_keep V main_arg3 (by decide) (by decide) (by decide) (by decide) (by decide) (by decide) (by decide)
theorem arg4_eq (V : Valuation τ sig (Elt F)) : after ops V (main_arg4 : DevRef τ sig) = V (main_arg4 : DevRef τ sig) :=
  ops_keep V main_arg4 (by decide) (by decide) (by decide) (by decide) (by decide) (by decide) (by decide)
theorem arg5_eq (V : Valuation τ sig (Elt F)) : after ops V (main_arg5 : DevRef τ sig) = V (main_arg5 : DevRef τ sig) :=
  ops_keep V main_arg5 (by decide) (by decide) (by decide) (by decide) (by decide) (by decide) (by decide)
theorem arg6_eq (V : Valuation τ sig (Elt F)) : after ops V (main_arg6 : DevRef τ sig) = V (main_arg6 : DevRef τ sig) :=
  ops_keep V main_arg6 (by decide) (by decide) (by decide) (by decide) (by decide) (by decide) (by decide)
theorem arg7_eq (V : Valuation τ sig (Elt F)) : after ops V (main_arg7 : DevRef τ sig) = V (main_arg7 : DevRef τ sig) :=
  ops_keep V main_arg7 (by decide) (by decide) (by decide) (by decide) (by decide) (by decide) (by decide)
theorem arg8_eq (V : Valuation τ sig (Elt F)) : after ops V (main_arg8 : DevRef τ sig) = V (main_arg8 : DevRef τ sig) :=
  ops_keep V main_arg8 (by decide) (by decide) (by decide) (by decide) (by decide) (by decide) (by decide)
theorem arg9_eq (V : Valuation τ sig (Elt F)) : after ops V (main_arg9 : DevRef τ sig) = V (main_arg9 : DevRef τ sig) :=
  ops_keep V main_arg9 (by decide) (by decide) (by decide) (by decide) (by decide) (by decide) (by decide)
theorem arg10_eq (V : Valuation τ sig (Elt F)) : after ops V (main_arg10 : DevRef τ sig) = V (main_arg10 : DevRef τ sig) :=
  ops_keep V main_arg10 (by decide) (by decide) (by decide) (by decide) (by decide) (by decide) (by decide)
theorem arg11_eq (V : Valuation τ sig (Elt F)) : after ops V (main_arg11 : DevRef τ sig) = V (main_arg11 : DevRef τ sig) :=
  ops_keep V main_arg11 (by decide) (by decide) (by decide) (by decide) (by decide) (by decide) (by decide)
theorem arg12_eq (V : Valuation τ sig (Elt F)) : after ops V (main_arg12 : DevRef τ sig) = V (main_arg12 : DevRef τ sig) :=
  ops_keep V main_arg12 (by decide) (by decide) (by decide) (by decide) (by decide) (by decide) (by decide)
theorem arg13_eq (V : Valuation τ sig (Elt F)) : after ops V (main_arg13 : DevRef τ sig) = V (main_arg13 : DevRef τ sig) :=
  ops_keep V main_arg13 (by decide) (by decide) (by decide) (by decide) (by decide) (by decide) (by decide)
theorem arg14_eq (V : Valuation τ sig (Elt F)) : after ops V (main_arg14 : DevRef τ sig) = V (main_arg14 : DevRef τ sig) :=
  ops_keep V main_arg14 (by decide) (by decide) (by decide) (by decide) (by decide) (by decide) (by decide)
theorem arg15_eq (V : Valuation τ sig (Elt F)) : after ops V (main_arg15 : DevRef τ sig) = V (main_arg15 : DevRef τ sig) :=
  ops_keep V main_arg15 (by decide) (by decide) (by decide) (by decide) (by decide) (by decide) (by decide)
theorem arg16_eq (V : Valuation τ sig (Elt F)) : after ops V (main_arg16 : DevRef τ sig) = V (main_arg16 : DevRef τ sig) :=
  ops_keep V main_arg16 (by decide) (by decide) (by decide) (by decide) (by decide) (by decide) (by decide)
theorem arg17_eq (V : Valuation τ sig (Elt F)) : after ops V (main_arg17 : DevRef τ sig) = V (main_arg17 : DevRef τ sig) :=
  ops_keep V main_arg17 (by decide) (by decide) (by decide) (by decide) (by decide) (by decide) (by decide)
theorem arg18_eq (V : Valuation τ sig (Elt F)) : after ops V (main_arg18 : DevRef τ sig) = V (main_arg18 : DevRef τ sig) :=
  ops_keep V main_arg18 (by decide) (by decide) (by decide) (by decide) (by decide) (by decide) (by decide)
theorem arg19_eq (V : Valuation τ sig (Elt F)) : after ops V (main_arg19 : DevRef τ sig) = V (main_arg19 : DevRef τ sig) :=
  ops_keep V main_arg19 (by decide) (by decide) (by decide) (by decide) (by decide) (by decide) (by decide)

end Cert.ReferenceIdeal.Run

end
-- ==== Proof.RefVal.lean ====
import proofs.«173211_j66030827209235_1_alg».proof.Proof.RefKeep
import proofs.«173211_j66030827209235_1_alg».proof.Proof.Stages

/-!
# The reference's result as a function of its arguments

Stretch by stretch, the buffer a stretch exists for holds, after the stretch from ANY contents, the stage function of
what the stretch reads: a convolution's result is `convR_…` of its source table, weights, bias and the two edge
endpoint vectors (the composed term the operations' results fold to is that definition's body, term for term: the
degree normalisation of each endpoint vector, the scaled product, the gather and the segment sum, the second
scaling, the bias), a rectifier's is `leakyR…` of its operand. Chained through the seven stretches, each value
carried across the stretches that do not write it, the result buffer holds `refOut` of the arguments.
-/

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather in
set_option maxRecDepth 8192 in
set_option maxHeartbeats 4000000 in
/-- The first convolution: chem→chem over the first table, weights and bias 8 and 9. -/
theorem conv1_eq (V : Valuation τ sig (Elt F)) :
    after ops1 V (main_v42 : DevRef τ sig) =
      Cert.Stage.convR_cc (V (main_arg0 : DevRef τ sig)) (V (main_arg8 : DevRef τ sig)) (V (main_arg9 : DevRef τ sig)) (V (main_arg2 : DevRef τ sig)) (V (main_arg3 : DevRef τ sig)) := by
  after_results_simp
  rfl

attribute [local irreducible] Host.scatterAdd Host.gather in
set_option maxRecDepth 8192 in
set_option maxHeartbeats 4000000 in
/-- The second convolution, gene→chem over the second table, added to the first's result. -/
theorem conv2_eq (V : Valuation τ sig (Elt F)) :
    after ops2 V (main_v86 : DevRef τ sig) =
      addf (V (main_v42 : DevRef τ sig)) (Cert.Stage.convR_gc (V (main_arg1 : DevRef τ sig)) (V (main_arg12 : DevRef τ sig)) (V (main_arg13 : DevRef τ sig)) (V (main_arg6 : DevRef τ sig)) (V (main_arg7 : DevRef τ sig))) := by
  rw [show (ops2 : List (HloOp τ sig (Elt F))) = ops2a ++ ops2b from rfl, after_append]
  after_results_simp
  rfl

attribute [local irreducible] Host.scatterAdd Host.gather in
set_option maxRecDepth 8192 in
set_option maxHeartbeats 4000000 in
/-- The third convolution: chem→gene over the first table. -/
theorem conv3_eq (V : Valuation τ sig (Elt F)) :
    after ops3 V (main_v129 : DevRef τ sig) =
      Cert.Stage.convR_cg (V (main_arg0 : DevRef τ sig)) (V (main_arg10 : DevRef τ sig)) (V (main_arg11 : DevRef τ sig)) (V (main_arg4 : DevRef τ sig)) (V (main_arg5 : DevRef τ sig)) := by
  rw [show (ops3 : List (HloOp τ sig (Elt F))) = ops3a ++ ops3b from rfl, after_append]
  after_results_simp
  rfl

attribute [local irreducible] Host.scatterAdd Host.gather in
set_option maxRecDepth 8192 in
set_option maxHeartbeats 4000000 in
/-- The first rectifier, on the sum of the two chem-bound convolutions (the typed references' transports are the identity at these literal references). -/
theorem leaky0_eq (V : Valuation τ sig (Elt F)) :
    after ops4 V (main_v130 : DevRef τ sig) =
      Cert.Stage.leakyR5 (V (main_v86 : DevRef τ sig)) := by
  after_results_simp
  rfl

attribute [local irreducible] Host.scatterAdd Host.gather in
set_option maxRecDepth 8192 in
set_option maxHeartbeats 4000000 in
/-- The second rectifier, on the gene-bound convolution. -/
theorem leaky1_eq (V : Valuation τ sig (Elt F)) :
    after ops5 V (main_v131 : DevRef τ sig) =
      Cert.Stage.leakyR3 (V (main_v129 : DevRef τ sig)) := by
  after_results_simp
  rfl

attribute [local irreducible] Host.scatterAdd Host.gather in
set_option maxRecDepth 8192 in
set_option maxHeartbeats 4000000 in
/-- The fourth convolution: chem→chem over the rectified sum. -/
theorem conv4_eq (V : Valuation τ sig (Elt F)) :
    after ops6 V (main_v174 : DevRef τ sig) =
      Cert.Stage.convR_cc (V (main_v130 : DevRef τ sig)) (V (main_arg14 : DevRef τ sig)) (V (main_arg15 : DevRef τ sig)) (V (main_arg2 : DevRef τ sig)) (V (main_arg3 : DevRef τ sig)) := by
  rw [show (ops6 : List (HloOp τ sig (Elt F))) = ops6a ++ ops6b from rfl, after_append]
  after_results_simp
  rfl

attribute [local irreducible] Host.scatterAdd Host.gather in
set_option maxRecDepth 8192 in
set_option maxHeartbeats 4000000 in
/-- The fifth convolution, gene→chem over the rectified gene table, added to the fourth's result: the program's result. -/
theorem conv5_eq (V : Valuation τ sig (Elt F)) :
    after ops7 V (main_v218 : DevRef τ sig) =
      addf (V (main_v174 : DevRef τ sig)) (Cert.Stage.convR_gc (V (main_v131 : DevRef τ sig)) (V (main_arg18 : DevRef τ sig)) (V (main_arg19 : DevRef τ sig)) (V (main_arg6 : DevRef τ sig)) (V (main_arg7 : DevRef τ sig))) := by
  rw [show (ops7 : List (HloOp τ sig (Elt F))) = ops7a ++ ops7b from rfl, after_append]
  after_results_simp
  rfl

/-- The result buffer after the whole line is `refOut` of the launch contents of the arguments: the seven stretches
    read last to first, each stretch's value by its lemma and every other value read carried unchanged across it. -/
theorem out_eq (V : Valuation τ sig (Elt F)) :
    after ops V (main_v218 : DevRef τ sig) =
      Cert.Stage.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg18 : DevRef τ sig)) (V (main_arg19 : DevRef τ sig)) := by
  rw [after_ops]
  rw [conv5_eq]
  rw [conv4_eq,
    ops6_keep _ main_v131 (by decide),
    ops6_keep _ main_arg18 (by decide),
    ops6_keep _ main_arg19 (by decide),
    ops6_keep _ main_arg6 (by decide),
    ops6_keep _ main_arg7 (by decide)]
  rw [leaky1_eq,
    ops5_keep _ main_v130 (by decide),
    ops5_keep _ main_arg14 (by decide),
    ops5_keep _ main_arg15 (by decide),
    ops5_keep _ main_arg2 (by decide),
    ops5_keep _ main_arg3 (by decide),
    ops5_keep _ main_arg18 (by decide),
    ops5_keep _ main_arg19 (by decide),
    ops5_keep _ main_arg6 (by decide),
    ops5_keep _ main_arg7 (by decide)]
  rw [leaky0_eq,
    ops4_keep _ main_v129 (by decide),
    ops4_keep _ main_arg14 (by decide),
    ops4_keep _ main_arg15 (by decide),
    ops4_keep _ main_arg2 (by decide),
    ops4_keep _ main_arg3 (by decide),
    ops4_keep _ main_arg18 (by decide),
    ops4_keep _ main_arg19 (by decide),
    ops4_keep _ main_arg6 (by decide),
    ops4_keep _ main_arg7 (by decide)]
  rw [conv3_eq,
    ops3_keep _ main_v86 (by decide),
    ops3_keep _ main_arg14 (by decide),
    ops3_keep _ main_arg15 (by decide),
    ops3_keep _ main_arg2 (by decide),
    ops3_keep _ main_arg3 (by decide),
    ops3_keep _ main_arg18 (by decide),
    ops3_keep _ main_arg19 (by decide),
    ops3_keep _ main_arg6 (by decide),
    ops3_keep _ main_arg7 (by decide)]
  rw [conv2_eq,
    ops2_keep _ main_arg0 (by decide),
    ops2_keep _ main_arg10 (by decide),
    ops2_keep _ main_arg11 (by decide),
    ops2_keep _ main_arg4 (by decide),
    ops2_keep _ main_arg5 (by decide),
    ops2_keep _ main_arg14 (by decide),
    ops2_keep _ main_arg15 (by decide),
    ops2_keep _ main_arg2 (by decide),
    ops2_keep _ main_arg3 (by decide),
    ops2_keep _ main_arg18 (by decide),
    ops2_keep _ main_arg19 (by decide),
    ops2_keep _ main_arg6 (by decide),
    ops2_keep _ main_arg7 (by decide)]
  rw [conv1_eq,
    ops1_keep _ main_arg1 (by decide),
    ops1_keep _ main_arg12 (by decide),
    ops1_keep _ main_arg13 (by decide),
    ops1_keep _ main_arg6 (by decide),
    ops1_keep _ main_arg7 (by decide),
    ops1_keep _ main_arg0 (by decide),
    ops1_keep _ main_arg10 (by decide),
    ops1_keep _ main_arg11 (by decide),
    ops1_keep _ main_arg4 (by decide),
    ops1_keep _ main_arg5 (by decide),
    ops1_keep _ main_arg14 (by decide),
    ops1_keep _ main_arg15 (by decide),
    ops1_keep _ main_arg2 (by decide),
    ops1_keep _ main_arg3 (by decide),
    ops1_keep _ main_arg18 (by decide),
    ops1_keep _ main_arg19 (by decide)]
  rfl

end Cert.ReferenceIdeal.Run

end
-- ==== Proof.RefClaims.lean ====
import proofs.«173211_j66030827209235_1_alg».proof.Defs
import proofs.«173211_j66030827209235_1_alg».proof.Proof.Gen.ReferenceIdeal
import proofs.«173211_j66030827209235_1_alg».proof.Proof.Gen.Pre_finite_inputs
import proofs.«173211_j66030827209235_1_alg».proof.Proof.RefVal

/-!
# The reference's run at the ideal values

Every weakly fair execution of the reference terminates with each buffer at the fold of its operations over the
launch contents (`run_main`); read at the twenty arguments, which no operation writes, the fold is the launch
contents (`argN_eq`), and read at the result it is `refOut` of the arguments' launch contents (`out_eq`).
-/

noncomputable section

namespace Cert.Proof.RefClaims

open Idealize.ShloMosaic Idealize.ShloMosaic.TcCoe Idealize.SL.Sem Idealize.ShloMosaic.StableHlo
open Cert.ReferenceIdeal Cert.ReferenceIdeal.Gen Cert.ReferenceIdeal.Run

/-- The reference runs and leaves its twenty arguments as the launch gave them. -/
theorem frame_ri : Cert.frame_ReferenceIdeal := fun m ρ _ =>
  (θ_run Cert.ReferenceIdeal.defs _ _).mono
    (fun _ h c => ⟨(h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _), (h c main_arg11).trans (arg11_eq _),
      (h c main_arg12).trans (arg12_eq _), (h c main_arg13).trans (arg13_eq _), (h c main_arg14).trans (arg14_eq _),
      (h c main_arg15).trans (arg15_eq _), (h c main_arg16).trans (arg16_eq _), (h c main_arg17).trans (arg17_eq _),
      (h c main_arg18).trans (arg18_eq _), (h c main_arg19).trans (arg19_eq _)⟩)
    (run_main (F := Ideal) m ρ)

/-- The reference runs, its result buffer ends at `refOut` of the arguments' launch contents, and the arguments are
    unchanged. -/
theorem run_out (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v218) =
          Cert.Stage.refOut (F := Ideal) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14))
            (m ((c.tc : Thread nD τ).loc main_arg15)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run Cert.ReferenceIdeal.defs _ _).mono
    (fun _ h c => ⟨(h c main_v218).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _), (h c main_arg11).trans (arg11_eq _),
      (h c main_arg12).trans (arg12_eq _), (h c main_arg13).trans (arg13_eq _), (h c main_arg14).trans (arg14_eq _),
      (h c main_arg15).trans (arg15_eq _), (h c main_arg16).trans (arg16_eq _), (h c main_arg17).trans (arg17_eq _),
      (h c main_arg18).trans (arg18_eq _), (h c main_arg19).trans (arg19_eq _)⟩)
    (run_main (F := Ideal) m ρ)

end Cert.Proof.RefClaims

end
-- ==== Proof.lean ====
/-
  The proof of `Cert.Claim`: two layers of degree-normalised graph convolution over three edge relations, computed by a
  program of thirteen row-blocked launches among host operations, against the plain array program.

  FRAMES.  The kernel program and its idealization: the generated frame certificates.  The reference: its run as a
  straight line of host operations, read at the argument buffers (nothing writes an argument).
  PRESERVES.  The idealization rewrote nothing (the only rounding is on the way into a matrix product): trivial.
  ALGEBRAIC.  At the ideal values both programs are the same composition: per relation the inverse square-root degrees,
  the rows scaled and multiplied by the weights, gathered along the sources and summed into the destinations, scaled
  again, plus the bias; layer one's outputs added and passed through the leaky rectifier.  The kernel program's result is
  read off its run boundary by boundary (`KFold.out`: each launch's array is one row-local function of the whole input
  arrays, because every row block is computed from the same rows of its operands); the reference's off its operation
  list (`RefClaims.run_out`); the two composed functions agree stage by stage (`Bridge.out_eq`): a column of scales is
  the broadcast degree vector, a row of biases the broadcast bias, the matrix product the same sum term by term, and the
  two rectifiers differ only at zero, where both give zero.  No sum is regrouped, so the precondition is not used.
-/
import proofs.«173211_j66030827209235_1_alg».proof.Defs
import proofs.«173211_j66030827209235_1_alg».proof.Proof.Gen.Kernel
import proofs.«173211_j66030827209235_1_alg».proof.Proof.Gen.Kernel.Frame
import proofs.«173211_j66030827209235_1_alg».proof.Proof.Gen.KernelIdeal
import proofs.«173211_j66030827209235_1_alg».proof.Proof.Gen.KernelIdeal.Frame
import proofs.«173211_j66030827209235_1_alg».proof.Proof.Gen.ReferenceIdeal
import proofs.«173211_j66030827209235_1_alg».proof.Proof.Gen.Pre_finite_inputs
import proofs.«173211_j66030827209235_1_alg».proof.Proof.KRun
import proofs.«173211_j66030827209235_1_alg».proof.Proof.KFold
import proofs.«173211_j66030827209235_1_alg».proof.Proof.Bridge
import proofs.«173211_j66030827209235_1_alg».proof.Proof.RefClaims
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := Cert.Proof.RefClaims.frame_ri

theorem preserves : Cert.preserves_Kernel_KernelIdeal := trivial

/-- Both runs end with the result at one function of the (agreeing) arguments. -/
theorem algebraic : Cert.algebraic_KernelIdeal_ReferenceIdeal := by
  intro m ρ m' ρ' _ hagree
  refine ⟨fun c => Cert.Stage.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)), ?_, ?_⟩
  · exact (θ_run Cert.KernelIdeal.defs _ _).mono (fun r h c => ⟨(h c).1.trans (Cert.KernelIdeal.KFold.out m ρ c), (h c).2⟩)
      (Cert.KernelIdeal.KRun.run (F := Ideal) m ρ)
  · refine (θ_run Cert.ReferenceIdeal.defs _ _).mono (fun r h c => ⟨(h c).1.trans ?_, (h c).2⟩)
      (Cert.Proof.RefClaims.run_out m' ρ')
    obtain ⟨e0, e1, e2, e3, e4, e5, e6, e7, e8, e9, e10, e11, e12, e13, e14, e15, e16, e17, e18, e19⟩ := hagree c
    rw [e0, e1, e2, e3, e4, e5, e6, e7, e8, e9, e10, e11, e12, e13, e14, e15, e18, e19]
    exact (Cert.Bridge.out_eq _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
